-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x64x64 : Shape := ⟨4, ![4, 32, 64, 64]⟩
abbrev S_ : Shape := ⟨0, ![]⟩

class Facts : Prop where
  bcast_S_S4x32x64x64 : S_.BroadcastsInDim S4x32x64x64 (![] : Fin 0 → Fin S4x32x64x64.rank)
  reducesTo_S4x32x64x64_S_d0_1_2_3 : S4x32x64x64.ReducesTo [0, 1, 2, 3] S_
  h_S_ : 0 < S_.numel

variable [Facts]

def fn {F : FTy → Type} [FloatOps F] (main_arg0 : FVec F S4x32x64x64 .f32) : IVec S_ 1 :=
  let main_v0 : FVec F S4x32x64x64 .f32 := Host.absf main_arg0
  let main_cst : FVec F S_ .f32 := constant S_ .f32 0x7F800000#32
  let main_v1 : FVec F S4x32x64x64 .f32 := broadcastInDim S4x32x64x64 ![] bcast_S_S4x32x64x64 main_cst
  let main_v2 : IVec S4x32x64x64 1 := cmpf .olt main_v0 main_v1
  let main_c : IVec S_ 1 := constantI S_ 1 1#1
  let main_v3 : IVec S_ 1 := (fun x v => Host.reduce IntOp.andi x v reducesTo_S4x32x64x64_S_d0_1_2_3 h_S_) main_v2 main_c
  main_v3
-- ==== Kernel.lean ====
abbrev S4x32x64x64 : Shape := ⟨4, ![4, 32, 64, 64]⟩
abbrev S4x32x4096 : Shape := ⟨3, ![4, 32, 4096]⟩
abbrev S1x32x4096 : Shape := ⟨3, ![1, 32, 4096]⟩
abbrev S1x32x512 : Shape := ⟨3, ![1, 32, 512]⟩
abbrev S1x4096 : Shape := ⟨2, ![1, 4096]⟩
abbrev S32x4096 : Shape := ⟨2, ![32, 4096]⟩
abbrev S32x512 : Shape := ⟨2, ![32, 512]⟩
abbrev S512x32 : Shape := ⟨2, ![512, 32]⟩
abbrev S512x4096 : Shape := ⟨2, ![512, 4096]⟩
abbrev S4096 : Shape := ⟨1, ![4096]⟩

abbrev nBuf : Space → Nat
  | .hbm => 6
  | .vmem => 24
  | .smem => 0
  | _ => 0

abbrev bufTy : (tb : Table) → Fin (tcTables nBuf tb) → BufTy
  | .hbm, ⟨0, _⟩ => ⟨S4x32x64x64, .f32⟩
  | .hbm, ⟨1, _⟩ => ⟨S4x32x4096, .f32⟩
  | .hbm, ⟨2, _⟩ => ⟨S4x32x4096, .f32⟩
  | .hbm, ⟨3, _⟩ => ⟨S4x32x4096, .f32⟩
  | .hbm, ⟨4, _⟩ => ⟨S4x32x4096, .f32⟩
  | .hbm, ⟨5, _⟩ => ⟨S4x32x64x64, .f32⟩
  | .local _ .vmem, ⟨0, _⟩ => ⟨S1x32x4096, .f32⟩
  | .local _ .vmem, ⟨1, _⟩ => ⟨S1x32x4096, .f32⟩
  | .local _ .vmem, ⟨2, _⟩ => ⟨S1x32x512, .f32⟩
  | .local _ .vmem, ⟨3, _⟩ => ⟨S1x32x512, .f32⟩
  | .local _ .vmem, ⟨4, _⟩ => ⟨S1x32x4096, .f32⟩
  | .local _ .vmem, ⟨5, _⟩ => ⟨S1x32x4096, .f32⟩
  | .local _ .vmem, ⟨6, _⟩ => ⟨S1x4096, .f32⟩
  | .local _ .vmem, ⟨7, _⟩ => ⟨S32x4096, .f32⟩
  | .local _ .vmem, ⟨8, _⟩ => ⟨S1x32x4096, .f32⟩
  | .local _ .vmem, ⟨9, _⟩ => ⟨S1x32x4096, .f32⟩
  | .local _ .vmem, ⟨10, _⟩ => ⟨S1x32x512, .f32⟩
  | .local _ .vmem, ⟨11, _⟩ => ⟨S1x32x512, .f32⟩
  | .local _ .vmem, ⟨12, _⟩ => ⟨S1x32x4096, .f32⟩
  | .local _ .vmem, ⟨13, _⟩ => ⟨S1x32x4096, .f32⟩
  | .local _ .vmem, ⟨14, _⟩ => ⟨S1x4096, .f32⟩
  | .local _ .vmem, ⟨15, _⟩ => ⟨S32x4096, .f32⟩
  | .local _ .vmem, ⟨16, _⟩ => ⟨S1x32x4096, .f32⟩
  | .local _ .vmem, ⟨17, _⟩ => ⟨S1x32x4096, .f32⟩
  | .local _ .vmem, ⟨18, _⟩ => ⟨S1x32x512, .f32⟩
  | .local _ .vmem, ⟨19, _⟩ => ⟨S1x32x512, .f32⟩
  | .local _ .vmem, ⟨20, _⟩ => ⟨S1x32x4096, .f32⟩
  | .local _ .vmem, ⟨21, _⟩ => ⟨S1x32x4096, .f32⟩
  | .local _ .vmem, ⟨22, _⟩ => ⟨S1x4096, .f32⟩
  | .local _ .vmem, ⟨23, _⟩ => ⟨S32x4096, .f32⟩
  | _, _ => ⟨S4x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x32x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x32x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x32x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S4x32x64x64_S4x32x4096 : S4x32x64x64.ShapeCasts S4x32x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  transposes_S32x512_p1_0_S512x32 : S32x512.Transposes [1, 0] S512x32
  reduces_S512x4096_S4096 : S512x4096.Reduces [0] S4096
  shapeCasts_S4096_S1x4096 : S4096.ShapeCasts S1x4096
  broadcasts_S1x4096_S32x4096 : S1x4096.Broadcasts S32x4096
  shapeCasts_S32x4096_S1x32x4096 : S32x4096.ShapeCasts S1x32x4096
  shapeCasts_S4x32x4096_S4x32x64x64 : S4x32x4096.ShapeCasts S4x32x64x64
  dot_S512x32_S32x4096_S512x4096_1_0_0_1_n_n_wf : DotDims.WF S512x32 S32x4096 S512x4096 [1] [0] [0] [1] [] []
  dot_S32x512_S512x4096_S32x4096_1_0_0_1_n_n_wf : DotDims.WF S32x512 S512x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4096.size a ≤ S4x32x4096.size a
  hwx0_0 : ∀ i : grid0.Coords, EltTy.bits .f32 = 32 ∨ (Rect.block (s := S4x32x4096) S1x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S4x32x4096.size a
  hwx0_1 : ∀ i : grid0.Coords, EltTy.bits .f32 = 32 ∨ (Rect.block (s := S4x32x4096) S1x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x4096.size a ≤ S4x32x4096.size a
  hwx0_2 : ∀ i : grid0.Coords, EltTy.bits .f32 = 32 ∨ (Rect.block (s := S4x32x4096) S1x32x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x4096.size a ≤ S4x32x4096.size a
  hwx1_0 : ∀ i : grid1.Coords, EltTy.bits .f32 = 32 ∨ (Rect.block (s := S4x32x4096) S1x32x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x512.size a ≤ S4x32x4096.size a
  hwx1_1 : ∀ i : grid1.Coords, EltTy.bits .f32 = 32 ∨ (Rect.block (s := S4x32x4096) S1x32x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x4096.size a ≤ S4x32x4096.size a
  hwx1_2 : ∀ i : grid1.Coords, EltTy.bits .f32 = 32 ∨ (Rect.block (s := S4x32x4096) S1x32x4096.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x4096.size a ≤ S4x32x4096.size a
  hwx2_0 : ∀ i : grid2.Coords, EltTy.bits .f32 = 32 ∨ (Rect.block (s := S4x32x4096) S1x32x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x512.size a ≤ S4x32x4096.size a
  hwx2_1 : ∀ i : grid2.Coords, EltTy.bits .f32 = 32 ∨ (Rect.block (s := S4x32x4096) S1x32x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x32x4096.size a ≤ S4x32x4096.size a
  hwx2_2 : ∀ i : grid2.Coords, EltTy.bits .f32 = 32 ∨ (Rect.block (s := S4x32x4096) S1x32x4096.size (cc2_transform_2 i) (hinb2_2 i)).WholeWords (EltTy.packing .f32)

variable [Facts₀]

def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf
def dot_S32x512_S512x4096_S32x4096_1_0_0_1_n_n : DotDims S32x512 S512x4096 S32x4096 where
  lhsContracting := [1]
  rhsContracting := [0]
  lhsNonContracting := [0]
  rhsNonContracting := [1]
  lhsBatch := []
  rhsBatch := []
  wf := dot_S32x512_S512x4096_S32x4096_1_0_0_1_n_n_wf

abbrev win0_0 : Pipeline.Window sig grid0 :=
  Pipeline.Window.ofSpec (Memref.whole main_v0) S1x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1x32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x32x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2) S1x32x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x32x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x32x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x32x64x64 : Shape := ⟨4, ![4, 32, 64, 64]⟩
abbrev S4x32x4096 : Shape := ⟨3, ![4, 32, 4096]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4x32x64x64, .f32⟩
  | .hbm, ⟨1, _⟩ => ⟨S4x32x4096, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x32x4096, .f32⟩
  | .hbm, ⟨13, _⟩ => ⟨S_, .f32⟩
  | .hbm, ⟨14, _⟩ => ⟨S4x32x4096, .f32⟩
  | .hbm, ⟨15, _⟩ => ⟨S4x32x4096, .f32⟩
  | .hbm, ⟨16, _⟩ => ⟨S_, .f32⟩
  | .hbm, ⟨17, _⟩ => ⟨S4x32x4096, .f32⟩
  | .hbm, ⟨18, _⟩ => ⟨S4x32x4096, .f32⟩
  | .hbm, ⟨19, _⟩ => ⟨S4x32x4096, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S4x32x4096, .f32⟩
  | .hbm, ⟨31, _⟩ => ⟨S_, .f32⟩
  | .hbm, ⟨32, _⟩ => ⟨S4x32x4096, .f32⟩
  | .hbm, ⟨33, _⟩ => ⟨S4x32x4096, .f32⟩
  | .hbm, ⟨34, _⟩ => ⟨S_, .f32⟩
  | .hbm, ⟨35, _⟩ => ⟨S4x32x4096, .f32⟩
  | .hbm, ⟨36, _⟩ => ⟨S4x32x4096, .f32⟩
  | .hbm, ⟨37, _⟩ => ⟨S4x32x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096, .f32⟩
  | .hbm, ⟨45, _⟩ => ⟨S4x1x4096, .f32⟩
  | .hbm, ⟨46, _⟩ => ⟨S4x4096x4096, .f32⟩
  | .hbm, ⟨47, _⟩ => ⟨S4x4096x4096, .f32⟩
  | .hbm, ⟨48, _⟩ => ⟨S4x32x4096, .f32⟩
  | .hbm, ⟨49, _⟩ => ⟨S_, .f32⟩
  | .hbm, ⟨50, _⟩ => ⟨S4x32x4096, .f32⟩
  | .hbm, ⟨51, _⟩ => ⟨S4x32x4096, .f32⟩
  | .hbm, ⟨52, _⟩ => ⟨S_, .f32⟩
  | .hbm, ⟨53, _⟩ => ⟨S4x32x4096, .f32⟩
  | .hbm, ⟨54, _⟩ => ⟨S4x32x4096, .f32⟩
  | .hbm, ⟨55, _⟩ => ⟨S4x32x4096, .f32⟩
  | .hbm, ⟨56, _⟩ => ⟨S4x32x64x64, .f32⟩
  | _, _ => ⟨S4x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_8 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_9 : Ref sig .tc := ⟨.hbm, 49, rfl⟩
abbrev main_v38 : Ref sig .tc := ⟨.hbm, 50, rfl⟩
abbrev main_v39 : Ref sig .tc := ⟨.hbm, 51, rfl⟩
abbrev main_cst_10 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  shapeCasts_S4x32x64x64_S4x32x4096 : S4x32x64x64.ShapeCasts S4x32x4096
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S_S4x32x4096 : S_.BroadcastsInDim S4x32x4096 (![] : Fin 0 → Fin S4x32x4096.rank)
  shapeCasts_S4x32x4096_S4x32x64x64 : S4x32x4096.ShapeCasts S4x32x64x64
  dot_S4x32x4096_S4x32x4096_S4x4096x4096_1_1_2_2_0_0_wf : DotDims.WF S4x32x4096 S4x32x4096 S4x4096x4096 [1] [1] [2] [2] [0] [0]
  dot_S4x32x4096_S4x4096x4096_S4x32x4096_2_1_1_2_0_0_wf : DotDims.WF S4x32x4096 S4x4096x4096 S4x32x4096 [2] [1] [1] [2] [0] [0]

variable [Facts₀]

def dot_S4x32x4096_S4x32x4096_S4x4096x4096_1_1_2_2_0_0 : DotDims S4x32x4096 S4x32x4096 S4x4096x4096 where
  lhsContracting := [1]
  rhsContracting := [1]
  lhsNonContracting := [2]
  rhsNonContracting := [2]
  lhsBatch := [0]
  rhsBatch := [0]
  wf := dot_S4x32x4096_S4x32x4096_S4x4096x4096_1_1_2_2_0_0_wf
def dot_S4x32x4096_S4x4096x4096_S4x32x4096_2_1_1_2_0_0 : DotDims S4x32x4096 S4x4096x4096 S4x32x4096 where
  lhsContracting := [2]
  rhsContracting := [1]
  lhsNonContracting := [1]
  rhsNonContracting := [2]
  lhsBatch := [0]
  rhsBatch := [0]
  wf := dot_S4x32x4096_S4x4096x4096_S4x32x4096_2_1_1_2_0_0_wf

class Facts : Prop extends Facts₀ where

variable [Facts]
-- ==== Proof.Hand.R0.Base.lean ====
/-
  Region 0 (the first mean-shift step), the part every control case shares.

  The grid is 4 batch entries × 8 tiles of the reduction axis, walked row-major: point `t` is batch `t / 8`,
  tile `t % 8`. The body has two branches on the tile number: at tile 0 it zeroes the two accumulators, at tile 7
  it divides and stores the output block. So a point is in one of three cases: the first tile of a batch entry
  (zero, then accumulate), a middle tile (accumulate), the last tile (accumulate, then divide and store). The
  output window is stored only at a last tile and written back only there; elsewhere it is idle.
-/
import proofs.«166501_j24086176596062_1_alg».proof.Proof.Gen.KernelIdeal.Launch
import proofs.«166501_j24086176596062_1_alg».proof.Proof.Gen.KernelIdeal.Skeleton
import proofs.«166501_j24086176596062_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The tile number is 0: the accumulators are zeroed first. -/
abbrev isFirst (i : grid0.Coords) : Prop :=
  (Scalar.cmpi .ne (Scalar.extui (Scalar.cmpi .eq (BitVec.ofNat 32 (i 1).val) 0#32)) 0#32) = 1#1
/-- The tile number is 7: the output block is computed and stored. -/
abbrev isLast (i : grid0.Coords) : Prop := k0_cond2 i = 1#1

theorem first_iff : ∀ t : Fin cfg0.N, isFirst (grid0.coords t) ↔ t.val % 8 = 0 :=
  (by decide +kernel : ∀ t : Fin grid0.N, isFirst (grid0.coords t) ↔ t.val % 8 = 0)
theorem last_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Off a last tile the output window is idle and is not written back. -/
theorem idle_out : ∀ t : Fin cfg0.N, ¬isLast (grid0.coords t) → cfg0.idle 2 (grid0.coords t) = true := by decide +kernel
theorem noflush_out : ∀ t : Fin cfg0.N, ¬isLast (grid0.coords t) → (cfg0.win 2).flush t = false := by decide +kernel
/-- At a last tile it is live. -/
theorem live_out : ∀ t : Fin cfg0.N, isLast (grid0.coords t) → cfg0.idle 2 (grid0.coords t) = false := by decide +kernel

/-! ## The memrefs the body is called with -/

abbrev ms0 (t : Fin cfg0.N) : Memref sig .tc .vmem S1x32x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x4096 .f32 := win0_2.stage (cfg0.slots t 2)
abbrev hs2 (t : Fin cfg0.N) : (ms2 t).IsWhole := hstage0_2 ((cfg0.slots t 2).cast nbuf0_2)
/-- The column-weight accumulator and the numerator accumulator: scratch buffers of the kernel's own. -/
abbrev scW : Memref sig .tc .vmem S1x4096 .f32 := Memref.whole cc0_scratch0
abbrev scN : Memref sig .tc .vmem S32x4096 .f32 := Memref.whole cc0_scratch1
/-- Views through which the contents of the output block and of the two accumulators are stated. -/
abbrev vOut : View sig .tc .vmem S1x32x4096 .f32 := (Memref.whole cc0_stg2_0 : Memref sig .tc .vmem S1x32x4096 .f32).view
abbrev vW : View sig .tc .vmem S1x4096 .f32 := scW.view
abbrev vN : View sig .tc .vmem S32x4096 .f32 := scN.view

/-- The scoped buffers no window stages, other than the two accumulators: the other regions' staging and scratch
    buffers, each whole at some contents. The body never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The scoped buffers no window of this region stages, the region's two accumulators first. -/
theorem scopedRest_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ others c) := by
  unfold others
  exact Pipeline.scopedRest_eq_of_list spec0 c [cc0_scratch0, cc0_scratch1, cc1_stg0_0, cc1_stg0_1, cc1_stg1_0, cc1_stg1_1, cc1_stg2_0, cc1_stg2_1, cc1_scratch0, cc1_scratch1, cc2_stg0_0, cc2_stg0_1, cc2_stg1_0, cc2_stg1_1, cc2_stg2_0, cc2_stg2_1, cc2_scratch0, cc2_scratch1] (by decide) (by decide)

/-- The region's invariant at entry and exit, with the two accumulators as memrefs owned at some contents. -/
theorem PhiA_eq (c : Dev nD) :
    (Pipeline.ΦA spec0 c : sProp 𝕄)
      = iprop(iprop((∃ d, owns (c : Thread nD τ) scW fullShare d) ∗ (∃ d, owns (c : Thread nD τ) scN fullShare d) ∗ others c) ∗ (∃ r, prngReg c r)) := by
  unfold Pipeline.ΦA; rw [scopedRest_own]; simp only [scW, scN, owns_whole]; try rfl

/-! ## The input windows' blocks -/

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the body leaves
    it in place, and where it is not refetched the block index has not moved. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

end Cert.KernelIdeal.Hand.R0

end
-- ==== Proof.Hand.R0.RunFirst.lean ====
/-
  Region 0, a batch entry's FIRST tile: the two accumulators are zeroed, then this tile's column weights and
  numerators are added into them. The output block is not touched.
-/
import proofs.«166501_j24086176596062_1_alg».proof.Proof.Hand.R0.Base

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first tile, on whole memrefs: the input blocks at `x2`, `x3` and the output buffer, at any contents, are left as
    found; each accumulator, whatever it held, ends with the pieces `LW`, `LN` written — the pieces the run finds. -/
noncomputable def runFirst (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : isFirst i) (hL : ¬isLast i)
    (x2 : Vec F S1x32x4096 .f32) (x3 : Vec F S1x32x512 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc0__mean_shift_step_kernel i arg2 harg2 arg3 harg3 arg4 harg4 arg5 harg5 arg6 harg6) K } := by
  refine ⟨?_, ?_, fun x4 E K => ?run⟩
  case run =>
    simp only [cc0__mean_shift_step_kernel_eq_skeleton]; unfold cc0__mean_shift_step_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand.R0

end
-- ==== Proof.Hand.R0.RunMid.lean ====
/-
  Region 0, a MIDDLE tile of a batch entry: this tile's column weights and numerators are added into the
  accumulators, which hold what the tile before left. The output block is not touched.
-/
import proofs.«166501_j24086176596062_1_alg».proof.Proof.Hand.R0.Base

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle tile, on whole memrefs: the input blocks at `x2`, `x3` and the output buffer, at any contents, are left as
    found; each accumulator, found at `s5`, `s6`, ends with the pieces `LW`, `LN` written — the pieces the run finds. -/
noncomputable def runMid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : ¬isLast i)
    (x2 : Vec F S1x32x4096 .f32) (x3 : Vec F S1x32x512 .f32) (s5 : Vec F S1x4096 .f32) (s6 : Vec F S32x4096 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc0__mean_shift_step_kernel i arg2 harg2 arg3 harg3 arg4 harg4 arg5 harg5 arg6 harg6) K } := by
  refine ⟨?_, ?_, fun x4 E K => ?run⟩
  case run =>
    simp only [cc0__mean_shift_step_kernel_eq_skeleton]; unfold cc0__mean_shift_step_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand.R0

end
-- ==== Proof.Hand.R0.RunLast.lean ====
/-
  Region 0, a batch entry's LAST tile: this tile's column weights and numerators are added into the accumulators,
  and then the output block is stored: half the quotient of numerator by column weight plus half the input.
-/
import proofs.«166501_j24086176596062_1_alg».proof.Proof.Hand.R0.Base

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a last tile, on whole memrefs: the input blocks at `x2`, `x3` are left as found; each accumulator,
    found at `s5`, `s6`, ends with the pieces `LW`, `LN` written and the output buffer, whatever it held, with `LO`. -/
noncomputable def runLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : isLast i)
    (x2 : Vec F S1x32x4096 .f32) (x3 : Vec F S1x32x512 .f32) (s5 : Vec F S1x4096 .f32) (s6 : Vec F S32x4096 .f32) :
    Σ' (LO : List (View.Piece (Elt F) S1x32x4096 .f32)) (LW : List (View.Piece (Elt F) S1x4096 .f32)), { LN : List (View.Piece (Elt F) S32x4096 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc0__mean_shift_step_kernel i arg2 harg2 arg3 harg3 arg4 harg4 arg5 harg5 arg6 harg6) K } := by
  refine ⟨?_, ?_, ?_, fun E K => ?run⟩
  case run =>
    simp only [cc0__mean_shift_step_kernel_eq_skeleton]; unfold cc0__mean_shift_step_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.KernelIdeal.Hand.R0

end
-- ==== Proof.Hand.R0.Body.lean ====
/-
  Region 0: what the two accumulators and the output block hold after each grid point, the region's invariant
  between points, its proof data, and the body obligation.

  Within a batch entry the column-weight accumulator after tile `j` holds the sum of the affinities of the first
  `j + 1` tiles' pixels to each column, and the numerator accumulator the matching sums weighted by the features;
  a batch entry's first tile restarts both from zero. The output block is stored at the entry's last tile from the
  accumulators as that tile leaves them. Here these contents are named through the pieces each case's run found;
  their closed forms are read off elsewhere.
-/
import proofs.«166501_j24086176596062_1_alg».proof.Proof.Hand.R0.RunFirst
import proofs.«166501_j24086176596062_1_alg».proof.Proof.Hand.R0.RunMid
import proofs.«166501_j24086176596062_1_alg».proof.Proof.Hand.R0.RunLast

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases' pieces cover the buffers they are stored into -/

theorem coverW_first (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S1x4096.Idx) :
    ∃ pc ∈ (runFirst c i arg2 harg2 arg3 harg3 arg4 harg4 arg5 harg5 arg6 harg6 hF hL x2 x3).1, y ∈ pc.1.set :=
  View.cover_of_tiledL (runFirst c i arg2 harg2 arg3 harg3 arg4 harg4 arg5 harg5 arg6 harg6 hF hL x2 x3).1 S1x4096.size (by sl_kernel_rfl) y
theorem coverN_first (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S32x4096.Idx) :
    ∃ pc ∈ (runFirst c i arg2 harg2 arg3 harg3 arg4 harg4 arg5 harg5 arg6 harg6 hF hL x2 x3).2.1, y ∈ pc.1.set :=
  View.cover_of_tiledL (runFirst c i arg2 harg2 arg3 harg3 arg4 harg4 arg5 harg5 arg6 harg6 hF hL x2 x3).2.1 S32x4096.size (by sl_kernel_rfl) y
theorem coverW_mid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S1x4096.Idx) :
    ∃ pc ∈ (runMid c i arg2 harg2 arg3 harg3 arg4 harg4 arg5 harg5 arg6 harg6 hF hL x2 x3 s5 s6).1, y ∈ pc.1.set :=
  View.cover_of_tiledL (runMid c i arg2 harg2 arg3 harg3 arg4 harg4 arg5 harg5 arg6 harg6 hF hL x2 x3 s5 s6).1 S1x4096.size (by sl_kernel_rfl) y
theorem coverN_mid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S32x4096.Idx) :
    ∃ pc ∈ (runMid c i arg2 harg2 arg3 harg3 arg4 harg4 arg5 harg5 arg6 harg6 hF hL x2 x3 s5 s6).2.1, y ∈ pc.1.set :=
  View.cover_of_tiledL (runMid c i arg2 harg2 arg3 harg3 arg4 harg4 arg5 harg5 arg6 harg6 hF hL x2 x3 s5 s6).2.1 S32x4096.size (by sl_kernel_rfl) y
theorem coverO_last (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x32x4096.Idx) :
    ∃ pc ∈ (runLast c i arg2 harg2 arg3 harg3 arg4 harg4 arg5 harg5 arg6 harg6 hF hL x2 x3 s5 s6).1, y ∈ pc.1.set :=
  View.cover_of_tiledL (runLast c i arg2 harg2 arg3 harg3 arg4 harg4 arg5 harg5 arg6 harg6 hF hL x2 x3 s5 s6).1 S1x32x4096.size (by sl_kernel_rfl) y
theorem coverW_last (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x4096.Idx) :
    ∃ pc ∈ (runLast c i arg2 harg2 arg3 harg3 arg4 harg4 arg5 harg5 arg6 harg6 hF hL x2 x3 s5 s6).2.1, y ∈ pc.1.set :=
  View.cover_of_tiledL (runLast c i arg2 harg2 arg3 harg3 arg4 harg4 arg5 harg5 arg6 harg6 hF hL x2 x3 s5 s6).2.1 S1x4096.size (by sl_kernel_rfl) y
theorem coverN_last (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S32x4096.Idx) :
    ∃ pc ∈ (runLast c i arg2 harg2 arg3 harg3 arg4 harg4 arg5 harg5 arg6 harg6 hF hL x2 x3 s5 s6).2.2.1, y ∈ pc.1.set :=
  View.cover_of_tiledL (runLast c i arg2 harg2 arg3 harg3 arg4 harg4 arg5 harg5 arg6 harg6 hF hL x2 x3 s5 s6).2.2.1 S32x4096.size (by sl_kernel_rfl) y

/-! ## What each case leaves: its pieces read back -/

def wFirst (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S1x4096 .f32 :=
  vW.read (Elt F) (vW.writes (Elt F) vW.junk (runFirst c i arg2 harg2 arg3 harg3 arg4 harg4 arg5 harg5 arg6 harg6 hF hL x2 x3).1)
def nFirst (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S32x4096 .f32 :=
  vN.read (Elt F) (vN.writes (Elt F) vN.junk (runFirst c i arg2 harg2 arg3 harg3 arg4 harg4 arg5 harg5 arg6 harg6 hF hL x2 x3).2.1)
def wMid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runMid c i arg2 harg2 arg3 harg3 arg4 harg4 arg5 harg5 arg6 harg6 hF hL x2 x3 s5 s6).1)
def nMid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runMid c i arg2 harg2 arg3 harg3 arg4 harg4 arg5 harg5 arg6 harg6 hF hL x2 x3 s5 s6).2.1)
def oLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x32x4096 .f32 :=
  vOut.read (Elt F) (vOut.writes (Elt F) vOut.junk (runLast c i arg2 harg2 arg3 harg3 arg4 harg4 arg5 harg5 arg6 harg6 hF hL x2 x3 s5 s6).1)
def wLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runLast c i arg2 harg2 arg3 harg3 arg4 harg4 arg5 harg5 arg6 harg6 hF hL x2 x3 s5 s6).2.1)
def nLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runLast c i arg2 harg2 arg3 harg3 arg4 harg4 arg5 harg5 arg6 harg6 hF hL x2 x3 s5 s6).2.2.1)

/-! ## The tile number of a point decides its case -/

theorem isFirst_of (t : Fin cfg0.N) (h0 : t.val % 8 = 0) : isFirst (grid0.coords t) := (first_iff t).mpr h0
theorem notFirst_of (t : Fin cfg0.N) (h0 : ¬t.val % 8 = 0) : ¬isFirst (grid0.coords t) := fun h => h0 ((first_iff t).mp h)
theorem isLast_of (t : Fin cfg0.N) (h7 : t.val % 8 = 7) : isLast (grid0.coords t) := (last_iff t).mpr h7
theorem notLast_of (t : Fin cfg0.N) (h7 : ¬t.val % 8 = 7) : ¬isLast (grid0.coords t) := fun h => h7 ((last_iff t).mp h)
theorem notLast_of_first (t : Fin cfg0.N) (h0 : t.val % 8 = 0) : ¬isLast (grid0.coords t) :=
  notLast_of t (by omega)
theorem prevLt (t : Fin cfg0.N) : t.val - 1 < cfg0.N := Nat.lt_of_le_of_lt (Nat.sub_le _ _) t.isLt

variable (V : (c : Dev nD) → (b : Ref sig .tc) → Buf (Elt F) ((c : Thread nD τ).loc b))

/-! ## The cases at a grid point, on the point's memrefs and input blocks -/

def wFirstAt (c : Dev nD) (t : Fin cfg0.N) (h0 : t.val % 8 = 0) : Vec F S1x4096 .f32 :=
  wFirst c (grid0.coords t) (ms0 t) (hs0 t) (ms1 t) (hs1 t) (ms2 t) (hs2 t) scW (Memref.isWhole_whole _) scN (Memref.isWhole_whole _) (isFirst_of t h0) (notLast_of_first t h0) (blk V c 0 t) (blk V c 1 t)
def nFirstAt (c : Dev nD) (t : Fin cfg0.N) (h0 : t.val % 8 = 0) : Vec F S32x4096 .f32 :=
  nFirst c (grid0.coords t) (ms0 t) (hs0 t) (ms1 t) (hs1 t) (ms2 t) (hs2 t) scW (Memref.isWhole_whole _) scN (Memref.isWhole_whole _) (isFirst_of t h0) (notLast_of_first t h0) (blk V c 0 t) (blk V c 1 t)
def wMidAt (c : Dev nD) (t : Fin cfg0.N) (h0 : ¬t.val % 8 = 0) (h7 : ¬t.val % 8 = 7) (s5 : Vec F S1x4096 .f32) (s6 : Vec F S32x4096 .f32) : Vec F S1x4096 .f32 :=
  wMid c (grid0.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def nMidAt (c : Dev nD) (t : Fin cfg0.N) (h0 : ¬t.val % 8 = 0) (h7 : ¬t.val % 8 = 7) (s5 : Vec F S1x4096 .f32) (s6 : Vec F S32x4096 .f32) : Vec F S32x4096 .f32 :=
  nMid c (grid0.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def oLastAt (c : Dev nD) (t : Fin cfg0.N) (h0 : ¬t.val % 8 = 0) (h7 : t.val % 8 = 7) (s5 : Vec F S1x4096 .f32) (s6 : Vec F S32x4096 .f32) : Vec F S1x32x4096 .f32 :=
  oLast c (grid0.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def wLastAt (c : Dev nD) (t : Fin cfg0.N) (h0 : ¬t.val % 8 = 0) (h7 : t.val % 8 = 7) (s5 : Vec F S1x4096 .f32) (s6 : Vec F S32x4096 .f32) : Vec F S1x4096 .f32 :=
  wLast c (grid0.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def nLastAt (c : Dev nD) (t : Fin cfg0.N) (h0 : ¬t.val % 8 = 0) (h7 : t.val % 8 = 7) (s5 : Vec F S1x4096 .f32) (s6 : Vec F S32x4096 .f32) : Vec F S32x4096 .f32 :=
  nLast c (grid0.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6

/-! ## The accumulators after each point -/

/-- The column-weight accumulator and the numerator accumulator after the body at position `n`: restarted at a batch
    entry's first tile, otherwise this tile's contribution added to what the point before left. -/
def accAt (c : Dev nD) : (n : ℕ) → n < cfg0.N → Vec F S1x4096 .f32 × Vec F S32x4096 .f32
  | 0, hn => (wFirstAt V c ⟨0, hn⟩ (Nat.zero_mod _), nFirstAt V c ⟨0, hn⟩ (Nat.zero_mod _))
  | n + 1, hn =>
    if h0 : (n + 1) % 8 = 0 then (wFirstAt V c ⟨n + 1, hn⟩ h0, nFirstAt V c ⟨n + 1, hn⟩ h0)
    else if h7 : (n + 1) % 8 = 7 then
      (wLastAt V c ⟨n + 1, hn⟩ h0 h7 (accAt c n (Nat.lt_of_succ_lt hn)).1 (accAt c n (Nat.lt_of_succ_lt hn)).2,
       nLastAt V c ⟨n + 1, hn⟩ h0 h7 (accAt c n (Nat.lt_of_succ_lt hn)).1 (accAt c n (Nat.lt_of_succ_lt hn)).2)
    else
      (wMidAt V c ⟨n + 1, hn⟩ h0 h7 (accAt c n (Nat.lt_of_succ_lt hn)).1 (accAt c n (Nat.lt_of_succ_lt hn)).2,
       nMidAt V c ⟨n + 1, hn⟩ h0 h7 (accAt c n (Nat.lt_of_succ_lt hn)).1 (accAt c n (Nat.lt_of_succ_lt hn)).2)

theorem accAt_first (c : Dev nD) (t : Fin cfg0.N) (h0 : t.val % 8 = 0) :
    accAt V c t.val t.isLt = (wFirstAt V c t h0, nFirstAt V c t h0) := by
  obtain ⟨n, hn⟩ := t
  cases n with
  | zero => exact rfl
  | succ n => exact (dif_pos h0).trans rfl
theorem accAt_mid (c : Dev nD) (t : Fin cfg0.N) (h0 : ¬t.val % 8 = 0) (h7 : ¬t.val % 8 = 7) :
    accAt V c t.val t.isLt = (wMidAt V c t h0 h7 (accAt V c (t.val - 1) (prevLt t)).1 (accAt V c (t.val - 1) (prevLt t)).2,
      nMidAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_neg h7).trans rfl)
theorem accAt_last (c : Dev nD) (t : Fin cfg0.N) (h0 : ¬t.val % 8 = 0) (h7 : t.val % 8 = 7) :
    accAt V c t.val t.isLt = (wLastAt V c t h0 h7 (accAt V c (t.val - 1) (prevLt t)).1 (accAt V c (t.val - 1) (prevLt t)).2,
      nLastAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_pos h7).trans rfl)

/-- What the output window's staging buffer holds after the body at point `t`: at a last tile the stored block, from
    the accumulators as the tile before left them; elsewhere nothing is stored and the value is not consulted. -/
def outAt (c : Dev nD) (t : Fin cfg0.N) : Vec F S1x32x4096 .f32 :=
  if h7 : t.val % 8 = 7 then
    oLastAt V c t (by omega) h7 (accAt V c (t.val - 1) (prevLt t)).1 (accAt V c (t.val - 1) (prevLt t)).2
  else vOut.read (Elt F) vOut.junk
theorem outAt_last (c : Dev nD) (t : Fin cfg0.N) (h0 : ¬t.val % 8 = 0) (h7 : t.val % 8 = 7) :
    outAt V c t = oLastAt V c t h0 h7 (accAt V c (t.val - 1) (prevLt t)).1 (accAt V c (t.val - 1) (prevLt t)).2 := by
  unfold outAt; exact dif_pos h7

/-! ## The invariant between points -/

/-- Before position `n`: at the region's entry every scoped buffer no window stages at anything; afterwards the two
    accumulators at what the point before left, the others at anything; the generator register at some state. -/
def PhiS (c : Dev nD) : (n : ℕ) → n ≤ cfg0.N → sProp 𝕄
  | 0, _ => Pipeline.ΦA spec0 c
  | n + 1, hn => iprop(iprop(owns (c : Thread nD τ) scW fullShare (accAt V c n hn).1 ∗ owns (c : Thread nD τ) scN fullShare (accAt V c n hn).2 ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scW fullShare (accAt V c n hn).1 ∗ owns (c : Thread nD τ) scN fullShare (accAt V c n hn).2 ∗ others c) ∗ (∃ r, prngReg c r)) := rfl
theorem PhiS_pos (c : Dev nD) (n : ℕ) (h : n ≤ cfg0.N) (hz : n ≠ 0) :
    PhiS V c n h = iprop(iprop(owns (c : Thread nD τ) scW fullShare (accAt V c (n - 1) (by omega)).1 ∗ owns (c : Thread nD τ) scN fullShare (accAt V c (n - 1) (by omega)).2 ∗ others c) ∗ (∃ r, prngReg c r)) := by
  cases n with
  | zero => exact absurd rfl hz
  | succ n => rfl

/-- Whatever the position, the invariant holds the two accumulators at some contents. -/
theorem PhiS_any (c : Dev nD) (n : ℕ) (h : n ≤ cfg0.N) :
    PhiS V c n h ⊢ iprop(iprop((∃ d, owns (c : Thread nD τ) scW fullShare d) ∗ (∃ d, owns (c : Thread nD τ) scN fullShare d) ∗ others c) ∗ (∃ r, prngReg c r)) := by
  by_cases hz : n = 0
  · rw [PhiS_zero V c n h hz, PhiA_eq]; try exact Idealize.SL.BI.Entails.refl _
  · rw [PhiS_pos V c n h hz]
    iintro ⟨⟨HW, HN, Ho⟩, Hg⟩
    isplitl [HW HN Ho]
    · isplitl [HW]; · iexists _; iexact HW
      isplitl [HN]; · iexists _; iexact HN
      iexact Ho
    iexact Hg

/-! ## The proof data -/

/-- Region 0's proof data on core `c`: the arrays as the region finds them; after the body each input's buffer at its
    block and the output's at `outAt`; the invariant `PhiS`; the shared input array held at its two halves, the output
    array outright; nothing owed. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outAt V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by dsimp only [dat0]
theorem q_eq0 (c : Dev nD) : (dat0 V c).q 0 = fullShare.left := by dsimp only [dat0]
theorem q_eq1 (c : Dev nD) : (dat0 V c).q 1 = fullShare.right := by dsimp only [dat0]
theorem Phi_castSucc (c : Dev nD) (t : Fin cfg0.N) : (dat0 V c).Φ t.castSucc = PhiS V c t.val (Nat.le_of_lt t.isLt) := by
  dsimp only [dat0]; try simp only [Fin.coe_castSucc]
theorem after0 (c : Dev nD) (t : Fin cfg0.N) : (dat0 V c).after 0 t = blk V c 0 t := by dsimp only [dat0]
theorem after1 (c : Dev nD) (t : Fin cfg0.N) : (dat0 V c).after 1 t = blk V c 1 t := by dsimp only [dat0]
theorem after2 (c : Dev nD) (t : Fin cfg0.N) : (dat0 V c).after 2 t = outAt V c t := by dsimp only [dat0]
theorem before0 (c : Dev nD) (t : Fin cfg0.N) (d) : (dat0 V c).before 0 t d = blk V c 0 t :=
  before_in0 V (dat0 V c) (A_eq V c 0) (after0 V c) t d
theorem before1 (c : Dev nD) (t : Fin cfg0.N) (d) : (dat0 V c).before 1 t d = blk V c 1 t :=
  before_in1 V (dat0 V c) (A_eq V c 1) (after1 V c) t d

end Cert.KernelIdeal.Hand.R0

end
-- ==== Proof.Hand.R0.Obl.lean ====
/-
  Region 0's body obligation. At a point the tile number says which case the body is in; the input windows'
  buffers hold their blocks; the invariant hands the body the two accumulators (at what the point before left, or
  at anything at the region's first point) and takes them back at this point's contents; off a last tile the
  output window's buffer is handed back as it was found.
-/
import proofs.«166501_j24086176596062_1_alg».proof.Proof.Hand.R0.Body

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in0 t], after0]
  rw [show (dat0 V c).leavesExact 1 t = owns (c : Thread nD τ) (ms1 t) fullShare ((dat0 V c).after 1 t) from by
    unfold Dat.leavesExact; rw [live_in1 t], after1]
  rw [Phi_castSucc V c t]
  have hN : t.val < 32 := lt_of_lt_of_eq t.isLt (show cfg0.N = 32 from N_0)
  by_cases h0 : t.val % 8 = 0
  · -- a batch entry's first tile
    have hL := notLast_of_first t h0
    rw [Dat.leavesExact_idle (dat0 V c) 2 t (idle_out t hL) (noflush_out t hL)]
    rw [accAt_first V c t h0]
    unfold wFirstAt nFirstAt wFirst nFirst; (try dsimp only)
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HW, HN, Hoth⟩, Hg⟩
    iapply ((runFirst c (grid0.coords t) _ _ _ _ _ _ _ _ _ _ (isFirst_of t h0) hL (blk V c 0 t) (blk V c 1 t)).2.2 _ Set.univ _)
    isplitl [H0]; · iexact H0
    isplitl [H1]; · iexact H1
    isplitl [H2]; · iexact H2
    isplitl [HW]; · iexact HW
    isplitl [HN]; · iexact HN
    iintro ⟨H0, H1, H2, ⟨%eW, HW⟩, ⟨%eN, HN⟩⟩
    isplitl [HW HN Hoth Hg]
    · isplitl [HW HN Hoth]
      · isplitl [HW]
        · unfold owns; iexists _; isplitr
          swap; · iexact HW
          ipureintro; exact View.read_writes_of_cover _ _ _ _ _ (coverW_first c _ _ _ _ _ _ _ _ _ _ _ _ _ _ _)
        isplitl [HN]
        · unfold owns; iexists _; isplitr
          swap; · iexact HN
          ipureintro; exact View.read_writes_of_cover _ _ _ _ _ (coverN_first c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz]
    by_cases h7 : t.val % 8 = 7
    · -- a batch entry's last tile
      have hL := isLast_of t h7
      rw [show (dat0 V c).leavesExact 2 t = owns (c : Thread nD τ) (ms2 t) fullShare ((dat0 V c).after 2 t) from by
        unfold Dat.leavesExact; rw [live_out t hL], after2, outAt_last V c t h0 h7]
      rw [accAt_last V c t h0 h7]
      unfold oLastAt wLastAt nLastAt oLast wLast nLast; (try dsimp only)
      iintro ⟨⟨⟨HW, HN, Hoth⟩, Hg⟩, Ho, ⟨%d0, H0⟩, ⟨%d1, H1⟩, ⟨%d2, H2⟩⟩
      iapply ((runLast c (grid0.coords t) _ _ _ _ _ _ _ _ _ _ (notFirst_of t h0) hL (blk V c 0 t) (blk V c 1 t) _ _).2.2.2 Set.univ _)
      isplitl [H0]; · iexact H0
      isplitl [H1]; · iexact H1
      isplitl [H2]; · iexists _; iexact H2
      isplitl [HW]; · iexact HW
      isplitl [HN]; · iexact HN
      iintro ⟨H0, H1, ⟨%eO, H2⟩, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_last c _ _ _ _ _ _ _ _ _ _ _ _ _ _ _ _ _)
          isplitl [HN]
          · unfold owns; iexists _; isplitr
            swap; · iexact HN
            ipureintro; exact View.read_writes_of_cover _ _ _ _ _ (coverN_last c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hL := notLast_of t h7
      rw [Dat.leavesExact_idle (dat0 V c) 2 t (idle_out t hL) (noflush_out t hL)]
      rw [accAt_mid V c t h0 h7]
      unfold wMidAt nMidAt wMid nMid; (try dsimp only)
      iintro ⟨⟨⟨HW, HN, Hoth⟩, Hg⟩, Ho, ⟨%d0, H0⟩, ⟨%d1, H1⟩, ⟨%d2, H2⟩⟩
      iapply ((runMid c (grid0.coords t) _ _ _ _ _ _ _ _ _ _ (notFirst_of t h0) hL (blk V c 0 t) (blk V c 1 t) _ _).2.2 _ Set.univ _)
      isplitl [H0]; · iexact H0
      isplitl [H1]; · iexact H1
      isplitl [H2]; · iexact H2
      isplitl [HW]; · iexact HW
      isplitl [HN]; · iexact HN
      iintro ⟨H0, H1, H2, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_mid c _ _ _ _ _ _ _ _ _ _ _ _ _ _ _ _ _)
          isplitl [HN]
          · unfold owns; iexists _; isplitr
            swap; · iexact HN
            ipureintro; exact View.read_writes_of_cover _ _ _ _ _ (coverN_mid c _ _ _ _ _ _ _ _ _ _ _ _ _ _ _ _ _)
          iexact Hoth
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's entry invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA_eq]
  exact PhiS_any V c _ _

end Cert.KernelIdeal.Hand.R0

end
-- ==== Proof.Hand.R1.Base.lean ====
/-
  Region 1 (the second mean-shift step), the part every control case shares.

  The grid is 4 batch entries × 8 tiles of the reduction axis, walked row-major: point `t` is batch `t / 8`,
  tile `t % 8`. The body has two branches on the tile number: at tile 0 it zeroes the two accumulators, at tile 7
  it divides and stores the output block. So a point is in one of three cases: the first tile of a batch entry
  (zero, then accumulate), a middle tile (accumulate), the last tile (accumulate, then divide and store). The
  output window is stored only at a last tile and written back only there; elsewhere it is idle.
-/
import proofs.«166501_j24086176596062_1_alg».proof.Proof.Gen.KernelIdeal.Launch
import proofs.«166501_j24086176596062_1_alg».proof.Proof.Gen.KernelIdeal.Skeleton
import proofs.«166501_j24086176596062_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The tile number is 0: the accumulators are zeroed first. -/
abbrev isFirst (i : grid1.Coords) : Prop :=
  (Scalar.cmpi .ne (Scalar.extui (Scalar.cmpi .eq (BitVec.ofNat 32 (i 1).val) 0#32)) 0#32) = 1#1
/-- The tile number is 7: the output block is computed and stored. -/
abbrev isLast (i : grid1.Coords) : Prop := k1_cond2 i = 1#1

theorem first_iff : ∀ t : Fin cfg1.N, isFirst (grid1.coords t) ↔ t.val % 8 = 0 :=
  (by decide +kernel : ∀ t : Fin grid1.N, isFirst (grid1.coords t) ↔ t.val % 8 = 0)
theorem last_iff : ∀ t : Fin cfg1.N, isLast (grid1.coords t) ↔ t.val % 8 = 7 :=
  (by decide +kernel : ∀ t : Fin grid1.N, isLast (grid1.coords t) ↔ t.val % 8 = 7)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
/-- Off a last tile the output window is idle and is not written back. -/
theorem idle_out : ∀ t : Fin cfg1.N, ¬isLast (grid1.coords t) → cfg1.idle 2 (grid1.coords t) = true := by decide +kernel
theorem noflush_out : ∀ t : Fin cfg1.N, ¬isLast (grid1.coords t) → (cfg1.win 2).flush t = false := by decide +kernel
/-- At a last tile it is live. -/
theorem live_out : ∀ t : Fin cfg1.N, isLast (grid1.coords t) → cfg1.idle 2 (grid1.coords t) = false := by decide +kernel

/-! ## The memrefs the body is called with -/

abbrev ms0 (t : Fin cfg1.N) : Memref sig .tc .vmem S1x32x4096 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x32x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x32x4096 .f32 := win1_2.stage (cfg1.slots t 2)
abbrev hs2 (t : Fin cfg1.N) : (ms2 t).IsWhole := hstage1_2 ((cfg1.slots t 2).cast nbuf1_2)
/-- The column-weight accumulator and the numerator accumulator: scratch buffers of the kernel's own. -/
abbrev scW : Memref sig .tc .vmem S1x4096 .f32 := Memref.whole cc1_scratch0
abbrev scN : Memref sig .tc .vmem S32x4096 .f32 := Memref.whole cc1_scratch1
/-- Views through which the contents of the output block and of the two accumulators are stated. -/
abbrev vOut : View sig .tc .vmem S1x32x4096 .f32 := (Memref.whole cc1_stg2_0 : Memref sig .tc .vmem S1x32x4096 .f32).view
abbrev vW : View sig .tc .vmem S1x4096 .f32 := scW.view
abbrev vN : View sig .tc .vmem S32x4096 .f32 := scN.view

/-- The scoped buffers no window stages, other than the two accumulators: the other regions' staging and scratch
    buffers, each whole at some contents. The body never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The scoped buffers no window of this region stages, the region's two accumulators first. -/
theorem scopedRest_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ others c) := by
  unfold others
  exact Pipeline.scopedRest_eq_of_list spec1 c [cc1_scratch0, cc1_scratch1, cc0_stg0_0, cc0_stg0_1, cc0_stg1_0, cc0_stg1_1, cc0_stg2_0, cc0_stg2_1, cc0_scratch0, cc0_scratch1, cc2_stg0_0, cc2_stg0_1, cc2_stg1_0, cc2_stg1_1, cc2_stg2_0, cc2_stg2_1, cc2_scratch0, cc2_scratch1] (by decide) (by decide)

/-- The region's invariant at entry and exit, with the two accumulators as memrefs owned at some contents. -/
theorem PhiA_eq (c : Dev nD) :
    (Pipeline.ΦA spec1 c : sProp 𝕄)
      = iprop(iprop((∃ d, owns (c : Thread nD τ) scW fullShare d) ∗ (∃ d, owns (c : Thread nD τ) scN fullShare d) ∗ others c) ∗ (∃ r, prngReg c r)) := by
  unfold Pipeline.ΦA; rw [scopedRest_own]; simp only [scW, scN, owns_whole]; try rfl

/-! ## The input windows' blocks -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the body leaves
    it in place, and where it is not refetched the block index has not moved. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

end Cert.KernelIdeal.Hand.R1

end
-- ==== Proof.Hand.R1.RunFirst.lean ====
/-
  Region 1, a batch entry's FIRST tile: the two accumulators are zeroed, then this tile's column weights and
  numerators are added into them. The output block is not touched.
-/
import proofs.«166501_j24086176596062_1_alg».proof.Proof.Hand.R1.Base

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first tile, on whole memrefs: the input blocks at `x2`, `x3` and the output buffer, at any contents, are left as
    found; each accumulator, whatever it held, ends with the pieces `LW`, `LN` written — the pieces the run finds. -/
noncomputable def runFirst (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : isFirst i) (hL : ¬isLast i)
    (x2 : Vec F S1x32x4096 .f32) (x3 : Vec F S1x32x512 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc1__mean_shift_step_kernel i arg2 harg2 arg3 harg3 arg4 harg4 arg5 harg5 arg6 harg6) K } := by
  refine ⟨?_, ?_, fun x4 E K => ?run⟩
  case run =>
    simp only [cc1__mean_shift_step_kernel_eq_skeleton]; unfold cc1__mean_shift_step_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand.R1

end
-- ==== Proof.Hand.R1.RunMid.lean ====
/-
  Region 1, a MIDDLE tile of a batch entry: this tile's column weights and numerators are added into the
  accumulators, which hold what the tile before left. The output block is not touched.
-/
import proofs.«166501_j24086176596062_1_alg».proof.Proof.Hand.R1.Base

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle tile, on whole memrefs: the input blocks at `x2`, `x3` and the output buffer, at any contents, are left as
    found; each accumulator, found at `s5`, `s6`, ends with the pieces `LW`, `LN` written — the pieces the run finds. -/
noncomputable def runMid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : ¬isLast i)
    (x2 : Vec F S1x32x4096 .f32) (x3 : Vec F S1x32x512 .f32) (s5 : Vec F S1x4096 .f32) (s6 : Vec F S32x4096 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc1__mean_shift_step_kernel i arg2 harg2 arg3 harg3 arg4 harg4 arg5 harg5 arg6 harg6) K } := by
  refine ⟨?_, ?_, fun x4 E K => ?run⟩
  case run =>
    simp only [cc1__mean_shift_step_kernel_eq_skeleton]; unfold cc1__mean_shift_step_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand.R1

end
-- ==== Proof.Hand.R1.RunLast.lean ====
/-
  Region 1, a batch entry's LAST tile: this tile's column weights and numerators are added into the accumulators,
  and then the output block is stored: half the quotient of numerator by column weight plus half the input.
-/
import proofs.«166501_j24086176596062_1_alg».proof.Proof.Hand.R1.Base

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a last tile, on whole memrefs: the input blocks at `x2`, `x3` are left as found; each accumulator,
    found at `s5`, `s6`, ends with the pieces `LW`, `LN` written and the output buffer, whatever it held, with `LO`. -/
noncomputable def runLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : isLast i)
    (x2 : Vec F S1x32x4096 .f32) (x3 : Vec F S1x32x512 .f32) (s5 : Vec F S1x4096 .f32) (s6 : Vec F S32x4096 .f32) :
    Σ' (LO : List (View.Piece (Elt F) S1x32x4096 .f32)) (LW : List (View.Piece (Elt F) S1x4096 .f32)), { LN : List (View.Piece (Elt F) S32x4096 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc1__mean_shift_step_kernel i arg2 harg2 arg3 harg3 arg4 harg4 arg5 harg5 arg6 harg6) K } := by
  refine ⟨?_, ?_, ?_, fun E K => ?run⟩
  case run =>
    simp only [cc1__mean_shift_step_kernel_eq_skeleton]; unfold cc1__mean_shift_step_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.KernelIdeal.Hand.R1

end
-- ==== Proof.Hand.R1.Body.lean ====
/-
  Region 1: what the two accumulators and the output block hold after each grid point, the region's invariant
  between points, its proof data, and the body obligation.

  Within a batch entry the column-weight accumulator after tile `j` holds the sum of the affinities of the first
  `j + 1` tiles' pixels to each column, and the numerator accumulator the matching sums weighted by the features;
  a batch entry's first tile restarts both from zero. The output block is stored at the entry's last tile from the
  accumulators as that tile leaves them. Here these contents are named through the pieces each case's run found;
  their closed forms are read off elsewhere.
-/
import proofs.«166501_j24086176596062_1_alg».proof.Proof.Hand.R1.RunFirst
import proofs.«166501_j24086176596062_1_alg».proof.Proof.Hand.R1.RunMid
import proofs.«166501_j24086176596062_1_alg».proof.Proof.Hand.R1.RunLast

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases' pieces cover the buffers they are stored into -/

theorem coverW_first (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S1x4096.Idx) :
    ∃ pc ∈ (runFirst c i arg2 harg2 arg3 harg3 arg4 harg4 arg5 harg5 arg6 harg6 hF hL x2 x3).1, y ∈ pc.1.set :=
  View.cover_of_tiledL (runFirst c i arg2 harg2 arg3 harg3 arg4 harg4 arg5 harg5 arg6 harg6 hF hL x2 x3).1 S1x4096.size (by sl_kernel_rfl) y
theorem coverN_first (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S32x4096.Idx) :
    ∃ pc ∈ (runFirst c i arg2 harg2 arg3 harg3 arg4 harg4 arg5 harg5 arg6 harg6 hF hL x2 x3).2.1, y ∈ pc.1.set :=
  View.cover_of_tiledL (runFirst c i arg2 harg2 arg3 harg3 arg4 harg4 arg5 harg5 arg6 harg6 hF hL x2 x3).2.1 S32x4096.size (by sl_kernel_rfl) y
theorem coverW_mid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S1x4096.Idx) :
    ∃ pc ∈ (runMid c i arg2 harg2 arg3 harg3 arg4 harg4 arg5 harg5 arg6 harg6 hF hL x2 x3 s5 s6).1, y ∈ pc.1.set :=
  View.cover_of_tiledL (runMid c i arg2 harg2 arg3 harg3 arg4 harg4 arg5 harg5 arg6 harg6 hF hL x2 x3 s5 s6).1 S1x4096.size (by sl_kernel_rfl) y
theorem coverN_mid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S32x4096.Idx) :
    ∃ pc ∈ (runMid c i arg2 harg2 arg3 harg3 arg4 harg4 arg5 harg5 arg6 harg6 hF hL x2 x3 s5 s6).2.1, y ∈ pc.1.set :=
  View.cover_of_tiledL (runMid c i arg2 harg2 arg3 harg3 arg4 harg4 arg5 harg5 arg6 harg6 hF hL x2 x3 s5 s6).2.1 S32x4096.size (by sl_kernel_rfl) y
theorem coverO_last (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x32x4096.Idx) :
    ∃ pc ∈ (runLast c i arg2 harg2 arg3 harg3 arg4 harg4 arg5 harg5 arg6 harg6 hF hL x2 x3 s5 s6).1, y ∈ pc.1.set :=
  View.cover_of_tiledL (runLast c i arg2 harg2 arg3 harg3 arg4 harg4 arg5 harg5 arg6 harg6 hF hL x2 x3 s5 s6).1 S1x32x4096.size (by sl_kernel_rfl) y
theorem coverW_last (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x4096.Idx) :
    ∃ pc ∈ (runLast c i arg2 harg2 arg3 harg3 arg4 harg4 arg5 harg5 arg6 harg6 hF hL x2 x3 s5 s6).2.1, y ∈ pc.1.set :=
  View.cover_of_tiledL (runLast c i arg2 harg2 arg3 harg3 arg4 harg4 arg5 harg5 arg6 harg6 hF hL x2 x3 s5 s6).2.1 S1x4096.size (by sl_kernel_rfl) y
theorem coverN_last (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S32x4096.Idx) :
    ∃ pc ∈ (runLast c i arg2 harg2 arg3 harg3 arg4 harg4 arg5 harg5 arg6 harg6 hF hL x2 x3 s5 s6).2.2.1, y ∈ pc.1.set :=
  View.cover_of_tiledL (runLast c i arg2 harg2 arg3 harg3 arg4 harg4 arg5 harg5 arg6 harg6 hF hL x2 x3 s5 s6).2.2.1 S32x4096.size (by sl_kernel_rfl) y

/-! ## What each case leaves: its pieces read back -/

def wFirst (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S1x4096 .f32 :=
  vW.read (Elt F) (vW.writes (Elt F) vW.junk (runFirst c i arg2 harg2 arg3 harg3 arg4 harg4 arg5 harg5 arg6 harg6 hF hL x2 x3).1)
def nFirst (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S32x4096 .f32 :=
  vN.read (Elt F) (vN.writes (Elt F) vN.junk (runFirst c i arg2 harg2 arg3 harg3 arg4 harg4 arg5 harg5 arg6 harg6 hF hL x2 x3).2.1)
def wMid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runMid c i arg2 harg2 arg3 harg3 arg4 harg4 arg5 harg5 arg6 harg6 hF hL x2 x3 s5 s6).1)
def nMid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runMid c i arg2 harg2 arg3 harg3 arg4 harg4 arg5 harg5 arg6 harg6 hF hL x2 x3 s5 s6).2.1)
def oLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x32x4096 .f32 :=
  vOut.read (Elt F) (vOut.writes (Elt F) vOut.junk (runLast c i arg2 harg2 arg3 harg3 arg4 harg4 arg5 harg5 arg6 harg6 hF hL x2 x3 s5 s6).1)
def wLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runLast c i arg2 harg2 arg3 harg3 arg4 harg4 arg5 harg5 arg6 harg6 hF hL x2 x3 s5 s6).2.1)
def nLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runLast c i arg2 harg2 arg3 harg3 arg4 harg4 arg5 harg5 arg6 harg6 hF hL x2 x3 s5 s6).2.2.1)

/-! ## The tile number of a point decides its case -/

theorem isFirst_of (t : Fin cfg1.N) (h0 : t.val % 8 = 0) : isFirst (grid1.coords t) := (first_iff t).mpr h0
theorem notFirst_of (t : Fin cfg1.N) (h0 : ¬t.val % 8 = 0) : ¬isFirst (grid1.coords t) := fun h => h0 ((first_iff t).mp h)
theorem isLast_of (t : Fin cfg1.N) (h7 : t.val % 8 = 7) : isLast (grid1.coords t) := (last_iff t).mpr h7
theorem notLast_of (t : Fin cfg1.N) (h7 : ¬t.val % 8 = 7) : ¬isLast (grid1.coords t) := fun h => h7 ((last_iff t).mp h)
theorem notLast_of_first (t : Fin cfg1.N) (h0 : t.val % 8 = 0) : ¬isLast (grid1.coords t) :=
  notLast_of t (by omega)
theorem prevLt (t : Fin cfg1.N) : t.val - 1 < cfg1.N := Nat.lt_of_le_of_lt (Nat.sub_le _ _) t.isLt

variable (V : (c : Dev nD) → (b : Ref sig .tc) → Buf (Elt F) ((c : Thread nD τ).loc b))

/-! ## The cases at a grid point, on the point's memrefs and input blocks -/

def wFirstAt (c : Dev nD) (t : Fin cfg1.N) (h0 : t.val % 8 = 0) : Vec F S1x4096 .f32 :=
  wFirst c (grid1.coords t) (ms0 t) (hs0 t) (ms1 t) (hs1 t) (ms2 t) (hs2 t) scW (Memref.isWhole_whole _) scN (Memref.isWhole_whole _) (isFirst_of t h0) (notLast_of_first t h0) (blk V c 0 t) (blk V c 1 t)
def nFirstAt (c : Dev nD) (t : Fin cfg1.N) (h0 : t.val % 8 = 0) : Vec F S32x4096 .f32 :=
  nFirst c (grid1.coords t) (ms0 t) (hs0 t) (ms1 t) (hs1 t) (ms2 t) (hs2 t) scW (Memref.isWhole_whole _) scN (Memref.isWhole_whole _) (isFirst_of t h0) (notLast_of_first t h0) (blk V c 0 t) (blk V c 1 t)
def wMidAt (c : Dev nD) (t : Fin cfg1.N) (h0 : ¬t.val % 8 = 0) (h7 : ¬t.val % 8 = 7) (s5 : Vec F S1x4096 .f32) (s6 : Vec F S32x4096 .f32) : Vec F S1x4096 .f32 :=
  wMid c (grid1.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def nMidAt (c : Dev nD) (t : Fin cfg1.N) (h0 : ¬t.val % 8 = 0) (h7 : ¬t.val % 8 = 7) (s5 : Vec F S1x4096 .f32) (s6 : Vec F S32x4096 .f32) : Vec F S32x4096 .f32 :=
  nMid c (grid1.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def oLastAt (c : Dev nD) (t : Fin cfg1.N) (h0 : ¬t.val % 8 = 0) (h7 : t.val % 8 = 7) (s5 : Vec F S1x4096 .f32) (s6 : Vec F S32x4096 .f32) : Vec F S1x32x4096 .f32 :=
  oLast c (grid1.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def wLastAt (c : Dev nD) (t : Fin cfg1.N) (h0 : ¬t.val % 8 = 0) (h7 : t.val % 8 = 7) (s5 : Vec F S1x4096 .f32) (s6 : Vec F S32x4096 .f32) : Vec F S1x4096 .f32 :=
  wLast c (grid1.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def nLastAt (c : Dev nD) (t : Fin cfg1.N) (h0 : ¬t.val % 8 = 0) (h7 : t.val % 8 = 7) (s5 : Vec F S1x4096 .f32) (s6 : Vec F S32x4096 .f32) : Vec F S32x4096 .f32 :=
  nLast c (grid1.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6

/-! ## The accumulators after each point -/

/-- The column-weight accumulator and the numerator accumulator after the body at position `n`: restarted at a batch
    entry's first tile, otherwise this tile's contribution added to what the point before left. -/
def accAt (c : Dev nD) : (n : ℕ) → n < cfg1.N → Vec F S1x4096 .f32 × Vec F S32x4096 .f32
  | 0, hn => (wFirstAt V c ⟨0, hn⟩ (Nat.zero_mod _), nFirstAt V c ⟨0, hn⟩ (Nat.zero_mod _))
  | n + 1, hn =>
    if h0 : (n + 1) % 8 = 0 then (wFirstAt V c ⟨n + 1, hn⟩ h0, nFirstAt V c ⟨n + 1, hn⟩ h0)
    else if h7 : (n + 1) % 8 = 7 then
      (wLastAt V c ⟨n + 1, hn⟩ h0 h7 (accAt c n (Nat.lt_of_succ_lt hn)).1 (accAt c n (Nat.lt_of_succ_lt hn)).2,
       nLastAt V c ⟨n + 1, hn⟩ h0 h7 (accAt c n (Nat.lt_of_succ_lt hn)).1 (accAt c n (Nat.lt_of_succ_lt hn)).2)
    else
      (wMidAt V c ⟨n + 1, hn⟩ h0 h7 (accAt c n (Nat.lt_of_succ_lt hn)).1 (accAt c n (Nat.lt_of_succ_lt hn)).2,
       nMidAt V c ⟨n + 1, hn⟩ h0 h7 (accAt c n (Nat.lt_of_succ_lt hn)).1 (accAt c n (Nat.lt_of_succ_lt hn)).2)

theorem accAt_first (c : Dev nD) (t : Fin cfg1.N) (h0 : t.val % 8 = 0) :
    accAt V c t.val t.isLt = (wFirstAt V c t h0, nFirstAt V c t h0) := by
  obtain ⟨n, hn⟩ := t
  cases n with
  | zero => exact rfl
  | succ n => exact (dif_pos h0).trans rfl
theorem accAt_mid (c : Dev nD) (t : Fin cfg1.N) (h0 : ¬t.val % 8 = 0) (h7 : ¬t.val % 8 = 7) :
    accAt V c t.val t.isLt = (wMidAt V c t h0 h7 (accAt V c (t.val - 1) (prevLt t)).1 (accAt V c (t.val - 1) (prevLt t)).2,
      nMidAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_neg h7).trans rfl)
theorem accAt_last (c : Dev nD) (t : Fin cfg1.N) (h0 : ¬t.val % 8 = 0) (h7 : t.val % 8 = 7) :
    accAt V c t.val t.isLt = (wLastAt V c t h0 h7 (accAt V c (t.val - 1) (prevLt t)).1 (accAt V c (t.val - 1) (prevLt t)).2,
      nLastAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_pos h7).trans rfl)

/-- What the output window's staging buffer holds after the body at point `t`: at a last tile the stored block, from
    the accumulators as the tile before left them; elsewhere nothing is stored and the value is not consulted. -/
def outAt (c : Dev nD) (t : Fin cfg1.N) : Vec F S1x32x4096 .f32 :=
  if h7 : t.val % 8 = 7 then
    oLastAt V c t (by omega) h7 (accAt V c (t.val - 1) (prevLt t)).1 (accAt V c (t.val - 1) (prevLt t)).2
  else vOut.read (Elt F) vOut.junk
theorem outAt_last (c : Dev nD) (t : Fin cfg1.N) (h0 : ¬t.val % 8 = 0) (h7 : t.val % 8 = 7) :
    outAt V c t = oLastAt V c t h0 h7 (accAt V c (t.val - 1) (prevLt t)).1 (accAt V c (t.val - 1) (prevLt t)).2 := by
  unfold outAt; exact dif_pos h7

/-! ## The invariant between points -/

/-- Before position `n`: at the region's entry every scoped buffer no window stages at anything; afterwards the two
    accumulators at what the point before left, the others at anything; the generator register at some state. -/
def PhiS (c : Dev nD) : (n : ℕ) → n ≤ cfg1.N → sProp 𝕄
  | 0, _ => Pipeline.ΦA spec1 c
  | n + 1, hn => iprop(iprop(owns (c : Thread nD τ) scW fullShare (accAt V c n hn).1 ∗ owns (c : Thread nD τ) scN fullShare (accAt V c n hn).2 ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scW fullShare (accAt V c n hn).1 ∗ owns (c : Thread nD τ) scN fullShare (accAt V c n hn).2 ∗ others c) ∗ (∃ r, prngReg c r)) := rfl
theorem PhiS_pos (c : Dev nD) (n : ℕ) (h : n ≤ cfg1.N) (hz : n ≠ 0) :
    PhiS V c n h = iprop(iprop(owns (c : Thread nD τ) scW fullShare (accAt V c (n - 1) (by omega)).1 ∗ owns (c : Thread nD τ) scN fullShare (accAt V c (n - 1) (by omega)).2 ∗ others c) ∗ (∃ r, prngReg c r)) := by
  cases n with
  | zero => exact absurd rfl hz
  | succ n => rfl

/-- Whatever the position, the invariant holds the two accumulators at some contents. -/
theorem PhiS_any (c : Dev nD) (n : ℕ) (h : n ≤ cfg1.N) :
    PhiS V c n h ⊢ iprop(iprop((∃ d, owns (c : Thread nD τ) scW fullShare d) ∗ (∃ d, owns (c : Thread nD τ) scN fullShare d) ∗ others c) ∗ (∃ r, prngReg c r)) := by
  by_cases hz : n = 0
  · rw [PhiS_zero V c n h hz, PhiA_eq]; try exact Idealize.SL.BI.Entails.refl _
  · rw [PhiS_pos V c n h hz]
    iintro ⟨⟨HW, HN, Ho⟩, Hg⟩
    isplitl [HW HN Ho]
    · isplitl [HW]; · iexists _; iexact HW
      isplitl [HN]; · iexists _; iexact HN
      iexact Ho
    iexact Hg

/-! ## The proof data -/

/-- Region 1's proof data on core `c`: the arrays as the region finds them; after the body each input's buffer at its
    block and the output's at `outAt`; the invariant `PhiS`; the shared input array held at its two halves, the output
    array outright; nothing owed. -/
def dat0 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outAt V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat0 V c).A w = V c (Pipeline.arrRef spec1 w) := by dsimp only [dat0]
theorem q_eq0 (c : Dev nD) : (dat0 V c).q 0 = fullShare.left := by dsimp only [dat0]
theorem q_eq1 (c : Dev nD) : (dat0 V c).q 1 = fullShare.right := by dsimp only [dat0]
theorem Phi_castSucc (c : Dev nD) (t : Fin cfg1.N) : (dat0 V c).Φ t.castSucc = PhiS V c t.val (Nat.le_of_lt t.isLt) := by
  dsimp only [dat0]; try simp only [Fin.coe_castSucc]
theorem after0 (c : Dev nD) (t : Fin cfg1.N) : (dat0 V c).after 0 t = blk V c 0 t := by dsimp only [dat0]
theorem after1 (c : Dev nD) (t : Fin cfg1.N) : (dat0 V c).after 1 t = blk V c 1 t := by dsimp only [dat0]
theorem after2 (c : Dev nD) (t : Fin cfg1.N) : (dat0 V c).after 2 t = outAt V c t := by dsimp only [dat0]
theorem before0 (c : Dev nD) (t : Fin cfg1.N) (d) : (dat0 V c).before 0 t d = blk V c 0 t :=
  before_in0 V (dat0 V c) (A_eq V c 0) (after0 V c) t d
theorem before1 (c : Dev nD) (t : Fin cfg1.N) (d) : (dat0 V c).before 1 t d = blk V c 1 t :=
  before_in1 V (dat0 V c) (A_eq V c 1) (after1 V c) t d

end Cert.KernelIdeal.Hand.R1

end
-- ==== Proof.Hand.R1.Obl.lean ====
/-
  Region 1's body obligation. At a point the tile number says which case the body is in; the input windows'
  buffers hold their blocks; the invariant hands the body the two accumulators (at what the point before left, or
  at anything at the region's first point) and takes them back at this point's contents; off a last tile the
  output window's buffer is handed back as it was found.
-/
import proofs.«166501_j24086176596062_1_alg».proof.Proof.Hand.R1.Body

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg1.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in0 t], after0]
  rw [show (dat0 V c).leavesExact 1 t = owns (c : Thread nD τ) (ms1 t) fullShare ((dat0 V c).after 1 t) from by
    unfold Dat.leavesExact; rw [live_in1 t], after1]
  rw [Phi_castSucc V c t]
  have hN : t.val < 32 := lt_of_lt_of_eq t.isLt (show cfg1.N = 32 from N_1)
  by_cases h0 : t.val % 8 = 0
  · -- a batch entry's first tile
    have hL := notLast_of_first t h0
    rw [Dat.leavesExact_idle (dat0 V c) 2 t (idle_out t hL) (noflush_out t hL)]
    rw [accAt_first V c t h0]
    unfold wFirstAt nFirstAt wFirst nFirst; (try dsimp only)
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HW, HN, Hoth⟩, Hg⟩
    iapply ((runFirst c (grid1.coords t) _ _ _ _ _ _ _ _ _ _ (isFirst_of t h0) hL (blk V c 0 t) (blk V c 1 t)).2.2 _ Set.univ _)
    isplitl [H0]; · iexact H0
    isplitl [H1]; · iexact H1
    isplitl [H2]; · iexact H2
    isplitl [HW]; · iexact HW
    isplitl [HN]; · iexact HN
    iintro ⟨H0, H1, H2, ⟨%eW, HW⟩, ⟨%eN, HN⟩⟩
    isplitl [HW HN Hoth Hg]
    · isplitl [HW HN Hoth]
      · isplitl [HW]
        · unfold owns; iexists _; isplitr
          swap; · iexact HW
          ipureintro; exact View.read_writes_of_cover _ _ _ _ _ (coverW_first c _ _ _ _ _ _ _ _ _ _ _ _ _ _ _)
        isplitl [HN]
        · unfold owns; iexists _; isplitr
          swap; · iexact HN
          ipureintro; exact View.read_writes_of_cover _ _ _ _ _ (coverN_first c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz]
    by_cases h7 : t.val % 8 = 7
    · -- a batch entry's last tile
      have hL := isLast_of t h7
      rw [show (dat0 V c).leavesExact 2 t = owns (c : Thread nD τ) (ms2 t) fullShare ((dat0 V c).after 2 t) from by
        unfold Dat.leavesExact; rw [live_out t hL], after2, outAt_last V c t h0 h7]
      rw [accAt_last V c t h0 h7]
      unfold oLastAt wLastAt nLastAt oLast wLast nLast; (try dsimp only)
      iintro ⟨⟨⟨HW, HN, Hoth⟩, Hg⟩, Ho, ⟨%d0, H0⟩, ⟨%d1, H1⟩, ⟨%d2, H2⟩⟩
      iapply ((runLast c (grid1.coords t) _ _ _ _ _ _ _ _ _ _ (notFirst_of t h0) hL (blk V c 0 t) (blk V c 1 t) _ _).2.2.2 Set.univ _)
      isplitl [H0]; · iexact H0
      isplitl [H1]; · iexact H1
      isplitl [H2]; · iexists _; iexact H2
      isplitl [HW]; · iexact HW
      isplitl [HN]; · iexact HN
      iintro ⟨H0, H1, ⟨%eO, H2⟩, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_last c _ _ _ _ _ _ _ _ _ _ _ _ _ _ _ _ _)
          isplitl [HN]
          · unfold owns; iexists _; isplitr
            swap; · iexact HN
            ipureintro; exact View.read_writes_of_cover _ _ _ _ _ (coverN_last c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hL := notLast_of t h7
      rw [Dat.leavesExact_idle (dat0 V c) 2 t (idle_out t hL) (noflush_out t hL)]
      rw [accAt_mid V c t h0 h7]
      unfold wMidAt nMidAt wMid nMid; (try dsimp only)
      iintro ⟨⟨⟨HW, HN, Hoth⟩, Hg⟩, Ho, ⟨%d0, H0⟩, ⟨%d1, H1⟩, ⟨%d2, H2⟩⟩
      iapply ((runMid c (grid1.coords t) _ _ _ _ _ _ _ _ _ _ (notFirst_of t h0) hL (blk V c 0 t) (blk V c 1 t) _ _).2.2 _ Set.univ _)
      isplitl [H0]; · iexact H0
      isplitl [H1]; · iexact H1
      isplitl [H2]; · iexact H2
      isplitl [HW]; · iexact HW
      isplitl [HN]; · iexact HN
      iintro ⟨H0, H1, H2, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_mid c _ _ _ _ _ _ _ _ _ _ _ _ _ _ _ _ _)
          isplitl [HN]
          · unfold owns; iexists _; isplitr
            swap; · iexact HN
            ipureintro; exact View.read_writes_of_cover _ _ _ _ _ (coverN_mid c _ _ _ _ _ _ _ _ _ _ _ _ _ _ _ _ _)
          iexact Hoth
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W1, bigSep_W1]
  exact sound_body V c t

/-- What the launch hands the region is the invariant before the first point. -/
theorem hin0 (c : Dev nD) : Pipeline.ΦA spec1 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's entry invariant back: the accumulators' contents are forgotten. -/
theorem hout0 (c : Dev nD) : (dat0 V c).Φ (Fin.last cfg1.N) ⊢ Pipeline.ΦA spec1 c := by
  rw [show (dat0 V c).Φ (Fin.last cfg1.N) = PhiS V c (Fin.last cfg1.N).val (Nat.le_of_lt_succ (Fin.last cfg1.N).isLt) from rfl, PhiA_eq]
  exact PhiS_any V c _ _

end Cert.KernelIdeal.Hand.R1

end
-- ==== Proof.Hand.R2.Base.lean ====
/-
  Region 2 (the third mean-shift step), the part every control case shares.

  The grid is 4 batch entries × 8 tiles of the reduction axis, walked row-major: point `t` is batch `t / 8`,
  tile `t % 8`. The body has two branches on the tile number: at tile 0 it zeroes the two accumulators, at tile 7
  it divides and stores the output block. So a point is in one of three cases: the first tile of a batch entry
  (zero, then accumulate), a middle tile (accumulate), the last tile (accumulate, then divide and store). The
  output window is stored only at a last tile and written back only there; elsewhere it is idle.
-/
import proofs.«166501_j24086176596062_1_alg».proof.Proof.Gen.KernelIdeal.Launch
import proofs.«166501_j24086176596062_1_alg».proof.Proof.Gen.KernelIdeal.Skeleton
import proofs.«166501_j24086176596062_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The tile number is 0: the accumulators are zeroed first. -/
abbrev isFirst (i : grid2.Coords) : Prop :=
  (Scalar.cmpi .ne (Scalar.extui (Scalar.cmpi .eq (BitVec.ofNat 32 (i 1).val) 0#32)) 0#32) = 1#1
/-- The tile number is 7: the output block is computed and stored. -/
abbrev isLast (i : grid2.Coords) : Prop := k2_cond2 i = 1#1

theorem first_iff : ∀ t : Fin cfg2.N, isFirst (grid2.coords t) ↔ t.val % 8 = 0 :=
  (by decide +kernel : ∀ t : Fin grid2.N, isFirst (grid2.coords t) ↔ t.val % 8 = 0)
theorem last_iff : ∀ t : Fin cfg2.N, isLast (grid2.coords t) ↔ t.val % 8 = 7 :=
  (by decide +kernel : ∀ t : Fin grid2.N, isLast (grid2.coords t) ↔ t.val % 8 = 7)

/-! ## Where the windows are idle -/

theorem live_in0 : ∀ t : Fin cfg2.N, cfg2.idle 0 (grid2.coords t) = false := by decide +kernel
theorem live_in1 : ∀ t : Fin cfg2.N, cfg2.idle 1 (grid2.coords t) = false := by decide +kernel
/-- Off a last tile the output window is idle and is not written back. -/
theorem idle_out : ∀ t : Fin cfg2.N, ¬isLast (grid2.coords t) → cfg2.idle 2 (grid2.coords t) = true := by decide +kernel
theorem noflush_out : ∀ t : Fin cfg2.N, ¬isLast (grid2.coords t) → (cfg2.win 2).flush t = false := by decide +kernel
/-- At a last tile it is live. -/
theorem live_out : ∀ t : Fin cfg2.N, isLast (grid2.coords t) → cfg2.idle 2 (grid2.coords t) = false := by decide +kernel

/-! ## The memrefs the body is called with -/

abbrev ms0 (t : Fin cfg2.N) : Memref sig .tc .vmem S1x32x4096 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x32x512 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x32x4096 .f32 := win2_2.stage (cfg2.slots t 2)
abbrev hs2 (t : Fin cfg2.N) : (ms2 t).IsWhole := hstage2_2 ((cfg2.slots t 2).cast nbuf2_2)
/-- The column-weight accumulator and the numerator accumulator: scratch buffers of the kernel's own. -/
abbrev scW : Memref sig .tc .vmem S1x4096 .f32 := Memref.whole cc2_scratch0
abbrev scN : Memref sig .tc .vmem S32x4096 .f32 := Memref.whole cc2_scratch1
/-- Views through which the contents of the output block and of the two accumulators are stated. -/
abbrev vOut : View sig .tc .vmem S1x32x4096 .f32 := (Memref.whole cc2_stg2_0 : Memref sig .tc .vmem S1x32x4096 .f32).view
abbrev vW : View sig .tc .vmem S1x4096 .f32 := scW.view
abbrev vN : View sig .tc .vmem S32x4096 .f32 := scN.view

/-- The scoped buffers no window stages, other than the two accumulators: the other regions' staging and scratch
    buffers, each whole at some contents. The body never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers no window of this region stages, the region's two accumulators first. -/
theorem scopedRest_own (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ others c) := by
  unfold others
  exact Pipeline.scopedRest_eq_of_list spec2 c [cc2_scratch0, cc2_scratch1, cc0_stg0_0, cc0_stg0_1, cc0_stg1_0, cc0_stg1_1, cc0_stg2_0, cc0_stg2_1, cc0_scratch0, cc0_scratch1, cc1_stg0_0, cc1_stg0_1, cc1_stg1_0, cc1_stg1_1, cc1_stg2_0, cc1_stg2_1, cc1_scratch0, cc1_scratch1] (by decide) (by decide)

/-- The region's invariant at entry and exit, with the two accumulators as memrefs owned at some contents. -/
theorem PhiA_eq (c : Dev nD) :
    (Pipeline.ΦA spec2 c : sProp 𝕄)
      = iprop(iprop((∃ d, owns (c : Thread nD τ) scW fullShare d) ∗ (∃ d, owns (c : Thread nD τ) scN fullShare d) ∗ others c) ∗ (∃ r, prngReg c r)) := by
  unfold Pipeline.ΦA; rw [scopedRest_own]; simp only [scW, scN, owns_whole]; try rfl

/-! ## The input windows' blocks -/

variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the body leaves
    it in place, and where it is not refetched the block index has not moved. -/
theorem before_in0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

end Cert.KernelIdeal.Hand.R2

end
-- ==== Proof.Hand.R2.RunFirst.lean ====
/-
  Region 2, a batch entry's FIRST tile: the two accumulators are zeroed, then this tile's column weights and
  numerators are added into them. The output block is not touched.
-/
import proofs.«166501_j24086176596062_1_alg».proof.Proof.Hand.R2.Base

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first tile, on whole memrefs: the input blocks at `x2`, `x3` and the output buffer, at any contents, are left as
    found; each accumulator, whatever it held, ends with the pieces `LW`, `LN` written — the pieces the run finds. -/
noncomputable def runFirst (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : isFirst i) (hL : ¬isLast i)
    (x2 : Vec F S1x32x4096 .f32) (x3 : Vec F S1x32x512 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc2__mean_shift_step_kernel i arg2 harg2 arg3 harg3 arg4 harg4 arg5 harg5 arg6 harg6) K } := by
  refine ⟨?_, ?_, fun x4 E K => ?run⟩
  case run =>
    simp only [cc2__mean_shift_step_kernel_eq_skeleton]; unfold cc2__mean_shift_step_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand.R2

end
-- ==== Proof.Hand.R2.RunMid.lean ====
/-
  Region 2, a MIDDLE tile of a batch entry: this tile's column weights and numerators are added into the
  accumulators, which hold what the tile before left. The output block is not touched.
-/
import proofs.«166501_j24086176596062_1_alg».proof.Proof.Hand.R2.Base

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle tile, on whole memrefs: the input blocks at `x2`, `x3` and the output buffer, at any contents, are left as
    found; each accumulator, found at `s5`, `s6`, ends with the pieces `LW`, `LN` written — the pieces the run finds. -/
noncomputable def runMid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : ¬isLast i)
    (x2 : Vec F S1x32x4096 .f32) (x3 : Vec F S1x32x512 .f32) (s5 : Vec F S1x4096 .f32) (s6 : Vec F S32x4096 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc2__mean_shift_step_kernel i arg2 harg2 arg3 harg3 arg4 harg4 arg5 harg5 arg6 harg6) K } := by
  refine ⟨?_, ?_, fun x4 E K => ?run⟩
  case run =>
    simp only [cc2__mean_shift_step_kernel_eq_skeleton]; unfold cc2__mean_shift_step_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand.R2

end
-- ==== Proof.Hand.R2.RunLast.lean ====
/-
  Region 2, a batch entry's LAST tile: this tile's column weights and numerators are added into the accumulators,
  and then the output block is stored: half the quotient of numerator by column weight plus half the input.
-/
import proofs.«166501_j24086176596062_1_alg».proof.Proof.Hand.R2.Base

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a last tile, on whole memrefs: the input blocks at `x2`, `x3` are left as found; each accumulator,
    found at `s5`, `s6`, ends with the pieces `LW`, `LN` written and the output buffer, whatever it held, with `LO`. -/
noncomputable def runLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : isLast i)
    (x2 : Vec F S1x32x4096 .f32) (x3 : Vec F S1x32x512 .f32) (s5 : Vec F S1x4096 .f32) (s6 : Vec F S32x4096 .f32) :
    Σ' (LO : List (View.Piece (Elt F) S1x32x4096 .f32)) (LW : List (View.Piece (Elt F) S1x4096 .f32)), { LN : List (View.Piece (Elt F) S32x4096 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc2__mean_shift_step_kernel i arg2 harg2 arg3 harg3 arg4 harg4 arg5 harg5 arg6 harg6) K } := by
  refine ⟨?_, ?_, ?_, fun E K => ?run⟩
  case run =>
    simp only [cc2__mean_shift_step_kernel_eq_skeleton]; unfold cc2__mean_shift_step_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.KernelIdeal.Hand.R2

end
-- ==== Proof.Hand.R2.Body.lean ====
/-
  Region 2: what the two accumulators and the output block hold after each grid point, the region's invariant
  between points, its proof data, and the body obligation.

  Within a batch entry the column-weight accumulator after tile `j` holds the sum of the affinities of the first
  `j + 1` tiles' pixels to each column, and the numerator accumulator the matching sums weighted by the features;
  a batch entry's first tile restarts both from zero. The output block is stored at the entry's last tile from the
  accumulators as that tile leaves them. Here these contents are named through the pieces each case's run found;
  their closed forms are read off elsewhere.
-/
import proofs.«166501_j24086176596062_1_alg».proof.Proof.Hand.R2.RunFirst
import proofs.«166501_j24086176596062_1_alg».proof.Proof.Hand.R2.RunMid
import proofs.«166501_j24086176596062_1_alg».proof.Proof.Hand.R2.RunLast

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases' pieces cover the buffers they are stored into -/

theorem coverW_first (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S1x4096.Idx) :
    ∃ pc ∈ (runFirst c i arg2 harg2 arg3 harg3 arg4 harg4 arg5 harg5 arg6 harg6 hF hL x2 x3).1, y ∈ pc.1.set :=
  View.cover_of_tiledL (runFirst c i arg2 harg2 arg3 harg3 arg4 harg4 arg5 harg5 arg6 harg6 hF hL x2 x3).1 S1x4096.size (by sl_kernel_rfl) y
theorem coverN_first (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S32x4096.Idx) :
    ∃ pc ∈ (runFirst c i arg2 harg2 arg3 harg3 arg4 harg4 arg5 harg5 arg6 harg6 hF hL x2 x3).2.1, y ∈ pc.1.set :=
  View.cover_of_tiledL (runFirst c i arg2 harg2 arg3 harg3 arg4 harg4 arg5 harg5 arg6 harg6 hF hL x2 x3).2.1 S32x4096.size (by sl_kernel_rfl) y
theorem coverW_mid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S1x4096.Idx) :
    ∃ pc ∈ (runMid c i arg2 harg2 arg3 harg3 arg4 harg4 arg5 harg5 arg6 harg6 hF hL x2 x3 s5 s6).1, y ∈ pc.1.set :=
  View.cover_of_tiledL (runMid c i arg2 harg2 arg3 harg3 arg4 harg4 arg5 harg5 arg6 harg6 hF hL x2 x3 s5 s6).1 S1x4096.size (by sl_kernel_rfl) y
theorem coverN_mid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S32x4096.Idx) :
    ∃ pc ∈ (runMid c i arg2 harg2 arg3 harg3 arg4 harg4 arg5 harg5 arg6 harg6 hF hL x2 x3 s5 s6).2.1, y ∈ pc.1.set :=
  View.cover_of_tiledL (runMid c i arg2 harg2 arg3 harg3 arg4 harg4 arg5 harg5 arg6 harg6 hF hL x2 x3 s5 s6).2.1 S32x4096.size (by sl_kernel_rfl) y
theorem coverO_last (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x32x4096.Idx) :
    ∃ pc ∈ (runLast c i arg2 harg2 arg3 harg3 arg4 harg4 arg5 harg5 arg6 harg6 hF hL x2 x3 s5 s6).1, y ∈ pc.1.set :=
  View.cover_of_tiledL (runLast c i arg2 harg2 arg3 harg3 arg4 harg4 arg5 harg5 arg6 harg6 hF hL x2 x3 s5 s6).1 S1x32x4096.size (by sl_kernel_rfl) y
theorem coverW_last (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x4096.Idx) :
    ∃ pc ∈ (runLast c i arg2 harg2 arg3 harg3 arg4 harg4 arg5 harg5 arg6 harg6 hF hL x2 x3 s5 s6).2.1, y ∈ pc.1.set :=
  View.cover_of_tiledL (runLast c i arg2 harg2 arg3 harg3 arg4 harg4 arg5 harg5 arg6 harg6 hF hL x2 x3 s5 s6).2.1 S1x4096.size (by sl_kernel_rfl) y
theorem coverN_last (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S32x4096.Idx) :
    ∃ pc ∈ (runLast c i arg2 harg2 arg3 harg3 arg4 harg4 arg5 harg5 arg6 harg6 hF hL x2 x3 s5 s6).2.2.1, y ∈ pc.1.set :=
  View.cover_of_tiledL (runLast c i arg2 harg2 arg3 harg3 arg4 harg4 arg5 harg5 arg6 harg6 hF hL x2 x3 s5 s6).2.2.1 S32x4096.size (by sl_kernel_rfl) y

/-! ## What each case leaves: its pieces read back -/

def wFirst (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S1x4096 .f32 :=
  vW.read (Elt F) (vW.writes (Elt F) vW.junk (runFirst c i arg2 harg2 arg3 harg3 arg4 harg4 arg5 harg5 arg6 harg6 hF hL x2 x3).1)
def nFirst (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S32x4096 .f32 :=
  vN.read (Elt F) (vN.writes (Elt F) vN.junk (runFirst c i arg2 harg2 arg3 harg3 arg4 harg4 arg5 harg5 arg6 harg6 hF hL x2 x3).2.1)
def wMid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runMid c i arg2 harg2 arg3 harg3 arg4 harg4 arg5 harg5 arg6 harg6 hF hL x2 x3 s5 s6).1)
def nMid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runMid c i arg2 harg2 arg3 harg3 arg4 harg4 arg5 harg5 arg6 harg6 hF hL x2 x3 s5 s6).2.1)
def oLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x32x4096 .f32 :=
  vOut.read (Elt F) (vOut.writes (Elt F) vOut.junk (runLast c i arg2 harg2 arg3 harg3 arg4 harg4 arg5 harg5 arg6 harg6 hF hL x2 x3 s5 s6).1)
def wLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runLast c i arg2 harg2 arg3 harg3 arg4 harg4 arg5 harg5 arg6 harg6 hF hL x2 x3 s5 s6).2.1)
def nLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runLast c i arg2 harg2 arg3 harg3 arg4 harg4 arg5 harg5 arg6 harg6 hF hL x2 x3 s5 s6).2.2.1)

/-! ## The tile number of a point decides its case -/

theorem isFirst_of (t : Fin cfg2.N) (h0 : t.val % 8 = 0) : isFirst (grid2.coords t) := (first_iff t).mpr h0
theorem notFirst_of (t : Fin cfg2.N) (h0 : ¬t.val % 8 = 0) : ¬isFirst (grid2.coords t) := fun h => h0 ((first_iff t).mp h)
theorem isLast_of (t : Fin cfg2.N) (h7 : t.val % 8 = 7) : isLast (grid2.coords t) := (last_iff t).mpr h7
theorem notLast_of (t : Fin cfg2.N) (h7 : ¬t.val % 8 = 7) : ¬isLast (grid2.coords t) := fun h => h7 ((last_iff t).mp h)
theorem notLast_of_first (t : Fin cfg2.N) (h0 : t.val % 8 = 0) : ¬isLast (grid2.coords t) :=
  notLast_of t (by omega)
theorem prevLt (t : Fin cfg2.N) : t.val - 1 < cfg2.N := Nat.lt_of_le_of_lt (Nat.sub_le _ _) t.isLt

variable (V : (c : Dev nD) → (b : Ref sig .tc) → Buf (Elt F) ((c : Thread nD τ).loc b))

/-! ## The cases at a grid point, on the point's memrefs and input blocks -/

def wFirstAt (c : Dev nD) (t : Fin cfg2.N) (h0 : t.val % 8 = 0) : Vec F S1x4096 .f32 :=
  wFirst c (grid2.coords t) (ms0 t) (hs0 t) (ms1 t) (hs1 t) (ms2 t) (hs2 t) scW (Memref.isWhole_whole _) scN (Memref.isWhole_whole _) (isFirst_of t h0) (notLast_of_first t h0) (blk V c 0 t) (blk V c 1 t)
def nFirstAt (c : Dev nD) (t : Fin cfg2.N) (h0 : t.val % 8 = 0) : Vec F S32x4096 .f32 :=
  nFirst c (grid2.coords t) (ms0 t) (hs0 t) (ms1 t) (hs1 t) (ms2 t) (hs2 t) scW (Memref.isWhole_whole _) scN (Memref.isWhole_whole _) (isFirst_of t h0) (notLast_of_first t h0) (blk V c 0 t) (blk V c 1 t)
def wMidAt (c : Dev nD) (t : Fin cfg2.N) (h0 : ¬t.val % 8 = 0) (h7 : ¬t.val % 8 = 7) (s5 : Vec F S1x4096 .f32) (s6 : Vec F S32x4096 .f32) : Vec F S1x4096 .f32 :=
  wMid c (grid2.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def nMidAt (c : Dev nD) (t : Fin cfg2.N) (h0 : ¬t.val % 8 = 0) (h7 : ¬t.val % 8 = 7) (s5 : Vec F S1x4096 .f32) (s6 : Vec F S32x4096 .f32) : Vec F S32x4096 .f32 :=
  nMid c (grid2.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def oLastAt (c : Dev nD) (t : Fin cfg2.N) (h0 : ¬t.val % 8 = 0) (h7 : t.val % 8 = 7) (s5 : Vec F S1x4096 .f32) (s6 : Vec F S32x4096 .f32) : Vec F S1x32x4096 .f32 :=
  oLast c (grid2.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def wLastAt (c : Dev nD) (t : Fin cfg2.N) (h0 : ¬t.val % 8 = 0) (h7 : t.val % 8 = 7) (s5 : Vec F S1x4096 .f32) (s6 : Vec F S32x4096 .f32) : Vec F S1x4096 .f32 :=
  wLast c (grid2.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def nLastAt (c : Dev nD) (t : Fin cfg2.N) (h0 : ¬t.val % 8 = 0) (h7 : t.val % 8 = 7) (s5 : Vec F S1x4096 .f32) (s6 : Vec F S32x4096 .f32) : Vec F S32x4096 .f32 :=
  nLast c (grid2.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6

/-! ## The accumulators after each point -/

/-- The column-weight accumulator and the numerator accumulator after the body at position `n`: restarted at a batch
    entry's first tile, otherwise this tile's contribution added to what the point before left. -/
def accAt (c : Dev nD) : (n : ℕ) → n < cfg2.N → Vec F S1x4096 .f32 × Vec F S32x4096 .f32
  | 0, hn => (wFirstAt V c ⟨0, hn⟩ (Nat.zero_mod _), nFirstAt V c ⟨0, hn⟩ (Nat.zero_mod _))
  | n + 1, hn =>
    if h0 : (n + 1) % 8 = 0 then (wFirstAt V c ⟨n + 1, hn⟩ h0, nFirstAt V c ⟨n + 1, hn⟩ h0)
    else if h7 : (n + 1) % 8 = 7 then
      (wLastAt V c ⟨n + 1, hn⟩ h0 h7 (accAt c n (Nat.lt_of_succ_lt hn)).1 (accAt c n (Nat.lt_of_succ_lt hn)).2,
       nLastAt V c ⟨n + 1, hn⟩ h0 h7 (accAt c n (Nat.lt_of_succ_lt hn)).1 (accAt c n (Nat.lt_of_succ_lt hn)).2)
    else
      (wMidAt V c ⟨n + 1, hn⟩ h0 h7 (accAt c n (Nat.lt_of_succ_lt hn)).1 (accAt c n (Nat.lt_of_succ_lt hn)).2,
       nMidAt V c ⟨n + 1, hn⟩ h0 h7 (accAt c n (Nat.lt_of_succ_lt hn)).1 (accAt c n (Nat.lt_of_succ_lt hn)).2)

theorem accAt_first (c : Dev nD) (t : Fin cfg2.N) (h0 : t.val % 8 = 0) :
    accAt V c t.val t.isLt = (wFirstAt V c t h0, nFirstAt V c t h0) := by
  obtain ⟨n, hn⟩ := t
  cases n with
  | zero => exact rfl
  | succ n => exact (dif_pos h0).trans rfl
theorem accAt_mid (c : Dev nD) (t : Fin cfg2.N) (h0 : ¬t.val % 8 = 0) (h7 : ¬t.val % 8 = 7) :
    accAt V c t.val t.isLt = (wMidAt V c t h0 h7 (accAt V c (t.val - 1) (prevLt t)).1 (accAt V c (t.val - 1) (prevLt t)).2,
      nMidAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_neg h7).trans rfl)
theorem accAt_last (c : Dev nD) (t : Fin cfg2.N) (h0 : ¬t.val % 8 = 0) (h7 : t.val % 8 = 7) :
    accAt V c t.val t.isLt = (wLastAt V c t h0 h7 (accAt V c (t.val - 1) (prevLt t)).1 (accAt V c (t.val - 1) (prevLt t)).2,
      nLastAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_pos h7).trans rfl)

/-- What the output window's staging buffer holds after the body at point `t`: at a last tile the stored block, from
    the accumulators as the tile before left them; elsewhere nothing is stored and the value is not consulted. -/
def outAt (c : Dev nD) (t : Fin cfg2.N) : Vec F S1x32x4096 .f32 :=
  if h7 : t.val % 8 = 7 then
    oLastAt V c t (by omega) h7 (accAt V c (t.val - 1) (prevLt t)).1 (accAt V c (t.val - 1) (prevLt t)).2
  else vOut.read (Elt F) vOut.junk
theorem outAt_last (c : Dev nD) (t : Fin cfg2.N) (h0 : ¬t.val % 8 = 0) (h7 : t.val % 8 = 7) :
    outAt V c t = oLastAt V c t h0 h7 (accAt V c (t.val - 1) (prevLt t)).1 (accAt V c (t.val - 1) (prevLt t)).2 := by
  unfold outAt; exact dif_pos h7

/-! ## The invariant between points -/

/-- Before position `n`: at the region's entry every scoped buffer no window stages at anything; afterwards the two
    accumulators at what the point before left, the others at anything; the generator register at some state. -/
def PhiS (c : Dev nD) : (n : ℕ) → n ≤ cfg2.N → sProp 𝕄
  | 0, _ => Pipeline.ΦA spec2 c
  | n + 1, hn => iprop(iprop(owns (c : Thread nD τ) scW fullShare (accAt V c n hn).1 ∗ owns (c : Thread nD τ) scN fullShare (accAt V c n hn).2 ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scW fullShare (accAt V c n hn).1 ∗ owns (c : Thread nD τ) scN fullShare (accAt V c n hn).2 ∗ others c) ∗ (∃ r, prngReg c r)) := rfl
theorem PhiS_pos (c : Dev nD) (n : ℕ) (h : n ≤ cfg2.N) (hz : n ≠ 0) :
    PhiS V c n h = iprop(iprop(owns (c : Thread nD τ) scW fullShare (accAt V c (n - 1) (by omega)).1 ∗ owns (c : Thread nD τ) scN fullShare (accAt V c (n - 1) (by omega)).2 ∗ others c) ∗ (∃ r, prngReg c r)) := by
  cases n with
  | zero => exact absurd rfl hz
  | succ n => rfl

/-- Whatever the position, the invariant holds the two accumulators at some contents. -/
theorem PhiS_any (c : Dev nD) (n : ℕ) (h : n ≤ cfg2.N) :
    PhiS V c n h ⊢ iprop(iprop((∃ d, owns (c : Thread nD τ) scW fullShare d) ∗ (∃ d, owns (c : Thread nD τ) scN fullShare d) ∗ others c) ∗ (∃ r, prngReg c r)) := by
  by_cases hz : n = 0
  · rw [PhiS_zero V c n h hz, PhiA_eq]; try exact Idealize.SL.BI.Entails.refl _
  · rw [PhiS_pos V c n h hz]
    iintro ⟨⟨HW, HN, Ho⟩, Hg⟩
    isplitl [HW HN Ho]
    · isplitl [HW]; · iexists _; iexact HW
      isplitl [HN]; · iexists _; iexact HN
      iexact Ho
    iexact Hg

/-! ## The proof data -/

/-- Region 2's proof data on core `c`: the arrays as the region finds them; after the body each input's buffer at its
    block and the output's at `outAt`; the invariant `PhiS`; the shared input array held at its two halves, the output
    array outright; nothing owed. -/
def dat0 (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outAt V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg2.W) : (dat0 V c).A w = V c (Pipeline.arrRef spec2 w) := by dsimp only [dat0]
theorem q_eq0 (c : Dev nD) : (dat0 V c).q 0 = fullShare.left := by dsimp only [dat0]
theorem q_eq1 (c : Dev nD) : (dat0 V c).q 1 = fullShare.right := by dsimp only [dat0]
theorem Phi_castSucc (c : Dev nD) (t : Fin cfg2.N) : (dat0 V c).Φ t.castSucc = PhiS V c t.val (Nat.le_of_lt t.isLt) := by
  dsimp only [dat0]; try simp only [Fin.coe_castSucc]
theorem after0 (c : Dev nD) (t : Fin cfg2.N) : (dat0 V c).after 0 t = blk V c 0 t := by dsimp only [dat0]
theorem after1 (c : Dev nD) (t : Fin cfg2.N) : (dat0 V c).after 1 t = blk V c 1 t := by dsimp only [dat0]
theorem after2 (c : Dev nD) (t : Fin cfg2.N) : (dat0 V c).after 2 t = outAt V c t := by dsimp only [dat0]
theorem before0 (c : Dev nD) (t : Fin cfg2.N) (d) : (dat0 V c).before 0 t d = blk V c 0 t :=
  before_in0 V (dat0 V c) (A_eq V c 0) (after0 V c) t d
theorem before1 (c : Dev nD) (t : Fin cfg2.N) (d) : (dat0 V c).before 1 t d = blk V c 1 t :=
  before_in1 V (dat0 V c) (A_eq V c 1) (after1 V c) t d

end Cert.KernelIdeal.Hand.R2

end
-- ==== Proof.Hand.R2.Obl.lean ====
/-
  Region 2's body obligation. At a point the tile number says which case the body is in; the input windows'
  buffers hold their blocks; the invariant hands the body the two accumulators (at what the point before left, or
  at anything at the region's first point) and takes them back at this point's contents; off a last tile the
  output window's buffer is handed back as it was found.
-/
import proofs.«166501_j24086176596062_1_alg».proof.Proof.Hand.R2.Body

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg2.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg2.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in0 t], after0]
  rw [show (dat0 V c).leavesExact 1 t = owns (c : Thread nD τ) (ms1 t) fullShare ((dat0 V c).after 1 t) from by
    unfold Dat.leavesExact; rw [live_in1 t], after1]
  rw [Phi_castSucc V c t]
  have hN : t.val < 32 := lt_of_lt_of_eq t.isLt (show cfg2.N = 32 from N_2)
  by_cases h0 : t.val % 8 = 0
  · -- a batch entry's first tile
    have hL := notLast_of_first t h0
    rw [Dat.leavesExact_idle (dat0 V c) 2 t (idle_out t hL) (noflush_out t hL)]
    rw [accAt_first V c t h0]
    unfold wFirstAt nFirstAt wFirst nFirst; (try dsimp only)
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HW, HN, Hoth⟩, Hg⟩
    iapply ((runFirst c (grid2.coords t) _ _ _ _ _ _ _ _ _ _ (isFirst_of t h0) hL (blk V c 0 t) (blk V c 1 t)).2.2 _ Set.univ _)
    isplitl [H0]; · iexact H0
    isplitl [H1]; · iexact H1
    isplitl [H2]; · iexact H2
    isplitl [HW]; · iexact HW
    isplitl [HN]; · iexact HN
    iintro ⟨H0, H1, H2, ⟨%eW, HW⟩, ⟨%eN, HN⟩⟩
    isplitl [HW HN Hoth Hg]
    · isplitl [HW HN Hoth]
      · isplitl [HW]
        · unfold owns; iexists _; isplitr
          swap; · iexact HW
          ipureintro; exact View.read_writes_of_cover _ _ _ _ _ (coverW_first c _ _ _ _ _ _ _ _ _ _ _ _ _ _ _)
        isplitl [HN]
        · unfold owns; iexists _; isplitr
          swap; · iexact HN
          ipureintro; exact View.read_writes_of_cover _ _ _ _ _ (coverN_first c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz]
    by_cases h7 : t.val % 8 = 7
    · -- a batch entry's last tile
      have hL := isLast_of t h7
      rw [show (dat0 V c).leavesExact 2 t = owns (c : Thread nD τ) (ms2 t) fullShare ((dat0 V c).after 2 t) from by
        unfold Dat.leavesExact; rw [live_out t hL], after2, outAt_last V c t h0 h7]
      rw [accAt_last V c t h0 h7]
      unfold oLastAt wLastAt nLastAt oLast wLast nLast; (try dsimp only)
      iintro ⟨⟨⟨HW, HN, Hoth⟩, Hg⟩, Ho, ⟨%d0, H0⟩, ⟨%d1, H1⟩, ⟨%d2, H2⟩⟩
      iapply ((runLast c (grid2.coords t) _ _ _ _ _ _ _ _ _ _ (notFirst_of t h0) hL (blk V c 0 t) (blk V c 1 t) _ _).2.2.2 Set.univ _)
      isplitl [H0]; · iexact H0
      isplitl [H1]; · iexact H1
      isplitl [H2]; · iexists _; iexact H2
      isplitl [HW]; · iexact HW
      isplitl [HN]; · iexact HN
      iintro ⟨H0, H1, ⟨%eO, H2⟩, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_last c _ _ _ _ _ _ _ _ _ _ _ _ _ _ _ _ _)
          isplitl [HN]
          · unfold owns; iexists _; isplitr
            swap; · iexact HN
            ipureintro; exact View.read_writes_of_cover _ _ _ _ _ (coverN_last c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hL := notLast_of t h7
      rw [Dat.leavesExact_idle (dat0 V c) 2 t (idle_out t hL) (noflush_out t hL)]
      rw [accAt_mid V c t h0 h7]
      unfold wMidAt nMidAt wMid nMid; (try dsimp only)
      iintro ⟨⟨⟨HW, HN, Hoth⟩, Hg⟩, Ho, ⟨%d0, H0⟩, ⟨%d1, H1⟩, ⟨%d2, H2⟩⟩
      iapply ((runMid c (grid2.coords t) _ _ _ _ _ _ _ _ _ _ (notFirst_of t h0) hL (blk V c 0 t) (blk V c 1 t) _ _).2.2 _ Set.univ _)
      isplitl [H0]; · iexact H0
      isplitl [H1]; · iexact H1
      isplitl [H2]; · iexact H2
      isplitl [HW]; · iexact HW
      isplitl [HN]; · iexact HN
      iintro ⟨H0, H1, H2, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_mid c _ _ _ _ _ _ _ _ _ _ _ _ _ _ _ _ _)
          isplitl [HN]
          · unfold owns; iexists _; isplitr
            swap; · iexact HN
            ipureintro; exact View.read_writes_of_cover _ _ _ _ _ (coverN_mid c _ _ _ _ _ _ _ _ _ _ _ _ _ _ _ _ _)
          iexact Hoth
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W2, bigSep_W2]
  exact sound_body V c t

/-- What the launch hands the region is the invariant before the first point. -/
theorem hin0 (c : Dev nD) : Pipeline.ΦA spec2 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's entry invariant back: the accumulators' contents are forgotten. -/
theorem hout0 (c : Dev nD) : (dat0 V c).Φ (Fin.last cfg2.N) ⊢ Pipeline.ΦA spec2 c := by
  rw [show (dat0 V c).Φ (Fin.last cfg2.N) = PhiS V c (Fin.last cfg2.N).val (Nat.le_of_lt_succ (Fin.last cfg2.N).isLt) from rfl, PhiA_eq]
  exact PhiS_any V c _ _

end Cert.KernelIdeal.Hand.R2

end
-- ==== Proof.Hand.Shared0.lean ====
/- The glue of region 0 that does not depend on the kernel body, for a layout in which the two input windows read
   ONE array: the array's full points-to is dealt to the two windows as its two halves at the region's entry and
   joined again at its exit (an input window's array is never written), the output window's array is held whole. -/
import proofs.«166501_j24086176596062_1_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
/-- what rides beside the buffers between two items of @main: the generator register at some state, nothing owed -/
abbrev Rst (c : Dev nD) : sProp 𝕄 := iprop((∃ r, prngReg c r) ∗ ∃ W, owes (c : Thread nD τ) (0 : CellTallies nD τ sig Unit) W)
/-- the two halves of the full share: what the two input windows on one array hold it at -/
abbrev qL : PosShare TreeShare := fullShare.left
abbrev qR : PosShare TreeShare := fullShare.right

/-- The distinct buffers behind region 0's three windows: the shared input array and the output array. -/
theorem bigSep_arr0 {M : Type} [URA M] (Φ : Ref sig .tc → sProp M) :
    bigSep (Finset.univ.image (Pipeline.arrRef spec0)) Φ = iprop(Φ main_v0 ∗ Φ main_v1) :=
  bigSep_eq_bigSepL_of_eq [main_v0, main_v1] (by decide) (by decide) Φ

/-- ENTRY for the shared layout: the buffers behind region 0's arrays, whole at V, are the proof data's arrays at
    point 0. The input array's full points-to is dealt to the two input windows as its two halves. -/
theorem arrays_of_arrBufs0 (c : Dev nD) (dat : Pipeline.Dat τ (Elt F) Unit ℕ (UR sig nD τ) ℕ cfg0 c)
    (V : (b : Ref sig .tc) → Buf (Elt F) ((c : Thread nD τ).loc b))
    (hA : ∀ w, dat.A w = V (Pipeline.arrRef spec0 w)) (hq0 : dat.q 0 = qL) (hq1 : dat.q 1 = qR) :
    (Pipeline.arrBufs (Ix := Unit) (Name := ℕ) (U := UR sig nD τ) (Lvl := ℕ) spec0 c V : sProp 𝕄) ⊢ dat.arrays (dat.arrAt · 0) := by
  unfold Pipeline.arrBufs Pipeline.Dat.arrays
  rw [bigSep_arr0, Gen.bigSep_W0]
  dsimp only
  have h0 : dat.arrAt 0 0 = V main_v0 := hA 0
  have h1 : dat.arrAt 1 0 = V main_v0 := hA 1
  have h2 : dat.arrAt 2 0 = V main_v1 := hA 2
  have hs0 : dat.share 0 = qL := by rw [← hq0]; rfl
  have hs1 : dat.share 1 = qR := by rw [← hq1]; rfl
  have hs2 : dat.share 2 = fullShare := rfl
  have hset0 : (View.whole main_v0).set = Finset.univ := (Gen.arr_whole0 0).set_eq_univ
  have hset1 : (View.whole main_v1).set = Finset.univ := (Gen.arr_whole0 2).set_eq_univ
  rw [h0, h1, h2, hs0, hs1, hs2, hset0, hset1]
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- Region 0's arrays at any contents, window by window: the shared input array at its two halves, the output array whole. -/
theorem arrays_eq0 (c : Dev nD) (dat : Pipeline.Dat τ (Elt F) Unit ℕ (UR sig nD τ) ℕ cfg0 c)
    (G : (w : Fin cfg0.W) → Buf (Elt F) ((cfg0.win w).arr.view.loc (c : Thread nD τ)))
    (hq0 : dat.q 0 = qL) (hq1 : dat.q 1 = qR) :
    (dat.arrays G : sProp 𝕄) = iprop((((c : Thread nD τ).loc main_v0) ↦{qL} G 0) ∗ (((c : Thread nD τ).loc main_v0) ↦{qR} G 1)
      ∗ (((c : Thread nD τ).loc main_v1) ↦{fullShare} G 2)) := by
  unfold Pipeline.Dat.arrays
  rw [Gen.bigSep_W0]
  dsimp only
  have hs0 : dat.share 0 = qL := by rw [← hq0]; rfl
  have hs1 : dat.share 1 = qR := by rw [← hq1]; rfl
  have hs2 : dat.share 2 = fullShare := rfl
  have hset0 : (View.whole main_v0).set = Finset.univ := (Gen.arr_whole0 0).set_eq_univ
  have hset1 : (View.whole main_v1).set = Finset.univ := (Gen.arr_whole0 2).set_eq_univ
  rw [hs0, hs1, hs2, hset0, hset1]

/-- EXIT for the shared layout: the arrays after the last point and the unscoped rest are the core's unscoped buffers
    at V updated at the output array. An input window's array is never written, so the two halves of the shared
    input array come back at the entry contents and join into its full points-to. -/
theorem unscopedBufs_of_arrays0 (c : Dev nD) (dat : Pipeline.Dat τ (Elt F) Unit ℕ (UR sig nD τ) ℕ cfg0 c)
    (V V' : (b : Ref sig .tc) → Buf (Elt F) ((c : Thread nD τ).loc b))
    (hA : ∀ w, dat.A w = V (Pipeline.arrRef spec0 w)) (hq0 : dat.q 0 = qL) (hq1 : dat.q 1 = qR)
    (hout : V' main_v1 = dat.arrAt 2 cfg0.N) (hrest : ∀ b, b ≠ main_v1 → V' b = V b) :
    iprop(dat.arrays (dat.arrAt · cfg0.N) ∗ Pipeline.unscopedRest (Ix := Unit) (Name := ℕ) (U := UR sig nD τ) (Lvl := ℕ) spec0 c V) ⊢ (unscopedBufs c V' : sProp 𝕄) := by
  have hu : (unscopedBufs c V' : sProp 𝕄) = iprop(Pipeline.arrBufs spec0 c V' ∗ Pipeline.unscopedRest spec0 c V') :=
    Pipeline.unscopedBufs_split₀ cfgs (0 : Fin 3) Gen.winFacts₀0.arr_unscoped c V'
  have hr : (Pipeline.unscopedRest spec0 c V' : sProp 𝕄) = Pipeline.unscopedRest spec0 c V := by
    unfold Pipeline.unscopedRest
    exact bigSep_congr fun b hb => by
      rw [hrest b fun e => (Finset.mem_sdiff.mp hb).2 (e ▸ Finset.mem_image.mpr ⟨2, Finset.mem_univ _, rfl⟩)]
  have h0 : dat.arrAt 0 cfg0.N = V' main_v0 := ((dat.arrAt_in 0 rfl cfg0.N).trans (hA 0)).trans (hrest main_v0 (by decide)).symm
  have h1 : dat.arrAt 1 cfg0.N = V' main_v0 := ((dat.arrAt_in 1 rfl cfg0.N).trans (hA 1)).trans (hrest main_v0 (by decide)).symm
  rw [hu, hr, arrays_eq0 c dat _ hq0 hq1]
  unfold Pipeline.arrBufs
  rw [bigSep_arr0]
  beta_reduce
  rw [h0, h1, ← hout]
  iintro ⟨⟨Ha, Hb, Hc⟩, Hrest⟩
  isplitr [Hrest]
  · isplitl [Ha Hb]
    · iapply (pointsTo_share (PosShare.mem_left_op_right fullShare)).2
      isplitl [Ha] <;> iassumption
    · iexact Hc
  · iexact Hrest

/-- With no prefetched table the region holds none. -/
theorem prefHeld_none0 (c : Dev nD) (q : Fin (pcfgs (F := F) 0).pre.K → PosShare TreeShare) :
    (Pipeline.prefHeld (Ix := Unit) (Name := ℕ) (U := UR sig nD τ) (Lvl := ℕ) (pcfgs (F := F) 0).pre c q (Gen.adm (F := F) 0).1 : sProp 𝕄) = BI.emp := by
  unfold Pipeline.prefHeld
  rw [Finset.univ_eq_empty, BI.bigSep_empty]

/-- A core owing nothing, whatever pairs its waits recorded, is within a point's bound when that bound excludes no pair. -/
theorem owesAt_of_zero {cfg : Pipeline.Cfg sig Λ₀} (c : Dev nD) (dat : Pipeline.Dat τ (Elt F) Unit ℕ (UR sig nD τ) ℕ cfg c)
    (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, H⟩
  iexists W
  isplitr
  · ipureintro
    intro x _
    exact Or.inl (hr ▸ Set.mem_univ x)
  · iexact H

/-- At a point where the proof data owe nothing, the core owes nothing. -/
theorem zero_of_owesAt {cfg : Pipeline.Cfg sig Λ₀} (c : Dev nD) (dat : Pipeline.Dat τ (Elt F) Unit ℕ (UR sig nD τ) ℕ cfg c)
    (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

set_option backward.isDefEq.respectTransparency.types false in
/-- REGION 0's record from any proof data of the right shape (Vin: every unscoped buffer at the region's entry;
    Vout: at its exit, which differs from Vin at the output array only). -/
def reg0_of (pdats : (p : Fin 3) → (c : Dev nD) → Pipeline.Dat τ (Elt F) Unit ℕ (UR sig nD τ) ℕ (cfgs p) c)
    (Vin Vout : Dev nD → Valuation τ sig (Elt F))
    (hA : ∀ c w, (pdats 0 c).A w = Vin c (Proc.devRef .tc (Pipeline.arrRef spec0 w)))
    (hq0 : ∀ c, (pdats 0 c).q 0 = qL) (hq1 : ∀ c, (pdats 0 c).q 1 = qR)
    (howed : ∀ c t, (pdats 0 c).owed t = 0)
    (hrec : ∀ c, (pdats 0 c).recorded 0 = Set.univ)
    (hbody : ∀ c, Pipeline.BodyObligationLoose (pdats 0 c) (defs₀ (F := F)) 𝒱₀ () Set.univ)
    (hin : ∀ c, Pipeline.ΦA spec0 c ⊢ (pdats 0 c).Φ 0)
    (hout : ∀ c, (pdats 0 c).Φ (Fin.last cfg0.N) ⊢ Pipeline.ΦA spec0 c)
    (hVout : ∀ c, Vout c = Function.update (Vin c) (Proc.devRef .tc main_v1) ((pdats 0 c).arrAt 2 cfg0.N)) :
    Pipeline.RegionSeg (pcfgs (F := F)) Gen.adm pdats () (defs₀ (F := F)) 𝒱₀ L lv 0 where
  win := Gen.winFacts₀0
  block_pos := Gen.block_pos0
  stage_whole := Gen.stage_whole0
  K := PEmpty
  osem k := k.elim
  ho := Pipeline.OwnSemFacts.none _
  hbody := hbody
  hwaits := Pipeline.hwaits_of_owed_zero _ _ _ _ L lv 0 howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    have hsplit : (StableHlo.held (c : Thread nD τ) (Pipeline.ucRefs τ sig) (Vin c) : sProp 𝕄)
        ⊢ iprop((pdats 0 c).arrays ((pdats 0 c).arrAt · 0)
            ∗ Pipeline.unscopedRest (Ix := Unit) (Name := ℕ) (U := UR sig nD τ) (Lvl := ℕ) spec0 c (fun b => Vin c b)) := by
      rw [← Pipeline.unscopedBufs_held (Ix := Unit) (Name := ℕ) (U := UR sig nD τ) (Lvl := ℕ) c (Vin c),
        Pipeline.unscopedBufs_split₀ cfgs (0 : Fin 3) Gen.winFacts₀0.arr_unscoped c (fun b => Vin c b)]
      exact sep_mono (arrays_of_arrBufs0 c (pdats 0 c) (fun b => Vin c b) (hA c) (hq0 c) (hq1 c)) .rfl
    rw [prefHeld_none0]
    iintro ⟨⟨Hh, Hp, HO⟩, -, -⟩
    ihave H := hsplit $$ Hh
    icases H with ⟨Ha, Hrest⟩
    ihave HO' := (owesAt_of_zero c (pdats 0 c) 0 (howed c 0) (hrec c)) $$ HO
    imodintro
    isplitl [Ha]; · iexact Ha
    isplitr; · iempintro
    isplitl [HO']; · iexact HO'
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]
    unfold Pipeline.ΦA
    iintro ⟨Hr, Hp⟩
    isplitl [Hp]; · iexact Hp
    isplitr; · iempintro
    iexact Hr
  hexit c := by
    have hjoin : iprop((pdats 0 c).arrays ((pdats 0 c).arrAt · cfg0.N)
          ∗ Pipeline.unscopedRest (Ix := Unit) (Name := ℕ) (U := UR sig nD τ) (Lvl := ℕ) spec0 c (fun b => Vin c b))
        ⊢ (StableHlo.held (c : Thread nD τ) (Pipeline.ucRefs τ sig) (Vout c) : sProp 𝕄) := by
      rw [← Pipeline.unscopedBufs_held (Ix := Unit) (Name := ℕ) (U := UR sig nD τ) (Lvl := ℕ) c (Vout c)]
      exact unscopedBufs_of_arrays0 c (pdats 0 c) (fun b => Vin c b) (fun b => Vout c b) (hA c) (hq0 c) (hq1 c)
        (by rw [hVout c]; exact Function.update_self _ _ _)
        (fun b hb => by rw [hVout c]; exact Function.update_of_ne (StableHlo.devRef_ne_of_ne hb) _ _)
    iintro ⟨Ha, HO, HY, Hrest⟩
    ihave HO' := (zero_of_owesAt c (pdats 0 c) (Fin.last cfg0.N) (howed c _)) $$ HO
    imodintro
    isplitl [Ha Hrest]
    · iapply hjoin
      isplitl [Ha] <;> iassumption
    isplitl [HY]; · iexact HY
    iexact HO'

section
variable (pdats : (p : Fin 3) → (c : Dev nD) → Pipeline.Dat τ (Elt F) Unit ℕ (UR sig nD τ) ℕ (cfgs p) c)
    (Vin Vout : Dev nD → Valuation τ sig (Elt F))
    (hA : ∀ c w, (pdats 0 c).A w = Vin c (Proc.devRef .tc (Pipeline.arrRef spec0 w)))
    (hq0 : ∀ c, (pdats 0 c).q 0 = qL) (hq1 : ∀ c, (pdats 0 c).q 1 = qR)
    (howed : ∀ c t, (pdats 0 c).owed t = 0)
    (hrec : ∀ c, (pdats 0 c).recorded 0 = Set.univ)
    (hbody : ∀ c, Pipeline.BodyObligationLoose (pdats 0 c) (defs₀ (F := F)) 𝒱₀ () Set.univ)
    (hin : ∀ c, Pipeline.ΦA spec0 c ⊢ (pdats 0 c).Φ 0)
    (hout : ∀ c, (pdats 0 c).Φ (Fin.last cfg0.N) ⊢ Pipeline.ΦA spec0 c)
    (hVout : ∀ c, Vout c = Function.update (Vin c) (Proc.devRef .tc main_v1) ((pdats 0 c).arrAt 2 cfg0.N))

/-- The record is entered from every unscoped buffer at Vin beside the rest, -/
theorem reg0_of_pre (c : Dev nD) : (reg0_of pdats Vin Vout hA hq0 hq1 howed hrec hbody hin hout hVout).pre c
    = iprop(StableHlo.held (c : Thread nD τ) (Pipeline.ucRefs τ sig) (Vin c) ∗ Rst c) := rfl
/-- and left at every unscoped buffer at Vout beside the rest. -/
theorem reg0_of_post (c : Dev nD) : (reg0_of pdats Vin Vout hA hq0 hq1 howed hrec hbody hin hout hVout).post c
    = iprop(StableHlo.held (c : Thread nD τ) (Pipeline.ucRefs τ sig) (Vout c) ∗ Rst c) := rfl
end

end Cert.KernelIdeal.Hand

end
-- ==== Proof.Hand.Shared1.lean ====
/- The glue of region 1 that does not depend on the kernel body, for a layout in which the two input windows read
   ONE array: the array's full points-to is dealt to the two windows as its two halves at the region's entry and
   joined again at its exit (an input window's array is never written), the output window's array is held whole. -/
import proofs.«166501_j24086176596062_1_alg».proof.Proof.Gen.KernelIdeal.Regions
import proofs.«166501_j24086176596062_1_alg».proof.Proof.Hand.Shared0
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- The distinct buffers behind region 1's three windows: the shared input array and the output array. -/
theorem bigSep_arr1 {M : Type} [URA M] (Φ : Ref sig .tc → sProp M) :
    bigSep (Finset.univ.image (Pipeline.arrRef spec1)) Φ = iprop(Φ main_v1 ∗ Φ main_v2) :=
  bigSep_eq_bigSepL_of_eq [main_v1, main_v2] (by decide) (by decide) Φ

/-- ENTRY for the shared layout: the buffers behind region 1's arrays, whole at V, are the proof data's arrays at
    point 0. The input array's full points-to is dealt to the two input windows as its two halves. -/
theorem arrays_of_arrBufs1 (c : Dev nD) (dat : Pipeline.Dat τ (Elt F) Unit ℕ (UR sig nD τ) ℕ cfg1 c)
    (V : (b : Ref sig .tc) → Buf (Elt F) ((c : Thread nD τ).loc b))
    (hA : ∀ w, dat.A w = V (Pipeline.arrRef spec1 w)) (hq0 : dat.q 0 = qL) (hq1 : dat.q 1 = qR) :
    (Pipeline.arrBufs (Ix := Unit) (Name := ℕ) (U := UR sig nD τ) (Lvl := ℕ) spec1 c V : sProp 𝕄) ⊢ dat.arrays (dat.arrAt · 0) := by
  unfold Pipeline.arrBufs Pipeline.Dat.arrays
  rw [bigSep_arr1, Gen.bigSep_W1]
  dsimp only
  have h0 : dat.arrAt 0 0 = V main_v1 := hA 0
  have h1 : dat.arrAt 1 0 = V main_v1 := hA 1
  have h2 : dat.arrAt 2 0 = V main_v2 := hA 2
  have hs0 : dat.share 0 = qL := by rw [← hq0]; rfl
  have hs1 : dat.share 1 = qR := by rw [← hq1]; rfl
  have hs2 : dat.share 2 = fullShare := rfl
  have hset0 : (View.whole main_v1).set = Finset.univ := (Gen.arr_whole1 0).set_eq_univ
  have hset1 : (View.whole main_v2).set = Finset.univ := (Gen.arr_whole1 2).set_eq_univ
  rw [h0, h1, h2, hs0, hs1, hs2, hset0, hset1]
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- Region 1's arrays at any contents, window by window: the shared input array at its two halves, the output array whole. -/
theorem arrays_eq1 (c : Dev nD) (dat : Pipeline.Dat τ (Elt F) Unit ℕ (UR sig nD τ) ℕ cfg1 c)
    (G : (w : Fin cfg1.W) → Buf (Elt F) ((cfg1.win w).arr.view.loc (c : Thread nD τ)))
    (hq0 : dat.q 0 = qL) (hq1 : dat.q 1 = qR) :
    (dat.arrays G : sProp 𝕄) = iprop((((c : Thread nD τ).loc main_v1) ↦{qL} G 0) ∗ (((c : Thread nD τ).loc main_v1) ↦{qR} G 1)
      ∗ (((c : Thread nD τ).loc main_v2) ↦{fullShare} G 2)) := by
  unfold Pipeline.Dat.arrays
  rw [Gen.bigSep_W1]
  dsimp only
  have hs0 : dat.share 0 = qL := by rw [← hq0]; rfl
  have hs1 : dat.share 1 = qR := by rw [← hq1]; rfl
  have hs2 : dat.share 2 = fullShare := rfl
  have hset0 : (View.whole main_v1).set = Finset.univ := (Gen.arr_whole1 0).set_eq_univ
  have hset1 : (View.whole main_v2).set = Finset.univ := (Gen.arr_whole1 2).set_eq_univ
  rw [hs0, hs1, hs2, hset0, hset1]

/-- EXIT for the shared layout: the arrays after the last point and the unscoped rest are the core's unscoped buffers
    at V updated at the output array. An input window's array is never written, so the two halves of the shared
    input array come back at the entry contents and join into its full points-to. -/
theorem unscopedBufs_of_arrays1 (c : Dev nD) (dat : Pipeline.Dat τ (Elt F) Unit ℕ (UR sig nD τ) ℕ cfg1 c)
    (V V' : (b : Ref sig .tc) → Buf (Elt F) ((c : Thread nD τ).loc b))
    (hA : ∀ w, dat.A w = V (Pipeline.arrRef spec1 w)) (hq0 : dat.q 0 = qL) (hq1 : dat.q 1 = qR)
    (hout : V' main_v2 = dat.arrAt 2 cfg1.N) (hrest : ∀ b, b ≠ main_v2 → V' b = V b) :
    iprop(dat.arrays (dat.arrAt · cfg1.N) ∗ Pipeline.unscopedRest (Ix := Unit) (Name := ℕ) (U := UR sig nD τ) (Lvl := ℕ) spec1 c V) ⊢ (unscopedBufs c V' : sProp 𝕄) := by
  have hu : (unscopedBufs c V' : sProp 𝕄) = iprop(Pipeline.arrBufs spec1 c V' ∗ Pipeline.unscopedRest spec1 c V') :=
    Pipeline.unscopedBufs_split₀ cfgs (1 : Fin 3) Gen.winFacts₀1.arr_unscoped c V'
  have hr : (Pipeline.unscopedRest spec1 c V' : sProp 𝕄) = Pipeline.unscopedRest spec1 c V := by
    unfold Pipeline.unscopedRest
    exact bigSep_congr fun b hb => by
      rw [hrest b fun e => (Finset.mem_sdiff.mp hb).2 (e ▸ Finset.mem_image.mpr ⟨2, Finset.mem_univ _, rfl⟩)]
  have h0 : dat.arrAt 0 cfg1.N = V' main_v1 := ((dat.arrAt_in 0 rfl cfg1.N).trans (hA 0)).trans (hrest main_v1 (by decide)).symm
  have h1 : dat.arrAt 1 cfg1.N = V' main_v1 := ((dat.arrAt_in 1 rfl cfg1.N).trans (hA 1)).trans (hrest main_v1 (by decide)).symm
  rw [hu, hr, arrays_eq1 c dat _ hq0 hq1]
  unfold Pipeline.arrBufs
  rw [bigSep_arr1]
  beta_reduce
  rw [h0, h1, ← hout]
  iintro ⟨⟨Ha, Hb, Hc⟩, Hrest⟩
  isplitr [Hrest]
  · isplitl [Ha Hb]
    · iapply (pointsTo_share (PosShare.mem_left_op_right fullShare)).2
      isplitl [Ha] <;> iassumption
    · iexact Hc
  · iexact Hrest

/-- With no prefetched table the region holds none. -/
theorem prefHeld_none1 (c : Dev nD) (q : Fin (pcfgs (F := F) 1).pre.K → PosShare TreeShare) :
    (Pipeline.prefHeld (Ix := Unit) (Name := ℕ) (U := UR sig nD τ) (Lvl := ℕ) (pcfgs (F := F) 1).pre c q (Gen.adm (F := F) 1).1 : sProp 𝕄) = BI.emp := by
  unfold Pipeline.prefHeld
  rw [Finset.univ_eq_empty, BI.bigSep_empty]

set_option backward.isDefEq.respectTransparency.types false in
/-- REGION 1's record from any proof data of the right shape (Vin: every unscoped buffer at the region's entry;
    Vout: at its exit, which differs from Vin at the output array only). -/
def reg1_of (pdats : (p : Fin 3) → (c : Dev nD) → Pipeline.Dat τ (Elt F) Unit ℕ (UR sig nD τ) ℕ (cfgs p) c)
    (Vin Vout : Dev nD → Valuation τ sig (Elt F))
    (hA : ∀ c w, (pdats 1 c).A w = Vin c (Proc.devRef .tc (Pipeline.arrRef spec1 w)))
    (hq0 : ∀ c, (pdats 1 c).q 0 = qL) (hq1 : ∀ c, (pdats 1 c).q 1 = qR)
    (howed : ∀ c t, (pdats 1 c).owed t = 0)
    (hrec : ∀ c, (pdats 1 c).recorded 0 = Set.univ)
    (hbody : ∀ c, Pipeline.BodyObligationLoose (pdats 1 c) (defs₀ (F := F)) 𝒱₀ () Set.univ)
    (hin : ∀ c, Pipeline.ΦA spec1 c ⊢ (pdats 1 c).Φ 0)
    (hout : ∀ c, (pdats 1 c).Φ (Fin.last cfg1.N) ⊢ Pipeline.ΦA spec1 c)
    (hVout : ∀ c, Vout c = Function.update (Vin c) (Proc.devRef .tc main_v2) ((pdats 1 c).arrAt 2 cfg1.N)) :
    Pipeline.RegionSeg (pcfgs (F := F)) Gen.adm pdats () (defs₀ (F := F)) 𝒱₀ L lv 1 where
  win := Gen.winFacts₀1
  block_pos := Gen.block_pos1
  stage_whole := Gen.stage_whole1
  K := PEmpty
  osem k := k.elim
  ho := Pipeline.OwnSemFacts.none _
  hbody := hbody
  hwaits := Pipeline.hwaits_of_owed_zero _ _ _ _ L lv 1 howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    have hsplit : (StableHlo.held (c : Thread nD τ) (Pipeline.ucRefs τ sig) (Vin c) : sProp 𝕄)
        ⊢ iprop((pdats 1 c).arrays ((pdats 1 c).arrAt · 0)
            ∗ Pipeline.unscopedRest (Ix := Unit) (Name := ℕ) (U := UR sig nD τ) (Lvl := ℕ) spec1 c (fun b => Vin c b)) := by
      rw [← Pipeline.unscopedBufs_held (Ix := Unit) (Name := ℕ) (U := UR sig nD τ) (Lvl := ℕ) c (Vin c),
        Pipeline.unscopedBufs_split₀ cfgs (1 : Fin 3) Gen.winFacts₀1.arr_unscoped c (fun b => Vin c b)]
      exact sep_mono (arrays_of_arrBufs1 c (pdats 1 c) (fun b => Vin c b) (hA c) (hq0 c) (hq1 c)) .rfl
    rw [prefHeld_none1]
    iintro ⟨⟨Hh, Hp, HO⟩, -, -⟩
    ihave H := hsplit $$ Hh
    icases H with ⟨Ha, Hrest⟩
    ihave HO' := (owesAt_of_zero c (pdats 1 c) 0 (howed c 0) (hrec c)) $$ HO
    imodintro
    isplitl [Ha]; · iexact Ha
    isplitr; · iempintro
    isplitl [HO']; · iexact HO'
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]
    unfold Pipeline.ΦA
    iintro ⟨Hr, Hp⟩
    isplitl [Hp]; · iexact Hp
    isplitr; · iempintro
    iexact Hr
  hexit c := by
    have hjoin : iprop((pdats 1 c).arrays ((pdats 1 c).arrAt · cfg1.N)
          ∗ Pipeline.unscopedRest (Ix := Unit) (Name := ℕ) (U := UR sig nD τ) (Lvl := ℕ) spec1 c (fun b => Vin c b))
        ⊢ (StableHlo.held (c : Thread nD τ) (Pipeline.ucRefs τ sig) (Vout c) : sProp 𝕄) := by
      rw [← Pipeline.unscopedBufs_held (Ix := Unit) (Name := ℕ) (U := UR sig nD τ) (Lvl := ℕ) c (Vout c)]
      exact unscopedBufs_of_arrays1 c (pdats 1 c) (fun b => Vin c b) (fun b => Vout c b) (hA c) (hq0 c) (hq1 c)
        (by rw [hVout c]; exact Function.update_self _ _ _)
        (fun b hb => by rw [hVout c]; exact Function.update_of_ne (StableHlo.devRef_ne_of_ne hb) _ _)
    iintro ⟨Ha, HO, HY, Hrest⟩
    ihave HO' := (zero_of_owesAt c (pdats 1 c) (Fin.last cfg1.N) (howed c _)) $$ HO
    imodintro
    isplitl [Ha Hrest]
    · iapply hjoin
      isplitl [Ha] <;> iassumption
    isplitl [HY]; · iexact HY
    iexact HO'

section
variable (pdats : (p : Fin 3) → (c : Dev nD) → Pipeline.Dat τ (Elt F) Unit ℕ (UR sig nD τ) ℕ (cfgs p) c)
    (Vin Vout : Dev nD → Valuation τ sig (Elt F))
    (hA : ∀ c w, (pdats 1 c).A w = Vin c (Proc.devRef .tc (Pipeline.arrRef spec1 w)))
    (hq0 : ∀ c, (pdats 1 c).q 0 = qL) (hq1 : ∀ c, (pdats 1 c).q 1 = qR)
    (howed : ∀ c t, (pdats 1 c).owed t = 0)
    (hrec : ∀ c, (pdats 1 c).recorded 0 = Set.univ)
    (hbody : ∀ c, Pipeline.BodyObligationLoose (pdats 1 c) (defs₀ (F := F)) 𝒱₀ () Set.univ)
    (hin : ∀ c, Pipeline.ΦA spec1 c ⊢ (pdats 1 c).Φ 0)
    (hout : ∀ c, (pdats 1 c).Φ (Fin.last cfg1.N) ⊢ Pipeline.ΦA spec1 c)
    (hVout : ∀ c, Vout c = Function.update (Vin c) (Proc.devRef .tc main_v2) ((pdats 1 c).arrAt 2 cfg1.N))

/-- The record is entered from every unscoped buffer at Vin beside the rest, -/
theorem reg1_of_pre (c : Dev nD) : (reg1_of pdats Vin Vout hA hq0 hq1 howed hrec hbody hin hout hVout).pre c
    = iprop(StableHlo.held (c : Thread nD τ) (Pipeline.ucRefs τ sig) (Vin c) ∗ Rst c) := rfl
/-- and left at every unscoped buffer at Vout beside the rest. -/
theorem reg1_of_post (c : Dev nD) : (reg1_of pdats Vin Vout hA hq0 hq1 howed hrec hbody hin hout hVout).post c
    = iprop(StableHlo.held (c : Thread nD τ) (Pipeline.ucRefs τ sig) (Vout c) ∗ Rst c) := rfl
end

end Cert.KernelIdeal.Hand

end
-- ==== Proof.Hand.Shared2.lean ====
/- The glue of region 2 that does not depend on the kernel body, for a layout in which the two input windows read
   ONE array: the array's full points-to is dealt to the two windows as its two halves at the region's entry and
   joined again at its exit (an input window's array is never written), the output window's array is held whole. -/
import proofs.«166501_j24086176596062_1_alg».proof.Proof.Gen.KernelIdeal.Regions
import proofs.«166501_j24086176596062_1_alg».proof.Proof.Hand.Shared0
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- The distinct buffers behind region 2's three windows: the shared input array and the output array. -/
theorem bigSep_arr2 {M : Type} [URA M] (Φ : Ref sig .tc → sProp M) :
    bigSep (Finset.univ.image (Pipeline.arrRef spec2)) Φ = iprop(Φ main_v2 ∗ Φ main_v3) :=
  bigSep_eq_bigSepL_of_eq [main_v2, main_v3] (by decide) (by decide) Φ

/-- ENTRY for the shared layout: the buffers behind region 2's arrays, whole at V, are the proof data's arrays at
    point 0. The input array's full points-to is dealt to the two input windows as its two halves. -/
theorem arrays_of_arrBufs2 (c : Dev nD) (dat : Pipeline.Dat τ (Elt F) Unit ℕ (UR sig nD τ) ℕ cfg2 c)
    (V : (b : Ref sig .tc) → Buf (Elt F) ((c : Thread nD τ).loc b))
    (hA : ∀ w, dat.A w = V (Pipeline.arrRef spec2 w)) (hq0 : dat.q 0 = qL) (hq1 : dat.q 1 = qR) :
    (Pipeline.arrBufs (Ix := Unit) (Name := ℕ) (U := UR sig nD τ) (Lvl := ℕ) spec2 c V : sProp 𝕄) ⊢ dat.arrays (dat.arrAt · 0) := by
  unfold Pipeline.arrBufs Pipeline.Dat.arrays
  rw [bigSep_arr2, Gen.bigSep_W2]
  dsimp only
  have h0 : dat.arrAt 0 0 = V main_v2 := hA 0
  have h1 : dat.arrAt 1 0 = V main_v2 := hA 1
  have h2 : dat.arrAt 2 0 = V main_v3 := hA 2
  have hs0 : dat.share 0 = qL := by rw [← hq0]; rfl
  have hs1 : dat.share 1 = qR := by rw [← hq1]; rfl
  have hs2 : dat.share 2 = fullShare := rfl
  have hset0 : (View.whole main_v2).set = Finset.univ := (Gen.arr_whole2 0).set_eq_univ
  have hset1 : (View.whole main_v3).set = Finset.univ := (Gen.arr_whole2 2).set_eq_univ
  rw [h0, h1, h2, hs0, hs1, hs2, hset0, hset1]
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- Region 2's arrays at any contents, window by window: the shared input array at its two halves, the output array whole. -/
theorem arrays_eq2 (c : Dev nD) (dat : Pipeline.Dat τ (Elt F) Unit ℕ (UR sig nD τ) ℕ cfg2 c)
    (G : (w : Fin cfg2.W) → Buf (Elt F) ((cfg2.win w).arr.view.loc (c : Thread nD τ)))
    (hq0 : dat.q 0 = qL) (hq1 : dat.q 1 = qR) :
    (dat.arrays G : sProp 𝕄) = iprop((((c : Thread nD τ).loc main_v2) ↦{qL} G 0) ∗ (((c : Thread nD τ).loc main_v2) ↦{qR} G 1)
      ∗ (((c : Thread nD τ).loc main_v3) ↦{fullShare} G 2)) := by
  unfold Pipeline.Dat.arrays
  rw [Gen.bigSep_W2]
  dsimp only
  have hs0 : dat.share 0 = qL := by rw [← hq0]; rfl
  have hs1 : dat.share 1 = qR := by rw [← hq1]; rfl
  have hs2 : dat.share 2 = fullShare := rfl
  have hset0 : (View.whole main_v2).set = Finset.univ := (Gen.arr_whole2 0).set_eq_univ
  have hset1 : (View.whole main_v3).set = Finset.univ := (Gen.arr_whole2 2).set_eq_univ
  rw [hs0, hs1, hs2, hset0, hset1]

/-- EXIT for the shared layout: the arrays after the last point and the unscoped rest are the core's unscoped buffers
    at V updated at the output array. An input window's array is never written, so the two halves of the shared
    input array come back at the entry contents and join into its full points-to. -/
theorem unscopedBufs_of_arrays2 (c : Dev nD) (dat : Pipeline.Dat τ (Elt F) Unit ℕ (UR sig nD τ) ℕ cfg2 c)
    (V V' : (b : Ref sig .tc) → Buf (Elt F) ((c : Thread nD τ).loc b))
    (hA : ∀ w, dat.A w = V (Pipeline.arrRef spec2 w)) (hq0 : dat.q 0 = qL) (hq1 : dat.q 1 = qR)
    (hout : V' main_v3 = dat.arrAt 2 cfg2.N) (hrest : ∀ b, b ≠ main_v3 → V' b = V b) :
    iprop(dat.arrays (dat.arrAt · cfg2.N) ∗ Pipeline.unscopedRest (Ix := Unit) (Name := ℕ) (U := UR sig nD τ) (Lvl := ℕ) spec2 c V) ⊢ (unscopedBufs c V' : sProp 𝕄) := by
  have hu : (unscopedBufs c V' : sProp 𝕄) = iprop(Pipeline.arrBufs spec2 c V' ∗ Pipeline.unscopedRest spec2 c V') :=
    Pipeline.unscopedBufs_split₀ cfgs (2 : Fin 3) Gen.winFacts₀2.arr_unscoped c V'
  have hr : (Pipeline.unscopedRest spec2 c V' : sProp 𝕄) = Pipeline.unscopedRest spec2 c V := by
    unfold Pipeline.unscopedRest
    exact bigSep_congr fun b hb => by
      rw [hrest b fun e => (Finset.mem_sdiff.mp hb).2 (e ▸ Finset.mem_image.mpr ⟨2, Finset.mem_univ _, rfl⟩)]
  have h0 : dat.arrAt 0 cfg2.N = V' main_v2 := ((dat.arrAt_in 0 rfl cfg2.N).trans (hA 0)).trans (hrest main_v2 (by decide)).symm
  have h1 : dat.arrAt 1 cfg2.N = V' main_v2 := ((dat.arrAt_in 1 rfl cfg2.N).trans (hA 1)).trans (hrest main_v2 (by decide)).symm
  rw [hu, hr, arrays_eq2 c dat _ hq0 hq1]
  unfold Pipeline.arrBufs
  rw [bigSep_arr2]
  beta_reduce
  rw [h0, h1, ← hout]
  iintro ⟨⟨Ha, Hb, Hc⟩, Hrest⟩
  isplitr [Hrest]
  · isplitl [Ha Hb]
    · iapply (pointsTo_share (PosShare.mem_left_op_right fullShare)).2
      isplitl [Ha] <;> iassumption
    · iexact Hc
  · iexact Hrest

/-- With no prefetched table the region holds none. -/
theorem prefHeld_none2 (c : Dev nD) (q : Fin (pcfgs (F := F) 2).pre.K → PosShare TreeShare) :
    (Pipeline.prefHeld (Ix := Unit) (Name := ℕ) (U := UR sig nD τ) (Lvl := ℕ) (pcfgs (F := F) 2).pre c q (Gen.adm (F := F) 2).1 : sProp 𝕄) = BI.emp := by
  unfold Pipeline.prefHeld
  rw [Finset.univ_eq_empty, BI.bigSep_empty]

set_option backward.isDefEq.respectTransparency.types false in
/-- REGION 2's record from any proof data of the right shape (Vin: every unscoped buffer at the region's entry;
    Vout: at its exit, which differs from Vin at the output array only). -/
def reg2_of (pdats : (p : Fin 3) → (c : Dev nD) → Pipeline.Dat τ (Elt F) Unit ℕ (UR sig nD τ) ℕ (cfgs p) c)
    (Vin Vout : Dev nD → Valuation τ sig (Elt F))
    (hA : ∀ c w, (pdats 2 c).A w = Vin c (Proc.devRef .tc (Pipeline.arrRef spec2 w)))
    (hq0 : ∀ c, (pdats 2 c).q 0 = qL) (hq1 : ∀ c, (pdats 2 c).q 1 = qR)
    (howed : ∀ c t, (pdats 2 c).owed t = 0)
    (hrec : ∀ c, (pdats 2 c).recorded 0 = Set.univ)
    (hbody : ∀ c, Pipeline.BodyObligationLoose (pdats 2 c) (defs₀ (F := F)) 𝒱₀ () Set.univ)
    (hin : ∀ c, Pipeline.ΦA spec2 c ⊢ (pdats 2 c).Φ 0)
    (hout : ∀ c, (pdats 2 c).Φ (Fin.last cfg2.N) ⊢ Pipeline.ΦA spec2 c)
    (hVout : ∀ c, Vout c = Function.update (Vin c) (Proc.devRef .tc main_v3) ((pdats 2 c).arrAt 2 cfg2.N)) :
    Pipeline.RegionSeg (pcfgs (F := F)) Gen.adm pdats () (defs₀ (F := F)) 𝒱₀ L lv 2 where
  win := Gen.winFacts₀2
  block_pos := Gen.block_pos2
  stage_whole := Gen.stage_whole2
  K := PEmpty
  osem k := k.elim
  ho := Pipeline.OwnSemFacts.none _
  hbody := hbody
  hwaits := Pipeline.hwaits_of_owed_zero _ _ _ _ L lv 2 howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    have hsplit : (StableHlo.held (c : Thread nD τ) (Pipeline.ucRefs τ sig) (Vin c) : sProp 𝕄)
        ⊢ iprop((pdats 2 c).arrays ((pdats 2 c).arrAt · 0)
            ∗ Pipeline.unscopedRest (Ix := Unit) (Name := ℕ) (U := UR sig nD τ) (Lvl := ℕ) spec2 c (fun b => Vin c b)) := by
      rw [← Pipeline.unscopedBufs_held (Ix := Unit) (Name := ℕ) (U := UR sig nD τ) (Lvl := ℕ) c (Vin c),
        Pipeline.unscopedBufs_split₀ cfgs (2 : Fin 3) Gen.winFacts₀2.arr_unscoped c (fun b => Vin c b)]
      exact sep_mono (arrays_of_arrBufs2 c (pdats 2 c) (fun b => Vin c b) (hA c) (hq0 c) (hq1 c)) .rfl
    rw [prefHeld_none2]
    iintro ⟨⟨Hh, Hp, HO⟩, -, -⟩
    ihave H := hsplit $$ Hh
    icases H with ⟨Ha, Hrest⟩
    ihave HO' := (owesAt_of_zero c (pdats 2 c) 0 (howed c 0) (hrec c)) $$ HO
    imodintro
    isplitl [Ha]; · iexact Ha
    isplitr; · iempintro
    isplitl [HO']; · iexact HO'
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]
    unfold Pipeline.ΦA
    iintro ⟨Hr, Hp⟩
    isplitl [Hp]; · iexact Hp
    isplitr; · iempintro
    iexact Hr
  hexit c := by
    have hjoin : iprop((pdats 2 c).arrays ((pdats 2 c).arrAt · cfg2.N)
          ∗ Pipeline.unscopedRest (Ix := Unit) (Name := ℕ) (U := UR sig nD τ) (Lvl := ℕ) spec2 c (fun b => Vin c b))
        ⊢ (StableHlo.held (c : Thread nD τ) (Pipeline.ucRefs τ sig) (Vout c) : sProp 𝕄) := by
      rw [← Pipeline.unscopedBufs_held (Ix := Unit) (Name := ℕ) (U := UR sig nD τ) (Lvl := ℕ) c (Vout c)]
      exact unscopedBufs_of_arrays2 c (pdats 2 c) (fun b => Vin c b) (fun b => Vout c b) (hA c) (hq0 c) (hq1 c)
        (by rw [hVout c]; exact Function.update_self _ _ _)
        (fun b hb => by rw [hVout c]; exact Function.update_of_ne (StableHlo.devRef_ne_of_ne hb) _ _)
    iintro ⟨Ha, HO, HY, Hrest⟩
    ihave HO' := (zero_of_owesAt c (pdats 2 c) (Fin.last cfg2.N) (howed c _)) $$ HO
    imodintro
    isplitl [Ha Hrest]
    · iapply hjoin
      isplitl [Ha] <;> iassumption
    isplitl [HY]; · iexact HY
    iexact HO'

section
variable (pdats : (p : Fin 3) → (c : Dev nD) → Pipeline.Dat τ (Elt F) Unit ℕ (UR sig nD τ) ℕ (cfgs p) c)
    (Vin Vout : Dev nD → Valuation τ sig (Elt F))
    (hA : ∀ c w, (pdats 2 c).A w = Vin c (Proc.devRef .tc (Pipeline.arrRef spec2 w)))
    (hq0 : ∀ c, (pdats 2 c).q 0 = qL) (hq1 : ∀ c, (pdats 2 c).q 1 = qR)
    (howed : ∀ c t, (pdats 2 c).owed t = 0)
    (hrec : ∀ c, (pdats 2 c).recorded 0 = Set.univ)
    (hbody : ∀ c, Pipeline.BodyObligationLoose (pdats 2 c) (defs₀ (F := F)) 𝒱₀ () Set.univ)
    (hin : ∀ c, Pipeline.ΦA spec2 c ⊢ (pdats 2 c).Φ 0)
    (hout : ∀ c, (pdats 2 c).Φ (Fin.last cfg2.N) ⊢ Pipeline.ΦA spec2 c)
    (hVout : ∀ c, Vout c = Function.update (Vin c) (Proc.devRef .tc main_v3) ((pdats 2 c).arrAt 2 cfg2.N))

/-- The record is entered from every unscoped buffer at Vin beside the rest, -/
theorem reg2_of_pre (c : Dev nD) : (reg2_of pdats Vin Vout hA hq0 hq1 howed hrec hbody hin hout hVout).pre c
    = iprop(StableHlo.held (c : Thread nD τ) (Pipeline.ucRefs τ sig) (Vin c) ∗ Rst c) := rfl
/-- and left at every unscoped buffer at Vout beside the rest. -/
theorem reg2_of_post (c : Dev nD) : (reg2_of pdats Vin Vout hA hq0 hq1 howed hrec hbody hin hout hVout).post c
    = iprop(StableHlo.held (c : Thread nD τ) (Pipeline.ucRefs τ sig) (Vout c) ∗ Rst c) := rfl
end

end Cert.KernelIdeal.Hand

end
-- ==== Proof.Hand.RunCond.lean ====
/- The run of @main from one record per kernel region: every weakly fair execution from a memory with zero counters
   terminates, and every final memory holds the argument as launched AND the result buffer at the last valuation,
   read off the last thread state. Between two items a core holds every unscoped buffer at the item's valuation
   beside its generator register and an empty debt. -/
import proofs.«166501_j24086176596062_1_alg».proof.Proof.Hand.Shared0
import proofs.«166501_j24086176596062_1_alg».proof.Proof.Gen.KernelIdeal.Regions
import Idealize.ShloMosaic.Lib.Pipeline.Frame
import Idealize.ShloMosaic.Lib.Pipeline.Regions
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- The launch element: the pipeline library's own, at every pipeline's staging cells. -/
abbrev u₀ : UR sig nD τ := initOf (Pipeline.cells cfgs Gen.cellOf_inj) (Pipeline.launchToks cfgs Gen.cellOf_inj)

/-- What rides beside the buffers ends owing nothing. -/
theorem Rst_owes (c : Dev nD) :
    (Rst (F := F) c) ⊢ (iprop(∃ W, owes (c : Thread nD τ) (0 : CellTallies nD τ sig Unit) W) : sProp 𝕄) := by
  iintro ⟨-, H⟩
  iexact H

set_option backward.isDefEq.respectTransparency.types false in
/-- THE RUN, given the regions' records: the frame claim's twin whose post also reads the result buffer. -/
theorem run_cond (m : (ℓ : Loc nD τ sig) → Buf (Elt F) ℓ) (ρ : Dev nD → PrngReg) (outs : Gen.Outs (F := F))
    (pdats : (p : Fin 3) → (c : Dev nD) → Pipeline.Dat τ (Elt F) Unit ℕ (UR sig nD τ) ℕ (cfgs p) c)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V1 m c) ∗ Rst c) ⊢ R0.pre c)
    (hpost0 : ∀ c : Dev nD, R0.post c ⊢ iprop(StableHlo.held (c : Thread nD τ) (Pipeline.ucRefs τ sig) (Gen.V2 m outs c) ∗ Rst c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V2 m outs c) ∗ Rst c) ⊢ R1.pre c)
    (hpost1 : ∀ c : Dev nD, R1.post c ⊢ iprop(StableHlo.held (c : Thread nD τ) (Pipeline.ucRefs τ sig) (Gen.V3 m outs c) ∗ Rst c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V3 m outs c) ∗ Rst c) ⊢ R2.pre c)
    (hpost2 : ∀ c : Dev nD, R2.post c ⊢ iprop(StableHlo.held (c : Thread nD τ) (Pipeline.ucRefs τ sig) (Gen.V4 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v4) = Gen.V5 m outs c (Proc.devRef .tc main_v4)) := by
  have hu : (ownU u₀ : sProp 𝕄)
      ⊢ |={Set.univ}=> iprop(BI.own (emb₁ u₀) ∗ bigSep Finset.univ fun _ : Dev nD => (BI.emp : sProp 𝕄)) := by
    have hown : (ownU u₀ : sProp 𝕄) ⊢ BI.own (emb₁ u₀) := .rfl
    rw [BI.bigSep_emp_const]
    iintro Hu
    imodintro
    isplitl [Hu]
    · iapply hown
      iexact Hu
    · iempintro
  refine Pipeline.θ_run_regions_kit_dev (pcfgs (F := F)) Gen.adm pdats () Gen.cellOf_inj emb₁ defs₀ 𝒱₀ L lv m ρ main
    (Gen.segs m outs 𝒱₀ L lv (fun _ c => Rst c) () pdats R0 R1 R2)
    (fun c Q => by
      rewrite [Gen.main_chain c, Pipeline.Seg.run_eq_chain,
        show (Gen.segs m outs 𝒱₀ L lv (fun _ c => Rst c) () pdats R0 R1 R2 c).map Pipeline.Seg.prog = [
          StableHlo.seq Gen.hostOps0,
          Prog.lift (.customCall (Pipeline.entry 0) ()),
          Prog.lift (.customCall (Pipeline.entry 1) ()),
          Prog.lift (.customCall (Pipeline.entry 2) ()),
          StableHlo.seq Gen.hostOps3 ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄)) u₀ hu
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V5 m outs c))
    (hch := fun c => ⟨.rfl, hpre0 c, (hpost0 c).trans (hpre1 c), (hpost1 c).trans (hpre2 c), hpost2 c, sep_mono .rfl (Rst_owes c)⟩)
    (hinit := ?_)
    (QY := fun c s => s.mem ((c.tc : Thread nD τ).loc main_arg0) = m ((c.tc : Thread nD τ).loc main_arg0)
      ∧ s.mem ((c.tc : Thread nD τ).loc main_v4) = Gen.V5 m outs c (Proc.devRef .tc main_v4))
    (hfin := fun c s' => ?_) (hQ := fun _ h => h)
  · -- the launch, core by core: the unscoped buffers are held at the launch valuation; of the rest the generator
    -- register and the empty debt are kept
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]
    · iexists _; iexact Hp
    · iexists ∅; iexact HO
  · -- the end: both buffers read off the last valuation
    unfold StableHlo.held
    iintro ⟨Hh, HSI⟩
    ihave Hr := (pointsTo_read_all (Pipeline.ucRefs τ sig) (fun b => ((c : Thread nD τ).1, b)) (Gen.V5 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (Gen.V5_main_arg0 m outs c),
        h (Proc.devRef .tc main_v4) (Finset.mem_filter.mpr ⟨StableHlo.devRef_mem_tcRefs main_v4, by decide⟩)⟩
    · iexact HSI

end Cert.KernelIdeal.Hand

end
-- ==== Proof.Hand.Assemble.lean ====
/-
  @main of the kernel program, assembled: one host reshape, three mean-shift regions, one host reshape.

  Between two items the core's unscoped buffers are at a valuation: after the first reshape at `V1`; after region 0
  at `W2`, which is `V1` with region 0's output array at what its write-backs leave; after region 1 at `W3`; after
  region 2 at `W4`; the last reshape reads region 2's output array. Each region's proof data are stated at the
  valuation it is entered from, and its record enters from that valuation and leaves at the next.
-/
import proofs.«166501_j24086176596062_1_alg».proof.Proof.Hand.R0.Obl
import proofs.«166501_j24086176596062_1_alg».proof.Proof.Hand.R1.Obl
import proofs.«166501_j24086176596062_1_alg».proof.Proof.Hand.R2.Obl
import proofs.«166501_j24086176596062_1_alg».proof.Proof.Hand.Shared0
import proofs.«166501_j24086176596062_1_alg».proof.Proof.Hand.Shared1
import proofs.«166501_j24086176596062_1_alg».proof.Proof.Hand.Shared2
import proofs.«166501_j24086176596062_1_alg».proof.Proof.Hand.RunCond

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atRef (W : Dev nD → Valuation τ sig (Elt F)) : (c : Dev nD) → (b : Ref sig .tc) → Buf (Elt F) ((c : Thread nD τ).loc b) :=
  fun c b => W c (Proc.devRef .tc b)

/-- After region 0: its output array at what its write-backs leave, every other buffer as it was entered. -/
def W2 (c : Dev nD) : Valuation τ sig (Elt F) :=
  Function.update (Gen.V1 m c) (Proc.devRef .tc main_v1) ((R0.dat0 (atRef (Gen.V1 m)) c).arrAt 2 cfg0.N)
/-- After region 1. -/
def W3 (c : Dev nD) : Valuation τ sig (Elt F) :=
  Function.update (W2 m c) (Proc.devRef .tc main_v2) ((R1.dat0 (atRef (W2 m)) c).arrAt 2 cfg1.N)
/-- After region 2. -/
def W4 (c : Dev nD) : Valuation τ sig (Elt F) :=
  Function.update (W3 m c) (Proc.devRef .tc main_v3) ((R2.dat0 (atRef (W3 m)) c).arrAt 2 cfg2.N)

/-- What the regions leave, as the generated valuations read it: each is read only at its region's output array. -/
def outs : Gen.Outs (F := F) := fun J r c =>
  match J with
  | 2 => W2 m c (Proc.devRef .tc r)
  | 3 => W3 m c (Proc.devRef .tc r)
  | _ => W4 m c (Proc.devRef .tc r)

theorem V2_eq (c : Dev nD) : Gen.V2 m (outs m) c = W2 m c := by
  show Function.update (Gen.V1 m c) (Proc.devRef .tc main_v1) (W2 m c (Proc.devRef .tc main_v1)) = W2 m c
  unfold W2; rw [Function.update_self]
theorem V3_eq (c : Dev nD) : Gen.V3 m (outs m) c = W3 m c := by
  show Function.update (Gen.V2 m (outs m) c) (Proc.devRef .tc main_v2) (W3 m c (Proc.devRef .tc main_v2)) = W3 m c
  rw [V2_eq]; unfold W3; rw [Function.update_self]
theorem V4_eq (c : Dev nD) : Gen.V4 m (outs m) c = W4 m c := by
  show Function.update (Gen.V3 m (outs m) c) (Proc.devRef .tc main_v3) (W4 m c (Proc.devRef .tc main_v3)) = W4 m c
  rw [V3_eq]; unfold W4; rw [Function.update_self]

/-- Every region's proof data, each at the valuation its region is entered from. -/
def pdats : (p : Fin 3) → (c : Dev nD) → Dat τ (Elt F) Unit ℕ (UR sig nD τ) ℕ (cfgs p) c
  | ⟨0, _⟩ => fun c => R0.dat0 (atRef (Gen.V1 m)) c
  | ⟨1, _⟩ => fun c => R1.dat0 (atRef (W2 m)) c
  | ⟨2, _⟩ => fun c => R2.dat0 (atRef (W3 m)) c

/-- Region 0's record: entered from `V1`, left at `W2`. -/
def reg0 : RegionSeg (pcfgs (F := F)) Gen.adm (pdats m) () (defs₀ (F := F)) 𝒱₀ L lv 0 :=
  reg0_of (pdats m) (Gen.V1 m) (W2 m)
    (fun c w => R0.A_eq (atRef (Gen.V1 m)) c w) (fun c => R0.q_eq0 (atRef (Gen.V1 m)) c) (fun c => R0.q_eq1 (atRef (Gen.V1 m)) c)
    (fun _ _ => rfl) (fun _ => rfl) (fun c => (R0.body_obligation0 (atRef (Gen.V1 m)) c).loose)
    (fun c => R0.hin0 (atRef (Gen.V1 m)) c) (fun c => R0.hout0 (atRef (Gen.V1 m)) c) (fun _ => rfl)
/-- Region 1's record: entered from `W2`, left at `W3`. -/
def reg1 : RegionSeg (pcfgs (F := F)) Gen.adm (pdats m) () (defs₀ (F := F)) 𝒱₀ L lv 1 :=
  reg1_of (pdats m) (W2 m) (W3 m)
    (fun c w => R1.A_eq (atRef (W2 m)) c w) (fun c => R1.q_eq0 (atRef (W2 m)) c) (fun c => R1.q_eq1 (atRef (W2 m)) c)
    (fun _ _ => rfl) (fun _ => rfl) (fun c => (R1.body_obligation0 (atRef (W2 m)) c).loose)
    (fun c => R1.hin0 (atRef (W2 m)) c) (fun c => R1.hout0 (atRef (W2 m)) c) (fun _ => rfl)
/-- Region 2's record: entered from `W3`, left at `W4`. -/
def reg2 : RegionSeg (pcfgs (F := F)) Gen.adm (pdats m) () (defs₀ (F := F)) 𝒱₀ L lv 2 :=
  reg2_of (pdats m) (W3 m) (W4 m)
    (fun c w => R2.A_eq (atRef (W3 m)) c w) (fun c => R2.q_eq0 (atRef (W3 m)) c) (fun c => R2.q_eq1 (atRef (W3 m)) c)
    (fun _ _ => rfl) (fun _ => rfl) (fun c => (R2.body_obligation0 (atRef (W3 m)) c).loose)
    (fun c => R2.hin0 (atRef (W3 m)) c) (fun c => R2.hout0 (atRef (W3 m)) c) (fun _ => rfl)

/-- THE RUN, at any `F`: every weakly fair execution of @main terminates, nothing faulting, with the argument array
    as launched and the result array at the last reshape of what region 2 left. -/
theorem run_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v4) = Gen.V5 m (outs m) c (Proc.devRef .tc main_v4)) :=
  run_cond m ρ (outs m) (pdats m)
    (reg0 m) (fun c => by rw [show (reg0 m).pre c = _ from reg0_of_pre ..]) (fun c => by rw [show (reg0 m).post c = _ from reg0_of_post .., V2_eq])
    (reg1 m) (fun c => by rw [show (reg1 m).pre c = _ from reg1_of_pre .., V2_eq]) (fun c => by rw [show (reg1 m).post c = _ from reg1_of_post .., V3_eq])
    (reg2 m) (fun c => by rw [show (reg2 m).pre c = _ from reg2_of_pre .., V3_eq]) (fun c => by rw [show (reg2 m).post c = _ from reg2_of_post .., V4_eq])

/-- THE FRAME, at any `F`. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_all m ρ)

end Cert.KernelIdeal.Hand

end
-- ==== Proof.Hand.HostEnds.lean ====
/-
  The two host reshapes around the regions, read as values: region 0's input array is the argument array reshaped
  to `[4, 32, 4096]`, and the result array is region 2's output array reshaped back to `[4, 32, 64, 64]`.
-/
import proofs.«166501_j24086176596062_1_alg».proof.Proof.Gen.KernelIdeal.Regions
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

theorem V1_main_v0 (c : Dev nD) :
    Gen.V1 m c (Proc.devRef .tc main_v0)
      = shapeCast S4x32x4096 (m ((c : Thread nD τ).loc main_arg0)) shapeCasts_S4x32x64x64_S4x32x4096 := by
  show StableHlo.after hostOps0 (fun b => m (c, b)) (Proc.devRef .tc main_v0) = _
  after_results
  rfl

theorem V5_main_v4 (outs : Gen.Outs (F := F)) (c : Dev nD) :
    Gen.V5 m outs c (Proc.devRef .tc main_v4)
      = shapeCast S4x32x64x64 (Gen.V4 m outs c (Proc.devRef .tc main_v3)) shapeCasts_S4x32x4096_S4x32x64x64 := by
  show StableHlo.after hostOps3 (Gen.V4 m outs c) (Proc.devRef .tc main_v4) = _
  after_results
  rfl

end Cert.KernelIdeal.Hand

end
-- ==== Proof.Spec.lean ====
import Idealize.ShloMosaic.PureOps.Ideal
import Idealize.ShloMosaic.PureOps.Ideal.Laws
import Idealize.ShloMosaic.Lib.ValueIdx

/-!
  One mean-shift step on the extended reals, in two arrangements.

  A batch entry is 32 feature rows over 4096 pixels, `y d n`. The affinity of pixels `n` and `m` is
  `exp (bw · Σ_d y d n · y d m)`; a column's weight is the sum of its affinities over all `n`; the step moves
  each pixel half way to the affinity-weighted mean of all pixels:
  `y' d m = ½ · Σ_n y d n · (aff n m / colsum m) + ½ · y d m`.

  * `stepR` normalises every affinity by its column's weight and then contracts over all 4096 pixels at once.
  * `stepK` walks the pixels `n` in eight tiles of 512, adding each tile's affinities into a running column
    weight and each tile's `Σ_r y d (tile r) · aff (tile r) m` into a running numerator, and divides once at the
    end.

  The two agree when every entry of `y` is a real number: the affinities are then positive reals, the column
  weights positive reals, and a quotient by a nonzero real may be taken outside a finite sum of reals.
-/

noncomputable section

open scoped BigOperators

namespace Cert.MeanShift

open Idealize.ShloMosaic

/-- One batch entry: 32 feature rows over 4096 pixels. -/
abbrev Pts : Type := Fin 32 → Fin 4096 → EReal

/-- The kernel bandwidth, as the f32 word both programs carry. -/
def bw : EReal := Ideal.ofBits .f32 0x3DCCCCCD#32
/-- The step size (and its complement), as the f32 word both programs carry. -/
def half : EReal := Ideal.ofBits .f32 0x3F000000#32

/-- The affinity of pixel `n` to pixel `m`. -/
def aff (y : Pts) (n m : Fin 4096) : EReal := Ideal.exp (bw * ∑ d : Fin 32, y d n * y d m)

/-- Column `m`'s weight, summed over all pixels from the zero initial value. -/
def colsumR (y : Pts) (m : Fin 4096) : EReal := 0 + ∑ n : Fin 4096, aff y n m

/-- The step with every affinity normalised first and one contraction over all pixels. -/
def stepR (y : Pts) : Pts :=
  fun d m => half * (∑ n : Fin 4096, y d n * Ideal.div (aff y n m) (colsumR y m)) + half * y d m

/-- Pixel `r` of tile `j` (tiles of 512 pixels; the remainder is the identity for `j < 8`). -/
def pix (j : ℕ) (r : Fin 512) : Fin 4096 := ⟨(512 * j + r.val) % 4096, Nat.mod_lt _ (by decide)⟩

/-- Tile `j`'s contribution to column `m`'s weight. -/
def tileW (y : Pts) (m : Fin 4096) (j : ℕ) : EReal := ∑ r : Fin 512, aff y (pix j r) m
/-- Tile `j`'s contribution to the numerator of feature `d` at column `m`. -/
def tileN (y : Pts) (d : Fin 32) (m : Fin 4096) (j : ℕ) : EReal := ∑ r : Fin 512, y d (pix j r) * aff y (pix j r) m

/-- The running column weight after the first `k` tiles, accumulated from zero tile by tile. -/
def accW (y : Pts) (m : Fin 4096) : ℕ → EReal
  | 0 => 0
  | k + 1 => accW y m k + tileW y m k
/-- The running numerator after the first `k` tiles, accumulated from zero tile by tile. -/
def accN (y : Pts) (d : Fin 32) (m : Fin 4096) : ℕ → EReal
  | 0 => 0
  | k + 1 => accN y d m k + tileN y d m k

/-- The step with the pixels walked in eight tiles and one division at the end. -/
def stepK (y : Pts) : Pts :=
  fun d m => half * Ideal.div (accN y d m 8) (accW y m 8) + half * y d m

/-- Every entry is a real number. -/
def IsReal (y : Pts) : Prop := ∀ d n, ∃ r : ℝ, y d n = (r : EReal)

/-- A rank-3 array `[4, 32, 4096]` read as four batch entries. -/
def entry (x : (⟨3, ![4, 32, 4096]⟩ : Shape).Idx → EReal) (b : Fin 4) : Pts :=
  fun d n => x (ValueIdx.ix3 b d n)

/-- A step applied to each of the four batch entries of a `[4, 32, 4096]` array. -/
def onBatches (f : Pts → Pts) (x : (⟨3, ![4, 32, 4096]⟩ : Shape).Idx → EReal) :
    (⟨3, ![4, 32, 4096]⟩ : Shape).Idx → EReal :=
  fun i => f (entry x (i 0)) (i 1) (i 2)

theorem onBatches_ix3 (f : Pts → Pts) (x : (⟨3, ![4, 32, 4096]⟩ : Shape).Idx → EReal) (b : Fin 4) (d : Fin 32) (m : Fin 4096) :
    onBatches f x (ValueIdx.ix3 b d m) = f (entry x b) d m := rfl

end Cert.MeanShift

end
-- ==== Proof.Hand.KernelValue.lean ====
/-
  The kernel program's result as a value: the argument array reshaped to `[4, 32, 4096]`, three mean-shift steps
  (each walking the pixels in tiles) on each batch entry, reshaped back. Each region's output array after the region
  is its step of the region's input array; the valuations between the regions chain them.
-/
import proofs.«166501_j24086176596062_1_alg».proof.Proof.Hand.Assemble
import proofs.«166501_j24086176596062_1_alg».proof.Proof.Hand.HostEnds
import proofs.«166501_j24086176596062_1_alg».proof.Proof.Spec

noncomputable section

namespace Cert.KernelIdeal.Hand

open Idealize.ShloMosaic Idealize.ShloMosaic.TcCoe Idealize.SL.Sem
open Cert.KernelIdeal Cert.KernelIdeal.Gen Cert.MeanShift

variable (m : (ℓ : Loc nD τ sig) → Buf (Elt Ideal) ℓ)

theorem W2_out (c : Dev nD) : W2 m c (Proc.devRef .tc main_v1) = (R0.dat0 (atRef (Gen.V1 m)) c).arrAt 2 cfg0.N := by
  unfold W2; rw [Function.update_self]
theorem W3_out (c : Dev nD) : W3 m c (Proc.devRef .tc main_v2) = (R1.dat0 (atRef (W2 m)) c).arrAt 2 cfg1.N := by
  unfold W3; rw [Function.update_self]
theorem W4_out (c : Dev nD) : W4 m c (Proc.devRef .tc main_v3) = (R2.dat0 (atRef (W3 m)) c).arrAt 2 cfg2.N := by
  unfold W4; rw [Function.update_self]

/-- The result array, from each region's output array being the step of its input array. -/
theorem V5_value (c : Dev nD)
    (h0 : (R0.dat0 (atRef (Gen.V1 m)) c).arrAt 2 cfg0.N = onBatches stepK (Gen.V1 m c (Proc.devRef .tc main_v0)))
    (h1 : (R1.dat0 (atRef (W2 m)) c).arrAt 2 cfg1.N = onBatches stepK (W2 m c (Proc.devRef .tc main_v1)))
    (h2 : (R2.dat0 (atRef (W3 m)) c).arrAt 2 cfg2.N = onBatches stepK (W3 m c (Proc.devRef .tc main_v2))) :
    Gen.V5 m (outs m) c (Proc.devRef .tc main_v4)
      = shapeCast S4x32x64x64 (onBatches stepK (onBatches stepK (onBatches stepK
          (shapeCast S4x32x4096 (m ((c : Thread nD τ).loc main_arg0)) shapeCasts_S4x32x64x64_S4x32x4096))))
          shapeCasts_S4x32x4096_S4x32x64x64 := by
  rw [V5_main_v4, V4_eq, W4_out, h2, W3_out, h1, W2_out, h0, V1_main_v0]

end Cert.KernelIdeal.Hand

end
-- ==== Proof.Hand.R0.Pieces.lean ====
/-
  Region 0: what each case of the body leaves in the accumulators and in the output block, as the body's own
  arithmetic of what the case was handed.

  Every store of the body is of a whole buffer, so each buffer ends at the payload of the last store into it, and a
  load that follows a store into the same buffer reads that store's payload back. At a first tile the zero block is
  stored, read back, and this tile's contribution added to it; at a middle tile the contribution is added to what the
  accumulator held; at a last tile the output block is computed from the two accumulators as this same tile has just
  stored them.
-/
import proofs.«166501_j24086176596062_1_alg».proof.Proof.Hand.R0.Body
import Idealize.ShloMosaic.Lib.Pipeline.Value

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two and three zero offsets, as the constant function the whole-buffer lemmas ask for. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A first tile: each accumulator is zeroed, read back, and this tile's contribution added -/

theorem wFirst_eq (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (x2 : Vec F S1x32x4096 .f32) (x3 : Vec F S1x32x512 .f32) :
    wFirst c i arg2 harg2 arg3 harg3 arg4 harg4 arg5 harg5 arg6 harg6 hF hL x2 x3 = k0_pay6 x2 x3 (k0_pay1 (F := F)) := by
  unfold wFirst
  rw [View.read_writes_eq_canon _ _ _ (coverW_first c i arg2 harg2 arg3 harg3 arg4 harg4 arg5 harg5 arg6 harg6 hF hL x2 x3)]
  unfold runFirst
  dsimp only
  sl_unfold_words
  rw [View.canon_cons_unit_zero (S := S1x4096) hz2, View.readCov_unit_zero (S := S1x4096) _ hz2]
  simp only [View.readAt_eq_ld, harg2.read_unread, harg3.read_unread, View.ld_unit_zero (S := S1x32x4096) hz3,
    View.ld_unit_zero (S := S1x32x512) hz3, View.ld_unit_zero (S := S1x4096) hz2, View.ld_unit_zero (S := S32x4096) hz2]

theorem nFirst_eq (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (x2 : Vec F S1x32x4096 .f32) (x3 : Vec F S1x32x512 .f32) :
    nFirst c i arg2 harg2 arg3 harg3 arg4 harg4 arg5 harg5 arg6 harg6 hF hL x2 x3 = k0_pay7 x2 x3 (k0_pay2 (F := F)) := by
  unfold nFirst
  rw [View.read_writes_eq_canon _ _ _ (coverN_first c i arg2 harg2 arg3 harg3 arg4 harg4 arg5 harg5 arg6 harg6 hF hL x2 x3)]
  unfold runFirst
  dsimp only
  sl_unfold_words
  rw [View.canon_cons_unit_zero (S := S32x4096) hz2, View.readCov_unit_zero (S := S32x4096) _ hz2]
  simp only [View.readAt_eq_ld, harg2.read_unread, harg3.read_unread, View.ld_unit_zero (S := S1x32x4096) hz3,
    View.ld_unit_zero (S := S1x32x512) hz3, View.ld_unit_zero (S := S1x4096) hz2, View.ld_unit_zero (S := S32x4096) hz2]

/-! ## A middle tile: this tile's contribution is added to what the accumulators held -/

theorem wMid_eq (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (x2 : Vec F S1x32x4096 .f32) (x3 : Vec F S1x32x512 .f32) (s5 : Vec F S1x4096 .f32) (s6 : Vec F S32x4096 .f32) :
    wMid c i arg2 harg2 arg3 harg3 arg4 harg4 arg5 harg5 arg6 harg6 hF hL x2 x3 s5 s6 = k0_pay6 x2 x3 s5 := by
  unfold wMid
  rw [View.read_writes_eq_canon _ _ _ (coverW_mid c i arg2 harg2 arg3 harg3 arg4 harg4 arg5 harg5 arg6 harg6 hF hL x2 x3 s5 s6)]
  unfold runMid
  dsimp only
  rw [View.canon_unit_zero (S := S1x4096) hz2]
  simp only [View.readAt_eq_ld, harg2.read_unread, harg3.read_unread, harg5.read_unread, View.ld_unit_zero (S := S1x32x4096) hz3,
    View.ld_unit_zero (S := S1x32x512) hz3, View.ld_unit_zero (S := S1x4096) hz2, View.ld_unit_zero (S := S32x4096) hz2]

theorem nMid_eq (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (x2 : Vec F S1x32x4096 .f32) (x3 : Vec F S1x32x512 .f32) (s5 : Vec F S1x4096 .f32) (s6 : Vec F S32x4096 .f32) :
    nMid c i arg2 harg2 arg3 harg3 arg4 harg4 arg5 harg5 arg6 harg6 hF hL x2 x3 s5 s6 = k0_pay7 x2 x3 s6 := by
  unfold nMid
  rw [View.read_writes_eq_canon _ _ _ (coverN_mid c i arg2 harg2 arg3 harg3 arg4 harg4 arg5 harg5 arg6 harg6 hF hL x2 x3 s5 s6)]
  unfold runMid
  dsimp only
  rw [View.canon_unit_zero (S := S32x4096) hz2]
  simp only [View.readAt_eq_ld, harg2.read_unread, harg3.read_unread, harg6.read_unread, View.ld_unit_zero (S := S1x32x4096) hz3,
    View.ld_unit_zero (S := S1x32x512) hz3, View.ld_unit_zero (S := S1x4096) hz2, View.ld_unit_zero (S := S32x4096) hz2]

/-! ## A last tile: the same additions, and then the output block from the accumulators just stored -/

theorem wLast_eq (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    wLast c i arg2 harg2 arg3 harg3 arg4 harg4 arg5 harg5 arg6 harg6 hF hL x2 x3 s5 s6 = k0_pay6 x2 x3 s5 := by
  unfold wLast
  rw [View.read_writes_eq_canon _ _ _ (coverW_last c i arg2 harg2 arg3 harg3 arg4 harg4 arg5 harg5 arg6 harg6 hF hL x2 x3 s5 s6)]
  unfold runLast
  dsimp only
  sl_unfold_words
  rw [View.canon_unit_zero (S := S1x4096) hz2]
  simp only [View.readAt_eq_ld, harg2.read_unread, harg3.read_unread, harg5.read_unread, View.ld_unit_zero (S := S1x32x4096) hz3,
    View.ld_unit_zero (S := S1x32x512) hz3, View.ld_unit_zero (S := S1x4096) hz2, View.ld_unit_zero (S := S32x4096) hz2]

theorem nLast_eq (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    nLast c i arg2 harg2 arg3 harg3 arg4 harg4 arg5 harg5 arg6 harg6 hF hL x2 x3 s5 s6 = k0_pay7 x2 x3 s6 := by
  unfold nLast
  rw [View.read_writes_eq_canon _ _ _ (coverN_last c i arg2 harg2 arg3 harg3 arg4 harg4 arg5 harg5 arg6 harg6 hF hL x2 x3 s5 s6)]
  unfold runLast
  dsimp only
  sl_unfold_words
  rw [View.canon_unit_zero (S := S32x4096) hz2]
  simp only [View.readAt_eq_ld, harg2.read_unread, harg3.read_unread, harg6.read_unread, View.ld_unit_zero (S := S1x32x4096) hz3,
    View.ld_unit_zero (S := S1x32x512) hz3, View.ld_unit_zero (S := S1x4096) hz2, View.ld_unit_zero (S := S32x4096) hz2]

theorem oLast_eq (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    oLast c i arg2 harg2 arg3 harg3 arg4 harg4 arg5 harg5 arg6 harg6 hF hL x2 x3 s5 s6 = k0_pay8 x2 (k0_pay7 x2 x3 s6) (k0_pay6 x2 x3 s5) := by
  unfold oLast
  rw [View.read_writes_eq_canon _ _ _ (coverO_last c i arg2 harg2 arg3 harg3 arg4 harg4 arg5 harg5 arg6 harg6 hF hL x2 x3 s5 s6)]
  unfold runLast
  dsimp only
  sl_unfold_words
  rw [View.canon_unit_zero (S := S1x32x4096) hz3, View.readCov_unit_zero (S := S32x4096) _ hz2,
    View.readCov_unit_zero (S := S1x4096) _ hz2]
  simp only [View.readAt_eq_ld, harg2.read_unread, harg3.read_unread, harg5.read_unread, harg6.read_unread, View.ld_unit_zero (S := S1x32x4096) hz3,
    View.ld_unit_zero (S := S1x32x512) hz3, View.ld_unit_zero (S := S1x4096) hz2, View.ld_unit_zero (S := S32x4096) hz2]

end Cert.KernelIdeal.Hand.R0

end
-- ==== Proof.Hand.R0.Blocks.lean ====
/- Region 0's two input windows read one array of four batch entries. At grid point t (batch entry t / 8, tile
   t % 8) the first window's block is the whole batch entry, and the second window's block is the tile's 512 pixels
   of the same entry: pixel r of the block is pixel 512 * (t % 8) + r of the entry. -/
import proofs.«166501_j24086176596062_1_alg».proof.Proof.Hand.R0.Base
import proofs.«166501_j24086176596062_1_alg».proof.Proof.Spec
import Idealize.ShloMosaic.Lib.ValueIdx
import Idealize.ShloMosaic.Lib.Pipeline.Value

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.MeanShift

variable {F : FTy → Type} [FloatOps F]

/-- A grid point's batch entry is one of the four. -/
theorem batch_lt (t : Fin cfg0.N) : t.val / 8 < 4 := by
  have h : t.val < 32 := lt_of_lt_of_eq t.isLt Gen.N_0
  omega

/-- The two input windows' block indices over the grid: the first window's block is the batch entry's; the second's
    is the batch entry's tile along the pixel axis. -/
theorem in_index_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8 :=
  (by decide +kernel : ∀ t : Fin grid0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8)

variable (V : (c : Dev nD) → (b : Ref sig .tc) → Buf (Elt F) ((c : Thread nD τ).loc b))

/-- The first window's block at point t is batch entry t / 8 of the input array. -/
theorem blk0_apply (c : Dev nD) (t : Fin cfg0.N) (d : Fin 32) (m : Fin 4096) :
    blk V c 0 t (ix3 (0 : Fin 1) d m) = V c main_v0 (ix3 (⟨t.val / 8, batch_lt t⟩ : Fin 4) d m) := by
  obtain ⟨e0, e1, e2, -, -, -⟩ := in_index_facts t
  show V c main_v0 (((cfg0.win 0).blk t).view.emb (ix3 (0 : Fin 1) d m)) = _
  refine congrArg (V c main_v0) ?_
  funext a
  apply Fin.ext
  match a with
  | ⟨0, _⟩ => show win0_0.index t (0 : Fin 3) * 1 + 1 * 0 = t.val / 8; omega
  | ⟨1, _⟩ => show win0_0.index t (1 : Fin 3) * 32 + 1 * d.val = d.val; omega
  | ⟨2, _⟩ => show win0_0.index t (2 : Fin 3) * 4096 + 1 * m.val = m.val; omega

/-- The second window's block at point t is tile t % 8 of batch entry t / 8 of the same array. -/
theorem blk1_apply (c : Dev nD) (t : Fin cfg0.N) (d : Fin 32) (r : Fin 512) :
    blk V c 1 t (ix3 (0 : Fin 1) d r) = V c main_v0 (ix3 (⟨t.val / 8, batch_lt t⟩ : Fin 4) d (pix (t.val % 8) r)) := by
  obtain ⟨-, -, -, e3, e4, e5⟩ := in_index_facts t
  show V c main_v0 (((cfg0.win 1).blk t).view.emb (ix3 (0 : Fin 1) d r)) = _
  refine congrArg (V c main_v0) ?_
  funext a
  apply Fin.ext
  match a with
  | ⟨0, _⟩ => show win0_1.index t (0 : Fin 3) * 1 + 1 * 0 = t.val / 8; omega
  | ⟨1, _⟩ => show win0_1.index t (1 : Fin 3) * 32 + 1 * d.val = d.val; omega
  | ⟨2, _⟩ =>
    show win0_1.index t (2 : Fin 3) * 512 + 1 * r.val = (512 * (t.val % 8) + r.val) % 4096
    have hr : r.val < 512 := r.isLt
    omega

end Cert.KernelIdeal.Hand.R0

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Hand.Payloads.lean ====
import proofs.«166501_j24086176596062_1_alg».proof.Proof.Gen.KernelIdeal.Skeleton
import proofs.«166501_j24086176596062_1_alg».proof.Proof.Spec
import proofs.«166501_j24086176596062_1_alg».proof.Proof.LibMatmul
import Idealize.ShloMosaic.Lib.ValueIdx
import Idealize.ShloMosaic.Lib.Pipeline.Value
import Idealize.ShloMosaic.Lib.ValueLayout
import Idealize.ShloMosaic.PureOps.Ideal.Laws

/-!
  The kernel body's values, read at an index on the extended reals.

  One grid point of the kernel holds the full block of a batch entry (`x2`, 32 features by 4096 pixels), one tile
  of 512 of its pixels (`x3`), a running column weight (`s5`, one row of 4096) and a running numerator (`s6`,
  32 by 4096). Its values are:

  * the tile's affinities, `exp (bw · Σ_d x3 d r · x2 d m)` at tile pixel `r` and pixel `m`: the transposed tile
    times the full block, contracted over the 32 features, scaled by the bandwidth, exponentiated;
  * the new column weight, the old one plus the sum of the tile's affinities over the tile's 512 pixels;
  * the new numerator, the old one plus `Σ_r x3 d r · affinity r m`;
  * at the last tile, `½ · numerator / weight + ½ · x2`;
  * and zero for both running values at the first tile.

  When `x2` is a batch entry `y` and `x3` its tile `j`, these are the specification's affinity, its tile
  contribution to the column weight and its tile contribution to the numerator.
-/

noncomputable section

open scoped BigOperators

namespace Cert.KernelIdeal.Hand.Pay

open Cert.KernelIdeal Cert.KernelIdeal.Gen Cert.MeanShift Idealize.ShloMosaic Idealize.ShloMosaic.ValueIdx

/-! ## Layout and reduction steps at an index -/

/-- The reduced index `m` with row `k` put back is `(k, m)`. -/
theorem lift_col {a b : ℕ} (h : (⟨2, ![a, b]⟩ : Shape).Reduces [0] (⟨1, ![b]⟩ : Shape)) (m : Fin b) (k : Fin a) :
    h.lift (ix1 m) k = ix2 k m := by
  funext c
  apply Fin.ext
  match c with
  | ⟨0, _⟩ => rfl
  | ⟨1, _⟩ => rfl

/-- The sum over the rows of a `[512, 4096]` array, from the zero word, at column `m`. -/
theorem laneSum_apply (src : FVec Ideal S512x4096 .f32) (h : S512x4096.Reduces [0] S4096) (hφ : FKind.Formats .f32)
    (hacc : (0x00000000#32 : BitVec 32) = 0x00000000#32) (m : Fin 4096) :
    multiReduction .add [0] S4096 src 0x00000000#32 h hφ hacc (ix1 m) = ∑ r : Fin 512, src (ix2 r m) := by
  refine (Ideal.multiReduction_add_single src 0x00000000#32 h hφ hacc (ix1 m)).trans ?_
  exact Finset.sum_congr rfl fun k _ => congrArg src (lift_col h m k)

/-- The full block without its unit axis. -/
theorem pay3_apply (x2 : Vec Ideal S1x32x4096 .f32) (d : Fin 32) (m : Fin 4096) :
    k0_pay3 x2 (ix2 d m) = x2 (ix3 (0 : Fin 1) d m) :=
  shapeCast_1ab_ab_apply x2 _ d m

/-- The tile block without its unit axis. -/
theorem pay4_apply (x3 : Vec Ideal S1x32x512 .f32) (d : Fin 32) (r : Fin 512) :
    k0_pay4 x3 (ix2 d r) = x3 (ix3 (0 : Fin 1) d r) :=
  shapeCast_1ab_ab_apply x3 _ d r

/-! ## The payloads -/

/-- The first tile starts the column weight at zero. -/
theorem pay1_apply (m : Fin 4096) : k0_pay1 (F := Ideal) (ix2 (0 : Fin 1) m) = 0 := by
  unfold k0_pay1
  rw [shapeCast_self]
  exact Ideal.ofBits_zero_f32

/-- The first tile starts the numerator at zero. -/
theorem pay2_apply (d : Fin 32) (m : Fin 4096) : k0_pay2 (F := Ideal) (ix2 d m) = 0 := by
  unfold k0_pay2
  rw [shapeCast_self]
  exact Ideal.ofBits_zero_f32

/-- The tile's affinities: the exponential of the bandwidth times the feature contraction of tile pixel `r` with
    pixel `m`. -/
theorem pay5_apply (x2 : Vec Ideal S1x32x4096 .f32) (x3 : Vec Ideal S1x32x512 .f32) (r : Fin 512) (m : Fin 4096) :
    k0_pay5 x2 x3 (ix2 r m)
      = Ideal.exp (bw * ∑ d : Fin 32, x3 (ix3 (0 : Fin 1) d r) * x2 (ix3 (0 : Fin 1) d m)) := by
  unfold k0_pay5
  dsimp only
  show Ideal.exp (bw * matmul (F := Ideal) _ none _ (k0_pay3 x2) _ (ix2 r m)) = _
  refine congrArg (fun t => Ideal.exp (bw * t)) ?_
  refine (Cert.MatOps.matmul_plain_zero_apply (M := 512) (K := 32) (N := 4096) none _ _ r m).trans ?_
  refine Finset.sum_congr rfl fun d _ => ?_
  rw [transpose_ix2_apply, pay4_apply, pay3_apply]

/-- The new column weight: the old one plus the tile's affinities summed over the tile's pixels. -/
theorem pay6_apply (x2 : Vec Ideal S1x32x4096 .f32) (x3 : Vec Ideal S1x32x512 .f32) (s5 : Vec Ideal S1x4096 .f32)
    (m : Fin 4096) :
    k0_pay6 x2 x3 s5 (ix2 (0 : Fin 1) m)
      = s5 (ix2 (0 : Fin 1) m) + ∑ r : Fin 512, k0_pay5 x2 x3 (ix2 r m) := by
  unfold k0_pay6
  rw [shapeCast_self]
  show s5 (ix2 (0 : Fin 1) m) + shapeCast S1x4096 _ _ (ix2 (0 : Fin 1) m) = _
  refine congrArg (fun t => s5 (ix2 (0 : Fin 1) m) + t) ?_
  refine (shapeCast_a_1a_apply _ _ (0 : Fin 1) m).trans ?_
  exact laneSum_apply (k0_pay5 x2 x3) _ _ _ m

/-- The new numerator: the old one plus the tile block times the tile's affinities, contracted over the tile's
    pixels. -/
theorem pay7_apply (x2 : Vec Ideal S1x32x4096 .f32) (x3 : Vec Ideal S1x32x512 .f32) (s6 : Vec Ideal S32x4096 .f32)
    (d : Fin 32) (m : Fin 4096) :
    k0_pay7 x2 x3 s6 (ix2 d m)
      = s6 (ix2 d m) + ∑ r : Fin 512, x3 (ix3 (0 : Fin 1) d r) * k0_pay5 x2 x3 (ix2 r m) := by
  unfold k0_pay7
  rw [shapeCast_self]
  show s6 (ix2 d m) + matmul (F := Ideal) _ none (k0_pay4 x3) (k0_pay5 x2 x3) _ (ix2 d m) = _
  refine congrArg (fun t => s6 (ix2 d m) + t) ?_
  refine (Cert.MatOps.matmul_plain_zero_apply (M := 32) (K := 512) (N := 4096) none _ _ d m).trans ?_
  refine Finset.sum_congr rfl fun r _ => ?_
  rw [pay4_apply]

/-- The last tile's output: half the numerator over the column weight plus half the input. -/
theorem pay8_apply (x2 : Vec Ideal S1x32x4096 .f32) (s6 : Vec Ideal S32x4096 .f32) (s5 : Vec Ideal S1x4096 .f32)
    (d : Fin 32) (m : Fin 4096) :
    k0_pay8 x2 s6 s5 (ix3 (0 : Fin 1) d m)
      = half * Ideal.div (s6 (ix2 d m)) (s5 (ix2 (0 : Fin 1) m)) + half * x2 (ix3 (0 : Fin 1) d m) := by
  unfold k0_pay8
  refine (shapeCast_ab_1ab_apply _ _ (0 : Fin 1) d m).trans ?_
  show half * Ideal.div (s6 (ix2 d m)) (broadcastTo S32x4096 s5 _ (ix2 d m)) + half * k0_pay3 x2 (ix2 d m) = _
  rw [broadcastTo_1b_ab_apply, pay3_apply]

/-! ## The tie to the specification -/

section Tie
variable (y : Pts) (j : ℕ) (x2 : Vec Ideal S1x32x4096 .f32) (x3 : Vec Ideal S1x32x512 .f32)
  (h2 : ∀ d m, x2 (ix3 (0 : Fin 1) d m) = y d m) (h3 : ∀ d r, x3 (ix3 (0 : Fin 1) d r) = y d (pix j r))
include h2 h3

/-- On a batch entry and its tile `j` the kernel's affinities are the specification's. -/
theorem pay5_aff (r : Fin 512) (m : Fin 4096) : k0_pay5 x2 x3 (ix2 r m) = aff y (pix j r) m := by
  rw [pay5_apply]
  unfold aff
  simp only [h2, h3]

/-- The column weight's update adds the specification's tile contribution. -/
theorem pay6_tile (s5 : Vec Ideal S1x4096 .f32) (m : Fin 4096) :
    k0_pay6 x2 x3 s5 (ix2 (0 : Fin 1) m) = s5 (ix2 (0 : Fin 1) m) + tileW y m j := by
  rw [pay6_apply]
  unfold tileW
  exact congrArg (fun t => s5 (ix2 (0 : Fin 1) m) + t)
    (Finset.sum_congr rfl fun r _ => pay5_aff y j x2 x3 h2 h3 r m)

/-- The numerator's update adds the specification's tile contribution. -/
theorem pay7_tile (s6 : Vec Ideal S32x4096 .f32) (d : Fin 32) (m : Fin 4096) :
    k0_pay7 x2 x3 s6 (ix2 d m) = s6 (ix2 d m) + tileN y d m j := by
  rw [pay7_apply]
  unfold tileN
  exact congrArg (fun t => s6 (ix2 d m) + t)
    (Finset.sum_congr rfl fun r _ => by rw [h3, pay5_aff y j x2 x3 h2 h3 r m])

end Tie

end Cert.KernelIdeal.Hand.Pay

end
-- ==== Proof.Hand.R0.Value.lean ====
/-
  Region 0 at the ideal values: what the accumulators and the output block hold, in the specification's words.

  A grid point `t` is tile `t % 8` of batch entry `t / 8`. The first window hands the body the entry's full block
  and the second its tile's block, so each tile's additions are the specification's tile sums `tileW` and `tileN`
  of that entry. By induction on the point the accumulators after tile `k` are the running sums `accW`, `accN`
  over tiles `0 … k`, accumulated from zero in the same left-to-right order, so no finiteness is needed; at tile 7
  the stored block is half the quotient of the eight-tile sums plus half the input: `stepK` of the entry.
-/
import proofs.«166501_j24086176596062_1_alg».proof.Proof.Hand.R0.Pieces
import proofs.«166501_j24086176596062_1_alg».proof.Proof.Hand.R0.Blocks
import proofs.«166501_j24086176596062_1_alg».proof.Proof.Hand.Payloads
import proofs.«166501_j24086176596062_1_alg».proof.Proof.Spec
import Idealize.ShloMosaic.Lib.Pipeline.Value

set_option maxRecDepth 16384

noncomputable section

namespace Cert.KernelIdeal.Hand.R0.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.KernelIdeal.Hand.R0 Cert.MeanShift Idealize.ShloMosaic.ValueIdx

/-! ## Each case's contents at an index, through the specification's tile sums

  Here `y` is a batch entry, `j` a tile number, `x2` the entry's full block and `x3` its tile-`j` block. -/

section Tile
variable (y : Pts) (j : ℕ) (x2 : Vec Ideal S1x32x4096 .f32) (x3 : Vec Ideal S1x32x512 .f32)
  (h2 : ∀ d m, x2 (ix3 (0 : Fin 1) d m) = y d m) (h3 : ∀ d r, x3 (ix3 (0 : Fin 1) d r) = y d (pix j r))
include h2 h3

theorem wFirst_tile (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (m : Fin 4096) :
    wFirst c i arg2 harg2 arg3 harg3 arg4 harg4 arg5 harg5 arg6 harg6 hF hL x2 x3 (ix2 (0 : Fin 1) m) = 0 + tileW y m j := by
  rw [wFirst_eq]
  refine (Pay.pay6_tile y j x2 x3 h2 h3 _ m).trans ?_
  rw [Pay.pay1_apply]

theorem nFirst_tile (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (d : Fin 32) (m : Fin 4096) :
    nFirst c i arg2 harg2 arg3 harg3 arg4 harg4 arg5 harg5 arg6 harg6 hF hL x2 x3 (ix2 d m) = 0 + tileN y d m j := by
  rw [nFirst_eq]
  refine (Pay.pay7_tile y j x2 x3 h2 h3 _ d m).trans ?_
  rw [Pay.pay2_apply]

theorem wMid_tile (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (s5 : Vec Ideal S1x4096 .f32) (s6 : Vec Ideal S32x4096 .f32) (m : Fin 4096) :
    wMid c i arg2 harg2 arg3 harg3 arg4 harg4 arg5 harg5 arg6 harg6 hF hL x2 x3 s5 s6 (ix2 (0 : Fin 1) m) = s5 (ix2 (0 : Fin 1) m) + tileW y m j := by
  rw [wMid_eq]
  exact Pay.pay6_tile y j x2 x3 h2 h3 s5 m

theorem nMid_tile (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (s5 : Vec Ideal S1x4096 .f32) (s6 : Vec Ideal S32x4096 .f32) (d : Fin 32) (m : Fin 4096) :
    nMid c i arg2 harg2 arg3 harg3 arg4 harg4 arg5 harg5 arg6 harg6 hF hL x2 x3 s5 s6 (ix2 d m) = s6 (ix2 d m) + tileN y d m j := by
  rw [nMid_eq]
  exact Pay.pay7_tile y j x2 x3 h2 h3 s6 d m

theorem wLast_tile (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (m : Fin 4096) :
    wLast c i arg2 harg2 arg3 harg3 arg4 harg4 arg5 harg5 arg6 harg6 hF hL x2 x3 s5 s6 (ix2 (0 : Fin 1) m) = s5 (ix2 (0 : Fin 1) m) + tileW y m j := by
  rw [wLast_eq]
  exact Pay.pay6_tile y j x2 x3 h2 h3 s5 m

theorem nLast_tile (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (d : Fin 32) (m : Fin 4096) :
    nLast c i arg2 harg2 arg3 harg3 arg4 harg4 arg5 harg5 arg6 harg6 hF hL x2 x3 s5 s6 (ix2 d m) = s6 (ix2 d m) + tileN y d m j := by
  rw [nLast_eq]
  exact Pay.pay7_tile y j x2 x3 h2 h3 s6 d m

/-- The output block: the quotient is of the accumulators WITH this tile's own contributions. -/
theorem oLast_tile (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (d : Fin 32) (m : Fin 4096) :
    oLast c i arg2 harg2 arg3 harg3 arg4 harg4 arg5 harg5 arg6 harg6 hF hL x2 x3 s5 s6 (ix3 (0 : Fin 1) d m)
      = half * Ideal.div (s6 (ix2 d m) + tileN y d m j) (s5 (ix2 (0 : Fin 1) m) + tileW y m j) + half * y d m := by
  rw [oLast_eq, Pay.pay8_apply, Pay.pay7_tile y j x2 x3 h2 h3, Pay.pay6_tile y j x2 x3 h2 h3, h2]

end Tile

/-! ## The accumulators after each point -/

variable (V : (c : Dev nD) → (b : Ref sig .tc) → Buf (Elt Ideal) ((c : Thread nD τ).loc b))

/-- The region's input array on core `c`. -/
abbrev Y (c : Dev nD) : S4x32x4096.Idx → EReal := V c main_v0

section Acc
variable (c : Dev nD)
  (hb0 : ∀ (t : Fin cfg0.N) (b : Fin 4), b.val = t.val / 8 → ∀ (d : Fin 32) (m : Fin 4096),
    blk V c 0 t (ix3 (0 : Fin 1) d m) = entry (Y V c) b d m)
  (hb1 : ∀ (t : Fin cfg0.N) (b : Fin 4) (k : ℕ), b.val = t.val / 8 → k = t.val % 8 → ∀ (d : Fin 32) (r : Fin 512),
    blk V c 1 t (ix3 (0 : Fin 1) d r) = entry (Y V c) b d (pix k r))
include hb0 hb1

/-! Each case at a grid point `t`, which is tile `k` of batch entry `b`. -/

theorem wFirstAt_tile (t : Fin cfg0.N) (h0 : t.val % 8 = 0) (b : Fin 4) (hb : b.val = t.val / 8) (m : Fin 4096) :
    wFirstAt V c t h0 (ix2 (0 : Fin 1) m) = 0 + tileW (entry (Y V c) b) m 0 := by
  unfold wFirstAt
  exact wFirst_tile (entry (Y V c) b) 0 (blk V c 0 t) (blk V c 1 t) (hb0 t b hb) (hb1 t b 0 hb h0.symm)
    c (grid0.coords t) (ms0 t) (hs0 t) (ms1 t) (hs1 t) (ms2 t) (hs2 t) scW (Memref.isWhole_whole _) scN (Memref.isWhole_whole _) (isFirst_of t h0) (notLast_of_first t h0) m

theorem nFirstAt_tile (t : Fin cfg0.N) (h0 : t.val % 8 = 0) (b : Fin 4) (hb : b.val = t.val / 8) (d : Fin 32) (m : Fin 4096) :
    nFirstAt V c t h0 (ix2 d m) = 0 + tileN (entry (Y V c) b) d m 0 := by
  unfold nFirstAt
  exact nFirst_tile (entry (Y V c) b) 0 (blk V c 0 t) (blk V c 1 t) (hb0 t b hb) (hb1 t b 0 hb h0.symm)
    c (grid0.coords t) (ms0 t) (hs0 t) (ms1 t) (hs1 t) (ms2 t) (hs2 t) scW (Memref.isWhole_whole _) scN (Memref.isWhole_whole _) (isFirst_of t h0) (notLast_of_first t h0) d m

theorem wMidAt_tile (t : Fin cfg0.N) (h0 : ¬t.val % 8 = 0) (h7 : ¬t.val % 8 = 7) (b : Fin 4) (k : ℕ) (hb : b.val = t.val / 8)
    (hk : k = t.val % 8) (s5 : Vec Ideal S1x4096 .f32) (s6 : Vec Ideal S32x4096 .f32) (m : Fin 4096) :
    wMidAt V c t h0 h7 s5 s6 (ix2 (0 : Fin 1) m) = s5 (ix2 (0 : Fin 1) m) + tileW (entry (Y V c) b) m k := by
  unfold wMidAt
  exact wMid_tile (entry (Y V c) b) k (blk V c 0 t) (blk V c 1 t) (hb0 t b hb) (hb1 t b k hb hk)
    c (grid0.coords t) (ms0 t) (hs0 t) (ms1 t) (hs1 t) (ms2 t) (hs2 t) scW (Memref.isWhole_whole _) scN (Memref.isWhole_whole _) (notFirst_of t h0) (notLast_of t h7) s5 s6 m

theorem nMidAt_tile (t : Fin cfg0.N) (h0 : ¬t.val % 8 = 0) (h7 : ¬t.val % 8 = 7) (b : Fin 4) (k : ℕ) (hb : b.val = t.val / 8)
    (hk : k = t.val % 8) (s5 : Vec Ideal S1x4096 .f32) (s6 : Vec Ideal S32x4096 .f32) (d : Fin 32) (m : Fin 4096) :
    nMidAt V c t h0 h7 s5 s6 (ix2 d m) = s6 (ix2 d m) + tileN (entry (Y V c) b) d m k := by
  unfold nMidAt
  exact nMid_tile (entry (Y V c) b) k (blk V c 0 t) (blk V c 1 t) (hb0 t b hb) (hb1 t b k hb hk)
    c (grid0.coords t) (ms0 t) (hs0 t) (ms1 t) (hs1 t) (ms2 t) (hs2 t) scW (Memref.isWhole_whole _) scN (Memref.isWhole_whole _) (notFirst_of t h0) (notLast_of t h7) s5 s6 d m

theorem wLastAt_tile (t : Fin cfg0.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (m : Fin 4096) :
    wLastAt V c t h0 h7 s5 s6 (ix2 (0 : Fin 1) m) = s5 (ix2 (0 : Fin 1) m) + tileW (entry (Y V c) b) m k := by
  unfold wLastAt
  exact wLast_tile (entry (Y V c) b) k (blk V c 0 t) (blk V c 1 t) (hb0 t b hb) (hb1 t b k hb hk)
    c (grid0.coords t) (ms0 t) (hs0 t) (ms1 t) (hs1 t) (ms2 t) (hs2 t) scW (Memref.isWhole_whole _) scN (Memref.isWhole_whole _) (notFirst_of t h0) (isLast_of t h7) s5 s6 m

theorem nLastAt_tile (t : Fin cfg0.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (d : Fin 32) (m : Fin 4096) :
    nLastAt V c t h0 h7 s5 s6 (ix2 d m) = s6 (ix2 d m) + tileN (entry (Y V c) b) d m k := by
  unfold nLastAt
  exact nLast_tile (entry (Y V c) b) k (blk V c 0 t) (blk V c 1 t) (hb0 t b hb) (hb1 t b k hb hk)
    c (grid0.coords t) (ms0 t) (hs0 t) (ms1 t) (hs1 t) (ms2 t) (hs2 t) scW (Memref.isWhole_whole _) scN (Memref.isWhole_whole _) (notFirst_of t h0) (isLast_of t h7) s5 s6 d m

theorem oLastAt_tile (t : Fin cfg0.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (d : Fin 32) (m : Fin 4096) :
    oLastAt V c t h0 h7 s5 s6 (ix3 (0 : Fin 1) d m)
      = half * Ideal.div (s6 (ix2 d m) + tileN (entry (Y V c) b) d m k) (s5 (ix2 (0 : Fin 1) m) + tileW (entry (Y V c) b) m k)
        + half * entry (Y V c) b d m := by
  unfold oLastAt
  exact oLast_tile (entry (Y V c) b) k (blk V c 0 t) (blk V c 1 t) (hb0 t b hb) (hb1 t b k hb hk)
    c (grid0.coords t) (ms0 t) (hs0 t) (ms1 t) (hs1 t) (ms2 t) (hs2 t) scW (Memref.isWhole_whole _) scN (Memref.isWhole_whole _) (notFirst_of t h0) (isLast_of t h7) s5 s6 d m

/-! The accumulators at a point, one component at a time. -/

theorem accW_first (t : Fin cfg0.N) (h0 : t.val % 8 = 0) : (accAt V c t.val t.isLt).1 = wFirstAt V c t h0 := by
  rw [accAt_first V c t h0]
theorem accN_first (t : Fin cfg0.N) (h0 : t.val % 8 = 0) : (accAt V c t.val t.isLt).2 = nFirstAt V c t h0 := by
  rw [accAt_first V c t h0]
theorem accW_mid (t : Fin cfg0.N) (h0 : ¬t.val % 8 = 0) (h7 : ¬t.val % 8 = 7) :
    (accAt V c t.val t.isLt).1 = wMidAt V c t h0 h7 (accAt V c (t.val - 1) (prevLt t)).1 (accAt V c (t.val - 1) (prevLt t)).2 := by
  rw [accAt_mid V c t h0 h7]
theorem accN_mid (t : Fin cfg0.N) (h0 : ¬t.val % 8 = 0) (h7 : ¬t.val % 8 = 7) :
    (accAt V c t.val t.isLt).2 = nMidAt V c t h0 h7 (accAt V c (t.val - 1) (prevLt t)).1 (accAt V c (t.val - 1) (prevLt t)).2 := by
  rw [accAt_mid V c t h0 h7]
theorem accW_last (t : Fin cfg0.N) (h0 : ¬t.val % 8 = 0) (h7 : t.val % 8 = 7) :
    (accAt V c t.val t.isLt).1 = wLastAt V c t h0 h7 (accAt V c (t.val - 1) (prevLt t)).1 (accAt V c (t.val - 1) (prevLt t)).2 := by
  rw [accAt_last V c t h0 h7]
theorem accN_last (t : Fin cfg0.N) (h0 : ¬t.val % 8 = 0) (h7 : t.val % 8 = 7) :
    (accAt V c t.val t.isLt).2 = nLastAt V c t h0 h7 (accAt V c (t.val - 1) (prevLt t)).1 (accAt V c (t.val - 1) (prevLt t)).2 := by
  rw [accAt_last V c t h0 h7]

/-- After tile `k` of batch entry `b` the accumulators hold the specification's running sums over tiles `0 … k`:
    by induction on the point; a first tile restarts from zero, every other tile adds to the point before, which is
    tile `k - 1` of the same entry. -/
theorem acc_inv : ∀ (n : ℕ) (t : Fin cfg0.N), t.val = n → ∀ (b : Fin 4) (k : ℕ), b.val = t.val / 8 → k = t.val % 8 →
    (∀ m : Fin 4096, (accAt V c t.val t.isLt).1 (ix2 (0 : Fin 1) m) = accW (entry (Y V c) b) m (k + 1))
    ∧ (∀ (d : Fin 32) (m : Fin 4096), (accAt V c t.val t.isLt).2 (ix2 d m) = accN (entry (Y V c) b) d m (k + 1)) := by
  intro n
  induction n with
  | zero =>
    intro t ht b k hb hk
    have h0 : t.val % 8 = 0 := by omega
    obtain rfl : k = 0 := by omega
    refine ⟨fun m => ?_, fun d m => ?_⟩
    · rw [accW_first V c hb0 hb1 t h0, wFirstAt_tile V c hb0 hb1 t h0 b hb m]; rfl
    · rw [accN_first V c hb0 hb1 t h0, nFirstAt_tile V c hb0 hb1 t h0 b hb d m]; rfl
  | succ n ih =>
    intro t ht b k hb hk
    by_cases h0 : t.val % 8 = 0
    · obtain rfl : k = 0 := by omega
      refine ⟨fun m => ?_, fun d m => ?_⟩
      · rw [accW_first V c hb0 hb1 t h0, wFirstAt_tile V c hb0 hb1 t h0 b hb m]; rfl
      · rw [accN_first V c hb0 hb1 t h0, nFirstAt_tile V c hb0 hb1 t h0 b hb d m]; rfl
    · obtain ⟨k', rfl⟩ : ∃ k', k = k' + 1 := Nat.exists_eq_succ_of_ne_zero (by omega)
      have hprev := ih ⟨t.val - 1, prevLt t⟩ (by show t.val - 1 = n; omega) b k' (by show b.val = (t.val - 1) / 8; omega)
        (by show k' = (t.val - 1) % 8; omega)
      have ihW : ∀ m : Fin 4096, (accAt V c (t.val - 1) (prevLt t)).1 (ix2 (0 : Fin 1) m) = accW (entry (Y V c) b) m (k' + 1) := hprev.1
      have ihN : ∀ (d : Fin 32) (m : Fin 4096), (accAt V c (t.val - 1) (prevLt t)).2 (ix2 d m) = accN (entry (Y V c) b) d m (k' + 1) := hprev.2
      by_cases h7 : t.val % 8 = 7
      · refine ⟨fun m => ?_, fun d m => ?_⟩
        · rw [accW_last V c hb0 hb1 t h0 h7, wLastAt_tile V c hb0 hb1 t h0 h7 b (k' + 1) hb hk _ _ m, ihW m]; rfl
        · rw [accN_last V c hb0 hb1 t h0 h7, nLastAt_tile V c hb0 hb1 t h0 h7 b (k' + 1) hb hk _ _ d m, ihN d m]; rfl
      · refine ⟨fun m => ?_, fun d m => ?_⟩
        · rw [accW_mid V c hb0 hb1 t h0 h7, wMidAt_tile V c hb0 hb1 t h0 h7 b (k' + 1) hb hk _ _ m, ihW m]; rfl
        · rw [accN_mid V c hb0 hb1 t h0 h7, nMidAt_tile V c hb0 hb1 t h0 h7 b (k' + 1) hb hk _ _ d m, ihN d m]; rfl

/-- At a last tile the stored output block is the tiled step of the batch entry: its quotient is of the running sums
    over all eight tiles, the first seven as the point before left them and the eighth this tile's own. -/
theorem out_last_of (t : Fin cfg0.N) (h7 : t.val % 8 = 7) (b : Fin 4) (hb : b.val = t.val / 8) (d : Fin 32) (m : Fin 4096) :
    outAt V c t (ix3 (0 : Fin 1) d m) = stepK (entry (Y V c) b) d m := by
  have h0 : ¬t.val % 8 = 0 := by omega
  have hprev := acc_inv V c hb0 hb1 (t.val - 1) ⟨t.val - 1, prevLt t⟩ rfl b 6 (by show b.val = (t.val - 1) / 8; omega)
    (by show 6 = (t.val - 1) % 8; omega)
  have ihW : (accAt V c (t.val - 1) (prevLt t)).1 (ix2 (0 : Fin 1) m) = accW (entry (Y V c) b) m 7 := hprev.1 m
  have ihN : (accAt V c (t.val - 1) (prevLt t)).2 (ix2 d m) = accN (entry (Y V c) b) d m 7 := hprev.2 d m
  rw [outAt_last V c t h0 h7, oLastAt_tile V c hb0 hb1 t h0 h7 b 7 hb h7.symm _ _ d m, ihW, ihN]; rfl

end Acc

/-! ## With the blocks read off the input array -/

section Final
variable (c : Dev nD)

/-- The first window's block at a point of batch entry `b` is that entry. -/
theorem blk0_entry (t : Fin cfg0.N) (b : Fin 4) (hb : b.val = t.val / 8) (d : Fin 32) (m : Fin 4096) :
    blk V c 0 t (ix3 (0 : Fin 1) d m) = entry (Y V c) b d m := by
  obtain rfl : b = ⟨t.val / 8, batch_lt t⟩ := Fin.ext hb
  exact blk0_apply V c t d m

/-- The second window's block at tile `k` of batch entry `b` is that entry's pixels `pix k r`. -/
theorem blk1_entry (t : Fin cfg0.N) (b : Fin 4) (k : ℕ) (hb : b.val = t.val / 8) (hk : k = t.val % 8) (d : Fin 32) (r : Fin 512) :
    blk V c 1 t (ix3 (0 : Fin 1) d r) = entry (Y V c) b d (pix k r) := by
  obtain rfl : b = ⟨t.val / 8, batch_lt t⟩ := Fin.ext hb
  subst hk
  exact blk1_apply V c t d r

/-- The column-weight accumulator after point `t`: the running sum over the batch entry's tiles `0 … t % 8`. -/
theorem accW_at (t : Fin cfg0.N) (m : Fin 4096) :
    (accAt V c t.val t.isLt).1 (ix2 (0 : Fin 1) m)
      = accW (entry (Y V c) ⟨t.val / 8, batch_lt t⟩) m (t.val % 8 + 1) :=
  (acc_inv V c (blk0_entry V c) (blk1_entry V c) t.val t rfl ⟨t.val / 8, batch_lt t⟩ (t.val % 8) rfl rfl).1 m

/-- The numerator accumulator after point `t`, likewise. -/
theorem accN_at (t : Fin cfg0.N) (d : Fin 32) (m : Fin 4096) :
    (accAt V c t.val t.isLt).2 (ix2 d m)
      = accN (entry (Y V c) ⟨t.val / 8, batch_lt t⟩) d m (t.val % 8 + 1) :=
  (acc_inv V c (blk0_entry V c) (blk1_entry V c) t.val t rfl ⟨t.val / 8, batch_lt t⟩ (t.val % 8) rfl rfl).2 d m

/-- The output block stored at a batch entry's last tile is the tiled mean-shift step of that entry. -/
theorem out_last (t : Fin cfg0.N) (h7 : t.val % 8 = 7) (d : Fin 32) (m : Fin 4096) :
    outAt V c t (ix3 (0 : Fin 1) d m) = stepK (entry (Y V c) ⟨t.val / 8, batch_lt t⟩) d m :=
  out_last_of V c (blk0_entry V c) (blk1_entry V c) t h7 ⟨t.val / 8, batch_lt t⟩ rfl d m

/-- The same, as an entry of the whole array `onBatches stepK` of the input. -/
theorem out_last_onBatches (t : Fin cfg0.N) (h7 : t.val % 8 = 7) (d : Fin 32) (m : Fin 4096) :
    outAt V c t (ix3 (0 : Fin 1) d m) = onBatches stepK (Y V c) (ix3 (⟨t.val / 8, batch_lt t⟩ : Fin 4) d m) :=
  (out_last V c t h7 d m).trans (onBatches_ix3 stepK (Y V c) ⟨t.val / 8, batch_lt t⟩ d m).symm

end Final

end Cert.KernelIdeal.Hand.R0.Val

end
-- ==== Proof.Hand.R0.Cover.lean ====
/- From the output block at a batch entry's last tile to the output array after region 0. The output window's block
   at point t is batch entry t / 8 of the output array, written back exactly at the last tiles (t % 8 = 7); batch
   entry b is covered by point 8 * b + 7. So if every last tile's stored block is its batch entry of one function
   G of the array's index, the array ends holding G. -/
import proofs.«166501_j24086176596062_1_alg».proof.Proof.Hand.R0.Body
import Idealize.ShloMosaic.Lib.ValueIdx
import Idealize.ShloMosaic.Lib.Pipeline.Value

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- A grid point's batch entry is one of the four. -/
theorem batch_lt' (t : Fin cfg0.N) : t.val / 8 < 4 := by
  have h : t.val < 32 := lt_of_lt_of_eq t.isLt Gen.N_0
  omega

/-- The output window's block index over the grid: the batch entry's. -/
theorem out_index_facts : ∀ t : Fin cfg0.N,
    win0_2.index t (0 : Fin 3) = t.val / 8 ∧ win0_2.index t (1 : Fin 3) = 0 ∧ win0_2.index t (2 : Fin 3) = 0 :=
  (by decide +kernel : ∀ t : Fin grid0.N,
    win0_2.index t (0 : Fin 3) = t.val / 8 ∧ win0_2.index t (1 : Fin 3) = 0 ∧ win0_2.index t (2 : Fin 3) = 0)

/-- An index of the output array is in point t's block iff each coordinate is in the block's range on its axis. -/
theorem mem_out_blk (t : Fin cfg0.N) (i : S4x32x4096.Idx) :
    i ∈ ((cfg0.win 2).blk t).view.set ↔ ∀ a : Fin 3, win0_2.index t a * S1x32x4096.size a ≤ (i a).val
      ∧ (i a).val < win0_2.index t a * S1x32x4096.size a + S1x32x4096.size a := by
  show i ∈ ((View.whole main_v1).slice (win0_2.rect t)).set ↔ _
  rw [View.set_slice_whole, Rect.mem_set_unit]
  exact Iff.rfl

/-- Every index of the output array is in the block of its batch entry's last tile, which is written back. -/
theorem out_cover (i : S4x32x4096.Idx) :
    ∃ t : Fin cfg0.N, (cfg0.win 2).flush t = true ∧ i ∈ ((cfg0.win 2).blk t).view.set := by
  have hi0 : (i 0).val < 4 := (i 0).isLt
  have hi1 : (i 1).val < 32 := (i 1).isLt
  have hi2 : (i 2).val < 4096 := (i 2).isLt
  have hlt : 8 * (i 0).val + 7 < cfg0.N := lt_of_lt_of_eq (by omega : 8 * (i 0).val + 7 < 32) Gen.N_0.symm
  obtain ⟨e0, e1, e2⟩ := out_index_facts ⟨8 * (i 0).val + 7, hlt⟩
  have e0' : win0_2.index ⟨8 * (i 0).val + 7, hlt⟩ (0 : Fin 3) = (8 * (i 0).val + 7) / 8 := e0
  refine ⟨⟨8 * (i 0).val + 7, hlt⟩, (Gen.flush0_2 _).mpr (by show (8 * (i 0).val + 7) % 8 = 7; omega), ?_⟩
  rw [mem_out_blk]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    omega
  | ⟨1, _⟩ =>
    show win0_2.index ⟨8 * (i 0).val + 7, hlt⟩ (1 : Fin 3) * 32 ≤ (i 1).val
      ∧ (i 1).val < win0_2.index ⟨8 * (i 0).val + 7, hlt⟩ (1 : Fin 3) * 32 + 32
    omega
  | ⟨2, _⟩ =>
    show win0_2.index ⟨8 * (i 0).val + 7, hlt⟩ (2 : Fin 3) * 4096 ≤ (i 2).val
      ∧ (i 2).val < win0_2.index ⟨8 * (i 0).val + 7, hlt⟩ (2 : Fin 3) * 4096 + 4096
    omega

variable (V : (c : Dev nD) → (b : Ref sig .tc) → Buf (Elt F) ((c : Thread nD τ).loc b))

/-- What a last tile writes back is its batch entry of G, read through the window's block. -/
theorem out_flushed_eq (c : Dev nD) (G : S4x32x4096.Idx → Elt F .f32)
    (hG : ∀ (t : Fin cfg0.N), t.val % 8 = 7 → ∀ (d : Fin 32) (m : Fin 4096),
      outAt V c t (ix3 (0 : Fin 1) d m) = G (ix3 (⟨t.val / 8, batch_lt' t⟩ : Fin 4) d m))
    (t : Fin cfg0.N) (hf : (cfg0.win 2).flush t = true) :
    (dat0 V c).flushed 2 t = ((cfg0.win 2).blk t).view.read (Elt F) G := by
  have h7 : t.val % 8 = 7 := (Gen.flush0_2 t).mp hf
  obtain ⟨e0, e1, e2⟩ := out_index_facts t
  show (cfg0.win 2).cut (grid0.coords t) ((dat0 V c).after 2 t) = _
  rw [after2]
  funext j
  obtain ⟨d, m, rfl⟩ : ∃ (d : Fin 32) (m : Fin 4096), j = ix3 (0 : Fin 1) d m :=
    ⟨j 1, j 2, funext fun a => match a with
      | ⟨0, _⟩ => Subsingleton.elim (α := Fin 1) _ _
      | ⟨1, _⟩ => rfl
      | ⟨2, _⟩ => rfl⟩
  show outAt V c t (ix3 (0 : Fin 1) d m) = G (((cfg0.win 2).blk t).view.emb (ix3 (0 : Fin 1) d m))
  rw [hG t h7 d m]
  refine congrArg G ?_
  funext a
  apply Fin.ext
  match a with
  | ⟨0, _⟩ => show t.val / 8 = win0_2.index t (0 : Fin 3) * 1 + 1 * 0; omega
  | ⟨1, _⟩ => show d.val = win0_2.index t (1 : Fin 3) * 32 + 1 * d.val; omega
  | ⟨2, _⟩ => show m.val = win0_2.index t (2 : Fin 3) * 4096 + 1 * m.val; omega

/-- THE OUTPUT ARRAY after region 0: G, when every last tile stores its batch entry of G. -/
theorem arrAt_out_of (c : Dev nD) (G : S4x32x4096.Idx → Elt F .f32)
    (hG : ∀ (t : Fin cfg0.N), t.val % 8 = 7 → ∀ (d : Fin 32) (m : Fin 4096),
      outAt V c t (ix3 (0 : Fin 1) d m) = G (ix3 (⟨t.val / 8, batch_lt' t⟩ : Fin 4) d m)) :
    (dat0 V c).arrAt 2 cfg0.N = G :=
  (dat0 V c).arrAt_eq_of_cover 2 G (fun t hf => out_flushed_eq V c G hG t hf) out_cover

end Cert.KernelIdeal.Hand.R0

end
-- ==== Proof.Hand.R0.ValueOut.lean ====
/-
  Region 0's output array after the region: the tile-walking mean-shift step of each batch entry of its input array.
  The output block stored at a batch entry's last tile is that entry's step, and the four last tiles' blocks cover
  the array.
-/
import proofs.«166501_j24086176596062_1_alg».proof.Proof.Hand.R0.Value
import proofs.«166501_j24086176596062_1_alg».proof.Proof.Hand.R0.Cover

noncomputable section

namespace Cert.KernelIdeal.Hand.R0

open Cert.KernelIdeal Cert.KernelIdeal.Gen Cert.MeanShift
open Idealize.ShloMosaic Idealize.ShloMosaic.TcCoe Idealize.SL.Sem

variable (V : (c : Dev nD) → (b : Ref sig .tc) → Buf (Elt Ideal) ((c : Thread nD τ).loc b))

theorem arrAt_out (c : Dev nD) : (dat0 V c).arrAt 2 cfg0.N = onBatches stepK (V c main_v0) :=
  arrAt_out_of V c (onBatches stepK (Val.Y V c)) (fun t h7 d m => Val.out_last_onBatches V c t h7 d m)

end Cert.KernelIdeal.Hand.R0

end
-- ==== Proof.Hand.R1.Pieces.lean ====
/-
  Region 1: what each case of the body leaves in the accumulators and in the output block, as the body's own
  arithmetic of what the case was handed.

  Every store of the body is of a whole buffer, so each buffer ends at the payload of the last store into it, and a
  load that follows a store into the same buffer reads that store's payload back. At a first tile the zero block is
  stored, read back, and this tile's contribution added to it; at a middle tile the contribution is added to what the
  accumulator held; at a last tile the output block is computed from the two accumulators as this same tile has just
  stored them.
-/
import proofs.«166501_j24086176596062_1_alg».proof.Proof.Hand.R1.Body
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two and three zero offsets, as the constant function the whole-buffer lemmas ask for. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A first tile: each accumulator is zeroed, read back, and this tile's contribution added -/

theorem wFirst_eq (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (x2 : Vec F S1x32x4096 .f32) (x3 : Vec F S1x32x512 .f32) :
    wFirst c i arg2 harg2 arg3 harg3 arg4 harg4 arg5 harg5 arg6 harg6 hF hL x2 x3 = k1_pay6 x2 x3 (k1_pay1 (F := F)) := by
  unfold wFirst
  rw [View.read_writes_eq_canon _ _ _ (coverW_first c i arg2 harg2 arg3 harg3 arg4 harg4 arg5 harg5 arg6 harg6 hF hL x2 x3)]
  unfold runFirst
  dsimp only
  sl_unfold_words
  rw [View.canon_cons_unit_zero (S := S1x4096) hz2, View.readCov_unit_zero (S := S1x4096) _ hz2]
  simp only [View.readAt_eq_ld, harg2.read_unread, harg3.read_unread, View.ld_unit_zero (S := S1x32x4096) hz3,
    View.ld_unit_zero (S := S1x32x512) hz3, View.ld_unit_zero (S := S1x4096) hz2, View.ld_unit_zero (S := S32x4096) hz2]

theorem nFirst_eq (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (x2 : Vec F S1x32x4096 .f32) (x3 : Vec F S1x32x512 .f32) :
    nFirst c i arg2 harg2 arg3 harg3 arg4 harg4 arg5 harg5 arg6 harg6 hF hL x2 x3 = k1_pay7 x2 x3 (k1_pay2 (F := F)) := by
  unfold nFirst
  rw [View.read_writes_eq_canon _ _ _ (coverN_first c i arg2 harg2 arg3 harg3 arg4 harg4 arg5 harg5 arg6 harg6 hF hL x2 x3)]
  unfold runFirst
  dsimp only
  sl_unfold_words
  rw [View.canon_cons_unit_zero (S := S32x4096) hz2, View.readCov_unit_zero (S := S32x4096) _ hz2]
  simp only [View.readAt_eq_ld, harg2.read_unread, harg3.read_unread, View.ld_unit_zero (S := S1x32x4096) hz3,
    View.ld_unit_zero (S := S1x32x512) hz3, View.ld_unit_zero (S := S1x4096) hz2, View.ld_unit_zero (S := S32x4096) hz2]

/-! ## A middle tile: this tile's contribution is added to what the accumulators held -/

theorem wMid_eq (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (x2 : Vec F S1x32x4096 .f32) (x3 : Vec F S1x32x512 .f32) (s5 : Vec F S1x4096 .f32) (s6 : Vec F S32x4096 .f32) :
    wMid c i arg2 harg2 arg3 harg3 arg4 harg4 arg5 harg5 arg6 harg6 hF hL x2 x3 s5 s6 = k1_pay6 x2 x3 s5 := by
  unfold wMid
  rw [View.read_writes_eq_canon _ _ _ (coverW_mid c i arg2 harg2 arg3 harg3 arg4 harg4 arg5 harg5 arg6 harg6 hF hL x2 x3 s5 s6)]
  unfold runMid
  dsimp only
  rw [View.canon_unit_zero (S := S1x4096) hz2]
  simp only [View.readAt_eq_ld, harg2.read_unread, harg3.read_unread, harg5.read_unread, View.ld_unit_zero (S := S1x32x4096) hz3,
    View.ld_unit_zero (S := S1x32x512) hz3, View.ld_unit_zero (S := S1x4096) hz2, View.ld_unit_zero (S := S32x4096) hz2]

theorem nMid_eq (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (x2 : Vec F S1x32x4096 .f32) (x3 : Vec F S1x32x512 .f32) (s5 : Vec F S1x4096 .f32) (s6 : Vec F S32x4096 .f32) :
    nMid c i arg2 harg2 arg3 harg3 arg4 harg4 arg5 harg5 arg6 harg6 hF hL x2 x3 s5 s6 = k1_pay7 x2 x3 s6 := by
  unfold nMid
  rw [View.read_writes_eq_canon _ _ _ (coverN_mid c i arg2 harg2 arg3 harg3 arg4 harg4 arg5 harg5 arg6 harg6 hF hL x2 x3 s5 s6)]
  unfold runMid
  dsimp only
  rw [View.canon_unit_zero (S := S32x4096) hz2]
  simp only [View.readAt_eq_ld, harg2.read_unread, harg3.read_unread, harg6.read_unread, View.ld_unit_zero (S := S1x32x4096) hz3,
    View.ld_unit_zero (S := S1x32x512) hz3, View.ld_unit_zero (S := S1x4096) hz2, View.ld_unit_zero (S := S32x4096) hz2]

/-! ## A last tile: the same additions, and then the output block from the accumulators just stored -/

theorem wLast_eq (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    wLast c i arg2 harg2 arg3 harg3 arg4 harg4 arg5 harg5 arg6 harg6 hF hL x2 x3 s5 s6 = k1_pay6 x2 x3 s5 := by
  unfold wLast
  rw [View.read_writes_eq_canon _ _ _ (coverW_last c i arg2 harg2 arg3 harg3 arg4 harg4 arg5 harg5 arg6 harg6 hF hL x2 x3 s5 s6)]
  unfold runLast
  dsimp only
  sl_unfold_words
  rw [View.canon_unit_zero (S := S1x4096) hz2]
  simp only [View.readAt_eq_ld, harg2.read_unread, harg3.read_unread, harg5.read_unread, View.ld_unit_zero (S := S1x32x4096) hz3,
    View.ld_unit_zero (S := S1x32x512) hz3, View.ld_unit_zero (S := S1x4096) hz2, View.ld_unit_zero (S := S32x4096) hz2]

theorem nLast_eq (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    nLast c i arg2 harg2 arg3 harg3 arg4 harg4 arg5 harg5 arg6 harg6 hF hL x2 x3 s5 s6 = k1_pay7 x2 x3 s6 := by
  unfold nLast
  rw [View.read_writes_eq_canon _ _ _ (coverN_last c i arg2 harg2 arg3 harg3 arg4 harg4 arg5 harg5 arg6 harg6 hF hL x2 x3 s5 s6)]
  unfold runLast
  dsimp only
  sl_unfold_words
  rw [View.canon_unit_zero (S := S32x4096) hz2]
  simp only [View.readAt_eq_ld, harg2.read_unread, harg3.read_unread, harg6.read_unread, View.ld_unit_zero (S := S1x32x4096) hz3,
    View.ld_unit_zero (S := S1x32x512) hz3, View.ld_unit_zero (S := S1x4096) hz2, View.ld_unit_zero (S := S32x4096) hz2]

theorem oLast_eq (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    oLast c i arg2 harg2 arg3 harg3 arg4 harg4 arg5 harg5 arg6 harg6 hF hL x2 x3 s5 s6 = k1_pay8 x2 (k1_pay7 x2 x3 s6) (k1_pay6 x2 x3 s5) := by
  unfold oLast
  rw [View.read_writes_eq_canon _ _ _ (coverO_last c i arg2 harg2 arg3 harg3 arg4 harg4 arg5 harg5 arg6 harg6 hF hL x2 x3 s5 s6)]
  unfold runLast
  dsimp only
  sl_unfold_words
  rw [View.canon_unit_zero (S := S1x32x4096) hz3, View.readCov_unit_zero (S := S32x4096) _ hz2,
    View.readCov_unit_zero (S := S1x4096) _ hz2]
  simp only [View.readAt_eq_ld, harg2.read_unread, harg3.read_unread, harg5.read_unread, harg6.read_unread, View.ld_unit_zero (S := S1x32x4096) hz3,
    View.ld_unit_zero (S := S1x32x512) hz3, View.ld_unit_zero (S := S1x4096) hz2, View.ld_unit_zero (S := S32x4096) hz2]

end Cert.KernelIdeal.Hand.R1

end
-- ==== Proof.Hand.R1.Blocks.lean ====
/- Region 1's two input windows read one array of four batch entries. At grid point t (batch entry t / 8, tile
   t % 8) the first window's block is the whole batch entry, and the second window's block is the tile's 512 pixels
   of the same entry: pixel r of the block is pixel 512 * (t % 8) + r of the entry. -/
import proofs.«166501_j24086176596062_1_alg».proof.Proof.Hand.R1.Base
import proofs.«166501_j24086176596062_1_alg».proof.Proof.Spec
import Idealize.ShloMosaic.Lib.ValueIdx
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.MeanShift

variable {F : FTy → Type} [FloatOps F]

/-- A grid point's batch entry is one of the four. -/
theorem batch_lt (t : Fin cfg1.N) : t.val / 8 < 4 := by
  have h : t.val < 32 := lt_of_lt_of_eq t.isLt Gen.N_1
  omega

/-- The two input windows' block indices over the grid: the first window's block is the batch entry's; the second's
    is the batch entry's tile along the pixel axis. -/
theorem in_index_facts : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = 0 ∧ win1_1.index t (2 : Fin 3) = t.val % 8 :=
  (by decide +kernel : ∀ t : Fin grid1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = 0 ∧ win1_1.index t (2 : Fin 3) = t.val % 8)

variable (V : (c : Dev nD) → (b : Ref sig .tc) → Buf (Elt F) ((c : Thread nD τ).loc b))

/-- The first window's block at point t is batch entry t / 8 of the input array. -/
theorem blk0_apply (c : Dev nD) (t : Fin cfg1.N) (d : Fin 32) (m : Fin 4096) :
    blk V c 0 t (ix3 (0 : Fin 1) d m) = V c main_v1 (ix3 (⟨t.val / 8, batch_lt t⟩ : Fin 4) d m) := by
  obtain ⟨e0, e1, e2, -, -, -⟩ := in_index_facts t
  show V c main_v1 (((cfg1.win 0).blk t).view.emb (ix3 (0 : Fin 1) d m)) = _
  refine congrArg (V c main_v1) ?_
  funext a
  apply Fin.ext
  match a with
  | ⟨0, _⟩ => show win1_0.index t (0 : Fin 3) * 1 + 1 * 0 = t.val / 8; omega
  | ⟨1, _⟩ => show win1_0.index t (1 : Fin 3) * 32 + 1 * d.val = d.val; omega
  | ⟨2, _⟩ => show win1_0.index t (2 : Fin 3) * 4096 + 1 * m.val = m.val; omega

/-- The second window's block at point t is tile t % 8 of batch entry t / 8 of the same array. -/
theorem blk1_apply (c : Dev nD) (t : Fin cfg1.N) (d : Fin 32) (r : Fin 512) :
    blk V c 1 t (ix3 (0 : Fin 1) d r) = V c main_v1 (ix3 (⟨t.val / 8, batch_lt t⟩ : Fin 4) d (pix (t.val % 8) r)) := by
  obtain ⟨-, -, -, e3, e4, e5⟩ := in_index_facts t
  show V c main_v1 (((cfg1.win 1).blk t).view.emb (ix3 (0 : Fin 1) d r)) = _
  refine congrArg (V c main_v1) ?_
  funext a
  apply Fin.ext
  match a with
  | ⟨0, _⟩ => show win1_1.index t (0 : Fin 3) * 1 + 1 * 0 = t.val / 8; omega
  | ⟨1, _⟩ => show win1_1.index t (1 : Fin 3) * 32 + 1 * d.val = d.val; omega
  | ⟨2, _⟩ =>
    show win1_1.index t (2 : Fin 3) * 512 + 1 * r.val = (512 * (t.val % 8) + r.val) % 4096
    have hr : r.val < 512 := r.isLt
    omega

end Cert.KernelIdeal.Hand.R1

end
-- ==== Proof.Hand.Payloads1.lean ====
import proofs.«166501_j24086176596062_1_alg».proof.Proof.Gen.KernelIdeal.Skeleton
import proofs.«166501_j24086176596062_1_alg».proof.Proof.Spec
import proofs.«166501_j24086176596062_1_alg».proof.Proof.LibMatmul
import Idealize.ShloMosaic.Lib.ValueIdx
import Idealize.ShloMosaic.Lib.Pipeline.Value
import Idealize.ShloMosaic.Lib.ValueLayout
import Idealize.ShloMosaic.PureOps.Ideal.Laws

/-!
  The kernel body's values, read at an index on the extended reals.

  One grid point of the kernel holds the full block of a batch entry (`x2`, 32 features by 4096 pixels), one tile
  of 512 of its pixels (`x3`), a running column weight (`s5`, one row of 4096) and a running numerator (`s6`,
  32 by 4096). Its values are:

  * the tile's affinities, `exp (bw · Σ_d x3 d r · x2 d m)` at tile pixel `r` and pixel `m`: the transposed tile
    times the full block, contracted over the 32 features, scaled by the bandwidth, exponentiated;
  * the new column weight, the old one plus the sum of the tile's affinities over the tile's 512 pixels;
  * the new numerator, the old one plus `Σ_r x3 d r · affinity r m`;
  * at the last tile, `½ · numerator / weight + ½ · x2`;
  * and zero for both running values at the first tile.

  When `x2` is a batch entry `y` and `x3` its tile `j`, these are the specification's affinity, its tile
  contribution to the column weight and its tile contribution to the numerator.
-/

noncomputable section

open scoped BigOperators

namespace Cert.KernelIdeal.Hand.Pay1

open Cert.KernelIdeal Cert.KernelIdeal.Gen Cert.MeanShift Idealize.ShloMosaic Idealize.ShloMosaic.ValueIdx

/-! ## Layout and reduction steps at an index -/

/-- The reduced index `m` with row `k` put back is `(k, m)`. -/
theorem lift_col {a b : ℕ} (h : (⟨2, ![a, b]⟩ : Shape).Reduces [0] (⟨1, ![b]⟩ : Shape)) (m : Fin b) (k : Fin a) :
    h.lift (ix1 m) k = ix2 k m := by
  funext c
  apply Fin.ext
  match c with
  | ⟨0, _⟩ => rfl
  | ⟨1, _⟩ => rfl

/-- The sum over the rows of a `[512, 4096]` array, from the zero word, at column `m`. -/
theorem laneSum_apply (src : FVec Ideal S512x4096 .f32) (h : S512x4096.Reduces [0] S4096) (hφ : FKind.Formats .f32)
    (hacc : (0x00000000#32 : BitVec 32) = 0x00000000#32) (m : Fin 4096) :
    multiReduction .add [0] S4096 src 0x00000000#32 h hφ hacc (ix1 m) = ∑ r : Fin 512, src (ix2 r m) := by
  refine (Ideal.multiReduction_add_single src 0x00000000#32 h hφ hacc (ix1 m)).trans ?_
  exact Finset.sum_congr rfl fun k _ => congrArg src (lift_col h m k)

/-- The full block without its unit axis. -/
theorem pay3_apply (x2 : Vec Ideal S1x32x4096 .f32) (d : Fin 32) (m : Fin 4096) :
    k1_pay3 x2 (ix2 d m) = x2 (ix3 (0 : Fin 1) d m) :=
  shapeCast_1ab_ab_apply x2 _ d m

/-- The tile block without its unit axis. -/
theorem pay4_apply (x3 : Vec Ideal S1x32x512 .f32) (d : Fin 32) (r : Fin 512) :
    k1_pay4 x3 (ix2 d r) = x3 (ix3 (0 : Fin 1) d r) :=
  shapeCast_1ab_ab_apply x3 _ d r

/-! ## The payloads -/

/-- The first tile starts the column weight at zero. -/
theorem pay1_apply (m : Fin 4096) : k1_pay1 (F := Ideal) (ix2 (0 : Fin 1) m) = 0 := by
  unfold k1_pay1
  rw [shapeCast_self]
  exact Ideal.ofBits_zero_f32

/-- The first tile starts the numerator at zero. -/
theorem pay2_apply (d : Fin 32) (m : Fin 4096) : k1_pay2 (F := Ideal) (ix2 d m) = 0 := by
  unfold k1_pay2
  rw [shapeCast_self]
  exact Ideal.ofBits_zero_f32

/-- The tile's affinities: the exponential of the bandwidth times the feature contraction of tile pixel `r` with
    pixel `m`. -/
theorem pay5_apply (x2 : Vec Ideal S1x32x4096 .f32) (x3 : Vec Ideal S1x32x512 .f32) (r : Fin 512) (m : Fin 4096) :
    k1_pay5 x2 x3 (ix2 r m)
      = Ideal.exp (bw * ∑ d : Fin 32, x3 (ix3 (0 : Fin 1) d r) * x2 (ix3 (0 : Fin 1) d m)) := by
  unfold k1_pay5
  dsimp only
  show Ideal.exp (bw * matmul (F := Ideal) _ none _ (k1_pay3 x2) _ (ix2 r m)) = _
  refine congrArg (fun t => Ideal.exp (bw * t)) ?_
  refine (Cert.MatOps.matmul_plain_zero_apply (M := 512) (K := 32) (N := 4096) none _ _ r m).trans ?_
  refine Finset.sum_congr rfl fun d _ => ?_
  rw [transpose_ix2_apply, pay4_apply, pay3_apply]

/-- The new column weight: the old one plus the tile's affinities summed over the tile's pixels. -/
theorem pay6_apply (x2 : Vec Ideal S1x32x4096 .f32) (x3 : Vec Ideal S1x32x512 .f32) (s5 : Vec Ideal S1x4096 .f32)
    (m : Fin 4096) :
    k1_pay6 x2 x3 s5 (ix2 (0 : Fin 1) m)
      = s5 (ix2 (0 : Fin 1) m) + ∑ r : Fin 512, k1_pay5 x2 x3 (ix2 r m) := by
  unfold k1_pay6
  rw [shapeCast_self]
  show s5 (ix2 (0 : Fin 1) m) + shapeCast S1x4096 _ _ (ix2 (0 : Fin 1) m) = _
  refine congrArg (fun t => s5 (ix2 (0 : Fin 1) m) + t) ?_
  refine (shapeCast_a_1a_apply _ _ (0 : Fin 1) m).trans ?_
  exact laneSum_apply (k1_pay5 x2 x3) _ _ _ m

/-- The new numerator: the old one plus the tile block times the tile's affinities, contracted over the tile's
    pixels. -/
theorem pay7_apply (x2 : Vec Ideal S1x32x4096 .f32) (x3 : Vec Ideal S1x32x512 .f32) (s6 : Vec Ideal S32x4096 .f32)
    (d : Fin 32) (m : Fin 4096) :
    k1_pay7 x2 x3 s6 (ix2 d m)
      = s6 (ix2 d m) + ∑ r : Fin 512, x3 (ix3 (0 : Fin 1) d r) * k1_pay5 x2 x3 (ix2 r m) := by
  unfold k1_pay7
  rw [shapeCast_self]
  show s6 (ix2 d m) + matmul (F := Ideal) _ none (k1_pay4 x3) (k1_pay5 x2 x3) _ (ix2 d m) = _
  refine congrArg (fun t => s6 (ix2 d m) + t) ?_
  refine (Cert.MatOps.matmul_plain_zero_apply (M := 32) (K := 512) (N := 4096) none _ _ d m).trans ?_
  refine Finset.sum_congr rfl fun r _ => ?_
  rw [pay4_apply]

/-- The last tile's output: half the numerator over the column weight plus half the input. -/
theorem pay8_apply (x2 : Vec Ideal S1x32x4096 .f32) (s6 : Vec Ideal S32x4096 .f32) (s5 : Vec Ideal S1x4096 .f32)
    (d : Fin 32) (m : Fin 4096) :
    k1_pay8 x2 s6 s5 (ix3 (0 : Fin 1) d m)
      = half * Ideal.div (s6 (ix2 d m)) (s5 (ix2 (0 : Fin 1) m)) + half * x2 (ix3 (0 : Fin 1) d m) := by
  unfold k1_pay8
  refine (shapeCast_ab_1ab_apply _ _ (0 : Fin 1) d m).trans ?_
  show half * Ideal.div (s6 (ix2 d m)) (broadcastTo S32x4096 s5 _ (ix2 d m)) + half * k1_pay3 x2 (ix2 d m) = _
  rw [broadcastTo_1b_ab_apply, pay3_apply]

/-! ## The tie to the specification -/

section Tie
variable (y : Pts) (j : ℕ) (x2 : Vec Ideal S1x32x4096 .f32) (x3 : Vec Ideal S1x32x512 .f32)
  (h2 : ∀ d m, x2 (ix3 (0 : Fin 1) d m) = y d m) (h3 : ∀ d r, x3 (ix3 (0 : Fin 1) d r) = y d (pix j r))
include h2 h3

/-- On a batch entry and its tile `j` the kernel's affinities are the specification's. -/
theorem pay5_aff (r : Fin 512) (m : Fin 4096) : k1_pay5 x2 x3 (ix2 r m) = aff y (pix j r) m := by
  rw [pay5_apply]
  unfold aff
  simp only [h2, h3]

/-- The column weight's update adds the specification's tile contribution. -/
theorem pay6_tile (s5 : Vec Ideal S1x4096 .f32) (m : Fin 4096) :
    k1_pay6 x2 x3 s5 (ix2 (0 : Fin 1) m) = s5 (ix2 (0 : Fin 1) m) + tileW y m j := by
  rw [pay6_apply]
  unfold tileW
  exact congrArg (fun t => s5 (ix2 (0 : Fin 1) m) + t)
    (Finset.sum_congr rfl fun r _ => pay5_aff y j x2 x3 h2 h3 r m)

/-- The numerator's update adds the specification's tile contribution. -/
theorem pay7_tile (s6 : Vec Ideal S32x4096 .f32) (d : Fin 32) (m : Fin 4096) :
    k1_pay7 x2 x3 s6 (ix2 d m) = s6 (ix2 d m) + tileN y d m j := by
  rw [pay7_apply]
  unfold tileN
  exact congrArg (fun t => s6 (ix2 d m) + t)
    (Finset.sum_congr rfl fun r _ => by rw [h3, pay5_aff y j x2 x3 h2 h3 r m])

end Tie

end Cert.KernelIdeal.Hand.Pay1

end
-- ==== Proof.Hand.R1.Value.lean ====
/-
  Region 1 at the ideal values: what the accumulators and the output block hold, in the specification's words.

  A grid point `t` is tile `t % 8` of batch entry `t / 8`. The first window hands the body the entry's full block
  and the second its tile's block, so each tile's additions are the specification's tile sums `tileW` and `tileN`
  of that entry. By induction on the point the accumulators after tile `k` are the running sums `accW`, `accN`
  over tiles `0 … k`, accumulated from zero in the same left-to-right order, so no finiteness is needed; at tile 7
  the stored block is half the quotient of the eight-tile sums plus half the input: `stepK` of the entry.
-/
import proofs.«166501_j24086176596062_1_alg».proof.Proof.Hand.R1.Pieces
import proofs.«166501_j24086176596062_1_alg».proof.Proof.Hand.R1.Blocks
import proofs.«166501_j24086176596062_1_alg».proof.Proof.Hand.Payloads1
import proofs.«166501_j24086176596062_1_alg».proof.Proof.Spec
import Idealize.ShloMosaic.Lib.Pipeline.Value

set_option maxRecDepth 16384

noncomputable section

namespace Cert.KernelIdeal.Hand.R1.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.KernelIdeal.Hand.R1 Cert.MeanShift Idealize.ShloMosaic.ValueIdx

/-! ## Each case's contents at an index, through the specification's tile sums

  Here `y` is a batch entry, `j` a tile number, `x2` the entry's full block and `x3` its tile-`j` block. -/

section Tile
variable (y : Pts) (j : ℕ) (x2 : Vec Ideal S1x32x4096 .f32) (x3 : Vec Ideal S1x32x512 .f32)
  (h2 : ∀ d m, x2 (ix3 (0 : Fin 1) d m) = y d m) (h3 : ∀ d r, x3 (ix3 (0 : Fin 1) d r) = y d (pix j r))
include h2 h3

theorem wFirst_tile (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (m : Fin 4096) :
    wFirst c i arg2 harg2 arg3 harg3 arg4 harg4 arg5 harg5 arg6 harg6 hF hL x2 x3 (ix2 (0 : Fin 1) m) = 0 + tileW y m j := by
  rw [wFirst_eq]
  refine (Pay1.pay6_tile y j x2 x3 h2 h3 _ m).trans ?_
  rw [Pay1.pay1_apply]

theorem nFirst_tile (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (d : Fin 32) (m : Fin 4096) :
    nFirst c i arg2 harg2 arg3 harg3 arg4 harg4 arg5 harg5 arg6 harg6 hF hL x2 x3 (ix2 d m) = 0 + tileN y d m j := by
  rw [nFirst_eq]
  refine (Pay1.pay7_tile y j x2 x3 h2 h3 _ d m).trans ?_
  rw [Pay1.pay2_apply]

theorem wMid_tile (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (s5 : Vec Ideal S1x4096 .f32) (s6 : Vec Ideal S32x4096 .f32) (m : Fin 4096) :
    wMid c i arg2 harg2 arg3 harg3 arg4 harg4 arg5 harg5 arg6 harg6 hF hL x2 x3 s5 s6 (ix2 (0 : Fin 1) m) = s5 (ix2 (0 : Fin 1) m) + tileW y m j := by
  rw [wMid_eq]
  exact Pay1.pay6_tile y j x2 x3 h2 h3 s5 m

theorem nMid_tile (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (s5 : Vec Ideal S1x4096 .f32) (s6 : Vec Ideal S32x4096 .f32) (d : Fin 32) (m : Fin 4096) :
    nMid c i arg2 harg2 arg3 harg3 arg4 harg4 arg5 harg5 arg6 harg6 hF hL x2 x3 s5 s6 (ix2 d m) = s6 (ix2 d m) + tileN y d m j := by
  rw [nMid_eq]
  exact Pay1.pay7_tile y j x2 x3 h2 h3 s6 d m

theorem wLast_tile (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (m : Fin 4096) :
    wLast c i arg2 harg2 arg3 harg3 arg4 harg4 arg5 harg5 arg6 harg6 hF hL x2 x3 s5 s6 (ix2 (0 : Fin 1) m) = s5 (ix2 (0 : Fin 1) m) + tileW y m j := by
  rw [wLast_eq]
  exact Pay1.pay6_tile y j x2 x3 h2 h3 s5 m

theorem nLast_tile (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (d : Fin 32) (m : Fin 4096) :
    nLast c i arg2 harg2 arg3 harg3 arg4 harg4 arg5 harg5 arg6 harg6 hF hL x2 x3 s5 s6 (ix2 d m) = s6 (ix2 d m) + tileN y d m j := by
  rw [nLast_eq]
  exact Pay1.pay7_tile y j x2 x3 h2 h3 s6 d m

/-- The output block: the quotient is of the accumulators WITH this tile's own contributions. -/
theorem oLast_tile (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (d : Fin 32) (m : Fin 4096) :
    oLast c i arg2 harg2 arg3 harg3 arg4 harg4 arg5 harg5 arg6 harg6 hF hL x2 x3 s5 s6 (ix3 (0 : Fin 1) d m)
      = half * Ideal.div (s6 (ix2 d m) + tileN y d m j) (s5 (ix2 (0 : Fin 1) m) + tileW y m j) + half * y d m := by
  rw [oLast_eq, Pay1.pay8_apply, Pay1.pay7_tile y j x2 x3 h2 h3, Pay1.pay6_tile y j x2 x3 h2 h3, h2]

end Tile

/-! ## The accumulators after each point -/

variable (V : (c : Dev nD) → (b : Ref sig .tc) → Buf (Elt Ideal) ((c : Thread nD τ).loc b))

/-- The region's input array on core `c`. -/
abbrev Y (c : Dev nD) : S4x32x4096.Idx → EReal := V c main_v1

section Acc
variable (c : Dev nD)
  (hb0 : ∀ (t : Fin cfg1.N) (b : Fin 4), b.val = t.val / 8 → ∀ (d : Fin 32) (m : Fin 4096),
    blk V c 0 t (ix3 (0 : Fin 1) d m) = entry (Y V c) b d m)
  (hb1 : ∀ (t : Fin cfg1.N) (b : Fin 4) (k : ℕ), b.val = t.val / 8 → k = t.val % 8 → ∀ (d : Fin 32) (r : Fin 512),
    blk V c 1 t (ix3 (0 : Fin 1) d r) = entry (Y V c) b d (pix k r))
include hb0 hb1

/-! Each case at a grid point `t`, which is tile `k` of batch entry `b`. -/

theorem wFirstAt_tile (t : Fin cfg1.N) (h0 : t.val % 8 = 0) (b : Fin 4) (hb : b.val = t.val / 8) (m : Fin 4096) :
    wFirstAt V c t h0 (ix2 (0 : Fin 1) m) = 0 + tileW (entry (Y V c) b) m 0 := by
  unfold wFirstAt
  exact wFirst_tile (entry (Y V c) b) 0 (blk V c 0 t) (blk V c 1 t) (hb0 t b hb) (hb1 t b 0 hb h0.symm)
    c (grid1.coords t) (ms0 t) (hs0 t) (ms1 t) (hs1 t) (ms2 t) (hs2 t) scW (Memref.isWhole_whole _) scN (Memref.isWhole_whole _) (isFirst_of t h0) (notLast_of_first t h0) m

theorem nFirstAt_tile (t : Fin cfg1.N) (h0 : t.val % 8 = 0) (b : Fin 4) (hb : b.val = t.val / 8) (d : Fin 32) (m : Fin 4096) :
    nFirstAt V c t h0 (ix2 d m) = 0 + tileN (entry (Y V c) b) d m 0 := by
  unfold nFirstAt
  exact nFirst_tile (entry (Y V c) b) 0 (blk V c 0 t) (blk V c 1 t) (hb0 t b hb) (hb1 t b 0 hb h0.symm)
    c (grid1.coords t) (ms0 t) (hs0 t) (ms1 t) (hs1 t) (ms2 t) (hs2 t) scW (Memref.isWhole_whole _) scN (Memref.isWhole_whole _) (isFirst_of t h0) (notLast_of_first t h0) d m

theorem wMidAt_tile (t : Fin cfg1.N) (h0 : ¬t.val % 8 = 0) (h7 : ¬t.val % 8 = 7) (b : Fin 4) (k : ℕ) (hb : b.val = t.val / 8)
    (hk : k = t.val % 8) (s5 : Vec Ideal S1x4096 .f32) (s6 : Vec Ideal S32x4096 .f32) (m : Fin 4096) :
    wMidAt V c t h0 h7 s5 s6 (ix2 (0 : Fin 1) m) = s5 (ix2 (0 : Fin 1) m) + tileW (entry (Y V c) b) m k := by
  unfold wMidAt
  exact wMid_tile (entry (Y V c) b) k (blk V c 0 t) (blk V c 1 t) (hb0 t b hb) (hb1 t b k hb hk)
    c (grid1.coords t) (ms0 t) (hs0 t) (ms1 t) (hs1 t) (ms2 t) (hs2 t) scW (Memref.isWhole_whole _) scN (Memref.isWhole_whole _) (notFirst_of t h0) (notLast_of t h7) s5 s6 m

theorem nMidAt_tile (t : Fin cfg1.N) (h0 : ¬t.val % 8 = 0) (h7 : ¬t.val % 8 = 7) (b : Fin 4) (k : ℕ) (hb : b.val = t.val / 8)
    (hk : k = t.val % 8) (s5 : Vec Ideal S1x4096 .f32) (s6 : Vec Ideal S32x4096 .f32) (d : Fin 32) (m : Fin 4096) :
    nMidAt V c t h0 h7 s5 s6 (ix2 d m) = s6 (ix2 d m) + tileN (entry (Y V c) b) d m k := by
  unfold nMidAt
  exact nMid_tile (entry (Y V c) b) k (blk V c 0 t) (blk V c 1 t) (hb0 t b hb) (hb1 t b k hb hk)
    c (grid1.coords t) (ms0 t) (hs0 t) (ms1 t) (hs1 t) (ms2 t) (hs2 t) scW (Memref.isWhole_whole _) scN (Memref.isWhole_whole _) (notFirst_of t h0) (notLast_of t h7) s5 s6 d m

theorem wLastAt_tile (t : Fin cfg1.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (m : Fin 4096) :
    wLastAt V c t h0 h7 s5 s6 (ix2 (0 : Fin 1) m) = s5 (ix2 (0 : Fin 1) m) + tileW (entry (Y V c) b) m k := by
  unfold wLastAt
  exact wLast_tile (entry (Y V c) b) k (blk V c 0 t) (blk V c 1 t) (hb0 t b hb) (hb1 t b k hb hk)
    c (grid1.coords t) (ms0 t) (hs0 t) (ms1 t) (hs1 t) (ms2 t) (hs2 t) scW (Memref.isWhole_whole _) scN (Memref.isWhole_whole _) (notFirst_of t h0) (isLast_of t h7) s5 s6 m

theorem nLastAt_tile (t : Fin cfg1.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (d : Fin 32) (m : Fin 4096) :
    nLastAt V c t h0 h7 s5 s6 (ix2 d m) = s6 (ix2 d m) + tileN (entry (Y V c) b) d m k := by
  unfold nLastAt
  exact nLast_tile (entry (Y V c) b) k (blk V c 0 t) (blk V c 1 t) (hb0 t b hb) (hb1 t b k hb hk)
    c (grid1.coords t) (ms0 t) (hs0 t) (ms1 t) (hs1 t) (ms2 t) (hs2 t) scW (Memref.isWhole_whole _) scN (Memref.isWhole_whole _) (notFirst_of t h0) (isLast_of t h7) s5 s6 d m

theorem oLastAt_tile (t : Fin cfg1.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (d : Fin 32) (m : Fin 4096) :
    oLastAt V c t h0 h7 s5 s6 (ix3 (0 : Fin 1) d m)
      = half * Ideal.div (s6 (ix2 d m) + tileN (entry (Y V c) b) d m k) (s5 (ix2 (0 : Fin 1) m) + tileW (entry (Y V c) b) m k)
        + half * entry (Y V c) b d m := by
  unfold oLastAt
  exact oLast_tile (entry (Y V c) b) k (blk V c 0 t) (blk V c 1 t) (hb0 t b hb) (hb1 t b k hb hk)
    c (grid1.coords t) (ms0 t) (hs0 t) (ms1 t) (hs1 t) (ms2 t) (hs2 t) scW (Memref.isWhole_whole _) scN (Memref.isWhole_whole _) (notFirst_of t h0) (isLast_of t h7) s5 s6 d m

/-! The accumulators at a point, one component at a time. -/

theorem accW_first (t : Fin cfg1.N) (h0 : t.val % 8 = 0) : (accAt V c t.val t.isLt).1 = wFirstAt V c t h0 := by
  rw [accAt_first V c t h0]
theorem accN_first (t : Fin cfg1.N) (h0 : t.val % 8 = 0) : (accAt V c t.val t.isLt).2 = nFirstAt V c t h0 := by
  rw [accAt_first V c t h0]
theorem accW_mid (t : Fin cfg1.N) (h0 : ¬t.val % 8 = 0) (h7 : ¬t.val % 8 = 7) :
    (accAt V c t.val t.isLt).1 = wMidAt V c t h0 h7 (accAt V c (t.val - 1) (prevLt t)).1 (accAt V c (t.val - 1) (prevLt t)).2 := by
  rw [accAt_mid V c t h0 h7]
theorem accN_mid (t : Fin cfg1.N) (h0 : ¬t.val % 8 = 0) (h7 : ¬t.val % 8 = 7) :
    (accAt V c t.val t.isLt).2 = nMidAt V c t h0 h7 (accAt V c (t.val - 1) (prevLt t)).1 (accAt V c (t.val - 1) (prevLt t)).2 := by
  rw [accAt_mid V c t h0 h7]
theorem accW_last (t : Fin cfg1.N) (h0 : ¬t.val % 8 = 0) (h7 : t.val % 8 = 7) :
    (accAt V c t.val t.isLt).1 = wLastAt V c t h0 h7 (accAt V c (t.val - 1) (prevLt t)).1 (accAt V c (t.val - 1) (prevLt t)).2 := by
  rw [accAt_last V c t h0 h7]
theorem accN_last (t : Fin cfg1.N) (h0 : ¬t.val % 8 = 0) (h7 : t.val % 8 = 7) :
    (accAt V c t.val t.isLt).2 = nLastAt V c t h0 h7 (accAt V c (t.val - 1) (prevLt t)).1 (accAt V c (t.val - 1) (prevLt t)).2 := by
  rw [accAt_last V c t h0 h7]

/-- After tile `k` of batch entry `b` the accumulators hold the specification's running sums over tiles `0 … k`:
    by induction on the point; a first tile restarts from zero, every other tile adds to the point before, which is
    tile `k - 1` of the same entry. -/
theorem acc_inv : ∀ (n : ℕ) (t : Fin cfg1.N), t.val = n → ∀ (b : Fin 4) (k : ℕ), b.val = t.val / 8 → k = t.val % 8 →
    (∀ m : Fin 4096, (accAt V c t.val t.isLt).1 (ix2 (0 : Fin 1) m) = accW (entry (Y V c) b) m (k + 1))
    ∧ (∀ (d : Fin 32) (m : Fin 4096), (accAt V c t.val t.isLt).2 (ix2 d m) = accN (entry (Y V c) b) d m (k + 1)) := by
  intro n
  induction n with
  | zero =>
    intro t ht b k hb hk
    have h0 : t.val % 8 = 0 := by omega
    obtain rfl : k = 0 := by omega
    refine ⟨fun m => ?_, fun d m => ?_⟩
    · rw [accW_first V c hb0 hb1 t h0, wFirstAt_tile V c hb0 hb1 t h0 b hb m]; rfl
    · rw [accN_first V c hb0 hb1 t h0, nFirstAt_tile V c hb0 hb1 t h0 b hb d m]; rfl
  | succ n ih =>
    intro t ht b k hb hk
    by_cases h0 : t.val % 8 = 0
    · obtain rfl : k = 0 := by omega
      refine ⟨fun m => ?_, fun d m => ?_⟩
      · rw [accW_first V c hb0 hb1 t h0, wFirstAt_tile V c hb0 hb1 t h0 b hb m]; rfl
      · rw [accN_first V c hb0 hb1 t h0, nFirstAt_tile V c hb0 hb1 t h0 b hb d m]; rfl
    · obtain ⟨k', rfl⟩ : ∃ k', k = k' + 1 := Nat.exists_eq_succ_of_ne_zero (by omega)
      have hprev := ih ⟨t.val - 1, prevLt t⟩ (by show t.val - 1 = n; omega) b k' (by show b.val = (t.val - 1) / 8; omega)
        (by show k' = (t.val - 1) % 8; omega)
      have ihW : ∀ m : Fin 4096, (accAt V c (t.val - 1) (prevLt t)).1 (ix2 (0 : Fin 1) m) = accW (entry (Y V c) b) m (k' + 1) := hprev.1
      have ihN : ∀ (d : Fin 32) (m : Fin 4096), (accAt V c (t.val - 1) (prevLt t)).2 (ix2 d m) = accN (entry (Y V c) b) d m (k' + 1) := hprev.2
      by_cases h7 : t.val % 8 = 7
      · refine ⟨fun m => ?_, fun d m => ?_⟩
        · rw [accW_last V c hb0 hb1 t h0 h7, wLastAt_tile V c hb0 hb1 t h0 h7 b (k' + 1) hb hk _ _ m, ihW m]; rfl
        · rw [accN_last V c hb0 hb1 t h0 h7, nLastAt_tile V c hb0 hb1 t h0 h7 b (k' + 1) hb hk _ _ d m, ihN d m]; rfl
      · refine ⟨fun m => ?_, fun d m => ?_⟩
        · rw [accW_mid V c hb0 hb1 t h0 h7, wMidAt_tile V c hb0 hb1 t h0 h7 b (k' + 1) hb hk _ _ m, ihW m]; rfl
        · rw [accN_mid V c hb0 hb1 t h0 h7, nMidAt_tile V c hb0 hb1 t h0 h7 b (k' + 1) hb hk _ _ d m, ihN d m]; rfl

/-- At a last tile the stored output block is the tiled step of the batch entry: its quotient is of the running sums
    over all eight tiles, the first seven as the point before left them and the eighth this tile's own. -/
theorem out_last_of (t : Fin cfg1.N) (h7 : t.val % 8 = 7) (b : Fin 4) (hb : b.val = t.val / 8) (d : Fin 32) (m : Fin 4096) :
    outAt V c t (ix3 (0 : Fin 1) d m) = stepK (entry (Y V c) b) d m := by
  have h0 : ¬t.val % 8 = 0 := by omega
  have hprev := acc_inv V c hb0 hb1 (t.val - 1) ⟨t.val - 1, prevLt t⟩ rfl b 6 (by show b.val = (t.val - 1) / 8; omega)
    (by show 6 = (t.val - 1) % 8; omega)
  have ihW : (accAt V c (t.val - 1) (prevLt t)).1 (ix2 (0 : Fin 1) m) = accW (entry (Y V c) b) m 7 := hprev.1 m
  have ihN : (accAt V c (t.val - 1) (prevLt t)).2 (ix2 d m) = accN (entry (Y V c) b) d m 7 := hprev.2 d m
  rw [outAt_last V c t h0 h7, oLastAt_tile V c hb0 hb1 t h0 h7 b 7 hb h7.symm _ _ d m, ihW, ihN]; rfl

end Acc

/-! ## With the blocks read off the input array -/

section Final
variable (c : Dev nD)

/-- The first window's block at a point of batch entry `b` is that entry. -/
theorem blk0_entry (t : Fin cfg1.N) (b : Fin 4) (hb : b.val = t.val / 8) (d : Fin 32) (m : Fin 4096) :
    blk V c 0 t (ix3 (0 : Fin 1) d m) = entry (Y V c) b d m := by
  obtain rfl : b = ⟨t.val / 8, batch_lt t⟩ := Fin.ext hb
  exact blk0_apply V c t d m

/-- The second window's block at tile `k` of batch entry `b` is that entry's pixels `pix k r`. -/
theorem blk1_entry (t : Fin cfg1.N) (b : Fin 4) (k : ℕ) (hb : b.val = t.val / 8) (hk : k = t.val % 8) (d : Fin 32) (r : Fin 512) :
    blk V c 1 t (ix3 (0 : Fin 1) d r) = entry (Y V c) b d (pix k r) := by
  obtain rfl : b = ⟨t.val / 8, batch_lt t⟩ := Fin.ext hb
  subst hk
  exact blk1_apply V c t d r

/-- The column-weight accumulator after point `t`: the running sum over the batch entry's tiles `0 … t % 8`. -/
theorem accW_at (t : Fin cfg1.N) (m : Fin 4096) :
    (accAt V c t.val t.isLt).1 (ix2 (0 : Fin 1) m)
      = accW (entry (Y V c) ⟨t.val / 8, batch_lt t⟩) m (t.val % 8 + 1) :=
  (acc_inv V c (blk0_entry V c) (blk1_entry V c) t.val t rfl ⟨t.val / 8, batch_lt t⟩ (t.val % 8) rfl rfl).1 m

/-- The numerator accumulator after point `t`, likewise. -/
theorem accN_at (t : Fin cfg1.N) (d : Fin 32) (m : Fin 4096) :
    (accAt V c t.val t.isLt).2 (ix2 d m)
      = accN (entry (Y V c) ⟨t.val / 8, batch_lt t⟩) d m (t.val % 8 + 1) :=
  (acc_inv V c (blk0_entry V c) (blk1_entry V c) t.val t rfl ⟨t.val / 8, batch_lt t⟩ (t.val % 8) rfl rfl).2 d m

/-- The output block stored at a batch entry's last tile is the tiled mean-shift step of that entry. -/
theorem out_last (t : Fin cfg1.N) (h7 : t.val % 8 = 7) (d : Fin 32) (m : Fin 4096) :
    outAt V c t (ix3 (0 : Fin 1) d m) = stepK (entry (Y V c) ⟨t.val / 8, batch_lt t⟩) d m :=
  out_last_of V c (blk0_entry V c) (blk1_entry V c) t h7 ⟨t.val / 8, batch_lt t⟩ rfl d m

/-- The same, as an entry of the whole array `onBatches stepK` of the input. -/
theorem out_last_onBatches (t : Fin cfg1.N) (h7 : t.val % 8 = 7) (d : Fin 32) (m : Fin 4096) :
    outAt V c t (ix3 (0 : Fin 1) d m) = onBatches stepK (Y V c) (ix3 (⟨t.val / 8, batch_lt t⟩ : Fin 4) d m) :=
  (out_last V c t h7 d m).trans (onBatches_ix3 stepK (Y V c) ⟨t.val / 8, batch_lt t⟩ d m).symm

end Final

end Cert.KernelIdeal.Hand.R1.Val

end
-- ==== Proof.Hand.R1.Cover.lean ====
/- From the output block at a batch entry's last tile to the output array after region 1. The output window's block
   at point t is batch entry t / 8 of the output array, written back exactly at the last tiles (t % 8 = 7); batch
   entry b is covered by point 8 * b + 7. So if every last tile's stored block is its batch entry of one function
   G of the array's index, the array ends holding G. -/
import proofs.«166501_j24086176596062_1_alg».proof.Proof.Hand.R1.Body
import Idealize.ShloMosaic.Lib.ValueIdx
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- A grid point's batch entry is one of the four. -/
theorem batch_lt' (t : Fin cfg1.N) : t.val / 8 < 4 := by
  have h : t.val < 32 := lt_of_lt_of_eq t.isLt Gen.N_1
  omega

/-- The output window's block index over the grid: the batch entry's. -/
theorem out_index_facts : ∀ t : Fin cfg1.N,
    win1_2.index t (0 : Fin 3) = t.val / 8 ∧ win1_2.index t (1 : Fin 3) = 0 ∧ win1_2.index t (2 : Fin 3) = 0 :=
  (by decide +kernel : ∀ t : Fin grid1.N,
    win1_2.index t (0 : Fin 3) = t.val / 8 ∧ win1_2.index t (1 : Fin 3) = 0 ∧ win1_2.index t (2 : Fin 3) = 0)

/-- An index of the output array is in point t's block iff each coordinate is in the block's range on its axis. -/
theorem mem_out_blk (t : Fin cfg1.N) (i : S4x32x4096.Idx) :
    i ∈ ((cfg1.win 2).blk t).view.set ↔ ∀ a : Fin 3, win1_2.index t a * S1x32x4096.size a ≤ (i a).val
      ∧ (i a).val < win1_2.index t a * S1x32x4096.size a + S1x32x4096.size a := by
  show i ∈ ((View.whole main_v2).slice (win1_2.rect t)).set ↔ _
  rw [View.set_slice_whole, Rect.mem_set_unit]
  exact Iff.rfl

/-- Every index of the output array is in the block of its batch entry's last tile, which is written back. -/
theorem out_cover (i : S4x32x4096.Idx) :
    ∃ t : Fin cfg1.N, (cfg1.win 2).flush t = true ∧ i ∈ ((cfg1.win 2).blk t).view.set := by
  have hi0 : (i 0).val < 4 := (i 0).isLt
  have hi1 : (i 1).val < 32 := (i 1).isLt
  have hi2 : (i 2).val < 4096 := (i 2).isLt
  have hlt : 8 * (i 0).val + 7 < cfg1.N := lt_of_lt_of_eq (by omega : 8 * (i 0).val + 7 < 32) Gen.N_1.symm
  obtain ⟨e0, e1, e2⟩ := out_index_facts ⟨8 * (i 0).val + 7, hlt⟩
  have e0' : win1_2.index ⟨8 * (i 0).val + 7, hlt⟩ (0 : Fin 3) = (8 * (i 0).val + 7) / 8 := e0
  refine ⟨⟨8 * (i 0).val + 7, hlt⟩, (Gen.flush1_2 _).mpr (by show (8 * (i 0).val + 7) % 8 = 7; omega), ?_⟩
  rw [mem_out_blk]
  intro a
  match a with
  | ⟨0, _⟩ =>
    show win1_2.index ⟨8 * (i 0).val + 7, hlt⟩ (0 : Fin 3) * 1 ≤ (i 0).val
      ∧ (i 0).val < win1_2.index ⟨8 * (i 0).val + 7, hlt⟩ (0 : Fin 3) * 1 + 1
    omega
  | ⟨1, _⟩ =>
    show win1_2.index ⟨8 * (i 0).val + 7, hlt⟩ (1 : Fin 3) * 32 ≤ (i 1).val
      ∧ (i 1).val < win1_2.index ⟨8 * (i 0).val + 7, hlt⟩ (1 : Fin 3) * 32 + 32
    omega
  | ⟨2, _⟩ =>
    show win1_2.index ⟨8 * (i 0).val + 7, hlt⟩ (2 : Fin 3) * 4096 ≤ (i 2).val
      ∧ (i 2).val < win1_2.index ⟨8 * (i 0).val + 7, hlt⟩ (2 : Fin 3) * 4096 + 4096
    omega

variable (V : (c : Dev nD) → (b : Ref sig .tc) → Buf (Elt F) ((c : Thread nD τ).loc b))

/-- What a last tile writes back is its batch entry of G, read through the window's block. -/
theorem out_flushed_eq (c : Dev nD) (G : S4x32x4096.Idx → Elt F .f32)
    (hG : ∀ (t : Fin cfg1.N), t.val % 8 = 7 → ∀ (d : Fin 32) (m : Fin 4096),
      outAt V c t (ix3 (0 : Fin 1) d m) = G (ix3 (⟨t.val / 8, batch_lt' t⟩ : Fin 4) d m))
    (t : Fin cfg1.N) (hf : (cfg1.win 2).flush t = true) :
    (dat0 V c).flushed 2 t = ((cfg1.win 2).blk t).view.read (Elt F) G := by
  have h7 : t.val % 8 = 7 := (Gen.flush1_2 t).mp hf
  obtain ⟨e0, e1, e2⟩ := out_index_facts t
  show (cfg1.win 2).cut (grid1.coords t) ((dat0 V c).after 2 t) = _
  rw [after2]
  funext j
  obtain ⟨d, m, rfl⟩ : ∃ (d : Fin 32) (m : Fin 4096), j = ix3 (0 : Fin 1) d m :=
    ⟨j 1, j 2, funext fun a => match a with
      | ⟨0, _⟩ => Subsingleton.elim (α := Fin 1) _ _
      | ⟨1, _⟩ => rfl
      | ⟨2, _⟩ => rfl⟩
  show outAt V c t (ix3 (0 : Fin 1) d m) = G (((cfg1.win 2).blk t).view.emb (ix3 (0 : Fin 1) d m))
  rw [hG t h7 d m]
  refine congrArg G ?_
  funext a
  apply Fin.ext
  match a with
  | ⟨0, _⟩ => show t.val / 8 = win1_2.index t (0 : Fin 3) * 1 + 1 * 0; omega
  | ⟨1, _⟩ => show d.val = win1_2.index t (1 : Fin 3) * 32 + 1 * d.val; omega
  | ⟨2, _⟩ => show m.val = win1_2.index t (2 : Fin 3) * 4096 + 1 * m.val; omega

/-- THE OUTPUT ARRAY after region 1: G, when every last tile stores its batch entry of G. -/
theorem arrAt_out_of (c : Dev nD) (G : S4x32x4096.Idx → Elt F .f32)
    (hG : ∀ (t : Fin cfg1.N), t.val % 8 = 7 → ∀ (d : Fin 32) (m : Fin 4096),
      outAt V c t (ix3 (0 : Fin 1) d m) = G (ix3 (⟨t.val / 8, batch_lt' t⟩ : Fin 4) d m)) :
    (dat0 V c).arrAt 2 cfg1.N = G :=
  (dat0 V c).arrAt_eq_of_cover 2 G (fun t hf => out_flushed_eq V c G hG t hf) out_cover

end Cert.KernelIdeal.Hand.R1

end
-- ==== Proof.Hand.R1.ValueOut.lean ====
/-
  Region 1's output array after the region: the tile-walking mean-shift step of each batch entry of its input array.
  The output block stored at a batch entry's last tile is that entry's step, and the four last tiles' blocks cover
  the array.
-/
import proofs.«166501_j24086176596062_1_alg».proof.Proof.Hand.R1.Value
import proofs.«166501_j24086176596062_1_alg».proof.Proof.Hand.R1.Cover

noncomputable section

namespace Cert.KernelIdeal.Hand.R1

open Cert.KernelIdeal Cert.KernelIdeal.Gen Cert.MeanShift
open Idealize.ShloMosaic Idealize.ShloMosaic.TcCoe Idealize.SL.Sem

variable (V : (c : Dev nD) → (b : Ref sig .tc) → Buf (Elt Ideal) ((c : Thread nD τ).loc b))

theorem arrAt_out (c : Dev nD) : (dat0 V c).arrAt 2 cfg1.N = onBatches stepK (V c main_v1) :=
  arrAt_out_of V c (onBatches stepK (Val.Y V c)) (fun t h7 d m => Val.out_last_onBatches V c t h7 d m)

end Cert.KernelIdeal.Hand.R1

end
-- ==== Proof.Hand.R2.Pieces.lean ====
/-
  Region 2: what each case of the body leaves in the accumulators and in the output block, as the body's own
  arithmetic of what the case was handed.

  Every store of the body is of a whole buffer, so each buffer ends at the payload of the last store into it, and a
  load that follows a store into the same buffer reads that store's payload back. At a first tile the zero block is
  stored, read back, and this tile's contribution added to it; at a middle tile the contribution is added to what the
  accumulator held; at a last tile the output block is computed from the two accumulators as this same tile has just
  stored them.
-/
import proofs.«166501_j24086176596062_1_alg».proof.Proof.Hand.R2.Body
import Idealize.ShloMosaic.Lib.Pipeline.Value

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two and three zero offsets, as the constant function the whole-buffer lemmas ask for. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A first tile: each accumulator is zeroed, read back, and this tile's contribution added -/

theorem wFirst_eq (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (x2 : Vec F S1x32x4096 .f32) (x3 : Vec F S1x32x512 .f32) :
    wFirst c i arg2 harg2 arg3 harg3 arg4 harg4 arg5 harg5 arg6 harg6 hF hL x2 x3 = k2_pay6 x2 x3 (k2_pay1 (F := F)) := by
  unfold wFirst
  rw [View.read_writes_eq_canon _ _ _ (coverW_first c i arg2 harg2 arg3 harg3 arg4 harg4 arg5 harg5 arg6 harg6 hF hL x2 x3)]
  unfold runFirst
  dsimp only
  sl_unfold_words
  rw [View.canon_cons_unit_zero (S := S1x4096) hz2, View.readCov_unit_zero (S := S1x4096) _ hz2]
  simp only [View.readAt_eq_ld, harg2.read_unread, harg3.read_unread, View.ld_unit_zero (S := S1x32x4096) hz3,
    View.ld_unit_zero (S := S1x32x512) hz3, View.ld_unit_zero (S := S1x4096) hz2, View.ld_unit_zero (S := S32x4096) hz2]

theorem nFirst_eq (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (x2 : Vec F S1x32x4096 .f32) (x3 : Vec F S1x32x512 .f32) :
    nFirst c i arg2 harg2 arg3 harg3 arg4 harg4 arg5 harg5 arg6 harg6 hF hL x2 x3 = k2_pay7 x2 x3 (k2_pay2 (F := F)) := by
  unfold nFirst
  rw [View.read_writes_eq_canon _ _ _ (coverN_first c i arg2 harg2 arg3 harg3 arg4 harg4 arg5 harg5 arg6 harg6 hF hL x2 x3)]
  unfold runFirst
  dsimp only
  sl_unfold_words
  rw [View.canon_cons_unit_zero (S := S32x4096) hz2, View.readCov_unit_zero (S := S32x4096) _ hz2]
  simp only [View.readAt_eq_ld, harg2.read_unread, harg3.read_unread, View.ld_unit_zero (S := S1x32x4096) hz3,
    View.ld_unit_zero (S := S1x32x512) hz3, View.ld_unit_zero (S := S1x4096) hz2, View.ld_unit_zero (S := S32x4096) hz2]

/-! ## A middle tile: this tile's contribution is added to what the accumulators held -/

theorem wMid_eq (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (x2 : Vec F S1x32x4096 .f32) (x3 : Vec F S1x32x512 .f32) (s5 : Vec F S1x4096 .f32) (s6 : Vec F S32x4096 .f32) :
    wMid c i arg2 harg2 arg3 harg3 arg4 harg4 arg5 harg5 arg6 harg6 hF hL x2 x3 s5 s6 = k2_pay6 x2 x3 s5 := by
  unfold wMid
  rw [View.read_writes_eq_canon _ _ _ (coverW_mid c i arg2 harg2 arg3 harg3 arg4 harg4 arg5 harg5 arg6 harg6 hF hL x2 x3 s5 s6)]
  unfold runMid
  dsimp only
  rw [View.canon_unit_zero (S := S1x4096) hz2]
  simp only [View.readAt_eq_ld, harg2.read_unread, harg3.read_unread, harg5.read_unread, View.ld_unit_zero (S := S1x32x4096) hz3,
    View.ld_unit_zero (S := S1x32x512) hz3, View.ld_unit_zero (S := S1x4096) hz2, View.ld_unit_zero (S := S32x4096) hz2]

theorem nMid_eq (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (x2 : Vec F S1x32x4096 .f32) (x3 : Vec F S1x32x512 .f32) (s5 : Vec F S1x4096 .f32) (s6 : Vec F S32x4096 .f32) :
    nMid c i arg2 harg2 arg3 harg3 arg4 harg4 arg5 harg5 arg6 harg6 hF hL x2 x3 s5 s6 = k2_pay7 x2 x3 s6 := by
  unfold nMid
  rw [View.read_writes_eq_canon _ _ _ (coverN_mid c i arg2 harg2 arg3 harg3 arg4 harg4 arg5 harg5 arg6 harg6 hF hL x2 x3 s5 s6)]
  unfold runMid
  dsimp only
  rw [View.canon_unit_zero (S := S32x4096) hz2]
  simp only [View.readAt_eq_ld, harg2.read_unread, harg3.read_unread, harg6.read_unread, View.ld_unit_zero (S := S1x32x4096) hz3,
    View.ld_unit_zero (S := S1x32x512) hz3, View.ld_unit_zero (S := S1x4096) hz2, View.ld_unit_zero (S := S32x4096) hz2]

/-! ## A last tile: the same additions, and then the output block from the accumulators just stored -/

theorem wLast_eq (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    wLast c i arg2 harg2 arg3 harg3 arg4 harg4 arg5 harg5 arg6 harg6 hF hL x2 x3 s5 s6 = k2_pay6 x2 x3 s5 := by
  unfold wLast
  rw [View.read_writes_eq_canon _ _ _ (coverW_last c i arg2 harg2 arg3 harg3 arg4 harg4 arg5 harg5 arg6 harg6 hF hL x2 x3 s5 s6)]
  unfold runLast
  dsimp only
  sl_unfold_words
  rw [View.canon_unit_zero (S := S1x4096) hz2]
  simp only [View.readAt_eq_ld, harg2.read_unread, harg3.read_unread, harg5.read_unread, View.ld_unit_zero (S := S1x32x4096) hz3,
    View.ld_unit_zero (S := S1x32x512) hz3, View.ld_unit_zero (S := S1x4096) hz2, View.ld_unit_zero (S := S32x4096) hz2]

theorem nLast_eq (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    nLast c i arg2 harg2 arg3 harg3 arg4 harg4 arg5 harg5 arg6 harg6 hF hL x2 x3 s5 s6 = k2_pay7 x2 x3 s6 := by
  unfold nLast
  rw [View.read_writes_eq_canon _ _ _ (coverN_last c i arg2 harg2 arg3 harg3 arg4 harg4 arg5 harg5 arg6 harg6 hF hL x2 x3 s5 s6)]
  unfold runLast
  dsimp only
  sl_unfold_words
  rw [View.canon_unit_zero (S := S32x4096) hz2]
  simp only [View.readAt_eq_ld, harg2.read_unread, harg3.read_unread, harg6.read_unread, View.ld_unit_zero (S := S1x32x4096) hz3,
    View.ld_unit_zero (S := S1x32x512) hz3, View.ld_unit_zero (S := S1x4096) hz2, View.ld_unit_zero (S := S32x4096) hz2]

theorem oLast_eq (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (x2 : Vec F S1x32x4096 .f32) (x3 : Vec F S1x32x512 .f32) (s5 : Vec F S1x4096 .f32) (s6 : Vec F S32x4096 .f32) :
    oLast c i arg2 harg2 arg3 harg3 arg4 harg4 arg5 harg5 arg6 harg6 hF hL x2 x3 s5 s6 = k2_pay8 x2 (k2_pay7 x2 x3 s6) (k2_pay6 x2 x3 s5) := by
  unfold oLast
  rw [View.read_writes_eq_canon _ _ _ (coverO_last c i arg2 harg2 arg3 harg3 arg4 harg4 arg5 harg5 arg6 harg6 hF hL x2 x3 s5 s6)]
  unfold runLast
  dsimp only
  sl_unfold_words
  rw [View.canon_unit_zero (S := S1x32x4096) hz3, View.readCov_unit_zero (S := S32x4096) _ hz2,
    View.readCov_unit_zero (S := S1x4096) _ hz2]
  simp only [View.readAt_eq_ld, harg2.read_unread, harg3.read_unread, harg5.read_unread, harg6.read_unread, View.ld_unit_zero (S := S1x32x4096) hz3,
    View.ld_unit_zero (S := S1x32x512) hz3, View.ld_unit_zero (S := S1x4096) hz2, View.ld_unit_zero (S := S32x4096) hz2]

end Cert.KernelIdeal.Hand.R2

end
-- ==== Proof.Hand.R2.Blocks.lean ====
/- Region 2's two input windows read one array of four batch entries. At grid point t (batch entry t / 8, tile
   t % 8) the first window's block is the whole batch entry, and the second window's block is the tile's 512 pixels
   of the same entry: pixel r of the block is pixel 512 * (t % 8) + r of the entry. -/
import proofs.«166501_j24086176596062_1_alg».proof.Proof.Hand.R2.Base
import proofs.«166501_j24086176596062_1_alg».proof.Proof.Spec
import Idealize.ShloMosaic.Lib.ValueIdx
import Idealize.ShloMosaic.Lib.Pipeline.Value

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.MeanShift

variable {F : FTy → Type} [FloatOps F]

/-- A grid point's batch entry is one of the four. -/
theorem batch_lt (t : Fin cfg2.N) : t.val / 8 < 4 := by
  have h : t.val < 32 := lt_of_lt_of_eq t.isLt Gen.N_2
  omega

/-- The two input windows' block indices over the grid: the first window's block is the batch entry's; the second's
    is the batch entry's tile along the pixel axis. -/
theorem in_index_facts : ∀ t : Fin cfg2.N,
    win2_0.index t (0 : Fin 3) = t.val / 8 ∧ win2_0.index t (1 : Fin 3) = 0 ∧ win2_0.index t (2 : Fin 3) = 0
    ∧ win2_1.index t (0 : Fin 3) = t.val / 8 ∧ win2_1.index t (1 : Fin 3) = 0 ∧ win2_1.index t (2 : Fin 3) = t.val % 8 :=
  (by decide +kernel : ∀ t : Fin grid2.N,
    win2_0.index t (0 : Fin 3) = t.val / 8 ∧ win2_0.index t (1 : Fin 3) = 0 ∧ win2_0.index t (2 : Fin 3) = 0
    ∧ win2_1.index t (0 : Fin 3) = t.val / 8 ∧ win2_1.index t (1 : Fin 3) = 0 ∧ win2_1.index t (2 : Fin 3) = t.val % 8)

variable (V : (c : Dev nD) → (b : Ref sig .tc) → Buf (Elt F) ((c : Thread nD τ).loc b))

/-- The first window's block at point t is batch entry t / 8 of the input array. -/
theorem blk0_apply (c : Dev nD) (t : Fin cfg2.N) (d : Fin 32) (m : Fin 4096) :
    blk V c 0 t (ix3 (0 : Fin 1) d m) = V c main_v2 (ix3 (⟨t.val / 8, batch_lt t⟩ : Fin 4) d m) := by
  obtain ⟨e0, e1, e2, -, -, -⟩ := in_index_facts t
  show V c main_v2 (((cfg2.win 0).blk t).view.emb (ix3 (0 : Fin 1) d m)) = _
  refine congrArg (V c main_v2) ?_
  funext a
  apply Fin.ext
  match a with
  | ⟨0, _⟩ => show win2_0.index t (0 : Fin 3) * 1 + 1 * 0 = t.val / 8; omega
  | ⟨1, _⟩ => show win2_0.index t (1 : Fin 3) * 32 + 1 * d.val = d.val; omega
  | ⟨2, _⟩ => show win2_0.index t (2 : Fin 3) * 4096 + 1 * m.val = m.val; omega

/-- The second window's block at point t is tile t % 8 of batch entry t / 8 of the same array. -/
theorem blk1_apply (c : Dev nD) (t : Fin cfg2.N) (d : Fin 32) (r : Fin 512) :
    blk V c 1 t (ix3 (0 : Fin 1) d r) = V c main_v2 (ix3 (⟨t.val / 8, batch_lt t⟩ : Fin 4) d (pix (t.val % 8) r)) := by
  obtain ⟨-, -, -, e3, e4, e5⟩ := in_index_facts t
  show V c main_v2 (((cfg2.win 1).blk t).view.emb (ix3 (0 : Fin 1) d r)) = _
  refine congrArg (V c main_v2) ?_
  funext a
  apply Fin.ext
  match a with
  | ⟨0, _⟩ => show win2_1.index t (0 : Fin 3) * 1 + 1 * 0 = t.val / 8; omega
  | ⟨1, _⟩ => show win2_1.index t (1 : Fin 3) * 32 + 1 * d.val = d.val; omega
  | ⟨2, _⟩ =>
    show win2_1.index t (2 : Fin 3) * 512 + 1 * r.val = (512 * (t.val % 8) + r.val) % 4096
    have hr : r.val < 512 := r.isLt
    omega

end Cert.KernelIdeal.Hand.R2

end
-- ==== Proof.Hand.Payloads2.lean ====
import proofs.«166501_j24086176596062_1_alg».proof.Proof.Gen.KernelIdeal.Skeleton
import proofs.«166501_j24086176596062_1_alg».proof.Proof.Spec
import proofs.«166501_j24086176596062_1_alg».proof.Proof.LibMatmul
import Idealize.ShloMosaic.Lib.ValueIdx
import Idealize.ShloMosaic.Lib.Pipeline.Value
import Idealize.ShloMosaic.Lib.ValueLayout
import Idealize.ShloMosaic.PureOps.Ideal.Laws

/-!
  The kernel body's values, read at an index on the extended reals.

  One grid point of the kernel holds the full block of a batch entry (`x2`, 32 features by 4096 pixels), one tile
  of 512 of its pixels (`x3`), a running column weight (`s5`, one row of 4096) and a running numerator (`s6`,
  32 by 4096). Its values are:

  * the tile's affinities, `exp (bw · Σ_d x3 d r · x2 d m)` at tile pixel `r` and pixel `m`: the transposed tile
    times the full block, contracted over the 32 features, scaled by the bandwidth, exponentiated;
  * the new column weight, the old one plus the sum of the tile's affinities over the tile's 512 pixels;
  * the new numerator, the old one plus `Σ_r x3 d r · affinity r m`;
  * at the last tile, `½ · numerator / weight + ½ · x2`;
  * and zero for both running values at the first tile.

  When `x2` is a batch entry `y` and `x3` its tile `j`, these are the specification's affinity, its tile
  contribution to the column weight and its tile contribution to the numerator.
-/

noncomputable section

open scoped BigOperators

namespace Cert.KernelIdeal.Hand.Pay2

open Cert.KernelIdeal Cert.KernelIdeal.Gen Cert.MeanShift Idealize.ShloMosaic Idealize.ShloMosaic.ValueIdx

/-! ## Layout and reduction steps at an index -/

/-- The reduced index `m` with row `k` put back is `(k, m)`. -/
theorem lift_col {a b : ℕ} (h : (⟨2, ![a, b]⟩ : Shape).Reduces [0] (⟨1, ![b]⟩ : Shape)) (m : Fin b) (k : Fin a) :
    h.lift (ix1 m) k = ix2 k m := by
  funext c
  apply Fin.ext
  match c with
  | ⟨0, _⟩ => rfl
  | ⟨1, _⟩ => rfl

/-- The sum over the rows of a `[512, 4096]` array, from the zero word, at column `m`. -/
theorem laneSum_apply (src : FVec Ideal S512x4096 .f32) (h : S512x4096.Reduces [0] S4096) (hφ : FKind.Formats .f32)
    (hacc : (0x00000000#32 : BitVec 32) = 0x00000000#32) (m : Fin 4096) :
    multiReduction .add [0] S4096 src 0x00000000#32 h hφ hacc (ix1 m) = ∑ r : Fin 512, src (ix2 r m) := by
  refine (Ideal.multiReduction_add_single src 0x00000000#32 h hφ hacc (ix1 m)).trans ?_
  exact Finset.sum_congr rfl fun k _ => congrArg src (lift_col h m k)

/-- The full block without its unit axis. -/
theorem pay3_apply (x2 : Vec Ideal S1x32x4096 .f32) (d : Fin 32) (m : Fin 4096) :
    k2_pay3 x2 (ix2 d m) = x2 (ix3 (0 : Fin 1) d m) :=
  shapeCast_1ab_ab_apply x2 _ d m

/-- The tile block without its unit axis. -/
theorem pay4_apply (x3 : Vec Ideal S1x32x512 .f32) (d : Fin 32) (r : Fin 512) :
    k2_pay4 x3 (ix2 d r) = x3 (ix3 (0 : Fin 1) d r) :=
  shapeCast_1ab_ab_apply x3 _ d r

/-! ## The payloads -/

/-- The first tile starts the column weight at zero. -/
theorem pay1_apply (m : Fin 4096) : k2_pay1 (F := Ideal) (ix2 (0 : Fin 1) m) = 0 := by
  unfold k2_pay1
  rw [shapeCast_self]
  exact Ideal.ofBits_zero_f32

/-- The first tile starts the numerator at zero. -/
theorem pay2_apply (d : Fin 32) (m : Fin 4096) : k2_pay2 (F := Ideal) (ix2 d m) = 0 := by
  unfold k2_pay2
  rw [shapeCast_self]
  exact Ideal.ofBits_zero_f32

/-- The tile's affinities: the exponential of the bandwidth times the feature contraction of tile pixel `r` with
    pixel `m`. -/
theorem pay5_apply (x2 : Vec Ideal S1x32x4096 .f32) (x3 : Vec Ideal S1x32x512 .f32) (r : Fin 512) (m : Fin 4096) :
    k2_pay5 x2 x3 (ix2 r m)
      = Ideal.exp (bw * ∑ d : Fin 32, x3 (ix3 (0 : Fin 1) d r) * x2 (ix3 (0 : Fin 1) d m)) := by
  unfold k2_pay5
  dsimp only
  show Ideal.exp (bw * matmul (F := Ideal) _ none _ (k2_pay3 x2) _ (ix2 r m)) = _
  refine congrArg (fun t => Ideal.exp (bw * t)) ?_
  refine (Cert.MatOps.matmul_plain_zero_apply (M := 512) (K := 32) (N := 4096) none _ _ r m).trans ?_
  refine Finset.sum_congr rfl fun d _ => ?_
  rw [transpose_ix2_apply, pay4_apply, pay3_apply]

/-- The new column weight: the old one plus the tile's affinities summed over the tile's pixels. -/
theorem pay6_apply (x2 : Vec Ideal S1x32x4096 .f32) (x3 : Vec Ideal S1x32x512 .f32) (s5 : Vec Ideal S1x4096 .f32)
    (m : Fin 4096) :
    k2_pay6 x2 x3 s5 (ix2 (0 : Fin 1) m)
      = s5 (ix2 (0 : Fin 1) m) + ∑ r : Fin 512, k2_pay5 x2 x3 (ix2 r m) := by
  unfold k2_pay6
  rw [shapeCast_self]
  show s5 (ix2 (0 : Fin 1) m) + shapeCast S1x4096 _ _ (ix2 (0 : Fin 1) m) = _
  refine congrArg (fun t => s5 (ix2 (0 : Fin 1) m) + t) ?_
  refine (shapeCast_a_1a_apply _ _ (0 : Fin 1) m).trans ?_
  exact laneSum_apply (k2_pay5 x2 x3) _ _ _ m

/-- The new numerator: the old one plus the tile block times the tile's affinities, contracted over the tile's
    pixels. -/
theorem pay7_apply (x2 : Vec Ideal S1x32x4096 .f32) (x3 : Vec Ideal S1x32x512 .f32) (s6 : Vec Ideal S32x4096 .f32)
    (d : Fin 32) (m : Fin 4096) :
    k2_pay7 x2 x3 s6 (ix2 d m)
      = s6 (ix2 d m) + ∑ r : Fin 512, x3 (ix3 (0 : Fin 1) d r) * k2_pay5 x2 x3 (ix2 r m) := by
  unfold k2_pay7
  rw [shapeCast_self]
  show s6 (ix2 d m) + matmul (F := Ideal) _ none (k2_pay4 x3) (k2_pay5 x2 x3) _ (ix2 d m) = _
  refine congrArg (fun t => s6 (ix2 d m) + t) ?_
  refine (Cert.MatOps.matmul_plain_zero_apply (M := 32) (K := 512) (N := 4096) none _ _ d m).trans ?_
  refine Finset.sum_congr rfl fun r _ => ?_
  rw [pay4_apply]

/-- The last tile's output: half the numerator over the column weight plus half the input. -/
theorem pay8_apply (x2 : Vec Ideal S1x32x4096 .f32) (s6 : Vec Ideal S32x4096 .f32) (s5 : Vec Ideal S1x4096 .f32)
    (d : Fin 32) (m : Fin 4096) :
    k2_pay8 x2 s6 s5 (ix3 (0 : Fin 1) d m)
      = half * Ideal.div (s6 (ix2 d m)) (s5 (ix2 (0 : Fin 1) m)) + half * x2 (ix3 (0 : Fin 1) d m) := by
  unfold k2_pay8
  refine (shapeCast_ab_1ab_apply _ _ (0 : Fin 1) d m).trans ?_
  show half * Ideal.div (s6 (ix2 d m)) (broadcastTo S32x4096 s5 _ (ix2 d m)) + half * k2_pay3 x2 (ix2 d m) = _
  rw [broadcastTo_1b_ab_apply, pay3_apply]

/-! ## The tie to the specification -/

section Tie
variable (y : Pts) (j : ℕ) (x2 : Vec Ideal S1x32x4096 .f32) (x3 : Vec Ideal S1x32x512 .f32)
  (h2 : ∀ d m, x2 (ix3 (0 : Fin 1) d m) = y d m) (h3 : ∀ d r, x3 (ix3 (0 : Fin 1) d r) = y d (pix j r))
include h2 h3

/-- On a batch entry and its tile `j` the kernel's affinities are the specification's. -/
theorem pay5_aff (r : Fin 512) (m : Fin 4096) : k2_pay5 x2 x3 (ix2 r m) = aff y (pix j r) m := by
  rw [pay5_apply]
  unfold aff
  simp only [h2, h3]

/-- The column weight's update adds the specification's tile contribution. -/
theorem pay6_tile (s5 : Vec Ideal S1x4096 .f32) (m : Fin 4096) :
    k2_pay6 x2 x3 s5 (ix2 (0 : Fin 1) m) = s5 (ix2 (0 : Fin 1) m) + tileW y m j := by
  rw [pay6_apply]
  unfold tileW
  exact congrArg (fun t => s5 (ix2 (0 : Fin 1) m) + t)
    (Finset.sum_congr rfl fun r _ => pay5_aff y j x2 x3 h2 h3 r m)

/-- The numerator's update adds the specification's tile contribution. -/
theorem pay7_tile (s6 : Vec Ideal S32x4096 .f32) (d : Fin 32) (m : Fin 4096) :
    k2_pay7 x2 x3 s6 (ix2 d m) = s6 (ix2 d m) + tileN y d m j := by
  rw [pay7_apply]
  unfold tileN
  exact congrArg (fun t => s6 (ix2 d m) + t)
    (Finset.sum_congr rfl fun r _ => by rw [h3, pay5_aff y j x2 x3 h2 h3 r m])

end Tie

end Cert.KernelIdeal.Hand.Pay2

end
-- ==== Proof.Hand.R2.Value.lean ====
/-
  Region 2 at the ideal values: what the accumulators and the output block hold, in the specification's words.

  A grid point `t` is tile `t % 8` of batch entry `t / 8`. The first window hands the body the entry's full block
  and the second its tile's block, so each tile's additions are the specification's tile sums `tileW` and `tileN`
  of that entry. By induction on the point the accumulators after tile `k` are the running sums `accW`, `accN`
  over tiles `0 … k`, accumulated from zero in the same left-to-right order, so no finiteness is needed; at tile 7
  the stored block is half the quotient of the eight-tile sums plus half the input: `stepK` of the entry.
-/
import proofs.«166501_j24086176596062_1_alg».proof.Proof.Hand.R2.Pieces
import proofs.«166501_j24086176596062_1_alg».proof.Proof.Hand.R2.Blocks
import proofs.«166501_j24086176596062_1_alg».proof.Proof.Hand.Payloads2
import proofs.«166501_j24086176596062_1_alg».proof.Proof.Spec
import Idealize.ShloMosaic.Lib.Pipeline.Value

set_option maxRecDepth 16384

noncomputable section

namespace Cert.KernelIdeal.Hand.R2.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.KernelIdeal.Hand.R2 Cert.MeanShift Idealize.ShloMosaic.ValueIdx

/-! ## Each case's contents at an index, through the specification's tile sums

  Here `y` is a batch entry, `j` a tile number, `x2` the entry's full block and `x3` its tile-`j` block. -/

section Tile
variable (y : Pts) (j : ℕ) (x2 : Vec Ideal S1x32x4096 .f32) (x3 : Vec Ideal S1x32x512 .f32)
  (h2 : ∀ d m, x2 (ix3 (0 : Fin 1) d m) = y d m) (h3 : ∀ d r, x3 (ix3 (0 : Fin 1) d r) = y d (pix j r))
include h2 h3

theorem wFirst_tile (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (m : Fin 4096) :
    wFirst c i arg2 harg2 arg3 harg3 arg4 harg4 arg5 harg5 arg6 harg6 hF hL x2 x3 (ix2 (0 : Fin 1) m) = 0 + tileW y m j := by
  rw [wFirst_eq]
  refine (Pay2.pay6_tile y j x2 x3 h2 h3 _ m).trans ?_
  rw [Pay2.pay1_apply]

theorem nFirst_tile (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i) (d : Fin 32) (m : Fin 4096) :
    nFirst c i arg2 harg2 arg3 harg3 arg4 harg4 arg5 harg5 arg6 harg6 hF hL x2 x3 (ix2 d m) = 0 + tileN y d m j := by
  rw [nFirst_eq]
  refine (Pay2.pay7_tile y j x2 x3 h2 h3 _ d m).trans ?_
  rw [Pay2.pay2_apply]

theorem wMid_tile (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (s5 : Vec Ideal S1x4096 .f32) (s6 : Vec Ideal S32x4096 .f32) (m : Fin 4096) :
    wMid c i arg2 harg2 arg3 harg3 arg4 harg4 arg5 harg5 arg6 harg6 hF hL x2 x3 s5 s6 (ix2 (0 : Fin 1) m) = s5 (ix2 (0 : Fin 1) m) + tileW y m j := by
  rw [wMid_eq]
  exact Pay2.pay6_tile y j x2 x3 h2 h3 s5 m

theorem nMid_tile (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i) (s5 : Vec Ideal S1x4096 .f32) (s6 : Vec Ideal S32x4096 .f32) (d : Fin 32) (m : Fin 4096) :
    nMid c i arg2 harg2 arg3 harg3 arg4 harg4 arg5 harg5 arg6 harg6 hF hL x2 x3 s5 s6 (ix2 d m) = s6 (ix2 d m) + tileN y d m j := by
  rw [nMid_eq]
  exact Pay2.pay7_tile y j x2 x3 h2 h3 s6 d m

theorem wLast_tile (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (m : Fin 4096) :
    wLast c i arg2 harg2 arg3 harg3 arg4 harg4 arg5 harg5 arg6 harg6 hF hL x2 x3 s5 s6 (ix2 (0 : Fin 1) m) = s5 (ix2 (0 : Fin 1) m) + tileW y m j := by
  rw [wLast_eq]
  exact Pay2.pay6_tile y j x2 x3 h2 h3 s5 m

theorem nLast_tile (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (d : Fin 32) (m : Fin 4096) :
    nLast c i arg2 harg2 arg3 harg3 arg4 harg4 arg5 harg5 arg6 harg6 hF hL x2 x3 s5 s6 (ix2 d m) = s6 (ix2 d m) + tileN y d m j := by
  rw [nLast_eq]
  exact Pay2.pay7_tile y j x2 x3 h2 h3 s6 d m

/-- The output block: the quotient is of the accumulators WITH this tile's own contributions. -/
theorem oLast_tile (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i) (s5 : Vec Ideal S1x4096 .f32) (s6 : Vec Ideal S32x4096 .f32) (d : Fin 32) (m : Fin 4096) :
    oLast c i arg2 harg2 arg3 harg3 arg4 harg4 arg5 harg5 arg6 harg6 hF hL x2 x3 s5 s6 (ix3 (0 : Fin 1) d m)
      = half * Ideal.div (s6 (ix2 d m) + tileN y d m j) (s5 (ix2 (0 : Fin 1) m) + tileW y m j) + half * y d m := by
  rw [oLast_eq, Pay2.pay8_apply, Pay2.pay7_tile y j x2 x3 h2 h3, Pay2.pay6_tile y j x2 x3 h2 h3, h2]

end Tile

/-! ## The accumulators after each point -/

variable (V : (c : Dev nD) → (b : Ref sig .tc) → Buf (Elt Ideal) ((c : Thread nD τ).loc b))

/-- The region's input array on core `c`. -/
abbrev Y (c : Dev nD) : S4x32x4096.Idx → EReal := V c main_v2

section Acc
variable (c : Dev nD)
  (hb0 : ∀ (t : Fin cfg2.N) (b : Fin 4), b.val = t.val / 8 → ∀ (d : Fin 32) (m : Fin 4096),
    blk V c 0 t (ix3 (0 : Fin 1) d m) = entry (Y V c) b d m)
  (hb1 : ∀ (t : Fin cfg2.N) (b : Fin 4) (k : ℕ), b.val = t.val / 8 → k = t.val % 8 → ∀ (d : Fin 32) (r : Fin 512),
    blk V c 1 t (ix3 (0 : Fin 1) d r) = entry (Y V c) b d (pix k r))
include hb0 hb1

/-! Each case at a grid point `t`, which is tile `k` of batch entry `b`. -/

theorem wFirstAt_tile (t : Fin cfg2.N) (h0 : t.val % 8 = 0) (b : Fin 4) (hb : b.val = t.val / 8) (m : Fin 4096) :
    wFirstAt V c t h0 (ix2 (0 : Fin 1) m) = 0 + tileW (entry (Y V c) b) m 0 := by
  unfold wFirstAt
  exact wFirst_tile (entry (Y V c) b) 0 (blk V c 0 t) (blk V c 1 t) (hb0 t b hb) (hb1 t b 0 hb h0.symm)
    c (grid2.coords t) (ms0 t) (hs0 t) (ms1 t) (hs1 t) (ms2 t) (hs2 t) scW (Memref.isWhole_whole _) scN (Memref.isWhole_whole _) (isFirst_of t h0) (notLast_of_first t h0) m

theorem nFirstAt_tile (t : Fin cfg2.N) (h0 : t.val % 8 = 0) (b : Fin 4) (hb : b.val = t.val / 8) (d : Fin 32) (m : Fin 4096) :
    nFirstAt V c t h0 (ix2 d m) = 0 + tileN (entry (Y V c) b) d m 0 := by
  unfold nFirstAt
  exact nFirst_tile (entry (Y V c) b) 0 (blk V c 0 t) (blk V c 1 t) (hb0 t b hb) (hb1 t b 0 hb h0.symm)
    c (grid2.coords t) (ms0 t) (hs0 t) (ms1 t) (hs1 t) (ms2 t) (hs2 t) scW (Memref.isWhole_whole _) scN (Memref.isWhole_whole _) (isFirst_of t h0) (notLast_of_first t h0) d m

theorem wMidAt_tile (t : Fin cfg2.N) (h0 : ¬t.val % 8 = 0) (h7 : ¬t.val % 8 = 7) (b : Fin 4) (k : ℕ) (hb : b.val = t.val / 8)
    (hk : k = t.val % 8) (s5 : Vec Ideal S1x4096 .f32) (s6 : Vec Ideal S32x4096 .f32) (m : Fin 4096) :
    wMidAt V c t h0 h7 s5 s6 (ix2 (0 : Fin 1) m) = s5 (ix2 (0 : Fin 1) m) + tileW (entry (Y V c) b) m k := by
  unfold wMidAt
  exact wMid_tile (entry (Y V c) b) k (blk V c 0 t) (blk V c 1 t) (hb0 t b hb) (hb1 t b k hb hk)
    c (grid2.coords t) (ms0 t) (hs0 t) (ms1 t) (hs1 t) (ms2 t) (hs2 t) scW (Memref.isWhole_whole _) scN (Memref.isWhole_whole _) (notFirst_of t h0) (notLast_of t h7) s5 s6 m

theorem nMidAt_tile (t : Fin cfg2.N) (h0 : ¬t.val % 8 = 0) (h7 : ¬t.val % 8 = 7) (b : Fin 4) (k : ℕ) (hb : b.val = t.val / 8)
    (hk : k = t.val % 8) (s5 : Vec Ideal S1x4096 .f32) (s6 : Vec Ideal S32x4096 .f32) (d : Fin 32) (m : Fin 4096) :
    nMidAt V c t h0 h7 s5 s6 (ix2 d m) = s6 (ix2 d m) + tileN (entry (Y V c) b) d m k := by
  unfold nMidAt
  exact nMid_tile (entry (Y V c) b) k (blk V c 0 t) (blk V c 1 t) (hb0 t b hb) (hb1 t b k hb hk)
    c (grid2.coords t) (ms0 t) (hs0 t) (ms1 t) (hs1 t) (ms2 t) (hs2 t) scW (Memref.isWhole_whole _) scN (Memref.isWhole_whole _) (notFirst_of t h0) (notLast_of t h7) s5 s6 d m

theorem wLastAt_tile (t : Fin cfg2.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (m : Fin 4096) :
    wLastAt V c t h0 h7 s5 s6 (ix2 (0 : Fin 1) m) = s5 (ix2 (0 : Fin 1) m) + tileW (entry (Y V c) b) m k := by
  unfold wLastAt
  exact wLast_tile (entry (Y V c) b) k (blk V c 0 t) (blk V c 1 t) (hb0 t b hb) (hb1 t b k hb hk)
    c (grid2.coords t) (ms0 t) (hs0 t) (ms1 t) (hs1 t) (ms2 t) (hs2 t) scW (Memref.isWhole_whole _) scN (Memref.isWhole_whole _) (notFirst_of t h0) (isLast_of t h7) s5 s6 m

theorem nLastAt_tile (t : Fin cfg2.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (d : Fin 32) (m : Fin 4096) :
    nLastAt V c t h0 h7 s5 s6 (ix2 d m) = s6 (ix2 d m) + tileN (entry (Y V c) b) d m k := by
  unfold nLastAt
  exact nLast_tile (entry (Y V c) b) k (blk V c 0 t) (blk V c 1 t) (hb0 t b hb) (hb1 t b k hb hk)
    c (grid2.coords t) (ms0 t) (hs0 t) (ms1 t) (hs1 t) (ms2 t) (hs2 t) scW (Memref.isWhole_whole _) scN (Memref.isWhole_whole _) (notFirst_of t h0) (isLast_of t h7) s5 s6 d m

theorem oLastAt_tile (t : Fin cfg2.N) (h0 : ¬t.val % 8 = 0) (h7 : t.val % 8 = 7) (b : Fin 4) (k : ℕ) (hb : b.val = t.val / 8)
    (hk : k = t.val % 8) (s5 : Vec Ideal S1x4096 .f32) (s6 : Vec Ideal S32x4096 .f32) (d : Fin 32) (m : Fin 4096) :
    oLastAt V c t h0 h7 s5 s6 (ix3 (0 : Fin 1) d m)
      = half * Ideal.div (s6 (ix2 d m) + tileN (entry (Y V c) b) d m k) (s5 (ix2 (0 : Fin 1) m) + tileW (entry (Y V c) b) m k)
        + half * entry (Y V c) b d m := by
  unfold oLastAt
  exact oLast_tile (entry (Y V c) b) k (blk V c 0 t) (blk V c 1 t) (hb0 t b hb) (hb1 t b k hb hk)
    c (grid2.coords t) (ms0 t) (hs0 t) (ms1 t) (hs1 t) (ms2 t) (hs2 t) scW (Memref.isWhole_whole _) scN (Memref.isWhole_whole _) (notFirst_of t h0) (isLast_of t h7) s5 s6 d m

/-! The accumulators at a point, one component at a time. -/

theorem accW_first (t : Fin cfg2.N) (h0 : t.val % 8 = 0) : (accAt V c t.val t.isLt).1 = wFirstAt V c t h0 := by
  rw [accAt_first V c t h0]
theorem accN_first (t : Fin cfg2.N) (h0 : t.val % 8 = 0) : (accAt V c t.val t.isLt).2 = nFirstAt V c t h0 := by
  rw [accAt_first V c t h0]
theorem accW_mid (t : Fin cfg2.N) (h0 : ¬t.val % 8 = 0) (h7 : ¬t.val % 8 = 7) :
    (accAt V c t.val t.isLt).1 = wMidAt V c t h0 h7 (accAt V c (t.val - 1) (prevLt t)).1 (accAt V c (t.val - 1) (prevLt t)).2 := by
  rw [accAt_mid V c t h0 h7]
theorem accN_mid (t : Fin cfg2.N) (h0 : ¬t.val % 8 = 0) (h7 : ¬t.val % 8 = 7) :
    (accAt V c t.val t.isLt).2 = nMidAt V c t h0 h7 (accAt V c (t.val - 1) (prevLt t)).1 (accAt V c (t.val - 1) (prevLt t)).2 := by
  rw [accAt_mid V c t h0 h7]
theorem accW_last (t : Fin cfg2.N) (h0 : ¬t.val % 8 = 0) (h7 : t.val % 8 = 7) :
    (accAt V c t.val t.isLt).1 = wLastAt V c t h0 h7 (accAt V c (t.val - 1) (prevLt t)).1 (accAt V c (t.val - 1) (prevLt t)).2 := by
  rw [accAt_last V c t h0 h7]
theorem accN_last (t : Fin cfg2.N) (h0 : ¬t.val % 8 = 0) (h7 : t.val % 8 = 7) :
    (accAt V c t.val t.isLt).2 = nLastAt V c t h0 h7 (accAt V c (t.val - 1) (prevLt t)).1 (accAt V c (t.val - 1) (prevLt t)).2 := by
  rw [accAt_last V c t h0 h7]

/-- After tile `k` of batch entry `b` the accumulators hold the specification's running sums over tiles `0 … k`:
    by induction on the point; a first tile restarts from zero, every other tile adds to the point before, which is
    tile `k - 1` of the same entry. -/
theorem acc_inv : ∀ (n : ℕ) (t : Fin cfg2.N), t.val = n → ∀ (b : Fin 4) (k : ℕ), b.val = t.val / 8 → k = t.val % 8 →
    (∀ m : Fin 4096, (accAt V c t.val t.isLt).1 (ix2 (0 : Fin 1) m) = accW (entry (Y V c) b) m (k + 1))
    ∧ (∀ (d : Fin 32) (m : Fin 4096), (accAt V c t.val t.isLt).2 (ix2 d m) = accN (entry (Y V c) b) d m (k + 1)) := by
  intro n
  induction n with
  | zero =>
    intro t ht b k hb hk
    have h0 : t.val % 8 = 0 := by omega
    obtain rfl : k = 0 := by omega
    refine ⟨fun m => ?_, fun d m => ?_⟩
    · rw [accW_first V c hb0 hb1 t h0, wFirstAt_tile V c hb0 hb1 t h0 b hb m]; rfl
    · rw [accN_first V c hb0 hb1 t h0, nFirstAt_tile V c hb0 hb1 t h0 b hb d m]; rfl
  | succ n ih =>
    intro t ht b k hb hk
    by_cases h0 : t.val % 8 = 0
    · obtain rfl : k = 0 := by omega
      refine ⟨fun m => ?_, fun d m => ?_⟩
      · rw [accW_first V c hb0 hb1 t h0, wFirstAt_tile V c hb0 hb1 t h0 b hb m]; rfl
      · rw [accN_first V c hb0 hb1 t h0, nFirstAt_tile V c hb0 hb1 t h0 b hb d m]; rfl
    · obtain ⟨k', rfl⟩ : ∃ k', k = k' + 1 := Nat.exists_eq_succ_of_ne_zero (by omega)
      have hprev := ih ⟨t.val - 1, prevLt t⟩ (by show t.val - 1 = n; omega) b k' (by show b.val = (t.val - 1) / 8; omega)
        (by show k' = (t.val - 1) % 8; omega)
      have ihW : ∀ m : Fin 4096, (accAt V c (t.val - 1) (prevLt t)).1 (ix2 (0 : Fin 1) m) = accW (entry (Y V c) b) m (k' + 1) := hprev.1
      have ihN : ∀ (d : Fin 32) (m : Fin 4096), (accAt V c (t.val - 1) (prevLt t)).2 (ix2 d m) = accN (entry (Y V c) b) d m (k' + 1) := hprev.2
      by_cases h7 : t.val % 8 = 7
      · refine ⟨fun m => ?_, fun d m => ?_⟩
        · rw [accW_last V c hb0 hb1 t h0 h7, wLastAt_tile V c hb0 hb1 t h0 h7 b (k' + 1) hb hk _ _ m, ihW m]; rfl
        · rw [accN_last V c hb0 hb1 t h0 h7, nLastAt_tile V c hb0 hb1 t h0 h7 b (k' + 1) hb hk _ _ d m, ihN d m]; rfl
      · refine ⟨fun m => ?_, fun d m => ?_⟩
        · rw [accW_mid V c hb0 hb1 t h0 h7, wMidAt_tile V c hb0 hb1 t h0 h7 b (k' + 1) hb hk _ _ m, ihW m]; rfl
        · rw [accN_mid V c hb0 hb1 t h0 h7, nMidAt_tile V c hb0 hb1 t h0 h7 b (k' + 1) hb hk _ _ d m, ihN d m]; rfl

/-- At a last tile the stored output block is the tiled step of the batch entry: its quotient is of the running sums
    over all eight tiles, the first seven as the point before left them and the eighth this tile's own. -/
theorem out_last_of (t : Fin cfg2.N) (h7 : t.val % 8 = 7) (b : Fin 4) (hb : b.val = t.val / 8) (d : Fin 32) (m : Fin 4096) :
    outAt V c t (ix3 (0 : Fin 1) d m) = stepK (entry (Y V c) b) d m := by
  have h0 : ¬t.val % 8 = 0 := by omega
  have hprev := acc_inv V c hb0 hb1 (t.val - 1) ⟨t.val - 1, prevLt t⟩ rfl b 6 (by show b.val = (t.val - 1) / 8; omega)
    (by show 6 = (t.val - 1) % 8; omega)
  have ihW : (accAt V c (t.val - 1) (prevLt t)).1 (ix2 (0 : Fin 1) m) = accW (entry (Y V c) b) m 7 := hprev.1 m
  have ihN : (accAt V c (t.val - 1) (prevLt t)).2 (ix2 d m) = accN (entry (Y V c) b) d m 7 := hprev.2 d m
  rw [outAt_last V c t h0 h7, oLastAt_tile V c hb0 hb1 t h0 h7 b 7 hb h7.symm _ _ d m, ihW, ihN]; rfl

end Acc

/-! ## With the blocks read off the input array -/

section Final
variable (c : Dev nD)

/-- The first window's block at a point of batch entry `b` is that entry. -/
theorem blk0_entry (t : Fin cfg2.N) (b : Fin 4) (hb : b.val = t.val / 8) (d : Fin 32) (m : Fin 4096) :
    blk V c 0 t (ix3 (0 : Fin 1) d m) = entry (Y V c) b d m := by
  obtain rfl : b = ⟨t.val / 8, batch_lt t⟩ := Fin.ext hb
  exact blk0_apply V c t d m

/-- The second window's block at tile `k` of batch entry `b` is that entry's pixels `pix k r`. -/
theorem blk1_entry (t : Fin cfg2.N) (b : Fin 4) (k : ℕ) (hb : b.val = t.val / 8) (hk : k = t.val % 8) (d : Fin 32) (r : Fin 512) :
    blk V c 1 t (ix3 (0 : Fin 1) d r) = entry (Y V c) b d (pix k r) := by
  obtain rfl : b = ⟨t.val / 8, batch_lt t⟩ := Fin.ext hb
  subst hk
  exact blk1_apply V c t d r

/-- The column-weight accumulator after point `t`: the running sum over the batch entry's tiles `0 … t % 8`. -/
theorem accW_at (t : Fin cfg2.N) (m : Fin 4096) :
    (accAt V c t.val t.isLt).1 (ix2 (0 : Fin 1) m)
      = accW (entry (Y V c) ⟨t.val / 8, batch_lt t⟩) m (t.val % 8 + 1) :=
  (acc_inv V c (blk0_entry V c) (blk1_entry V c) t.val t rfl ⟨t.val / 8, batch_lt t⟩ (t.val % 8) rfl rfl).1 m

/-- The numerator accumulator after point `t`, likewise. -/
theorem accN_at (t : Fin cfg2.N) (d : Fin 32) (m : Fin 4096) :
    (accAt V c t.val t.isLt).2 (ix2 d m)
      = accN (entry (Y V c) ⟨t.val / 8, batch_lt t⟩) d m (t.val % 8 + 1) :=
  (acc_inv V c (blk0_entry V c) (blk1_entry V c) t.val t rfl ⟨t.val / 8, batch_lt t⟩ (t.val % 8) rfl rfl).2 d m

/-- The output block stored at a batch entry's last tile is the tiled mean-shift step of that entry. -/
theorem out_last (t : Fin cfg2.N) (h7 : t.val % 8 = 7) (d : Fin 32) (m : Fin 4096) :
    outAt V c t (ix3 (0 : Fin 1) d m) = stepK (entry (Y V c) ⟨t.val / 8, batch_lt t⟩) d m :=
  out_last_of V c (blk0_entry V c) (blk1_entry V c) t h7 ⟨t.val / 8, batch_lt t⟩ rfl d m

/-- The same, as an entry of the whole array `onBatches stepK` of the input. -/
theorem out_last_onBatches (t : Fin cfg2.N) (h7 : t.val % 8 = 7) (d : Fin 32) (m : Fin 4096) :
    outAt V c t (ix3 (0 : Fin 1) d m) = onBatches stepK (Y V c) (ix3 (⟨t.val / 8, batch_lt t⟩ : Fin 4) d m) :=
  (out_last V c t h7 d m).trans (onBatches_ix3 stepK (Y V c) ⟨t.val / 8, batch_lt t⟩ d m).symm

end Final

end Cert.KernelIdeal.Hand.R2.Val

end
-- ==== Proof.Hand.R2.Cover.lean ====
/- From the output block at a batch entry's last tile to the output array after region 2. The output window's block
   at point t is batch entry t / 8 of the output array, written back exactly at the last tiles (t % 8 = 7); batch
   entry b is covered by point 8 * b + 7. So if every last tile's stored block is its batch entry of one function
   G of the array's index, the array ends holding G. -/
import proofs.«166501_j24086176596062_1_alg».proof.Proof.Hand.R2.Body
import Idealize.ShloMosaic.Lib.ValueIdx
import Idealize.ShloMosaic.Lib.Pipeline.Value

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- A grid point's batch entry is one of the four. -/
theorem batch_lt' (t : Fin cfg2.N) : t.val / 8 < 4 := by
  have h : t.val < 32 := lt_of_lt_of_eq t.isLt Gen.N_2
  omega

/-- The output window's block index over the grid: the batch entry's. -/
theorem out_index_facts : ∀ t : Fin cfg2.N,
    win2_2.index t (0 : Fin 3) = t.val / 8 ∧ win2_2.index t (1 : Fin 3) = 0 ∧ win2_2.index t (2 : Fin 3) = 0 :=
  (by decide +kernel : ∀ t : Fin grid2.N,
    win2_2.index t (0 : Fin 3) = t.val / 8 ∧ win2_2.index t (1 : Fin 3) = 0 ∧ win2_2.index t (2 : Fin 3) = 0)

/-- An index of the output array is in point t's block iff each coordinate is in the block's range on its axis. -/
theorem mem_out_blk (t : Fin cfg2.N) (i : S4x32x4096.Idx) :
    i ∈ ((cfg2.win 2).blk t).view.set ↔ ∀ a : Fin 3, win2_2.index t a * S1x32x4096.size a ≤ (i a).val
      ∧ (i a).val < win2_2.index t a * S1x32x4096.size a + S1x32x4096.size a := by
  show i ∈ ((View.whole main_v3).slice (win2_2.rect t)).set ↔ _
  rw [View.set_slice_whole, Rect.mem_set_unit]
  exact Iff.rfl

/-- Every index of the output array is in the block of its batch entry's last tile, which is written back. -/
theorem out_cover (i : S4x32x4096.Idx) :
    ∃ t : Fin cfg2.N, (cfg2.win 2).flush t = true ∧ i ∈ ((cfg2.win 2).blk t).view.set := by
  have hi0 : (i 0).val < 4 := (i 0).isLt
  have hi1 : (i 1).val < 32 := (i 1).isLt
  have hi2 : (i 2).val < 4096 := (i 2).isLt
  have hlt : 8 * (i 0).val + 7 < cfg2.N := lt_of_lt_of_eq (by omega : 8 * (i 0).val + 7 < 32) Gen.N_2.symm
  obtain ⟨e0, e1, e2⟩ := out_index_facts ⟨8 * (i 0).val + 7, hlt⟩
  have e0' : win2_2.index ⟨8 * (i 0).val + 7, hlt⟩ (0 : Fin 3) = (8 * (i 0).val + 7) / 8 := e0
  refine ⟨⟨8 * (i 0).val + 7, hlt⟩, (Gen.flush2_2 _).mpr (by show (8 * (i 0).val + 7) % 8 = 7; omega), ?_⟩
  rw [mem_out_blk]
  intro a
  match a with
  | ⟨0, _⟩ =>
    show win2_2.index ⟨8 * (i 0).val + 7, hlt⟩ (0 : Fin 3) * 1 ≤ (i 0).val
      ∧ (i 0).val < win2_2.index ⟨8 * (i 0).val + 7, hlt⟩ (0 : Fin 3) * 1 + 1
    omega
  | ⟨1, _⟩ =>
    show win2_2.index ⟨8 * (i 0).val + 7, hlt⟩ (1 : Fin 3) * 32 ≤ (i 1).val
      ∧ (i 1).val < win2_2.index ⟨8 * (i 0).val + 7, hlt⟩ (1 : Fin 3) * 32 + 32
    omega
  | ⟨2, _⟩ =>
    show win2_2.index ⟨8 * (i 0).val + 7, hlt⟩ (2 : Fin 3) * 4096 ≤ (i 2).val
      ∧ (i 2).val < win2_2.index ⟨8 * (i 0).val + 7, hlt⟩ (2 : Fin 3) * 4096 + 4096
    omega

variable (V : (c : Dev nD) → (b : Ref sig .tc) → Buf (Elt F) ((c : Thread nD τ).loc b))

/-- What a last tile writes back is its batch entry of G, read through the window's block. -/
theorem out_flushed_eq (c : Dev nD) (G : S4x32x4096.Idx → Elt F .f32)
    (hG : ∀ (t : Fin cfg2.N), t.val % 8 = 7 → ∀ (d : Fin 32) (m : Fin 4096),
      outAt V c t (ix3 (0 : Fin 1) d m) = G (ix3 (⟨t.val / 8, batch_lt' t⟩ : Fin 4) d m))
    (t : Fin cfg2.N) (hf : (cfg2.win 2).flush t = true) :
    (dat0 V c).flushed 2 t = ((cfg2.win 2).blk t).view.read (Elt F) G := by
  have h7 : t.val % 8 = 7 := (Gen.flush2_2 t).mp hf
  obtain ⟨e0, e1, e2⟩ := out_index_facts t
  show (cfg2.win 2).cut (grid2.coords t) ((dat0 V c).after 2 t) = _
  rw [after2]
  funext j
  obtain ⟨d, m, rfl⟩ : ∃ (d : Fin 32) (m : Fin 4096), j = ix3 (0 : Fin 1) d m :=
    ⟨j 1, j 2, funext fun a => match a with
      | ⟨0, _⟩ => Subsingleton.elim (α := Fin 1) _ _
      | ⟨1, _⟩ => rfl
      | ⟨2, _⟩ => rfl⟩
  show outAt V c t (ix3 (0 : Fin 1) d m) = G (((cfg2.win 2).blk t).view.emb (ix3 (0 : Fin 1) d m))
  rw [hG t h7 d m]
  refine congrArg G ?_
  funext a
  apply Fin.ext
  match a with
  | ⟨0, _⟩ => show t.val / 8 = win2_2.index t (0 : Fin 3) * 1 + 1 * 0; omega
  | ⟨1, _⟩ => show d.val = win2_2.index t (1 : Fin 3) * 32 + 1 * d.val; omega
  | ⟨2, _⟩ => show m.val = win2_2.index t (2 : Fin 3) * 4096 + 1 * m.val; omega

/-- THE OUTPUT ARRAY after region 2: G, when every last tile stores its batch entry of G. -/
theorem arrAt_out_of (c : Dev nD) (G : S4x32x4096.Idx → Elt F .f32)
    (hG : ∀ (t : Fin cfg2.N), t.val % 8 = 7 → ∀ (d : Fin 32) (m : Fin 4096),
      outAt V c t (ix3 (0 : Fin 1) d m) = G (ix3 (⟨t.val / 8, batch_lt' t⟩ : Fin 4) d m)) :
    (dat0 V c).arrAt 2 cfg2.N = G :=
  (dat0 V c).arrAt_eq_of_cover 2 G (fun t hf => out_flushed_eq V c G hG t hf) out_cover

end Cert.KernelIdeal.Hand.R2

end
-- ==== Proof.Hand.R2.ValueOut.lean ====
/-
  Region 2's output array after the region: the tile-walking mean-shift step of each batch entry of its input array.
  The output block stored at a batch entry's last tile is that entry's step, and the four last tiles' blocks cover
  the array.
-/
import proofs.«166501_j24086176596062_1_alg».proof.Proof.Hand.R2.Value
import proofs.«166501_j24086176596062_1_alg».proof.Proof.Hand.R2.Cover

noncomputable section

namespace Cert.KernelIdeal.Hand.R2

open Cert.KernelIdeal Cert.KernelIdeal.Gen Cert.MeanShift
open Idealize.ShloMosaic Idealize.ShloMosaic.TcCoe Idealize.SL.Sem

variable (V : (c : Dev nD) → (b : Ref sig .tc) → Buf (Elt Ideal) ((c : Thread nD τ).loc b))

theorem arrAt_out (c : Dev nD) : (dat0 V c).arrAt 2 cfg2.N = onBatches stepK (V c main_v2) :=
  arrAt_out_of V c (onBatches stepK (Val.Y V c)) (fun t h7 d m => Val.out_last_onBatches V c t h7 d m)

end Cert.KernelIdeal.Hand.R2

end
-- ==== Proof.FiniteIn.lean ====
import proofs.«166501_j24086176596062_1_alg».proof.Defs
import proofs.«166501_j24086176596062_1_alg».proof.Proof.Gen.Pre_finite_inputs
import Idealize.ShloMosaic.Lib.ReduceAll
import Idealize.ShloMosaic.Lib.ValueIdx

/-!
  From the precondition to realness of every input entry.

  The precondition takes the absolute value of every entry, compares it (strictly below) with the f32 word of
  `+∞`, and reduces the comparisons by `and` over all four axes from `true`. If the result is `true`, every
  comparison is `true`: every entry `x` has `max x (-x) < ⊤`. On the extended reals that excludes `⊤` (whose
  absolute value is `⊤`) and `⊥` (whose negation is `⊤`), so the entry is the coercion of a real number.
-/

noncomputable section

namespace Cert.FiniteIn

open Idealize.ShloMosaic

/-- The result of the reduction over all axes has one index. -/
instance : Subsingleton Cert.Pre_finite_inputs.S_.Idx := ⟨fun _ _ => funext fun d => d.elim0⟩

/-- A truth value printed as a one-bit word is the word 1 exactly when it is `true`. -/
theorem ofBool_eq_one {b : Bool} : BitVec.ofBool b = 1#1 ↔ b = true := by cases b <;> decide

/-- The f32 word `0x7F800000` denotes `+∞`. -/
theorem inf_word : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- If the precondition holds of an array, every entry of the array is a real number. -/
theorem real_of_fn [Cert.Pre_finite_inputs.Facts] (x : FVec Ideal Cert.Pre_finite_inputs.S4x32x64x64 .f32)
    (h : Cert.Pre_finite_inputs.fn (F := Ideal) x = (fun _ => 1#1)) : ∀ i, ∃ r : ℝ, x i = (r : EReal) := by
  intro i
  have h0 := congrFun h ValueIdx.ix0
  dsimp only [Cert.Pre_finite_inputs.fn] at h0
  have hi := Host.reduce_andi_all _ _ _ _ _ h0 i
  have hi' : BitVec.ofBool (decide (max (x i) (-(x i)) < Ideal.ofBits .f32 0x7F800000#32)) = 1#1 := hi
  rw [inf_word, ofBool_eq_one, decide_eq_true_eq] at hi'
  exact real_of_abs_lt_top (x i) hi'

end Cert.FiniteIn

end
-- ==== Proof.Law.Reals.lean ====
import proofs.«166501_j24086176596062_1_alg».proof.Proof.Spec

/-!
  Real numbers inside the extended reals.

  The coercion of a finite sum of reals is the sum of the coercions; a bit pattern whose exponent field is not all
  ones denotes a real number; so the bandwidth and the step size are reals, and the affinity of two pixels of a
  real-valued batch entry is the coercion of a positive real (an exponential).
-/

noncomputable section

open scoped BigOperators

namespace Cert.MeanShift

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- The bandwidth is a real number. -/
theorem bw_real : ∃ r : ℝ, bw = (r : EReal) :=
  ieee_real 8 23 (0x3DCCCCCD#32) (by decide)

/-- The step size is a real number. -/
theorem half_real : ∃ r : ℝ, half = (r : EReal) :=
  ieee_real 8 23 (0x3F000000#32) (by decide)

/-- The affinity of two pixels of a real-valued batch entry, as the coercion of an exponential. -/
theorem aff_coe (b : ℝ) (hb : bw = (b : EReal)) (y : Pts) (f : Fin 32 → Fin 4096 → ℝ)
    (hf : ∀ d n, y d n = (f d n : EReal)) (n m : Fin 4096) :
    aff y n m = ((Real.exp (b * ∑ d : Fin 32, f d n * f d m) : ℝ) : EReal) := by
  unfold aff
  rw [hb]
  simp only [hf]
  simp only [← EReal.coe_mul, ← coe_sum]
  rfl

/-- The affinity of two pixels of a real-valued batch entry is a positive real. -/
theorem aff_pos_real (y : Pts) (hy : IsReal y) (n m : Fin 4096) :
    ∃ r : ℝ, 0 < r ∧ aff y n m = (r : EReal) := by
  obtain ⟨b, hb⟩ := bw_real
  choose f hf using hy
  exact ⟨_, Real.exp_pos _, aff_coe b hb y f hf n m⟩

end Cert.MeanShift

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.Law.Tiles.lean ====
import proofs.«166501_j24086176596062_1_alg».proof.Proof.Spec
import proofs.«166501_j24086176596062_1_alg».proof.Proof.LibBlockSum

/-!
  The tile walk computes the full sums.

  The running value after `k` tiles is the sum of the first `k` tiles' contributions. The pixels of the eight
  tiles of 512 are the 4096 pixels, each once, so after eight tiles the running column weight is the sum of the
  column's affinities over all pixels, and the running numerator is the full weighted sum. Only commutativity and
  associativity of addition are used, so this holds on the extended reals without any finiteness assumption.
-/

noncomputable section

open scoped BigOperators

namespace Cert.MeanShift

open Idealize.ShloMosaic

/-- The running column weight after `k` tiles is the sum of the first `k` tiles' contributions. -/
theorem accW_eq (y : Pts) (m : Fin 4096) (k : ℕ) : accW y m k = ∑ j ∈ Finset.range k, tileW y m j := by
  induction k with
  | zero => rfl
  | succ k ih => rw [Finset.sum_range_succ, ← ih]; rfl

/-- The running numerator after `k` tiles is the sum of the first `k` tiles' contributions. -/
theorem accN_eq (y : Pts) (d : Fin 32) (m : Fin 4096) (k : ℕ) :
    accN y d m k = ∑ j ∈ Finset.range k, tileN y d m j := by
  induction k with
  | zero => rfl
  | succ k ih => rw [Finset.sum_range_succ, ← ih]; rfl

/-- The pixels of the eight tiles of 512 are the 4096 pixels, each once. -/
theorem sum_tiles {M : Type*} [AddCommMonoid M] (f : Fin 4096 → M) :
    ∑ j ∈ Finset.range 8, ∑ r : Fin 512, f (pix j r) = ∑ n : Fin 4096, f n := by
  rw [Cert.BlockSum.sum_fin_blocks (A := 8) (B := 512) (by norm_num) f,
    ← Fin.sum_univ_eq_sum_range (fun j => ∑ r : Fin 512, f (pix j r)) 8]
  refine Finset.sum_congr rfl fun t _ => Finset.sum_congr rfl fun r _ => congrArg f (Fin.ext ?_)
  show (512 * t.val + r.val) % 4096 = 512 * t.val + r.val
  have ht := t.isLt
  have hr := r.isLt
  exact Nat.mod_eq_of_lt (by omega)

/-- After eight tiles the running column weight is the column's full weight. -/
theorem accW_eight (y : Pts) (m : Fin 4096) : accW y m 8 = ∑ n : Fin 4096, aff y n m := by
  rw [accW_eq]
  exact sum_tiles (fun n => aff y n m)

/-- After eight tiles the running numerator is the full weighted sum. -/
theorem accN_eight (y : Pts) (d : Fin 32) (m : Fin 4096) :
    accN y d m 8 = ∑ n : Fin 4096, y d n * aff y n m := by
  rw [accN_eq]
  exact sum_tiles (fun n => y d n * aff y n m)

end Cert.MeanShift

end
-- ==== Proof.Law.lean ====
import proofs.«166501_j24086176596062_1_alg».proof.Proof.Law.Reals
import proofs.«166501_j24086176596062_1_alg».proof.Proof.Law.Tiles

/-!
  The two arrangements of the mean-shift step agree on real-valued batch entries, and a step keeps them real.

  For a batch entry whose entries are the reals `f d n`, write `a n m = exp (b · Σ_d f d n · f d m)` for the real
  affinities and `C m = Σ_n a n m` for the real column weights. Each `a n m` is positive, so `C m` is positive,
  in particular nonzero, and division by it is multiplication by the real `1 / C m`. Both arrangements are then
  coercions of real expressions:

  * normalise first:  `h · Σ_n f d n · (a n m · (1 / C m)) + h · f d m`,
  * tile walk:        `h · ((Σ_n f d n · a n m) · (1 / C m)) + h · f d m`,

  and the two real expressions are equal because multiplication distributes over a finite sum.
-/

noncomputable section

open scoped BigOperators

namespace Cert.MeanShift

open Idealize.ShloMosaic

/-- The real affinity of pixels `n` and `m` for real entries `f` and real bandwidth `b`. -/
def affR (b : ℝ) (f : Fin 32 → Fin 4096 → ℝ) (n m : Fin 4096) : ℝ := Real.exp (b * ∑ d : Fin 32, f d n * f d m)

/-- The real weight of column `m`. -/
def colR (b : ℝ) (f : Fin 32 → Fin 4096 → ℝ) (m : Fin 4096) : ℝ := ∑ n : Fin 4096, affR b f n m

/-- A column's weight is a sum of positive reals over a nonempty range, hence positive. -/
theorem colR_pos (b : ℝ) (f : Fin 32 → Fin 4096 → ℝ) (m : Fin 4096) : 0 < colR b f m :=
  Finset.sum_pos (fun _ _ => Real.exp_pos _) ⟨⟨0, by norm_num⟩, Finset.mem_univ _⟩

section
variable (b h : ℝ) (hb : bw = (b : EReal)) (hh : half = (h : EReal))
  (y : Pts) (f : Fin 32 → Fin 4096 → ℝ) (hf : ∀ d n, y d n = (f d n : EReal))
include hb hf

/-- The affinity is the coercion of the real affinity. -/
theorem aff_eq (n m : Fin 4096) : aff y n m = (affR b f n m : EReal) := aff_coe b hb y f hf n m

/-- The full sum of a column's affinities is the coercion of the real column weight. -/
theorem sum_aff_eq (m : Fin 4096) : ∑ n : Fin 4096, aff y n m = (colR b f m : EReal) := by
  unfold colR
  rw [coe_sum]
  exact Finset.sum_congr rfl fun n _ => aff_eq b hb y f hf n m

/-- The column weight accumulated from zero is the coercion of the real column weight. -/
theorem colsumR_eq (m : Fin 4096) : colsumR y m = (colR b f m : EReal) := by
  unfold colsumR
  rw [zero_add]
  exact sum_aff_eq b hb y f hf m

include hh

/-- The normalise-first step is the coercion of a real expression. -/
theorem stepR_coe (d : Fin 32) (m : Fin 4096) :
    stepR y d m
      = ((h * (∑ n : Fin 4096, f d n * (affR b f n m * (1 / colR b f m))) + h * f d m : ℝ) : EReal) := by
  have hC : colR b f m ≠ 0 := (colR_pos b f m).ne'
  unfold stepR
  rw [hh, colsumR_eq b hb y f hf m]
  simp only [Ideal.div_coe hC, hf, aff_eq b hb y f hf]
  simp only [← EReal.coe_mul, ← coe_sum, ← EReal.coe_add]

/-- The tile-walk step is the coercion of a real expression. -/
theorem stepK_coe (d : Fin 32) (m : Fin 4096) :
    stepK y d m
      = ((h * ((∑ n : Fin 4096, f d n * affR b f n m) * (1 / colR b f m)) + h * f d m : ℝ) : EReal) := by
  have hC : colR b f m ≠ 0 := (colR_pos b f m).ne'
  unfold stepK
  rw [hh, accN_eight, accW_eight, sum_aff_eq b hb y f hf m]
  simp only [Ideal.div_coe hC, hf, aff_eq b hb y f hf]
  simp only [← EReal.coe_mul, ← coe_sum, ← EReal.coe_add]

end

/-- A step keeps a real-valued batch entry real-valued. -/
theorem stepR_isReal (y : Pts) (hy : IsReal y) : IsReal (stepR y) := by
  obtain ⟨b, hb⟩ := bw_real
  obtain ⟨h, hh⟩ := half_real
  choose f hf using hy
  intro d m
  exact ⟨_, stepR_coe b h hb hh y f hf d m⟩

/-- On a real-valued batch entry the tile walk with one final division is the normalise-first step. -/
theorem stepK_eq_stepR (y : Pts) (hy : IsReal y) : stepK y = stepR y := by
  obtain ⟨b, hb⟩ := bw_real
  obtain ⟨h, hh⟩ := half_real
  choose f hf using hy
  funext d m
  rw [stepK_coe b h hb hh y f hf d m, stepR_coe b h hb hh y f hf d m]
  have hsum : (∑ n : Fin 4096, f d n * affR b f n m) * (1 / colR b f m)
      = ∑ n : Fin 4096, f d n * (affR b f n m * (1 / colR b f m)) := by
    rw [Finset.sum_mul]
    exact Finset.sum_congr rfl fun n _ => mul_assoc _ _ _
  rw [hsum]

end Cert.MeanShift

end
-- ==== Proof.BatchLaw.lean ====
import proofs.«166501_j24086176596062_1_alg».proof.Proof.Law

/-!
  The step law on a whole `[4, 32, 4096]` array: when every entry is a real number, applying the tile-walking step
  to each of the four batch entries is applying the normalise-then-contract step to each, and the result's entries
  are real again — so three steps may be chained.
-/

noncomputable section

namespace Cert.MeanShift

open Idealize.ShloMosaic

/-- Every entry of a `[4, 32, 4096]` array is a real number. -/
def AllReal (x : (⟨3, ![4, 32, 4096]⟩ : Shape).Idx → EReal) : Prop := ∀ i, ∃ r : ℝ, x i = (r : EReal)

theorem entry_isReal (x : (⟨3, ![4, 32, 4096]⟩ : Shape).Idx → EReal) (hx : AllReal x) (b : Fin 4) : IsReal (entry x b) :=
  fun d n => hx (ValueIdx.ix3 b d n)

theorem onBatches_stepK_eq (x : (⟨3, ![4, 32, 4096]⟩ : Shape).Idx → EReal) (hx : AllReal x) :
    onBatches stepK x = onBatches stepR x := by
  funext i
  unfold onBatches
  rw [stepK_eq_stepR (entry x (i 0)) (entry_isReal x hx (i 0))]

theorem onBatches_stepR_real (x : (⟨3, ![4, 32, 4096]⟩ : Shape).Idx → EReal) (hx : AllReal x) :
    AllReal (onBatches stepR x) :=
  fun i => stepR_isReal (entry x (i 0)) (entry_isReal x hx (i 0)) (i 1) (i 2)

/-- Three steps, walked in tiles, on real entries are three steps in the reference's arrangement. -/
theorem three_steps (x : (⟨3, ![4, 32, 4096]⟩ : Shape).Idx → EReal) (hx : AllReal x) :
    onBatches stepK (onBatches stepK (onBatches stepK x)) = onBatches stepR (onBatches stepR (onBatches stepR x)) := by
  have h1 := onBatches_stepR_real x hx
  have h2 := onBatches_stepR_real _ h1
  rw [onBatches_stepK_eq x hx, onBatches_stepK_eq _ h1, onBatches_stepK_eq _ h2]

end Cert.MeanShift

end
-- ==== Proof.Hand.RealIn.lean ====
import proofs.«166501_j24086176596062_1_alg».proof.Defs
import proofs.«166501_j24086176596062_1_alg».proof.Proof.Gen.KernelIdeal
import proofs.«166501_j24086176596062_1_alg».proof.Proof.FiniteIn
import proofs.«166501_j24086176596062_1_alg».proof.Proof.BatchLaw
import Idealize.ShloMosaic.Lib.Pipeline.Value

/-!
  The kernel's input, reshaped to `[4, 32, 4096]`, has only real entries.

  The precondition holds of the argument array on every device, so every entry of the argument array is a real
  number. A reshape keeps the elements and only renames their indices: each entry of the reshaped array is the entry
  of the argument array at the corresponding index, hence a real number too.
-/

noncomputable section

namespace Cert.KernelIdeal.Hand

open Cert.KernelIdeal Cert.KernelIdeal.Gen Idealize.ShloMosaic Idealize.ShloMosaic.TcCoe Idealize.SL.Sem

/-- Under the precondition every entry of the reshaped input is a real number, on every device. -/
theorem allReal_in (m : (ℓ : Loc nD τ sig) → Buf (Elt Ideal) ℓ) (hpre : Cert.Pre_KernelIdeal m) (c : Dev nD) :
    Cert.MeanShift.AllReal (shapeCast S4x32x4096 (m ((c : Thread nD τ).loc main_arg0)) shapeCasts_S4x32x64x64_S4x32x4096) := by
  have hx := Cert.FiniteIn.real_of_fn (m ((c : Thread nD τ).loc main_arg0)) (hpre c)
  intro i
  unfold shapeCast
  exact hx _

end Cert.KernelIdeal.Hand

end
-- ==== Proof.HandB.R0.Base.lean ====
/-
  Region 0 (the first mean-shift step), the part every control case shares.

  The grid is 4 batch entries × 8 tiles of the reduction axis, walked row-major: point `t` is batch `t / 8`,
  tile `t % 8`. The body has two branches on the tile number: at tile 0 it zeroes the two accumulators, at tile 7
  it divides and stores the output block. So a point is in one of three cases: the first tile of a batch entry
  (zero, then accumulate), a middle tile (accumulate), the last tile (accumulate, then divide and store). The
  output window is stored only at a last tile and written back only there; elsewhere it is idle.
-/
import proofs.«166501_j24086176596062_1_alg».proof.Proof.Gen.Kernel.Launch
import proofs.«166501_j24086176596062_1_alg».proof.Proof.Gen.Kernel.Skeleton
import proofs.«166501_j24086176596062_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HandB.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The tile number is 0: the accumulators are zeroed first. -/
abbrev isFirst (i : grid0.Coords) : Prop :=
  (Scalar.cmpi .ne (Scalar.extui (Scalar.cmpi .eq (BitVec.ofNat 32 (i 1).val) 0#32)) 0#32) = 1#1
/-- The tile number is 7: the output block is computed and stored. -/
abbrev isLast (i : grid0.Coords) : Prop := k0_cond2 i = 1#1

theorem first_iff : ∀ t : Fin cfg0.N, isFirst (grid0.coords t) ↔ t.val % 8 = 0 :=
  (by decide +kernel : ∀ t : Fin grid0.N, isFirst (grid0.coords t) ↔ t.val % 8 = 0)
theorem last_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Off a last tile the output window is idle and is not written back. -/
theorem idle_out : ∀ t : Fin cfg0.N, ¬isLast (grid0.coords t) → cfg0.idle 2 (grid0.coords t) = true := by decide +kernel
theorem noflush_out : ∀ t : Fin cfg0.N, ¬isLast (grid0.coords t) → (cfg0.win 2).flush t = false := by decide +kernel
/-- At a last tile it is live. -/
theorem live_out : ∀ t : Fin cfg0.N, isLast (grid0.coords t) → cfg0.idle 2 (grid0.coords t) = false := by decide +kernel

/-! ## The memrefs the body is called with -/

abbrev ms0 (t : Fin cfg0.N) : Memref sig .tc .vmem S1x32x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x4096 .f32 := win0_2.stage (cfg0.slots t 2)
abbrev hs2 (t : Fin cfg0.N) : (ms2 t).IsWhole := hstage0_2 ((cfg0.slots t 2).cast nbuf0_2)
/-- The column-weight accumulator and the numerator accumulator: scratch buffers of the kernel's own. -/
abbrev scW : Memref sig .tc .vmem S1x4096 .f32 := Memref.whole cc0_scratch0
abbrev scN : Memref sig .tc .vmem S32x4096 .f32 := Memref.whole cc0_scratch1
/-- Views through which the contents of the output block and of the two accumulators are stated. -/
abbrev vOut : View sig .tc .vmem S1x32x4096 .f32 := (Memref.whole cc0_stg2_0 : Memref sig .tc .vmem S1x32x4096 .f32).view
abbrev vW : View sig .tc .vmem S1x4096 .f32 := scW.view
abbrev vN : View sig .tc .vmem S32x4096 .f32 := scN.view

/-- The scoped buffers no window stages, other than the two accumulators: the other regions' staging and scratch
    buffers, each whole at some contents. The body never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The scoped buffers no window of this region stages, the region's two accumulators first. -/
theorem scopedRest_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ others c) := by
  unfold others
  exact Pipeline.scopedRest_eq_of_list spec0 c [cc0_scratch0, cc0_scratch1, cc1_stg0_0, cc1_stg0_1, cc1_stg1_0, cc1_stg1_1, cc1_stg2_0, cc1_stg2_1, cc1_scratch0, cc1_scratch1, cc2_stg0_0, cc2_stg0_1, cc2_stg1_0, cc2_stg1_1, cc2_stg2_0, cc2_stg2_1, cc2_scratch0, cc2_scratch1] (by decide) (by decide)

/-- The region's invariant at entry and exit, with the two accumulators as memrefs owned at some contents. -/
theorem PhiA_eq (c : Dev nD) :
    (Pipeline.ΦA spec0 c : sProp 𝕄)
      = iprop(iprop((∃ d, owns (c : Thread nD τ) scW fullShare d) ∗ (∃ d, owns (c : Thread nD τ) scN fullShare d) ∗ others c) ∗ (∃ r, prngReg c r)) := by
  unfold Pipeline.ΦA; rw [scopedRest_own]; simp only [scW, scN, owns_whole]; try rfl

/-! ## The input windows' blocks -/

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the body leaves
    it in place, and where it is not refetched the block index has not moved. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

end Cert.Kernel.HandB.R0

end
-- ==== Proof.HandB.R0.RunFirst.lean ====
/-
  Region 0, a batch entry's FIRST tile: the two accumulators are zeroed, then this tile's column weights and
  numerators are added into them. The output block is not touched.
-/
import proofs.«166501_j24086176596062_1_alg».proof.Proof.HandB.R0.Base

set_option maxRecDepth 16384

noncomputable section

namespace Cert.Kernel.HandB.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first tile, on whole memrefs: the input blocks at `x2`, `x3` and the output buffer, at any contents, are left as
    found; each accumulator, whatever it held, ends with the pieces `LW`, `LN` written — the pieces the run finds. -/
noncomputable def runFirst (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : isFirst i) (hL : ¬isLast i)
    (x2 : Vec F S1x32x4096 .f32) (x3 : Vec F S1x32x512 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc0__mean_shift_step_kernel i arg2 harg2 arg3 harg3 arg4 harg4 arg5 harg5 arg6 harg6) K } := by
  refine ⟨?_, ?_, fun x4 E K => ?run⟩
  case run =>
    simp only [cc0__mean_shift_step_kernel_eq_skeleton]; unfold cc0__mean_shift_step_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.HandB.R0

end
-- ==== Proof.HandB.R0.RunMid.lean ====
/-
  Region 0, a MIDDLE tile of a batch entry: this tile's column weights and numerators are added into the
  accumulators, which hold what the tile before left. The output block is not touched.
-/
import proofs.«166501_j24086176596062_1_alg».proof.Proof.HandB.R0.Base

set_option maxRecDepth 16384

noncomputable section

namespace Cert.Kernel.HandB.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle tile, on whole memrefs: the input blocks at `x2`, `x3` and the output buffer, at any contents, are left as
    found; each accumulator, found at `s5`, `s6`, ends with the pieces `LW`, `LN` written — the pieces the run finds. -/
noncomputable def runMid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : ¬isLast i)
    (x2 : Vec F S1x32x4096 .f32) (x3 : Vec F S1x32x512 .f32) (s5 : Vec F S1x4096 .f32) (s6 : Vec F S32x4096 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc0__mean_shift_step_kernel i arg2 harg2 arg3 harg3 arg4 harg4 arg5 harg5 arg6 harg6) K } := by
  refine ⟨?_, ?_, fun x4 E K => ?run⟩
  case run =>
    simp only [cc0__mean_shift_step_kernel_eq_skeleton]; unfold cc0__mean_shift_step_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.HandB.R0

end
-- ==== Proof.HandB.R0.RunLast.lean ====
/-
  Region 0, a batch entry's LAST tile: this tile's column weights and numerators are added into the accumulators,
  and then the output block is stored: half the quotient of numerator by column weight plus half the input.
-/
import proofs.«166501_j24086176596062_1_alg».proof.Proof.HandB.R0.Base

set_option maxRecDepth 16384

noncomputable section

namespace Cert.Kernel.HandB.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a last tile, on whole memrefs: the input blocks at `x2`, `x3` are left as found; each accumulator,
    found at `s5`, `s6`, ends with the pieces `LW`, `LN` written and the output buffer, whatever it held, with `LO`. -/
noncomputable def runLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : isLast i)
    (x2 : Vec F S1x32x4096 .f32) (x3 : Vec F S1x32x512 .f32) (s5 : Vec F S1x4096 .f32) (s6 : Vec F S32x4096 .f32) :
    Σ' (LO : List (View.Piece (Elt F) S1x32x4096 .f32)) (LW : List (View.Piece (Elt F) S1x4096 .f32)), { LN : List (View.Piece (Elt F) S32x4096 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc0__mean_shift_step_kernel i arg2 harg2 arg3 harg3 arg4 harg4 arg5 harg5 arg6 harg6) K } := by
  refine ⟨?_, ?_, ?_, fun E K => ?run⟩
  case run =>
    simp only [cc0__mean_shift_step_kernel_eq_skeleton]; unfold cc0__mean_shift_step_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.Kernel.HandB.R0

end
-- ==== Proof.HandB.R0.Body.lean ====
/-
  Region 0: what the two accumulators and the output block hold after each grid point, the region's invariant
  between points, its proof data, and the body obligation.

  Within a batch entry the column-weight accumulator after tile `j` holds the sum of the affinities of the first
  `j + 1` tiles' pixels to each column, and the numerator accumulator the matching sums weighted by the features;
  a batch entry's first tile restarts both from zero. The output block is stored at the entry's last tile from the
  accumulators as that tile leaves them. Here these contents are named through the pieces each case's run found;
  their closed forms are read off elsewhere.
-/
import proofs.«166501_j24086176596062_1_alg».proof.Proof.HandB.R0.RunFirst
import proofs.«166501_j24086176596062_1_alg».proof.Proof.HandB.R0.RunMid
import proofs.«166501_j24086176596062_1_alg».proof.Proof.HandB.R0.RunLast

set_option maxRecDepth 16384

noncomputable section

namespace Cert.Kernel.HandB.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases' pieces cover the buffers they are stored into -/

theorem coverW_first (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S1x4096.Idx) :
    ∃ pc ∈ (runFirst c i arg2 harg2 arg3 harg3 arg4 harg4 arg5 harg5 arg6 harg6 hF hL x2 x3).1, y ∈ pc.1.set :=
  View.cover_of_tiledL (runFirst c i arg2 harg2 arg3 harg3 arg4 harg4 arg5 harg5 arg6 harg6 hF hL x2 x3).1 S1x4096.size (by sl_kernel_rfl) y
theorem coverN_first (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S32x4096.Idx) :
    ∃ pc ∈ (runFirst c i arg2 harg2 arg3 harg3 arg4 harg4 arg5 harg5 arg6 harg6 hF hL x2 x3).2.1, y ∈ pc.1.set :=
  View.cover_of_tiledL (runFirst c i arg2 harg2 arg3 harg3 arg4 harg4 arg5 harg5 arg6 harg6 hF hL x2 x3).2.1 S32x4096.size (by sl_kernel_rfl) y
theorem coverW_mid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S1x4096.Idx) :
    ∃ pc ∈ (runMid c i arg2 harg2 arg3 harg3 arg4 harg4 arg5 harg5 arg6 harg6 hF hL x2 x3 s5 s6).1, y ∈ pc.1.set :=
  View.cover_of_tiledL (runMid c i arg2 harg2 arg3 harg3 arg4 harg4 arg5 harg5 arg6 harg6 hF hL x2 x3 s5 s6).1 S1x4096.size (by sl_kernel_rfl) y
theorem coverN_mid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S32x4096.Idx) :
    ∃ pc ∈ (runMid c i arg2 harg2 arg3 harg3 arg4 harg4 arg5 harg5 arg6 harg6 hF hL x2 x3 s5 s6).2.1, y ∈ pc.1.set :=
  View.cover_of_tiledL (runMid c i arg2 harg2 arg3 harg3 arg4 harg4 arg5 harg5 arg6 harg6 hF hL x2 x3 s5 s6).2.1 S32x4096.size (by sl_kernel_rfl) y
theorem coverO_last (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x32x4096.Idx) :
    ∃ pc ∈ (runLast c i arg2 harg2 arg3 harg3 arg4 harg4 arg5 harg5 arg6 harg6 hF hL x2 x3 s5 s6).1, y ∈ pc.1.set :=
  View.cover_of_tiledL (runLast c i arg2 harg2 arg3 harg3 arg4 harg4 arg5 harg5 arg6 harg6 hF hL x2 x3 s5 s6).1 S1x32x4096.size (by sl_kernel_rfl) y
theorem coverW_last (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x4096.Idx) :
    ∃ pc ∈ (runLast c i arg2 harg2 arg3 harg3 arg4 harg4 arg5 harg5 arg6 harg6 hF hL x2 x3 s5 s6).2.1, y ∈ pc.1.set :=
  View.cover_of_tiledL (runLast c i arg2 harg2 arg3 harg3 arg4 harg4 arg5 harg5 arg6 harg6 hF hL x2 x3 s5 s6).2.1 S1x4096.size (by sl_kernel_rfl) y
theorem coverN_last (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S32x4096.Idx) :
    ∃ pc ∈ (runLast c i arg2 harg2 arg3 harg3 arg4 harg4 arg5 harg5 arg6 harg6 hF hL x2 x3 s5 s6).2.2.1, y ∈ pc.1.set :=
  View.cover_of_tiledL (runLast c i arg2 harg2 arg3 harg3 arg4 harg4 arg5 harg5 arg6 harg6 hF hL x2 x3 s5 s6).2.2.1 S32x4096.size (by sl_kernel_rfl) y

/-! ## What each case leaves: its pieces read back -/

def wFirst (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S1x4096 .f32 :=
  vW.read (Elt F) (vW.writes (Elt F) vW.junk (runFirst c i arg2 harg2 arg3 harg3 arg4 harg4 arg5 harg5 arg6 harg6 hF hL x2 x3).1)
def nFirst (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S32x4096 .f32 :=
  vN.read (Elt F) (vN.writes (Elt F) vN.junk (runFirst c i arg2 harg2 arg3 harg3 arg4 harg4 arg5 harg5 arg6 harg6 hF hL x2 x3).2.1)
def wMid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runMid c i arg2 harg2 arg3 harg3 arg4 harg4 arg5 harg5 arg6 harg6 hF hL x2 x3 s5 s6).1)
def nMid (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runMid c i arg2 harg2 arg3 harg3 arg4 harg4 arg5 harg5 arg6 harg6 hF hL x2 x3 s5 s6).2.1)
def oLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x32x4096 .f32 :=
  vOut.read (Elt F) (vOut.writes (Elt F) vOut.junk (runLast c i arg2 harg2 arg3 harg3 arg4 harg4 arg5 harg5 arg6 harg6 hF hL x2 x3 s5 s6).1)
def wLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runLast c i arg2 harg2 arg3 harg3 arg4 harg4 arg5 harg5 arg6 harg6 hF hL x2 x3 s5 s6).2.1)
def nLast (c : Dev nD) (i : grid0.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runLast c i arg2 harg2 arg3 harg3 arg4 harg4 arg5 harg5 arg6 harg6 hF hL x2 x3 s5 s6).2.2.1)

/-! ## The tile number of a point decides its case -/

theorem isFirst_of (t : Fin cfg0.N) (h0 : t.val % 8 = 0) : isFirst (grid0.coords t) := (first_iff t).mpr h0
theorem notFirst_of (t : Fin cfg0.N) (h0 : ¬t.val % 8 = 0) : ¬isFirst (grid0.coords t) := fun h => h0 ((first_iff t).mp h)
theorem isLast_of (t : Fin cfg0.N) (h7 : t.val % 8 = 7) : isLast (grid0.coords t) := (last_iff t).mpr h7
theorem notLast_of (t : Fin cfg0.N) (h7 : ¬t.val % 8 = 7) : ¬isLast (grid0.coords t) := fun h => h7 ((last_iff t).mp h)
theorem notLast_of_first (t : Fin cfg0.N) (h0 : t.val % 8 = 0) : ¬isLast (grid0.coords t) :=
  notLast_of t (by omega)
theorem prevLt (t : Fin cfg0.N) : t.val - 1 < cfg0.N := Nat.lt_of_le_of_lt (Nat.sub_le _ _) t.isLt

variable (V : (c : Dev nD) → (b : Ref sig .tc) → Buf (Elt F) ((c : Thread nD τ).loc b))

/-! ## The cases at a grid point, on the point's memrefs and input blocks -/

def wFirstAt (c : Dev nD) (t : Fin cfg0.N) (h0 : t.val % 8 = 0) : Vec F S1x4096 .f32 :=
  wFirst c (grid0.coords t) (ms0 t) (hs0 t) (ms1 t) (hs1 t) (ms2 t) (hs2 t) scW (Memref.isWhole_whole _) scN (Memref.isWhole_whole _) (isFirst_of t h0) (notLast_of_first t h0) (blk V c 0 t) (blk V c 1 t)
def nFirstAt (c : Dev nD) (t : Fin cfg0.N) (h0 : t.val % 8 = 0) : Vec F S32x4096 .f32 :=
  nFirst c (grid0.coords t) (ms0 t) (hs0 t) (ms1 t) (hs1 t) (ms2 t) (hs2 t) scW (Memref.isWhole_whole _) scN (Memref.isWhole_whole _) (isFirst_of t h0) (notLast_of_first t h0) (blk V c 0 t) (blk V c 1 t)
def wMidAt (c : Dev nD) (t : Fin cfg0.N) (h0 : ¬t.val % 8 = 0) (h7 : ¬t.val % 8 = 7) (s5 : Vec F S1x4096 .f32) (s6 : Vec F S32x4096 .f32) : Vec F S1x4096 .f32 :=
  wMid c (grid0.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def nMidAt (c : Dev nD) (t : Fin cfg0.N) (h0 : ¬t.val % 8 = 0) (h7 : ¬t.val % 8 = 7) (s5 : Vec F S1x4096 .f32) (s6 : Vec F S32x4096 .f32) : Vec F S32x4096 .f32 :=
  nMid c (grid0.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def oLastAt (c : Dev nD) (t : Fin cfg0.N) (h0 : ¬t.val % 8 = 0) (h7 : t.val % 8 = 7) (s5 : Vec F S1x4096 .f32) (s6 : Vec F S32x4096 .f32) : Vec F S1x32x4096 .f32 :=
  oLast c (grid0.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def wLastAt (c : Dev nD) (t : Fin cfg0.N) (h0 : ¬t.val % 8 = 0) (h7 : t.val % 8 = 7) (s5 : Vec F S1x4096 .f32) (s6 : Vec F S32x4096 .f32) : Vec F S1x4096 .f32 :=
  wLast c (grid0.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def nLastAt (c : Dev nD) (t : Fin cfg0.N) (h0 : ¬t.val % 8 = 0) (h7 : t.val % 8 = 7) (s5 : Vec F S1x4096 .f32) (s6 : Vec F S32x4096 .f32) : Vec F S32x4096 .f32 :=
  nLast c (grid0.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6

/-! ## The accumulators after each point -/

/-- The column-weight accumulator and the numerator accumulator after the body at position `n`: restarted at a batch
    entry's first tile, otherwise this tile's contribution added to what the point before left. -/
def accAt (c : Dev nD) : (n : ℕ) → n < cfg0.N → Vec F S1x4096 .f32 × Vec F S32x4096 .f32
  | 0, hn => (wFirstAt V c ⟨0, hn⟩ (Nat.zero_mod _), nFirstAt V c ⟨0, hn⟩ (Nat.zero_mod _))
  | n + 1, hn =>
    if h0 : (n + 1) % 8 = 0 then (wFirstAt V c ⟨n + 1, hn⟩ h0, nFirstAt V c ⟨n + 1, hn⟩ h0)
    else if h7 : (n + 1) % 8 = 7 then
      (wLastAt V c ⟨n + 1, hn⟩ h0 h7 (accAt c n (Nat.lt_of_succ_lt hn)).1 (accAt c n (Nat.lt_of_succ_lt hn)).2,
       nLastAt V c ⟨n + 1, hn⟩ h0 h7 (accAt c n (Nat.lt_of_succ_lt hn)).1 (accAt c n (Nat.lt_of_succ_lt hn)).2)
    else
      (wMidAt V c ⟨n + 1, hn⟩ h0 h7 (accAt c n (Nat.lt_of_succ_lt hn)).1 (accAt c n (Nat.lt_of_succ_lt hn)).2,
       nMidAt V c ⟨n + 1, hn⟩ h0 h7 (accAt c n (Nat.lt_of_succ_lt hn)).1 (accAt c n (Nat.lt_of_succ_lt hn)).2)

theorem accAt_first (c : Dev nD) (t : Fin cfg0.N) (h0 : t.val % 8 = 0) :
    accAt V c t.val t.isLt = (wFirstAt V c t h0, nFirstAt V c t h0) := by
  obtain ⟨n, hn⟩ := t
  cases n with
  | zero => exact rfl
  | succ n => exact (dif_pos h0).trans rfl
theorem accAt_mid (c : Dev nD) (t : Fin cfg0.N) (h0 : ¬t.val % 8 = 0) (h7 : ¬t.val % 8 = 7) :
    accAt V c t.val t.isLt = (wMidAt V c t h0 h7 (accAt V c (t.val - 1) (prevLt t)).1 (accAt V c (t.val - 1) (prevLt t)).2,
      nMidAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_neg h7).trans rfl)
theorem accAt_last (c : Dev nD) (t : Fin cfg0.N) (h0 : ¬t.val % 8 = 0) (h7 : t.val % 8 = 7) :
    accAt V c t.val t.isLt = (wLastAt V c t h0 h7 (accAt V c (t.val - 1) (prevLt t)).1 (accAt V c (t.val - 1) (prevLt t)).2,
      nLastAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_pos h7).trans rfl)

/-- What the output window's staging buffer holds after the body at point `t`: at a last tile the stored block, from
    the accumulators as the tile before left them; elsewhere nothing is stored and the value is not consulted. -/
def outAt (c : Dev nD) (t : Fin cfg0.N) : Vec F S1x32x4096 .f32 :=
  if h7 : t.val % 8 = 7 then
    oLastAt V c t (by omega) h7 (accAt V c (t.val - 1) (prevLt t)).1 (accAt V c (t.val - 1) (prevLt t)).2
  else vOut.read (Elt F) vOut.junk
theorem outAt_last (c : Dev nD) (t : Fin cfg0.N) (h0 : ¬t.val % 8 = 0) (h7 : t.val % 8 = 7) :
    outAt V c t = oLastAt V c t h0 h7 (accAt V c (t.val - 1) (prevLt t)).1 (accAt V c (t.val - 1) (prevLt t)).2 := by
  unfold outAt; exact dif_pos h7

/-! ## The invariant between points -/

/-- Before position `n`: at the region's entry every scoped buffer no window stages at anything; afterwards the two
    accumulators at what the point before left, the others at anything; the generator register at some state. -/
def PhiS (c : Dev nD) : (n : ℕ) → n ≤ cfg0.N → sProp 𝕄
  | 0, _ => Pipeline.ΦA spec0 c
  | n + 1, hn => iprop(iprop(owns (c : Thread nD τ) scW fullShare (accAt V c n hn).1 ∗ owns (c : Thread nD τ) scN fullShare (accAt V c n hn).2 ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scW fullShare (accAt V c n hn).1 ∗ owns (c : Thread nD τ) scN fullShare (accAt V c n hn).2 ∗ others c) ∗ (∃ r, prngReg c r)) := rfl
theorem PhiS_pos (c : Dev nD) (n : ℕ) (h : n ≤ cfg0.N) (hz : n ≠ 0) :
    PhiS V c n h = iprop(iprop(owns (c : Thread nD τ) scW fullShare (accAt V c (n - 1) (by omega)).1 ∗ owns (c : Thread nD τ) scN fullShare (accAt V c (n - 1) (by omega)).2 ∗ others c) ∗ (∃ r, prngReg c r)) := by
  cases n with
  | zero => exact absurd rfl hz
  | succ n => rfl

/-- Whatever the position, the invariant holds the two accumulators at some contents. -/
theorem PhiS_any (c : Dev nD) (n : ℕ) (h : n ≤ cfg0.N) :
    PhiS V c n h ⊢ iprop(iprop((∃ d, owns (c : Thread nD τ) scW fullShare d) ∗ (∃ d, owns (c : Thread nD τ) scN fullShare d) ∗ others c) ∗ (∃ r, prngReg c r)) := by
  by_cases hz : n = 0
  · rw [PhiS_zero V c n h hz, PhiA_eq]; try exact Idealize.SL.BI.Entails.refl _
  · rw [PhiS_pos V c n h hz]
    iintro ⟨⟨HW, HN, Ho⟩, Hg⟩
    isplitl [HW HN Ho]
    · isplitl [HW]; · iexists _; iexact HW
      isplitl [HN]; · iexists _; iexact HN
      iexact Ho
    iexact Hg

/-! ## The proof data -/

/-- Region 0's proof data on core `c`: the arrays as the region finds them; after the body each input's buffer at its
    block and the output's at `outAt`; the invariant `PhiS`; the shared input array held at its two halves, the output
    array outright; nothing owed. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outAt V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by dsimp only [dat0]
theorem q_eq0 (c : Dev nD) : (dat0 V c).q 0 = fullShare.left := by dsimp only [dat0]
theorem q_eq1 (c : Dev nD) : (dat0 V c).q 1 = fullShare.right := by dsimp only [dat0]
theorem Phi_castSucc (c : Dev nD) (t : Fin cfg0.N) : (dat0 V c).Φ t.castSucc = PhiS V c t.val (Nat.le_of_lt t.isLt) := by
  dsimp only [dat0]; try simp only [Fin.coe_castSucc]
theorem after0 (c : Dev nD) (t : Fin cfg0.N) : (dat0 V c).after 0 t = blk V c 0 t := by dsimp only [dat0]
theorem after1 (c : Dev nD) (t : Fin cfg0.N) : (dat0 V c).after 1 t = blk V c 1 t := by dsimp only [dat0]
theorem after2 (c : Dev nD) (t : Fin cfg0.N) : (dat0 V c).after 2 t = outAt V c t := by dsimp only [dat0]
theorem before0 (c : Dev nD) (t : Fin cfg0.N) (d) : (dat0 V c).before 0 t d = blk V c 0 t :=
  before_in0 V (dat0 V c) (A_eq V c 0) (after0 V c) t d
theorem before1 (c : Dev nD) (t : Fin cfg0.N) (d) : (dat0 V c).before 1 t d = blk V c 1 t :=
  before_in1 V (dat0 V c) (A_eq V c 1) (after1 V c) t d

end Cert.Kernel.HandB.R0

end
-- ==== Proof.HandB.R0.Obl.lean ====
/-
  Region 0's body obligation. At a point the tile number says which case the body is in; the input windows'
  buffers hold their blocks; the invariant hands the body the two accumulators (at what the point before left, or
  at anything at the region's first point) and takes them back at this point's contents; off a last tile the
  output window's buffer is handed back as it was found.
-/
import proofs.«166501_j24086176596062_1_alg».proof.Proof.HandB.R0.Body

set_option maxRecDepth 16384

noncomputable section

namespace Cert.Kernel.HandB.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in0 t], after0]
  rw [show (dat0 V c).leavesExact 1 t = owns (c : Thread nD τ) (ms1 t) fullShare ((dat0 V c).after 1 t) from by
    unfold Dat.leavesExact; rw [live_in1 t], after1]
  rw [Phi_castSucc V c t]
  have hN : t.val < 32 := lt_of_lt_of_eq t.isLt (show cfg0.N = 32 from N_0)
  by_cases h0 : t.val % 8 = 0
  · -- a batch entry's first tile
    have hL := notLast_of_first t h0
    rw [Dat.leavesExact_idle (dat0 V c) 2 t (idle_out t hL) (noflush_out t hL)]
    rw [accAt_first V c t h0]
    unfold wFirstAt nFirstAt wFirst nFirst; (try dsimp only)
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HW, HN, Hoth⟩, Hg⟩
    iapply ((runFirst c (grid0.coords t) _ _ _ _ _ _ _ _ _ _ (isFirst_of t h0) hL (blk V c 0 t) (blk V c 1 t)).2.2 _ Set.univ _)
    isplitl [H0]; · iexact H0
    isplitl [H1]; · iexact H1
    isplitl [H2]; · iexact H2
    isplitl [HW]; · iexact HW
    isplitl [HN]; · iexact HN
    iintro ⟨H0, H1, H2, ⟨%eW, HW⟩, ⟨%eN, HN⟩⟩
    isplitl [HW HN Hoth Hg]
    · isplitl [HW HN Hoth]
      · isplitl [HW]
        · unfold owns; iexists _; isplitr
          swap; · iexact HW
          ipureintro; exact View.read_writes_of_cover _ _ _ _ _ (coverW_first c _ _ _ _ _ _ _ _ _ _ _ _ _ _ _)
        isplitl [HN]
        · unfold owns; iexists _; isplitr
          swap; · iexact HN
          ipureintro; exact View.read_writes_of_cover _ _ _ _ _ (coverN_first c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz]
    by_cases h7 : t.val % 8 = 7
    · -- a batch entry's last tile
      have hL := isLast_of t h7
      rw [show (dat0 V c).leavesExact 2 t = owns (c : Thread nD τ) (ms2 t) fullShare ((dat0 V c).after 2 t) from by
        unfold Dat.leavesExact; rw [live_out t hL], after2, outAt_last V c t h0 h7]
      rw [accAt_last V c t h0 h7]
      unfold oLastAt wLastAt nLastAt oLast wLast nLast; (try dsimp only)
      iintro ⟨⟨⟨HW, HN, Hoth⟩, Hg⟩, Ho, ⟨%d0, H0⟩, ⟨%d1, H1⟩, ⟨%d2, H2⟩⟩
      iapply ((runLast c (grid0.coords t) _ _ _ _ _ _ _ _ _ _ (notFirst_of t h0) hL (blk V c 0 t) (blk V c 1 t) _ _).2.2.2 Set.univ _)
      isplitl [H0]; · iexact H0
      isplitl [H1]; · iexact H1
      isplitl [H2]; · iexists _; iexact H2
      isplitl [HW]; · iexact HW
      isplitl [HN]; · iexact HN
      iintro ⟨H0, H1, ⟨%eO, H2⟩, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_last c _ _ _ _ _ _ _ _ _ _ _ _ _ _ _ _ _)
          isplitl [HN]
          · unfold owns; iexists _; isplitr
            swap; · iexact HN
            ipureintro; exact View.read_writes_of_cover _ _ _ _ _ (coverN_last c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hL := notLast_of t h7
      rw [Dat.leavesExact_idle (dat0 V c) 2 t (idle_out t hL) (noflush_out t hL)]
      rw [accAt_mid V c t h0 h7]
      unfold wMidAt nMidAt wMid nMid; (try dsimp only)
      iintro ⟨⟨⟨HW, HN, Hoth⟩, Hg⟩, Ho, ⟨%d0, H0⟩, ⟨%d1, H1⟩, ⟨%d2, H2⟩⟩
      iapply ((runMid c (grid0.coords t) _ _ _ _ _ _ _ _ _ _ (notFirst_of t h0) hL (blk V c 0 t) (blk V c 1 t) _ _).2.2 _ Set.univ _)
      isplitl [H0]; · iexact H0
      isplitl [H1]; · iexact H1
      isplitl [H2]; · iexact H2
      isplitl [HW]; · iexact HW
      isplitl [HN]; · iexact HN
      iintro ⟨H0, H1, H2, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_mid c _ _ _ _ _ _ _ _ _ _ _ _ _ _ _ _ _)
          isplitl [HN]
          · unfold owns; iexists _; isplitr
            swap; · iexact HN
            ipureintro; exact View.read_writes_of_cover _ _ _ _ _ (coverN_mid c _ _ _ _ _ _ _ _ _ _ _ _ _ _ _ _ _)
          iexact Hoth
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's entry invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA_eq]
  exact PhiS_any V c _ _

end Cert.Kernel.HandB.R0

end
-- ==== Proof.HandB.R1.Base.lean ====
/-
  Region 1 (the second mean-shift step), the part every control case shares.

  The grid is 4 batch entries × 8 tiles of the reduction axis, walked row-major: point `t` is batch `t / 8`,
  tile `t % 8`. The body has two branches on the tile number: at tile 0 it zeroes the two accumulators, at tile 7
  it divides and stores the output block. So a point is in one of three cases: the first tile of a batch entry
  (zero, then accumulate), a middle tile (accumulate), the last tile (accumulate, then divide and store). The
  output window is stored only at a last tile and written back only there; elsewhere it is idle.
-/
import proofs.«166501_j24086176596062_1_alg».proof.Proof.Gen.Kernel.Launch
import proofs.«166501_j24086176596062_1_alg».proof.Proof.Gen.Kernel.Skeleton
import proofs.«166501_j24086176596062_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HandB.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The tile number is 0: the accumulators are zeroed first. -/
abbrev isFirst (i : grid1.Coords) : Prop :=
  (Scalar.cmpi .ne (Scalar.extui (Scalar.cmpi .eq (BitVec.ofNat 32 (i 1).val) 0#32)) 0#32) = 1#1
/-- The tile number is 7: the output block is computed and stored. -/
abbrev isLast (i : grid1.Coords) : Prop := k1_cond2 i = 1#1

theorem first_iff : ∀ t : Fin cfg1.N, isFirst (grid1.coords t) ↔ t.val % 8 = 0 :=
  (by decide +kernel : ∀ t : Fin grid1.N, isFirst (grid1.coords t) ↔ t.val % 8 = 0)
theorem last_iff : ∀ t : Fin cfg1.N, isLast (grid1.coords t) ↔ t.val % 8 = 7 :=
  (by decide +kernel : ∀ t : Fin grid1.N, isLast (grid1.coords t) ↔ t.val % 8 = 7)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
/-- Off a last tile the output window is idle and is not written back. -/
theorem idle_out : ∀ t : Fin cfg1.N, ¬isLast (grid1.coords t) → cfg1.idle 2 (grid1.coords t) = true := by decide +kernel
theorem noflush_out : ∀ t : Fin cfg1.N, ¬isLast (grid1.coords t) → (cfg1.win 2).flush t = false := by decide +kernel
/-- At a last tile it is live. -/
theorem live_out : ∀ t : Fin cfg1.N, isLast (grid1.coords t) → cfg1.idle 2 (grid1.coords t) = false := by decide +kernel

/-! ## The memrefs the body is called with -/

abbrev ms0 (t : Fin cfg1.N) : Memref sig .tc .vmem S1x32x4096 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x32x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x32x4096 .f32 := win1_2.stage (cfg1.slots t 2)
abbrev hs2 (t : Fin cfg1.N) : (ms2 t).IsWhole := hstage1_2 ((cfg1.slots t 2).cast nbuf1_2)
/-- The column-weight accumulator and the numerator accumulator: scratch buffers of the kernel's own. -/
abbrev scW : Memref sig .tc .vmem S1x4096 .f32 := Memref.whole cc1_scratch0
abbrev scN : Memref sig .tc .vmem S32x4096 .f32 := Memref.whole cc1_scratch1
/-- Views through which the contents of the output block and of the two accumulators are stated. -/
abbrev vOut : View sig .tc .vmem S1x32x4096 .f32 := (Memref.whole cc1_stg2_0 : Memref sig .tc .vmem S1x32x4096 .f32).view
abbrev vW : View sig .tc .vmem S1x4096 .f32 := scW.view
abbrev vN : View sig .tc .vmem S32x4096 .f32 := scN.view

/-- The scoped buffers no window stages, other than the two accumulators: the other regions' staging and scratch
    buffers, each whole at some contents. The body never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The scoped buffers no window of this region stages, the region's two accumulators first. -/
theorem scopedRest_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ others c) := by
  unfold others
  exact Pipeline.scopedRest_eq_of_list spec1 c [cc1_scratch0, cc1_scratch1, cc0_stg0_0, cc0_stg0_1, cc0_stg1_0, cc0_stg1_1, cc0_stg2_0, cc0_stg2_1, cc0_scratch0, cc0_scratch1, cc2_stg0_0, cc2_stg0_1, cc2_stg1_0, cc2_stg1_1, cc2_stg2_0, cc2_stg2_1, cc2_scratch0, cc2_scratch1] (by decide) (by decide)

/-- The region's invariant at entry and exit, with the two accumulators as memrefs owned at some contents. -/
theorem PhiA_eq (c : Dev nD) :
    (Pipeline.ΦA spec1 c : sProp 𝕄)
      = iprop(iprop((∃ d, owns (c : Thread nD τ) scW fullShare d) ∗ (∃ d, owns (c : Thread nD τ) scN fullShare d) ∗ others c) ∗ (∃ r, prngReg c r)) := by
  unfold Pipeline.ΦA; rw [scopedRest_own]; simp only [scW, scN, owns_whole]; try rfl

/-! ## The input windows' blocks -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the body leaves
    it in place, and where it is not refetched the block index has not moved. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

end Cert.Kernel.HandB.R1

end
-- ==== Proof.HandB.R1.RunFirst.lean ====
/-
  Region 1, a batch entry's FIRST tile: the two accumulators are zeroed, then this tile's column weights and
  numerators are added into them. The output block is not touched.
-/
import proofs.«166501_j24086176596062_1_alg».proof.Proof.HandB.R1.Base

set_option maxRecDepth 16384

noncomputable section

namespace Cert.Kernel.HandB.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first tile, on whole memrefs: the input blocks at `x2`, `x3` and the output buffer, at any contents, are left as
    found; each accumulator, whatever it held, ends with the pieces `LW`, `LN` written — the pieces the run finds. -/
noncomputable def runFirst (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : isFirst i) (hL : ¬isLast i)
    (x2 : Vec F S1x32x4096 .f32) (x3 : Vec F S1x32x512 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc1__mean_shift_step_kernel i arg2 harg2 arg3 harg3 arg4 harg4 arg5 harg5 arg6 harg6) K } := by
  refine ⟨?_, ?_, fun x4 E K => ?run⟩
  case run =>
    simp only [cc1__mean_shift_step_kernel_eq_skeleton]; unfold cc1__mean_shift_step_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.HandB.R1

end
-- ==== Proof.HandB.R1.RunMid.lean ====
/-
  Region 1, a MIDDLE tile of a batch entry: this tile's column weights and numerators are added into the
  accumulators, which hold what the tile before left. The output block is not touched.
-/
import proofs.«166501_j24086176596062_1_alg».proof.Proof.HandB.R1.Base

set_option maxRecDepth 16384

noncomputable section

namespace Cert.Kernel.HandB.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle tile, on whole memrefs: the input blocks at `x2`, `x3` and the output buffer, at any contents, are left as
    found; each accumulator, found at `s5`, `s6`, ends with the pieces `LW`, `LN` written — the pieces the run finds. -/
noncomputable def runMid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : ¬isLast i)
    (x2 : Vec F S1x32x4096 .f32) (x3 : Vec F S1x32x512 .f32) (s5 : Vec F S1x4096 .f32) (s6 : Vec F S32x4096 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc1__mean_shift_step_kernel i arg2 harg2 arg3 harg3 arg4 harg4 arg5 harg5 arg6 harg6) K } := by
  refine ⟨?_, ?_, fun x4 E K => ?run⟩
  case run =>
    simp only [cc1__mean_shift_step_kernel_eq_skeleton]; unfold cc1__mean_shift_step_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.HandB.R1

end
-- ==== Proof.HandB.R1.RunLast.lean ====
/-
  Region 1, a batch entry's LAST tile: this tile's column weights and numerators are added into the accumulators,
  and then the output block is stored: half the quotient of numerator by column weight plus half the input.
-/
import proofs.«166501_j24086176596062_1_alg».proof.Proof.HandB.R1.Base

set_option maxRecDepth 16384

noncomputable section

namespace Cert.Kernel.HandB.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a last tile, on whole memrefs: the input blocks at `x2`, `x3` are left as found; each accumulator,
    found at `s5`, `s6`, ends with the pieces `LW`, `LN` written and the output buffer, whatever it held, with `LO`. -/
noncomputable def runLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : isLast i)
    (x2 : Vec F S1x32x4096 .f32) (x3 : Vec F S1x32x512 .f32) (s5 : Vec F S1x4096 .f32) (s6 : Vec F S32x4096 .f32) :
    Σ' (LO : List (View.Piece (Elt F) S1x32x4096 .f32)) (LW : List (View.Piece (Elt F) S1x4096 .f32)), { LN : List (View.Piece (Elt F) S32x4096 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc1__mean_shift_step_kernel i arg2 harg2 arg3 harg3 arg4 harg4 arg5 harg5 arg6 harg6) K } := by
  refine ⟨?_, ?_, ?_, fun E K => ?run⟩
  case run =>
    simp only [cc1__mean_shift_step_kernel_eq_skeleton]; unfold cc1__mean_shift_step_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.Kernel.HandB.R1

end
-- ==== Proof.HandB.R1.Body.lean ====
/-
  Region 1: what the two accumulators and the output block hold after each grid point, the region's invariant
  between points, its proof data, and the body obligation.

  Within a batch entry the column-weight accumulator after tile `j` holds the sum of the affinities of the first
  `j + 1` tiles' pixels to each column, and the numerator accumulator the matching sums weighted by the features;
  a batch entry's first tile restarts both from zero. The output block is stored at the entry's last tile from the
  accumulators as that tile leaves them. Here these contents are named through the pieces each case's run found;
  their closed forms are read off elsewhere.
-/
import proofs.«166501_j24086176596062_1_alg».proof.Proof.HandB.R1.RunFirst
import proofs.«166501_j24086176596062_1_alg».proof.Proof.HandB.R1.RunMid
import proofs.«166501_j24086176596062_1_alg».proof.Proof.HandB.R1.RunLast

set_option maxRecDepth 16384

noncomputable section

namespace Cert.Kernel.HandB.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases' pieces cover the buffers they are stored into -/

theorem coverW_first (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S1x4096.Idx) :
    ∃ pc ∈ (runFirst c i arg2 harg2 arg3 harg3 arg4 harg4 arg5 harg5 arg6 harg6 hF hL x2 x3).1, y ∈ pc.1.set :=
  View.cover_of_tiledL (runFirst c i arg2 harg2 arg3 harg3 arg4 harg4 arg5 harg5 arg6 harg6 hF hL x2 x3).1 S1x4096.size (by sl_kernel_rfl) y
theorem coverN_first (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S32x4096.Idx) :
    ∃ pc ∈ (runFirst c i arg2 harg2 arg3 harg3 arg4 harg4 arg5 harg5 arg6 harg6 hF hL x2 x3).2.1, y ∈ pc.1.set :=
  View.cover_of_tiledL (runFirst c i arg2 harg2 arg3 harg3 arg4 harg4 arg5 harg5 arg6 harg6 hF hL x2 x3).2.1 S32x4096.size (by sl_kernel_rfl) y
theorem coverW_mid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S1x4096.Idx) :
    ∃ pc ∈ (runMid c i arg2 harg2 arg3 harg3 arg4 harg4 arg5 harg5 arg6 harg6 hF hL x2 x3 s5 s6).1, y ∈ pc.1.set :=
  View.cover_of_tiledL (runMid c i arg2 harg2 arg3 harg3 arg4 harg4 arg5 harg5 arg6 harg6 hF hL x2 x3 s5 s6).1 S1x4096.size (by sl_kernel_rfl) y
theorem coverN_mid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S32x4096.Idx) :
    ∃ pc ∈ (runMid c i arg2 harg2 arg3 harg3 arg4 harg4 arg5 harg5 arg6 harg6 hF hL x2 x3 s5 s6).2.1, y ∈ pc.1.set :=
  View.cover_of_tiledL (runMid c i arg2 harg2 arg3 harg3 arg4 harg4 arg5 harg5 arg6 harg6 hF hL x2 x3 s5 s6).2.1 S32x4096.size (by sl_kernel_rfl) y
theorem coverO_last (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x32x4096.Idx) :
    ∃ pc ∈ (runLast c i arg2 harg2 arg3 harg3 arg4 harg4 arg5 harg5 arg6 harg6 hF hL x2 x3 s5 s6).1, y ∈ pc.1.set :=
  View.cover_of_tiledL (runLast c i arg2 harg2 arg3 harg3 arg4 harg4 arg5 harg5 arg6 harg6 hF hL x2 x3 s5 s6).1 S1x32x4096.size (by sl_kernel_rfl) y
theorem coverW_last (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x4096.Idx) :
    ∃ pc ∈ (runLast c i arg2 harg2 arg3 harg3 arg4 harg4 arg5 harg5 arg6 harg6 hF hL x2 x3 s5 s6).2.1, y ∈ pc.1.set :=
  View.cover_of_tiledL (runLast c i arg2 harg2 arg3 harg3 arg4 harg4 arg5 harg5 arg6 harg6 hF hL x2 x3 s5 s6).2.1 S1x4096.size (by sl_kernel_rfl) y
theorem coverN_last (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S32x4096.Idx) :
    ∃ pc ∈ (runLast c i arg2 harg2 arg3 harg3 arg4 harg4 arg5 harg5 arg6 harg6 hF hL x2 x3 s5 s6).2.2.1, y ∈ pc.1.set :=
  View.cover_of_tiledL (runLast c i arg2 harg2 arg3 harg3 arg4 harg4 arg5 harg5 arg6 harg6 hF hL x2 x3 s5 s6).2.2.1 S32x4096.size (by sl_kernel_rfl) y

/-! ## What each case leaves: its pieces read back -/

def wFirst (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S1x4096 .f32 :=
  vW.read (Elt F) (vW.writes (Elt F) vW.junk (runFirst c i arg2 harg2 arg3 harg3 arg4 harg4 arg5 harg5 arg6 harg6 hF hL x2 x3).1)
def nFirst (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S32x4096 .f32 :=
  vN.read (Elt F) (vN.writes (Elt F) vN.junk (runFirst c i arg2 harg2 arg3 harg3 arg4 harg4 arg5 harg5 arg6 harg6 hF hL x2 x3).2.1)
def wMid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runMid c i arg2 harg2 arg3 harg3 arg4 harg4 arg5 harg5 arg6 harg6 hF hL x2 x3 s5 s6).1)
def nMid (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runMid c i arg2 harg2 arg3 harg3 arg4 harg4 arg5 harg5 arg6 harg6 hF hL x2 x3 s5 s6).2.1)
def oLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x32x4096 .f32 :=
  vOut.read (Elt F) (vOut.writes (Elt F) vOut.junk (runLast c i arg2 harg2 arg3 harg3 arg4 harg4 arg5 harg5 arg6 harg6 hF hL x2 x3 s5 s6).1)
def wLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runLast c i arg2 harg2 arg3 harg3 arg4 harg4 arg5 harg5 arg6 harg6 hF hL x2 x3 s5 s6).2.1)
def nLast (c : Dev nD) (i : grid1.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runLast c i arg2 harg2 arg3 harg3 arg4 harg4 arg5 harg5 arg6 harg6 hF hL x2 x3 s5 s6).2.2.1)

/-! ## The tile number of a point decides its case -/

theorem isFirst_of (t : Fin cfg1.N) (h0 : t.val % 8 = 0) : isFirst (grid1.coords t) := (first_iff t).mpr h0
theorem notFirst_of (t : Fin cfg1.N) (h0 : ¬t.val % 8 = 0) : ¬isFirst (grid1.coords t) := fun h => h0 ((first_iff t).mp h)
theorem isLast_of (t : Fin cfg1.N) (h7 : t.val % 8 = 7) : isLast (grid1.coords t) := (last_iff t).mpr h7
theorem notLast_of (t : Fin cfg1.N) (h7 : ¬t.val % 8 = 7) : ¬isLast (grid1.coords t) := fun h => h7 ((last_iff t).mp h)
theorem notLast_of_first (t : Fin cfg1.N) (h0 : t.val % 8 = 0) : ¬isLast (grid1.coords t) :=
  notLast_of t (by omega)
theorem prevLt (t : Fin cfg1.N) : t.val - 1 < cfg1.N := Nat.lt_of_le_of_lt (Nat.sub_le _ _) t.isLt

variable (V : (c : Dev nD) → (b : Ref sig .tc) → Buf (Elt F) ((c : Thread nD τ).loc b))

/-! ## The cases at a grid point, on the point's memrefs and input blocks -/

def wFirstAt (c : Dev nD) (t : Fin cfg1.N) (h0 : t.val % 8 = 0) : Vec F S1x4096 .f32 :=
  wFirst c (grid1.coords t) (ms0 t) (hs0 t) (ms1 t) (hs1 t) (ms2 t) (hs2 t) scW (Memref.isWhole_whole _) scN (Memref.isWhole_whole _) (isFirst_of t h0) (notLast_of_first t h0) (blk V c 0 t) (blk V c 1 t)
def nFirstAt (c : Dev nD) (t : Fin cfg1.N) (h0 : t.val % 8 = 0) : Vec F S32x4096 .f32 :=
  nFirst c (grid1.coords t) (ms0 t) (hs0 t) (ms1 t) (hs1 t) (ms2 t) (hs2 t) scW (Memref.isWhole_whole _) scN (Memref.isWhole_whole _) (isFirst_of t h0) (notLast_of_first t h0) (blk V c 0 t) (blk V c 1 t)
def wMidAt (c : Dev nD) (t : Fin cfg1.N) (h0 : ¬t.val % 8 = 0) (h7 : ¬t.val % 8 = 7) (s5 : Vec F S1x4096 .f32) (s6 : Vec F S32x4096 .f32) : Vec F S1x4096 .f32 :=
  wMid c (grid1.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def nMidAt (c : Dev nD) (t : Fin cfg1.N) (h0 : ¬t.val % 8 = 0) (h7 : ¬t.val % 8 = 7) (s5 : Vec F S1x4096 .f32) (s6 : Vec F S32x4096 .f32) : Vec F S32x4096 .f32 :=
  nMid c (grid1.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def oLastAt (c : Dev nD) (t : Fin cfg1.N) (h0 : ¬t.val % 8 = 0) (h7 : t.val % 8 = 7) (s5 : Vec F S1x4096 .f32) (s6 : Vec F S32x4096 .f32) : Vec F S1x32x4096 .f32 :=
  oLast c (grid1.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def wLastAt (c : Dev nD) (t : Fin cfg1.N) (h0 : ¬t.val % 8 = 0) (h7 : t.val % 8 = 7) (s5 : Vec F S1x4096 .f32) (s6 : Vec F S32x4096 .f32) : Vec F S1x4096 .f32 :=
  wLast c (grid1.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def nLastAt (c : Dev nD) (t : Fin cfg1.N) (h0 : ¬t.val % 8 = 0) (h7 : t.val % 8 = 7) (s5 : Vec F S1x4096 .f32) (s6 : Vec F S32x4096 .f32) : Vec F S32x4096 .f32 :=
  nLast c (grid1.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6

/-! ## The accumulators after each point -/

/-- The column-weight accumulator and the numerator accumulator after the body at position `n`: restarted at a batch
    entry's first tile, otherwise this tile's contribution added to what the point before left. -/
def accAt (c : Dev nD) : (n : ℕ) → n < cfg1.N → Vec F S1x4096 .f32 × Vec F S32x4096 .f32
  | 0, hn => (wFirstAt V c ⟨0, hn⟩ (Nat.zero_mod _), nFirstAt V c ⟨0, hn⟩ (Nat.zero_mod _))
  | n + 1, hn =>
    if h0 : (n + 1) % 8 = 0 then (wFirstAt V c ⟨n + 1, hn⟩ h0, nFirstAt V c ⟨n + 1, hn⟩ h0)
    else if h7 : (n + 1) % 8 = 7 then
      (wLastAt V c ⟨n + 1, hn⟩ h0 h7 (accAt c n (Nat.lt_of_succ_lt hn)).1 (accAt c n (Nat.lt_of_succ_lt hn)).2,
       nLastAt V c ⟨n + 1, hn⟩ h0 h7 (accAt c n (Nat.lt_of_succ_lt hn)).1 (accAt c n (Nat.lt_of_succ_lt hn)).2)
    else
      (wMidAt V c ⟨n + 1, hn⟩ h0 h7 (accAt c n (Nat.lt_of_succ_lt hn)).1 (accAt c n (Nat.lt_of_succ_lt hn)).2,
       nMidAt V c ⟨n + 1, hn⟩ h0 h7 (accAt c n (Nat.lt_of_succ_lt hn)).1 (accAt c n (Nat.lt_of_succ_lt hn)).2)

theorem accAt_first (c : Dev nD) (t : Fin cfg1.N) (h0 : t.val % 8 = 0) :
    accAt V c t.val t.isLt = (wFirstAt V c t h0, nFirstAt V c t h0) := by
  obtain ⟨n, hn⟩ := t
  cases n with
  | zero => exact rfl
  | succ n => exact (dif_pos h0).trans rfl
theorem accAt_mid (c : Dev nD) (t : Fin cfg1.N) (h0 : ¬t.val % 8 = 0) (h7 : ¬t.val % 8 = 7) :
    accAt V c t.val t.isLt = (wMidAt V c t h0 h7 (accAt V c (t.val - 1) (prevLt t)).1 (accAt V c (t.val - 1) (prevLt t)).2,
      nMidAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_neg h7).trans rfl)
theorem accAt_last (c : Dev nD) (t : Fin cfg1.N) (h0 : ¬t.val % 8 = 0) (h7 : t.val % 8 = 7) :
    accAt V c t.val t.isLt = (wLastAt V c t h0 h7 (accAt V c (t.val - 1) (prevLt t)).1 (accAt V c (t.val - 1) (prevLt t)).2,
      nLastAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_pos h7).trans rfl)

/-- What the output window's staging buffer holds after the body at point `t`: at a last tile the stored block, from
    the accumulators as the tile before left them; elsewhere nothing is stored and the value is not consulted. -/
def outAt (c : Dev nD) (t : Fin cfg1.N) : Vec F S1x32x4096 .f32 :=
  if h7 : t.val % 8 = 7 then
    oLastAt V c t (by omega) h7 (accAt V c (t.val - 1) (prevLt t)).1 (accAt V c (t.val - 1) (prevLt t)).2
  else vOut.read (Elt F) vOut.junk
theorem outAt_last (c : Dev nD) (t : Fin cfg1.N) (h0 : ¬t.val % 8 = 0) (h7 : t.val % 8 = 7) :
    outAt V c t = oLastAt V c t h0 h7 (accAt V c (t.val - 1) (prevLt t)).1 (accAt V c (t.val - 1) (prevLt t)).2 := by
  unfold outAt; exact dif_pos h7

/-! ## The invariant between points -/

/-- Before position `n`: at the region's entry every scoped buffer no window stages at anything; afterwards the two
    accumulators at what the point before left, the others at anything; the generator register at some state. -/
def PhiS (c : Dev nD) : (n : ℕ) → n ≤ cfg1.N → sProp 𝕄
  | 0, _ => Pipeline.ΦA spec1 c
  | n + 1, hn => iprop(iprop(owns (c : Thread nD τ) scW fullShare (accAt V c n hn).1 ∗ owns (c : Thread nD τ) scN fullShare (accAt V c n hn).2 ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scW fullShare (accAt V c n hn).1 ∗ owns (c : Thread nD τ) scN fullShare (accAt V c n hn).2 ∗ others c) ∗ (∃ r, prngReg c r)) := rfl
theorem PhiS_pos (c : Dev nD) (n : ℕ) (h : n ≤ cfg1.N) (hz : n ≠ 0) :
    PhiS V c n h = iprop(iprop(owns (c : Thread nD τ) scW fullShare (accAt V c (n - 1) (by omega)).1 ∗ owns (c : Thread nD τ) scN fullShare (accAt V c (n - 1) (by omega)).2 ∗ others c) ∗ (∃ r, prngReg c r)) := by
  cases n with
  | zero => exact absurd rfl hz
  | succ n => rfl

/-- Whatever the position, the invariant holds the two accumulators at some contents. -/
theorem PhiS_any (c : Dev nD) (n : ℕ) (h : n ≤ cfg1.N) :
    PhiS V c n h ⊢ iprop(iprop((∃ d, owns (c : Thread nD τ) scW fullShare d) ∗ (∃ d, owns (c : Thread nD τ) scN fullShare d) ∗ others c) ∗ (∃ r, prngReg c r)) := by
  by_cases hz : n = 0
  · rw [PhiS_zero V c n h hz, PhiA_eq]; try exact Idealize.SL.BI.Entails.refl _
  · rw [PhiS_pos V c n h hz]
    iintro ⟨⟨HW, HN, Ho⟩, Hg⟩
    isplitl [HW HN Ho]
    · isplitl [HW]; · iexists _; iexact HW
      isplitl [HN]; · iexists _; iexact HN
      iexact Ho
    iexact Hg

/-! ## The proof data -/

/-- Region 1's proof data on core `c`: the arrays as the region finds them; after the body each input's buffer at its
    block and the output's at `outAt`; the invariant `PhiS`; the shared input array held at its two halves, the output
    array outright; nothing owed. -/
def dat0 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outAt V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat0 V c).A w = V c (Pipeline.arrRef spec1 w) := by dsimp only [dat0]
theorem q_eq0 (c : Dev nD) : (dat0 V c).q 0 = fullShare.left := by dsimp only [dat0]
theorem q_eq1 (c : Dev nD) : (dat0 V c).q 1 = fullShare.right := by dsimp only [dat0]
theorem Phi_castSucc (c : Dev nD) (t : Fin cfg1.N) : (dat0 V c).Φ t.castSucc = PhiS V c t.val (Nat.le_of_lt t.isLt) := by
  dsimp only [dat0]; try simp only [Fin.coe_castSucc]
theorem after0 (c : Dev nD) (t : Fin cfg1.N) : (dat0 V c).after 0 t = blk V c 0 t := by dsimp only [dat0]
theorem after1 (c : Dev nD) (t : Fin cfg1.N) : (dat0 V c).after 1 t = blk V c 1 t := by dsimp only [dat0]
theorem after2 (c : Dev nD) (t : Fin cfg1.N) : (dat0 V c).after 2 t = outAt V c t := by dsimp only [dat0]
theorem before0 (c : Dev nD) (t : Fin cfg1.N) (d) : (dat0 V c).before 0 t d = blk V c 0 t :=
  before_in0 V (dat0 V c) (A_eq V c 0) (after0 V c) t d
theorem before1 (c : Dev nD) (t : Fin cfg1.N) (d) : (dat0 V c).before 1 t d = blk V c 1 t :=
  before_in1 V (dat0 V c) (A_eq V c 1) (after1 V c) t d

end Cert.Kernel.HandB.R1

end
-- ==== Proof.HandB.R1.Obl.lean ====
/-
  Region 1's body obligation. At a point the tile number says which case the body is in; the input windows'
  buffers hold their blocks; the invariant hands the body the two accumulators (at what the point before left, or
  at anything at the region's first point) and takes them back at this point's contents; off a last tile the
  output window's buffer is handed back as it was found.
-/
import proofs.«166501_j24086176596062_1_alg».proof.Proof.HandB.R1.Body

set_option maxRecDepth 16384

noncomputable section

namespace Cert.Kernel.HandB.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg1.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in0 t], after0]
  rw [show (dat0 V c).leavesExact 1 t = owns (c : Thread nD τ) (ms1 t) fullShare ((dat0 V c).after 1 t) from by
    unfold Dat.leavesExact; rw [live_in1 t], after1]
  rw [Phi_castSucc V c t]
  have hN : t.val < 32 := lt_of_lt_of_eq t.isLt (show cfg1.N = 32 from N_1)
  by_cases h0 : t.val % 8 = 0
  · -- a batch entry's first tile
    have hL := notLast_of_first t h0
    rw [Dat.leavesExact_idle (dat0 V c) 2 t (idle_out t hL) (noflush_out t hL)]
    rw [accAt_first V c t h0]
    unfold wFirstAt nFirstAt wFirst nFirst; (try dsimp only)
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HW, HN, Hoth⟩, Hg⟩
    iapply ((runFirst c (grid1.coords t) _ _ _ _ _ _ _ _ _ _ (isFirst_of t h0) hL (blk V c 0 t) (blk V c 1 t)).2.2 _ Set.univ _)
    isplitl [H0]; · iexact H0
    isplitl [H1]; · iexact H1
    isplitl [H2]; · iexact H2
    isplitl [HW]; · iexact HW
    isplitl [HN]; · iexact HN
    iintro ⟨H0, H1, H2, ⟨%eW, HW⟩, ⟨%eN, HN⟩⟩
    isplitl [HW HN Hoth Hg]
    · isplitl [HW HN Hoth]
      · isplitl [HW]
        · unfold owns; iexists _; isplitr
          swap; · iexact HW
          ipureintro; exact View.read_writes_of_cover _ _ _ _ _ (coverW_first c _ _ _ _ _ _ _ _ _ _ _ _ _ _ _)
        isplitl [HN]
        · unfold owns; iexists _; isplitr
          swap; · iexact HN
          ipureintro; exact View.read_writes_of_cover _ _ _ _ _ (coverN_first c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz]
    by_cases h7 : t.val % 8 = 7
    · -- a batch entry's last tile
      have hL := isLast_of t h7
      rw [show (dat0 V c).leavesExact 2 t = owns (c : Thread nD τ) (ms2 t) fullShare ((dat0 V c).after 2 t) from by
        unfold Dat.leavesExact; rw [live_out t hL], after2, outAt_last V c t h0 h7]
      rw [accAt_last V c t h0 h7]
      unfold oLastAt wLastAt nLastAt oLast wLast nLast; (try dsimp only)
      iintro ⟨⟨⟨HW, HN, Hoth⟩, Hg⟩, Ho, ⟨%d0, H0⟩, ⟨%d1, H1⟩, ⟨%d2, H2⟩⟩
      iapply ((runLast c (grid1.coords t) _ _ _ _ _ _ _ _ _ _ (notFirst_of t h0) hL (blk V c 0 t) (blk V c 1 t) _ _).2.2.2 Set.univ _)
      isplitl [H0]; · iexact H0
      isplitl [H1]; · iexact H1
      isplitl [H2]; · iexists _; iexact H2
      isplitl [HW]; · iexact HW
      isplitl [HN]; · iexact HN
      iintro ⟨H0, H1, ⟨%eO, H2⟩, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_last c _ _ _ _ _ _ _ _ _ _ _ _ _ _ _ _ _)
          isplitl [HN]
          · unfold owns; iexists _; isplitr
            swap; · iexact HN
            ipureintro; exact View.read_writes_of_cover _ _ _ _ _ (coverN_last c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hL := notLast_of t h7
      rw [Dat.leavesExact_idle (dat0 V c) 2 t (idle_out t hL) (noflush_out t hL)]
      rw [accAt_mid V c t h0 h7]
      unfold wMidAt nMidAt wMid nMid; (try dsimp only)
      iintro ⟨⟨⟨HW, HN, Hoth⟩, Hg⟩, Ho, ⟨%d0, H0⟩, ⟨%d1, H1⟩, ⟨%d2, H2⟩⟩
      iapply ((runMid c (grid1.coords t) _ _ _ _ _ _ _ _ _ _ (notFirst_of t h0) hL (blk V c 0 t) (blk V c 1 t) _ _).2.2 _ Set.univ _)
      isplitl [H0]; · iexact H0
      isplitl [H1]; · iexact H1
      isplitl [H2]; · iexact H2
      isplitl [HW]; · iexact HW
      isplitl [HN]; · iexact HN
      iintro ⟨H0, H1, H2, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_mid c _ _ _ _ _ _ _ _ _ _ _ _ _ _ _ _ _)
          isplitl [HN]
          · unfold owns; iexists _; isplitr
            swap; · iexact HN
            ipureintro; exact View.read_writes_of_cover _ _ _ _ _ (coverN_mid c _ _ _ _ _ _ _ _ _ _ _ _ _ _ _ _ _)
          iexact Hoth
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W1, bigSep_W1]
  exact sound_body V c t

/-- What the launch hands the region is the invariant before the first point. -/
theorem hin0 (c : Dev nD) : Pipeline.ΦA spec1 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's entry invariant back: the accumulators' contents are forgotten. -/
theorem hout0 (c : Dev nD) : (dat0 V c).Φ (Fin.last cfg1.N) ⊢ Pipeline.ΦA spec1 c := by
  rw [show (dat0 V c).Φ (Fin.last cfg1.N) = PhiS V c (Fin.last cfg1.N).val (Nat.le_of_lt_succ (Fin.last cfg1.N).isLt) from rfl, PhiA_eq]
  exact PhiS_any V c _ _

end Cert.Kernel.HandB.R1

end
-- ==== Proof.HandB.R2.Base.lean ====
/-
  Region 2 (the third mean-shift step), the part every control case shares.

  The grid is 4 batch entries × 8 tiles of the reduction axis, walked row-major: point `t` is batch `t / 8`,
  tile `t % 8`. The body has two branches on the tile number: at tile 0 it zeroes the two accumulators, at tile 7
  it divides and stores the output block. So a point is in one of three cases: the first tile of a batch entry
  (zero, then accumulate), a middle tile (accumulate), the last tile (accumulate, then divide and store). The
  output window is stored only at a last tile and written back only there; elsewhere it is idle.
-/
import proofs.«166501_j24086176596062_1_alg».proof.Proof.Gen.Kernel.Launch
import proofs.«166501_j24086176596062_1_alg».proof.Proof.Gen.Kernel.Skeleton
import proofs.«166501_j24086176596062_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HandB.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The tile number is 0: the accumulators are zeroed first. -/
abbrev isFirst (i : grid2.Coords) : Prop :=
  (Scalar.cmpi .ne (Scalar.extui (Scalar.cmpi .eq (BitVec.ofNat 32 (i 1).val) 0#32)) 0#32) = 1#1
/-- The tile number is 7: the output block is computed and stored. -/
abbrev isLast (i : grid2.Coords) : Prop := k2_cond2 i = 1#1

theorem first_iff : ∀ t : Fin cfg2.N, isFirst (grid2.coords t) ↔ t.val % 8 = 0 :=
  (by decide +kernel : ∀ t : Fin grid2.N, isFirst (grid2.coords t) ↔ t.val % 8 = 0)
theorem last_iff : ∀ t : Fin cfg2.N, isLast (grid2.coords t) ↔ t.val % 8 = 7 :=
  (by decide +kernel : ∀ t : Fin grid2.N, isLast (grid2.coords t) ↔ t.val % 8 = 7)

/-! ## Where the windows are idle -/

theorem live_in0 : ∀ t : Fin cfg2.N, cfg2.idle 0 (grid2.coords t) = false := by decide +kernel
theorem live_in1 : ∀ t : Fin cfg2.N, cfg2.idle 1 (grid2.coords t) = false := by decide +kernel
/-- Off a last tile the output window is idle and is not written back. -/
theorem idle_out : ∀ t : Fin cfg2.N, ¬isLast (grid2.coords t) → cfg2.idle 2 (grid2.coords t) = true := by decide +kernel
theorem noflush_out : ∀ t : Fin cfg2.N, ¬isLast (grid2.coords t) → (cfg2.win 2).flush t = false := by decide +kernel
/-- At a last tile it is live. -/
theorem live_out : ∀ t : Fin cfg2.N, isLast (grid2.coords t) → cfg2.idle 2 (grid2.coords t) = false := by decide +kernel

/-! ## The memrefs the body is called with -/

abbrev ms0 (t : Fin cfg2.N) : Memref sig .tc .vmem S1x32x4096 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x32x512 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x32x4096 .f32 := win2_2.stage (cfg2.slots t 2)
abbrev hs2 (t : Fin cfg2.N) : (ms2 t).IsWhole := hstage2_2 ((cfg2.slots t 2).cast nbuf2_2)
/-- The column-weight accumulator and the numerator accumulator: scratch buffers of the kernel's own. -/
abbrev scW : Memref sig .tc .vmem S1x4096 .f32 := Memref.whole cc2_scratch0
abbrev scN : Memref sig .tc .vmem S32x4096 .f32 := Memref.whole cc2_scratch1
/-- Views through which the contents of the output block and of the two accumulators are stated. -/
abbrev vOut : View sig .tc .vmem S1x32x4096 .f32 := (Memref.whole cc2_stg2_0 : Memref sig .tc .vmem S1x32x4096 .f32).view
abbrev vW : View sig .tc .vmem S1x4096 .f32 := scW.view
abbrev vN : View sig .tc .vmem S32x4096 .f32 := scN.view

/-- The scoped buffers no window stages, other than the two accumulators: the other regions' staging and scratch
    buffers, each whole at some contents. The body never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers no window of this region stages, the region's two accumulators first. -/
theorem scopedRest_own (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ others c) := by
  unfold others
  exact Pipeline.scopedRest_eq_of_list spec2 c [cc2_scratch0, cc2_scratch1, cc0_stg0_0, cc0_stg0_1, cc0_stg1_0, cc0_stg1_1, cc0_stg2_0, cc0_stg2_1, cc0_scratch0, cc0_scratch1, cc1_stg0_0, cc1_stg0_1, cc1_stg1_0, cc1_stg1_1, cc1_stg2_0, cc1_stg2_1, cc1_scratch0, cc1_scratch1] (by decide) (by decide)

/-- The region's invariant at entry and exit, with the two accumulators as memrefs owned at some contents. -/
theorem PhiA_eq (c : Dev nD) :
    (Pipeline.ΦA spec2 c : sProp 𝕄)
      = iprop(iprop((∃ d, owns (c : Thread nD τ) scW fullShare d) ∗ (∃ d, owns (c : Thread nD τ) scN fullShare d) ∗ others c) ∗ (∃ r, prngReg c r)) := by
  unfold Pipeline.ΦA; rw [scopedRest_own]; simp only [scW, scN, owns_whole]; try rfl

/-! ## The input windows' blocks -/

variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the body leaves
    it in place, and where it is not refetched the block index has not moved. -/
theorem before_in0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

end Cert.Kernel.HandB.R2

end
-- ==== Proof.HandB.R2.RunFirst.lean ====
/-
  Region 2, a batch entry's FIRST tile: the two accumulators are zeroed, then this tile's column weights and
  numerators are added into them. The output block is not touched.
-/
import proofs.«166501_j24086176596062_1_alg».proof.Proof.HandB.R2.Base

set_option maxRecDepth 16384

noncomputable section

namespace Cert.Kernel.HandB.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first tile, on whole memrefs: the input blocks at `x2`, `x3` and the output buffer, at any contents, are left as
    found; each accumulator, whatever it held, ends with the pieces `LW`, `LN` written — the pieces the run finds. -/
noncomputable def runFirst (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : isFirst i) (hL : ¬isLast i)
    (x2 : Vec F S1x32x4096 .f32) (x3 : Vec F S1x32x512 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc2__mean_shift_step_kernel i arg2 harg2 arg3 harg3 arg4 harg4 arg5 harg5 arg6 harg6) K } := by
  refine ⟨?_, ?_, fun x4 E K => ?run⟩
  case run =>
    simp only [cc2__mean_shift_step_kernel_eq_skeleton]; unfold cc2__mean_shift_step_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.HandB.R2

end
-- ==== Proof.HandB.R2.RunMid.lean ====
/-
  Region 2, a MIDDLE tile of a batch entry: this tile's column weights and numerators are added into the
  accumulators, which hold what the tile before left. The output block is not touched.
-/
import proofs.«166501_j24086176596062_1_alg».proof.Proof.HandB.R2.Base

set_option maxRecDepth 16384

noncomputable section

namespace Cert.Kernel.HandB.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle tile, on whole memrefs: the input blocks at `x2`, `x3` and the output buffer, at any contents, are left as
    found; each accumulator, found at `s5`, `s6`, ends with the pieces `LW`, `LN` written — the pieces the run finds. -/
noncomputable def runMid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : ¬isLast i)
    (x2 : Vec F S1x32x4096 .f32) (x3 : Vec F S1x32x512 .f32) (s5 : Vec F S1x4096 .f32) (s6 : Vec F S32x4096 .f32) :
    Σ' (LW : List (View.Piece (Elt F) S1x4096 .f32)), { LN : List (View.Piece (Elt F) S32x4096 .f32) //
      ∀ (x4 : Vec F S1x32x4096 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc2__mean_shift_step_kernel i arg2 harg2 arg3 harg3 arg4 harg4 arg5 harg5 arg6 harg6) K } := by
  refine ⟨?_, ?_, fun x4 E K => ?run⟩
  case run =>
    simp only [cc2__mean_shift_step_kernel_eq_skeleton]; unfold cc2__mean_shift_step_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.HandB.R2

end
-- ==== Proof.HandB.R2.RunLast.lean ====
/-
  Region 2, a batch entry's LAST tile: this tile's column weights and numerators are added into the accumulators,
  and then the output block is stored: half the quotient of numerator by column weight plus half the input.
-/
import proofs.«166501_j24086176596062_1_alg».proof.Proof.HandB.R2.Base

set_option maxRecDepth 16384

noncomputable section

namespace Cert.Kernel.HandB.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a last tile, on whole memrefs: the input blocks at `x2`, `x3` are left as found; each accumulator,
    found at `s5`, `s6`, ends with the pieces `LW`, `LN` written and the output buffer, whatever it held, with `LO`. -/
noncomputable def runLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole)
    (hF : ¬isFirst i) (hL : isLast i)
    (x2 : Vec F S1x32x4096 .f32) (x3 : Vec F S1x32x512 .f32) (s5 : Vec F S1x4096 .f32) (s6 : Vec F S32x4096 .f32) :
    Σ' (LO : List (View.Piece (Elt F) S1x32x4096 .f32)) (LW : List (View.Piece (Elt F) S1x4096 .f32)), { LN : List (View.Piece (Elt F) S32x4096 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LN)) -∗ K ⟨⟩))
          ⊢ wp frame (wpE (defs₀ (F := F)) Variants.none c none) E (cc2__mean_shift_step_kernel i arg2 harg2 arg3 harg3 arg4 harg4 arg5 harg5 arg6 harg6) K } := by
  refine ⟨?_, ?_, ?_, fun E K => ?run⟩
  case run =>
    simp only [cc2__mean_shift_step_kernel_eq_skeleton]; unfold cc2__mean_shift_step_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.Kernel.HandB.R2

end
-- ==== Proof.HandB.R2.Body.lean ====
/-
  Region 2: what the two accumulators and the output block hold after each grid point, the region's invariant
  between points, its proof data, and the body obligation.

  Within a batch entry the column-weight accumulator after tile `j` holds the sum of the affinities of the first
  `j + 1` tiles' pixels to each column, and the numerator accumulator the matching sums weighted by the features;
  a batch entry's first tile restarts both from zero. The output block is stored at the entry's last tile from the
  accumulators as that tile leaves them. Here these contents are named through the pieces each case's run found;
  their closed forms are read off elsewhere.
-/
import proofs.«166501_j24086176596062_1_alg».proof.Proof.HandB.R2.RunFirst
import proofs.«166501_j24086176596062_1_alg».proof.Proof.HandB.R2.RunMid
import proofs.«166501_j24086176596062_1_alg».proof.Proof.HandB.R2.RunLast

set_option maxRecDepth 16384

noncomputable section

namespace Cert.Kernel.HandB.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases' pieces cover the buffers they are stored into -/

theorem coverW_first (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S1x4096.Idx) :
    ∃ pc ∈ (runFirst c i arg2 harg2 arg3 harg3 arg4 harg4 arg5 harg5 arg6 harg6 hF hL x2 x3).1, y ∈ pc.1.set :=
  View.cover_of_tiledL (runFirst c i arg2 harg2 arg3 harg3 arg4 harg4 arg5 harg5 arg6 harg6 hF hL x2 x3).1 S1x4096.size (by sl_kernel_rfl) y
theorem coverN_first (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) (y : S32x4096.Idx) :
    ∃ pc ∈ (runFirst c i arg2 harg2 arg3 harg3 arg4 harg4 arg5 harg5 arg6 harg6 hF hL x2 x3).2.1, y ∈ pc.1.set :=
  View.cover_of_tiledL (runFirst c i arg2 harg2 arg3 harg3 arg4 harg4 arg5 harg5 arg6 harg6 hF hL x2 x3).2.1 S32x4096.size (by sl_kernel_rfl) y
theorem coverW_mid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S1x4096.Idx) :
    ∃ pc ∈ (runMid c i arg2 harg2 arg3 harg3 arg4 harg4 arg5 harg5 arg6 harg6 hF hL x2 x3 s5 s6).1, y ∈ pc.1.set :=
  View.cover_of_tiledL (runMid c i arg2 harg2 arg3 harg3 arg4 harg4 arg5 harg5 arg6 harg6 hF hL x2 x3 s5 s6).1 S1x4096.size (by sl_kernel_rfl) y
theorem coverN_mid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) (y : S32x4096.Idx) :
    ∃ pc ∈ (runMid c i arg2 harg2 arg3 harg3 arg4 harg4 arg5 harg5 arg6 harg6 hF hL x2 x3 s5 s6).2.1, y ∈ pc.1.set :=
  View.cover_of_tiledL (runMid c i arg2 harg2 arg3 harg3 arg4 harg4 arg5 harg5 arg6 harg6 hF hL x2 x3 s5 s6).2.1 S32x4096.size (by sl_kernel_rfl) y
theorem coverO_last (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x32x4096.Idx) :
    ∃ pc ∈ (runLast c i arg2 harg2 arg3 harg3 arg4 harg4 arg5 harg5 arg6 harg6 hF hL x2 x3 s5 s6).1, y ∈ pc.1.set :=
  View.cover_of_tiledL (runLast c i arg2 harg2 arg3 harg3 arg4 harg4 arg5 harg5 arg6 harg6 hF hL x2 x3 s5 s6).1 S1x32x4096.size (by sl_kernel_rfl) y
theorem coverW_last (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S1x4096.Idx) :
    ∃ pc ∈ (runLast c i arg2 harg2 arg3 harg3 arg4 harg4 arg5 harg5 arg6 harg6 hF hL x2 x3 s5 s6).2.1, y ∈ pc.1.set :=
  View.cover_of_tiledL (runLast c i arg2 harg2 arg3 harg3 arg4 harg4 arg5 harg5 arg6 harg6 hF hL x2 x3 s5 s6).2.1 S1x4096.size (by sl_kernel_rfl) y
theorem coverN_last (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) (y : S32x4096.Idx) :
    ∃ pc ∈ (runLast c i arg2 harg2 arg3 harg3 arg4 harg4 arg5 harg5 arg6 harg6 hF hL x2 x3 s5 s6).2.2.1, y ∈ pc.1.set :=
  View.cover_of_tiledL (runLast c i arg2 harg2 arg3 harg3 arg4 harg4 arg5 harg5 arg6 harg6 hF hL x2 x3 s5 s6).2.2.1 S32x4096.size (by sl_kernel_rfl) y

/-! ## What each case leaves: its pieces read back -/

def wFirst (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S1x4096 .f32 :=
  vW.read (Elt F) (vW.writes (Elt F) vW.junk (runFirst c i arg2 harg2 arg3 harg3 arg4 harg4 arg5 harg5 arg6 harg6 hF hL x2 x3).1)
def nFirst (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : isFirst i) (hL : ¬isLast i)
    (x2 : Vec F S1x32x4096 .f32) (x3 : Vec F S1x32x512 .f32) : Vec F S32x4096 .f32 :=
  vN.read (Elt F) (vN.writes (Elt F) vN.junk (runFirst c i arg2 harg2 arg3 harg3 arg4 harg4 arg5 harg5 arg6 harg6 hF hL x2 x3).2.1)
def wMid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runMid c i arg2 harg2 arg3 harg3 arg4 harg4 arg5 harg5 arg6 harg6 hF hL x2 x3 s5 s6).1)
def nMid (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : ¬isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runMid c i arg2 harg2 arg3 harg3 arg4 harg4 arg5 harg5 arg6 harg6 hF hL x2 x3 s5 s6).2.1)
def oLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x32x4096 .f32 :=
  vOut.read (Elt F) (vOut.writes (Elt F) vOut.junk (runLast c i arg2 harg2 arg3 harg3 arg4 harg4 arg5 harg5 arg6 harg6 hF hL x2 x3 s5 s6).1)
def wLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S1x4096 .f32 :=
  vW.read (Elt F) (vW.writes (Elt F) vW.junk (runLast c i arg2 harg2 arg3 harg3 arg4 harg4 arg5 harg5 arg6 harg6 hF hL x2 x3 s5 s6).2.1)
def nLast (c : Dev nD) (i : grid2.Coords) (arg2 : Memref sig .tc .vmem S1x32x4096 .f32) (harg2 : arg2.IsWhole) (arg3 : Memref sig .tc .vmem S1x32x512 .f32) (harg3 : arg3.IsWhole) (arg4 : Memref sig .tc .vmem S1x32x4096 .f32) (harg4 : arg4.IsWhole) (arg5 : Memref sig .tc .vmem S1x4096 .f32) (harg5 : arg5.IsWhole) (arg6 : Memref sig .tc .vmem S32x4096 .f32) (harg6 : arg6.IsWhole) (hF : ¬isFirst i) (hL : isLast i)
    (x2 : Vec F S1x32x4096 .f32) (x3 : Vec F S1x32x512 .f32) (s5 : Vec F S1x4096 .f32) (s6 : Vec F S32x4096 .f32) : Vec F S32x4096 .f32 :=
  vN.read (Elt F) (vN.writes (Elt F) vN.junk (runLast c i arg2 harg2 arg3 harg3 arg4 harg4 arg5 harg5 arg6 harg6 hF hL x2 x3 s5 s6).2.2.1)

/-! ## The tile number of a point decides its case -/

theorem isFirst_of (t : Fin cfg2.N) (h0 : t.val % 8 = 0) : isFirst (grid2.coords t) := (first_iff t).mpr h0
theorem notFirst_of (t : Fin cfg2.N) (h0 : ¬t.val % 8 = 0) : ¬isFirst (grid2.coords t) := fun h => h0 ((first_iff t).mp h)
theorem isLast_of (t : Fin cfg2.N) (h7 : t.val % 8 = 7) : isLast (grid2.coords t) := (last_iff t).mpr h7
theorem notLast_of (t : Fin cfg2.N) (h7 : ¬t.val % 8 = 7) : ¬isLast (grid2.coords t) := fun h => h7 ((last_iff t).mp h)
theorem notLast_of_first (t : Fin cfg2.N) (h0 : t.val % 8 = 0) : ¬isLast (grid2.coords t) :=
  notLast_of t (by omega)
theorem prevLt (t : Fin cfg2.N) : t.val - 1 < cfg2.N := Nat.lt_of_le_of_lt (Nat.sub_le _ _) t.isLt

variable (V : (c : Dev nD) → (b : Ref sig .tc) → Buf (Elt F) ((c : Thread nD τ).loc b))

/-! ## The cases at a grid point, on the point's memrefs and input blocks -/

def wFirstAt (c : Dev nD) (t : Fin cfg2.N) (h0 : t.val % 8 = 0) : Vec F S1x4096 .f32 :=
  wFirst c (grid2.coords t) (ms0 t) (hs0 t) (ms1 t) (hs1 t) (ms2 t) (hs2 t) scW (Memref.isWhole_whole _) scN (Memref.isWhole_whole _) (isFirst_of t h0) (notLast_of_first t h0) (blk V c 0 t) (blk V c 1 t)
def nFirstAt (c : Dev nD) (t : Fin cfg2.N) (h0 : t.val % 8 = 0) : Vec F S32x4096 .f32 :=
  nFirst c (grid2.coords t) (ms0 t) (hs0 t) (ms1 t) (hs1 t) (ms2 t) (hs2 t) scW (Memref.isWhole_whole _) scN (Memref.isWhole_whole _) (isFirst_of t h0) (notLast_of_first t h0) (blk V c 0 t) (blk V c 1 t)
def wMidAt (c : Dev nD) (t : Fin cfg2.N) (h0 : ¬t.val % 8 = 0) (h7 : ¬t.val % 8 = 7) (s5 : Vec F S1x4096 .f32) (s6 : Vec F S32x4096 .f32) : Vec F S1x4096 .f32 :=
  wMid c (grid2.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def nMidAt (c : Dev nD) (t : Fin cfg2.N) (h0 : ¬t.val % 8 = 0) (h7 : ¬t.val % 8 = 7) (s5 : Vec F S1x4096 .f32) (s6 : Vec F S32x4096 .f32) : Vec F S32x4096 .f32 :=
  nMid c (grid2.coords t) (ms0 t) (hs0 t) (ms1 t) (hs1 t) (ms2 t) (hs2 t) scW (Memref.isWhole_whole _) scN (Memref.isWhole_whole _) (notFirst_of t h0) (notLast_of t h7) (blk V c 0 t) (blk V c 1 t) s5 s6
def oLastAt (c : Dev nD) (t : Fin cfg2.N) (h0 : ¬t.val % 8 = 0) (h7 : t.val % 8 = 7) (s5 : Vec F S1x4096 .f32) (s6 : Vec F S32x4096 .f32) : Vec F S1x32x4096 .f32 :=
  oLast c (grid2.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def wLastAt (c : Dev nD) (t : Fin cfg2.N) (h0 : ¬t.val % 8 = 0) (h7 : t.val % 8 = 7) (s5 : Vec F S1x4096 .f32) (s6 : Vec F S32x4096 .f32) : Vec F S1x4096 .f32 :=
  wLast c (grid2.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6
def nLastAt (c : Dev nD) (t : Fin cfg2.N) (h0 : ¬t.val % 8 = 0) (h7 : t.val % 8 = 7) (s5 : Vec F S1x4096 .f32) (s6 : Vec F S32x4096 .f32) : Vec F S32x4096 .f32 :=
  nLast c (grid2.coords t) (ms0 t) (hs0 t) (ms1 t) (hs1 t) (ms2 t) (hs2 t) scW (Memref.isWhole_whole _) scN (Memref.isWhole_whole _) (notFirst_of t h0) (isLast_of t h7) (blk V c 0 t) (blk V c 1 t) s5 s6

/-! ## The accumulators after each point -/

/-- The column-weight accumulator and the numerator accumulator after the body at position `n`: restarted at a batch
    entry's first tile, otherwise this tile's contribution added to what the point before left. -/
def accAt (c : Dev nD) : (n : ℕ) → n < cfg2.N → Vec F S1x4096 .f32 × Vec F S32x4096 .f32
  | 0, hn => (wFirstAt V c ⟨0, hn⟩ (Nat.zero_mod _), nFirstAt V c ⟨0, hn⟩ (Nat.zero_mod _))
  | n + 1, hn =>
    if h0 : (n + 1) % 8 = 0 then (wFirstAt V c ⟨n + 1, hn⟩ h0, nFirstAt V c ⟨n + 1, hn⟩ h0)
    else if h7 : (n + 1) % 8 = 7 then
      (wLastAt V c ⟨n + 1, hn⟩ h0 h7 (accAt c n (Nat.lt_of_succ_lt hn)).1 (accAt c n (Nat.lt_of_succ_lt hn)).2,
       nLastAt V c ⟨n + 1, hn⟩ h0 h7 (accAt c n (Nat.lt_of_succ_lt hn)).1 (accAt c n (Nat.lt_of_succ_lt hn)).2)
    else
      (wMidAt V c ⟨n + 1, hn⟩ h0 h7 (accAt c n (Nat.lt_of_succ_lt hn)).1 (accAt c n (Nat.lt_of_succ_lt hn)).2,
       nMidAt V c ⟨n + 1, hn⟩ h0 h7 (accAt c n (Nat.lt_of_succ_lt hn)).1 (accAt c n (Nat.lt_of_succ_lt hn)).2)

theorem accAt_first (c : Dev nD) (t : Fin cfg2.N) (h0 : t.val % 8 = 0) :
    accAt V c t.val t.isLt = (wFirstAt V c t h0, nFirstAt V c t h0) := by
  obtain ⟨n, hn⟩ := t
  cases n with
  | zero => exact rfl
  | succ n => exact (dif_pos h0).trans rfl
theorem accAt_mid (c : Dev nD) (t : Fin cfg2.N) (h0 : ¬t.val % 8 = 0) (h7 : ¬t.val % 8 = 7) :
    accAt V c t.val t.isLt = (wMidAt V c t h0 h7 (accAt V c (t.val - 1) (prevLt t)).1 (accAt V c (t.val - 1) (prevLt t)).2,
      nMidAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_neg h7).trans rfl)
theorem accAt_last (c : Dev nD) (t : Fin cfg2.N) (h0 : ¬t.val % 8 = 0) (h7 : t.val % 8 = 7) :
    accAt V c t.val t.isLt = (wLastAt V c t h0 h7 (accAt V c (t.val - 1) (prevLt t)).1 (accAt V c (t.val - 1) (prevLt t)).2,
      nLastAt V c t h0 h7 (accAt V c (t.val - 1) (prevLt t)).1 (accAt V c (t.val - 1) (prevLt t)).2) := by
  obtain ⟨n, hn⟩ := t
  cases n with
  | zero => exact absurd (Nat.zero_mod _) h0
  | succ n => exact (dif_neg h0).trans ((dif_pos h7).trans rfl)

/-- What the output window's staging buffer holds after the body at point `t`: at a last tile the stored block, from
    the accumulators as the tile before left them; elsewhere nothing is stored and the value is not consulted. -/
def outAt (c : Dev nD) (t : Fin cfg2.N) : Vec F S1x32x4096 .f32 :=
  if h7 : t.val % 8 = 7 then
    oLastAt V c t (by omega) h7 (accAt V c (t.val - 1) (prevLt t)).1 (accAt V c (t.val - 1) (prevLt t)).2
  else vOut.read (Elt F) vOut.junk
theorem outAt_last (c : Dev nD) (t : Fin cfg2.N) (h0 : ¬t.val % 8 = 0) (h7 : t.val % 8 = 7) :
    outAt V c t = oLastAt V c t h0 h7 (accAt V c (t.val - 1) (prevLt t)).1 (accAt V c (t.val - 1) (prevLt t)).2 := by
  unfold outAt; exact dif_pos h7

/-! ## The invariant between points -/

/-- Before position `n`: at the region's entry every scoped buffer no window stages at anything; afterwards the two
    accumulators at what the point before left, the others at anything; the generator register at some state. -/
def PhiS (c : Dev nD) : (n : ℕ) → n ≤ cfg2.N → sProp 𝕄
  | 0, _ => Pipeline.ΦA spec2 c
  | n + 1, hn => iprop(iprop(owns (c : Thread nD τ) scW fullShare (accAt V c n hn).1 ∗ owns (c : Thread nD τ) scN fullShare (accAt V c n hn).2 ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scW fullShare (accAt V c n hn).1 ∗ owns (c : Thread nD τ) scN fullShare (accAt V c n hn).2 ∗ others c) ∗ (∃ r, prngReg c r)) := rfl
theorem PhiS_pos (c : Dev nD) (n : ℕ) (h : n ≤ cfg2.N) (hz : n ≠ 0) :
    PhiS V c n h = iprop(iprop(owns (c : Thread nD τ) scW fullShare (accAt V c (n - 1) (by omega)).1 ∗ owns (c : Thread nD τ) scN fullShare (accAt V c (n - 1) (by omega)).2 ∗ others c) ∗ (∃ r, prngReg c r)) := by
  cases n with
  | zero => exact absurd rfl hz
  | succ n => rfl

/-- Whatever the position, the invariant holds the two accumulators at some contents. -/
theorem PhiS_any (c : Dev nD) (n : ℕ) (h : n ≤ cfg2.N) :
    PhiS V c n h ⊢ iprop(iprop((∃ d, owns (c : Thread nD τ) scW fullShare d) ∗ (∃ d, owns (c : Thread nD τ) scN fullShare d) ∗ others c) ∗ (∃ r, prngReg c r)) := by
  by_cases hz : n = 0
  · rw [PhiS_zero V c n h hz, PhiA_eq]; try exact Idealize.SL.BI.Entails.refl _
  · rw [PhiS_pos V c n h hz]
    iintro ⟨⟨HW, HN, Ho⟩, Hg⟩
    isplitl [HW HN Ho]
    · isplitl [HW]; · iexists _; iexact HW
      isplitl [HN]; · iexists _; iexact HN
      iexact Ho
    iexact Hg

/-! ## The proof data -/

/-- Region 2's proof data on core `c`: the arrays as the region finds them; after the body each input's buffer at its
    block and the output's at `outAt`; the invariant `PhiS`; the shared input array held at its two halves, the output
    array outright; nothing owed. -/
def dat0 (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outAt V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg2.W) : (dat0 V c).A w = V c (Pipeline.arrRef spec2 w) := by dsimp only [dat0]
theorem q_eq0 (c : Dev nD) : (dat0 V c).q 0 = fullShare.left := by dsimp only [dat0]
theorem q_eq1 (c : Dev nD) : (dat0 V c).q 1 = fullShare.right := by dsimp only [dat0]
theorem Phi_castSucc (c : Dev nD) (t : Fin cfg2.N) : (dat0 V c).Φ t.castSucc = PhiS V c t.val (Nat.le_of_lt t.isLt) := by
  dsimp only [dat0]; try simp only [Fin.coe_castSucc]
theorem after0 (c : Dev nD) (t : Fin cfg2.N) : (dat0 V c).after 0 t = blk V c 0 t := by dsimp only [dat0]
theorem after1 (c : Dev nD) (t : Fin cfg2.N) : (dat0 V c).after 1 t = blk V c 1 t := by dsimp only [dat0]
theorem after2 (c : Dev nD) (t : Fin cfg2.N) : (dat0 V c).after 2 t = outAt V c t := by dsimp only [dat0]
theorem before0 (c : Dev nD) (t : Fin cfg2.N) (d) : (dat0 V c).before 0 t d = blk V c 0 t :=
  before_in0 V (dat0 V c) (A_eq V c 0) (after0 V c) t d
theorem before1 (c : Dev nD) (t : Fin cfg2.N) (d) : (dat0 V c).before 1 t d = blk V c 1 t :=
  before_in1 V (dat0 V c) (A_eq V c 1) (after1 V c) t d

end Cert.Kernel.HandB.R2

end
-- ==== Proof.HandB.R2.Obl.lean ====
/-
  Region 2's body obligation. At a point the tile number says which case the body is in; the input windows'
  buffers hold their blocks; the invariant hands the body the two accumulators (at what the point before left, or
  at anything at the region's first point) and takes them back at this point's contents; off a last tile the
  output window's buffer is handed back as it was found.
-/
import proofs.«166501_j24086176596062_1_alg».proof.Proof.HandB.R2.Body

set_option maxRecDepth 16384

noncomputable section

namespace Cert.Kernel.HandB.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg2.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg2.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in0 t], after0]
  rw [show (dat0 V c).leavesExact 1 t = owns (c : Thread nD τ) (ms1 t) fullShare ((dat0 V c).after 1 t) from by
    unfold Dat.leavesExact; rw [live_in1 t], after1]
  rw [Phi_castSucc V c t]
  have hN : t.val < 32 := lt_of_lt_of_eq t.isLt (show cfg2.N = 32 from N_2)
  by_cases h0 : t.val % 8 = 0
  · -- a batch entry's first tile
    have hL := notLast_of_first t h0
    rw [Dat.leavesExact_idle (dat0 V c) 2 t (idle_out t hL) (noflush_out t hL)]
    rw [accAt_first V c t h0]
    unfold wFirstAt nFirstAt wFirst nFirst; (try dsimp only)
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HW, HN, Hoth⟩, Hg⟩
    iapply ((runFirst c (grid2.coords t) _ _ _ _ _ _ _ _ _ _ (isFirst_of t h0) hL (blk V c 0 t) (blk V c 1 t)).2.2 _ Set.univ _)
    isplitl [H0]; · iexact H0
    isplitl [H1]; · iexact H1
    isplitl [H2]; · iexact H2
    isplitl [HW]; · iexact HW
    isplitl [HN]; · iexact HN
    iintro ⟨H0, H1, H2, ⟨%eW, HW⟩, ⟨%eN, HN⟩⟩
    isplitl [HW HN Hoth Hg]
    · isplitl [HW HN Hoth]
      · isplitl [HW]
        · unfold owns; iexists _; isplitr
          swap; · iexact HW
          ipureintro; exact View.read_writes_of_cover _ _ _ _ _ (coverW_first c _ _ _ _ _ _ _ _ _ _ _ _ _ _ _)
        isplitl [HN]
        · unfold owns; iexists _; isplitr
          swap; · iexact HN
          ipureintro; exact View.read_writes_of_cover _ _ _ _ _ (coverN_first c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz]
    by_cases h7 : t.val % 8 = 7
    · -- a batch entry's last tile
      have hL := isLast_of t h7
      rw [show (dat0 V c).leavesExact 2 t = owns (c : Thread nD τ) (ms2 t) fullShare ((dat0 V c).after 2 t) from by
        unfold Dat.leavesExact; rw [live_out t hL], after2, outAt_last V c t h0 h7]
      rw [accAt_last V c t h0 h7]
      unfold oLastAt wLastAt nLastAt oLast wLast nLast; (try dsimp only)
      iintro ⟨⟨⟨HW, HN, Hoth⟩, Hg⟩, Ho, ⟨%d0, H0⟩, ⟨%d1, H1⟩, ⟨%d2, H2⟩⟩
      iapply ((runLast c (grid2.coords t) _ _ _ _ _ _ _ _ _ _ (notFirst_of t h0) hL (blk V c 0 t) (blk V c 1 t) _ _).2.2.2 Set.univ _)
      isplitl [H0]; · iexact H0
      isplitl [H1]; · iexact H1
      isplitl [H2]; · iexists _; iexact H2
      isplitl [HW]; · iexact HW
      isplitl [HN]; · iexact HN
      iintro ⟨H0, H1, ⟨%eO, H2⟩, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_last c _ _ _ _ _ _ _ _ _ _ _ _ _ _ _ _ _)
          isplitl [HN]
          · unfold owns; iexists _; isplitr
            swap; · iexact HN
            ipureintro; exact View.read_writes_of_cover _ _ _ _ _ (coverN_last c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hL := notLast_of t h7
      rw [Dat.leavesExact_idle (dat0 V c) 2 t (idle_out t hL) (noflush_out t hL)]
      rw [accAt_mid V c t h0 h7]
      unfold wMidAt nMidAt wMid nMid; (try dsimp only)
      iintro ⟨⟨⟨HW, HN, Hoth⟩, Hg⟩, Ho, ⟨%d0, H0⟩, ⟨%d1, H1⟩, ⟨%d2, H2⟩⟩
      iapply ((runMid c (grid2.coords t) _ _ _ _ _ _ _ _ _ _ (notFirst_of t h0) hL (blk V c 0 t) (blk V c 1 t) _ _).2.2 _ Set.univ _)
      isplitl [H0]; · iexact H0
      isplitl [H1]; · iexact H1
      isplitl [H2]; · iexact H2
      isplitl [HW]; · iexact HW
      isplitl [HN]; · iexact HN
      iintro ⟨H0, H1, H2, ⟨%eW, HW⟩, ⟨%eN, HN⟩⟩
      isplitl [HW HN Hoth Hg]
      · isplitl [HW HN Hoth]
        · isplitl [HW]
          · unfold owns; iexists _; isplitr
            swap; · iexact HW
            ipureintro; exact View.read_writes_of_cover _ _ _ _ _ (coverW_mid c _ _ _ _ _ _ _ _ _ _ _ _ _ _ _ _ _)
          isplitl [HN]
          · unfold owns; iexists _; isplitr
            swap; · iexact HN
            ipureintro; exact View.read_writes_of_cover _ _ _ _ _ (coverN_mid c _ _ _ _ _ _ _ _ _ _ _ _ _ _ _ _ _)
          iexact Hoth
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W2, bigSep_W2]
  exact sound_body V c t

/-- What the launch hands the region is the invariant before the first point. -/
theorem hin0 (c : Dev nD) : Pipeline.ΦA spec2 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's entry invariant back: the accumulators' contents are forgotten. -/
theorem hout0 (c : Dev nD) : (dat0 V c).Φ (Fin.last cfg2.N) ⊢ Pipeline.ΦA spec2 c := by
  rw [show (dat0 V c).Φ (Fin.last cfg2.N) = PhiS V c (Fin.last cfg2.N).val (Nat.le_of_lt_succ (Fin.last cfg2.N).isLt) from rfl, PhiA_eq]
  exact PhiS_any V c _ _

end Cert.Kernel.HandB.R2

end
-- ==== Proof.HandB.Shared0.lean ====
/- The glue of region 0 that does not depend on the kernel body, for a layout in which the two input windows read
   ONE array: the array's full points-to is dealt to the two windows as its two halves at the region's entry and
   joined again at its exit (an input window's array is never written), the output window's array is held whole. -/
import proofs.«166501_j24086176596062_1_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.Kernel.HandB

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
/-- what rides beside the buffers between two items of @main: the generator register at some state, nothing owed -/
abbrev Rst (c : Dev nD) : sProp 𝕄 := iprop((∃ r, prngReg c r) ∗ ∃ W, owes (c : Thread nD τ) (0 : CellTallies nD τ sig Unit) W)
/-- the two halves of the full share: what the two input windows on one array hold it at -/
abbrev qL : PosShare TreeShare := fullShare.left
abbrev qR : PosShare TreeShare := fullShare.right

/-- The distinct buffers behind region 0's three windows: the shared input array and the output array. -/
theorem bigSep_arr0 {M : Type} [URA M] (Φ : Ref sig .tc → sProp M) :
    bigSep (Finset.univ.image (Pipeline.arrRef spec0)) Φ = iprop(Φ main_v0 ∗ Φ main_v1) :=
  bigSep_eq_bigSepL_of_eq [main_v0, main_v1] (by decide) (by decide) Φ

/-- ENTRY for the shared layout: the buffers behind region 0's arrays, whole at V, are the proof data's arrays at
    point 0. The input array's full points-to is dealt to the two input windows as its two halves. -/
theorem arrays_of_arrBufs0 (c : Dev nD) (dat : Pipeline.Dat τ (Elt F) Unit ℕ (UR sig nD τ) ℕ cfg0 c)
    (V : (b : Ref sig .tc) → Buf (Elt F) ((c : Thread nD τ).loc b))
    (hA : ∀ w, dat.A w = V (Pipeline.arrRef spec0 w)) (hq0 : dat.q 0 = qL) (hq1 : dat.q 1 = qR) :
    (Pipeline.arrBufs (Ix := Unit) (Name := ℕ) (U := UR sig nD τ) (Lvl := ℕ) spec0 c V : sProp 𝕄) ⊢ dat.arrays (dat.arrAt · 0) := by
  unfold Pipeline.arrBufs Pipeline.Dat.arrays
  rw [bigSep_arr0, Gen.bigSep_W0]
  dsimp only
  have h0 : dat.arrAt 0 0 = V main_v0 := hA 0
  have h1 : dat.arrAt 1 0 = V main_v0 := hA 1
  have h2 : dat.arrAt 2 0 = V main_v1 := hA 2
  have hs0 : dat.share 0 = qL := by rw [← hq0]; rfl
  have hs1 : dat.share 1 = qR := by rw [← hq1]; rfl
  have hs2 : dat.share 2 = fullShare := rfl
  have hset0 : (View.whole main_v0).set = Finset.univ := (Gen.arr_whole0 0).set_eq_univ
  have hset1 : (View.whole main_v1).set = Finset.univ := (Gen.arr_whole0 2).set_eq_univ
  rw [h0, h1, h2, hs0, hs1, hs2, hset0, hset1]
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- Region 0's arrays at any contents, window by window: the shared input array at its two halves, the output array whole. -/
theorem arrays_eq0 (c : Dev nD) (dat : Pipeline.Dat τ (Elt F) Unit ℕ (UR sig nD τ) ℕ cfg0 c)
    (G : (w : Fin cfg0.W) → Buf (Elt F) ((cfg0.win w).arr.view.loc (c : Thread nD τ)))
    (hq0 : dat.q 0 = qL) (hq1 : dat.q 1 = qR) :
    (dat.arrays G : sProp 𝕄) = iprop((((c : Thread nD τ).loc main_v0) ↦{qL} G 0) ∗ (((c : Thread nD τ).loc main_v0) ↦{qR} G 1)
      ∗ (((c : Thread nD τ).loc main_v1) ↦{fullShare} G 2)) := by
  unfold Pipeline.Dat.arrays
  rw [Gen.bigSep_W0]
  dsimp only
  have hs0 : dat.share 0 = qL := by rw [← hq0]; rfl
  have hs1 : dat.share 1 = qR := by rw [← hq1]; rfl
  have hs2 : dat.share 2 = fullShare := rfl
  have hset0 : (View.whole main_v0).set = Finset.univ := (Gen.arr_whole0 0).set_eq_univ
  have hset1 : (View.whole main_v1).set = Finset.univ := (Gen.arr_whole0 2).set_eq_univ
  rw [hs0, hs1, hs2, hset0, hset1]

/-- EXIT for the shared layout: the arrays after the last point and the unscoped rest are the core's unscoped buffers
    at V updated at the output array. An input window's array is never written, so the two halves of the shared
    input array come back at the entry contents and join into its full points-to. -/
theorem unscopedBufs_of_arrays0 (c : Dev nD) (dat : Pipeline.Dat τ (Elt F) Unit ℕ (UR sig nD τ) ℕ cfg0 c)
    (V V' : (b : Ref sig .tc) → Buf (Elt F) ((c : Thread nD τ).loc b))
    (hA : ∀ w, dat.A w = V (Pipeline.arrRef spec0 w)) (hq0 : dat.q 0 = qL) (hq1 : dat.q 1 = qR)
    (hout : V' main_v1 = dat.arrAt 2 cfg0.N) (hrest : ∀ b, b ≠ main_v1 → V' b = V b) :
    iprop(dat.arrays (dat.arrAt · cfg0.N) ∗ Pipeline.unscopedRest (Ix := Unit) (Name := ℕ) (U := UR sig nD τ) (Lvl := ℕ) spec0 c V) ⊢ (unscopedBufs c V' : sProp 𝕄) := by
  have hu : (unscopedBufs c V' : sProp 𝕄) = iprop(Pipeline.arrBufs spec0 c V' ∗ Pipeline.unscopedRest spec0 c V') :=
    Pipeline.unscopedBufs_split₀ cfgs (0 : Fin 3) Gen.winFacts₀0.arr_unscoped c V'
  have hr : (Pipeline.unscopedRest spec0 c V' : sProp 𝕄) = Pipeline.unscopedRest spec0 c V := by
    unfold Pipeline.unscopedRest
    exact bigSep_congr fun b hb => by
      rw [hrest b fun e => (Finset.mem_sdiff.mp hb).2 (e ▸ Finset.mem_image.mpr ⟨2, Finset.mem_univ _, rfl⟩)]
  have h0 : dat.arrAt 0 cfg0.N = V' main_v0 := ((dat.arrAt_in 0 rfl cfg0.N).trans (hA 0)).trans (hrest main_v0 (by decide)).symm
  have h1 : dat.arrAt 1 cfg0.N = V' main_v0 := ((dat.arrAt_in 1 rfl cfg0.N).trans (hA 1)).trans (hrest main_v0 (by decide)).symm
  rw [hu, hr, arrays_eq0 c dat _ hq0 hq1]
  unfold Pipeline.arrBufs
  rw [bigSep_arr0]
  beta_reduce
  rw [h0, h1, ← hout]
  iintro ⟨⟨Ha, Hb, Hc⟩, Hrest⟩
  isplitr [Hrest]
  · isplitl [Ha Hb]
    · iapply (pointsTo_share (PosShare.mem_left_op_right fullShare)).2
      isplitl [Ha] <;> iassumption
    · iexact Hc
  · iexact Hrest

/-- With no prefetched table the region holds none. -/
theorem prefHeld_none0 (c : Dev nD) (q : Fin (pcfgs (F := F) 0).pre.K → PosShare TreeShare) :
    (Pipeline.prefHeld (Ix := Unit) (Name := ℕ) (U := UR sig nD τ) (Lvl := ℕ) (pcfgs (F := F) 0).pre c q (Gen.adm (F := F) 0).1 : sProp 𝕄) = BI.emp := by
  unfold Pipeline.prefHeld
  rw [Finset.univ_eq_empty, BI.bigSep_empty]

/-- A core owing nothing, whatever pairs its waits recorded, is within a point's bound when that bound excludes no pair. -/
theorem owesAt_of_zero {cfg : Pipeline.Cfg sig Λ₀} (c : Dev nD) (dat : Pipeline.Dat τ (Elt F) Unit ℕ (UR sig nD τ) ℕ cfg c)
    (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, H⟩
  iexists W
  isplitr
  · ipureintro
    intro x _
    exact Or.inl (hr ▸ Set.mem_univ x)
  · iexact H

/-- At a point where the proof data owe nothing, the core owes nothing. -/
theorem zero_of_owesAt {cfg : Pipeline.Cfg sig Λ₀} (c : Dev nD) (dat : Pipeline.Dat τ (Elt F) Unit ℕ (UR sig nD τ) ℕ cfg c)
    (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

set_option backward.isDefEq.respectTransparency.types false in
/-- REGION 0's record from any proof data of the right shape (Vin: every unscoped buffer at the region's entry;
    Vout: at its exit, which differs from Vin at the output array only). -/
def reg0_of (pdats : (p : Fin 3) → (c : Dev nD) → Pipeline.Dat τ (Elt F) Unit ℕ (UR sig nD τ) ℕ (cfgs p) c)
    (Vin Vout : Dev nD → Valuation τ sig (Elt F))
    (hA : ∀ c w, (pdats 0 c).A w = Vin c (Proc.devRef .tc (Pipeline.arrRef spec0 w)))
    (hq0 : ∀ c, (pdats 0 c).q 0 = qL) (hq1 : ∀ c, (pdats 0 c).q 1 = qR)
    (howed : ∀ c t, (pdats 0 c).owed t = 0)
    (hrec : ∀ c, (pdats 0 c).recorded 0 = Set.univ)
    (hbody : ∀ c, Pipeline.BodyObligationLoose (pdats 0 c) (defs₀ (F := F)) 𝒱₀ () Set.univ)
    (hin : ∀ c, Pipeline.ΦA spec0 c ⊢ (pdats 0 c).Φ 0)
    (hout : ∀ c, (pdats 0 c).Φ (Fin.last cfg0.N) ⊢ Pipeline.ΦA spec0 c)
    (hVout : ∀ c, Vout c = Function.update (Vin c) (Proc.devRef .tc main_v1) ((pdats 0 c).arrAt 2 cfg0.N)) :
    Pipeline.RegionSeg (pcfgs (F := F)) Gen.adm pdats () (defs₀ (F := F)) 𝒱₀ L lv 0 where
  win := Gen.winFacts₀0
  block_pos := Gen.block_pos0
  stage_whole := Gen.stage_whole0
  K := PEmpty
  osem k := k.elim
  ho := Pipeline.OwnSemFacts.none _
  hbody := hbody
  hwaits := Pipeline.hwaits_of_owed_zero _ _ _ _ L lv 0 howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    have hsplit : (StableHlo.held (c : Thread nD τ) (Pipeline.ucRefs τ sig) (Vin c) : sProp 𝕄)
        ⊢ iprop((pdats 0 c).arrays ((pdats 0 c).arrAt · 0)
            ∗ Pipeline.unscopedRest (Ix := Unit) (Name := ℕ) (U := UR sig nD τ) (Lvl := ℕ) spec0 c (fun b => Vin c b)) := by
      rw [← Pipeline.unscopedBufs_held (Ix := Unit) (Name := ℕ) (U := UR sig nD τ) (Lvl := ℕ) c (Vin c),
        Pipeline.unscopedBufs_split₀ cfgs (0 : Fin 3) Gen.winFacts₀0.arr_unscoped c (fun b => Vin c b)]
      exact sep_mono (arrays_of_arrBufs0 c (pdats 0 c) (fun b => Vin c b) (hA c) (hq0 c) (hq1 c)) .rfl
    rw [prefHeld_none0]
    iintro ⟨⟨Hh, Hp, HO⟩, -, -⟩
    ihave H := hsplit $$ Hh
    icases H with ⟨Ha, Hrest⟩
    ihave HO' := (owesAt_of_zero c (pdats 0 c) 0 (howed c 0) (hrec c)) $$ HO
    imodintro
    isplitl [Ha]; · iexact Ha
    isplitr; · iempintro
    isplitl [HO']; · iexact HO'
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]
    unfold Pipeline.ΦA
    iintro ⟨Hr, Hp⟩
    isplitl [Hp]; · iexact Hp
    isplitr; · iempintro
    iexact Hr
  hexit c := by
    have hjoin : iprop((pdats 0 c).arrays ((pdats 0 c).arrAt · cfg0.N)
          ∗ Pipeline.unscopedRest (Ix := Unit) (Name := ℕ) (U := UR sig nD τ) (Lvl := ℕ) spec0 c (fun b => Vin c b))
        ⊢ (StableHlo.held (c : Thread nD τ) (Pipeline.ucRefs τ sig) (Vout c) : sProp 𝕄) := by
      rw [← Pipeline.unscopedBufs_held (Ix := Unit) (Name := ℕ) (U := UR sig nD τ) (Lvl := ℕ) c (Vout c)]
      exact unscopedBufs_of_arrays0 c (pdats 0 c) (fun b => Vin c b) (fun b => Vout c b) (hA c) (hq0 c) (hq1 c)
        (by rw [hVout c]; exact Function.update_self _ _ _)
        (fun b hb => by rw [hVout c]; exact Function.update_of_ne (StableHlo.devRef_ne_of_ne hb) _ _)
    iintro ⟨Ha, HO, HY, Hrest⟩
    ihave HO' := (zero_of_owesAt c (pdats 0 c) (Fin.last cfg0.N) (howed c _)) $$ HO
    imodintro
    isplitl [Ha Hrest]
    · iapply hjoin
      isplitl [Ha] <;> iassumption
    isplitl [HY]; · iexact HY
    iexact HO'

section
variable (pdats : (p : Fin 3) → (c : Dev nD) → Pipeline.Dat τ (Elt F) Unit ℕ (UR sig nD τ) ℕ (cfgs p) c)
    (Vin Vout : Dev nD → Valuation τ sig (Elt F))
    (hA : ∀ c w, (pdats 0 c).A w = Vin c (Proc.devRef .tc (Pipeline.arrRef spec0 w)))
    (hq0 : ∀ c, (pdats 0 c).q 0 = qL) (hq1 : ∀ c, (pdats 0 c).q 1 = qR)
    (howed : ∀ c t, (pdats 0 c).owed t = 0)
    (hrec : ∀ c, (pdats 0 c).recorded 0 = Set.univ)
    (hbody : ∀ c, Pipeline.BodyObligationLoose (pdats 0 c) (defs₀ (F := F)) 𝒱₀ () Set.univ)
    (hin : ∀ c, Pipeline.ΦA spec0 c ⊢ (pdats 0 c).Φ 0)
    (hout : ∀ c, (pdats 0 c).Φ (Fin.last cfg0.N) ⊢ Pipeline.ΦA spec0 c)
    (hVout : ∀ c, Vout c = Function.update (Vin c) (Proc.devRef .tc main_v1) ((pdats 0 c).arrAt 2 cfg0.N))

/-- The record is entered from every unscoped buffer at Vin beside the rest, -/
theorem reg0_of_pre (c : Dev nD) : (reg0_of pdats Vin Vout hA hq0 hq1 howed hrec hbody hin hout hVout).pre c
    = iprop(StableHlo.held (c : Thread nD τ) (Pipeline.ucRefs τ sig) (Vin c) ∗ Rst c) := rfl
/-- and left at every unscoped buffer at Vout beside the rest. -/
theorem reg0_of_post (c : Dev nD) : (reg0_of pdats Vin Vout hA hq0 hq1 howed hrec hbody hin hout hVout).post c
    = iprop(StableHlo.held (c : Thread nD τ) (Pipeline.ucRefs τ sig) (Vout c) ∗ Rst c) := rfl
end

end Cert.Kernel.HandB

end
-- ==== Proof.HandB.Shared1.lean ====
/- The glue of region 1 that does not depend on the kernel body, for a layout in which the two input windows read
   ONE array: the array's full points-to is dealt to the two windows as its two halves at the region's entry and
   joined again at its exit (an input window's array is never written), the output window's array is held whole. -/
import proofs.«166501_j24086176596062_1_alg».proof.Proof.Gen.Kernel.Regions
import proofs.«166501_j24086176596062_1_alg».proof.Proof.HandB.Shared0
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.Kernel.HandB

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- The distinct buffers behind region 1's three windows: the shared input array and the output array. -/
theorem bigSep_arr1 {M : Type} [URA M] (Φ : Ref sig .tc → sProp M) :
    bigSep (Finset.univ.image (Pipeline.arrRef spec1)) Φ = iprop(Φ main_v1 ∗ Φ main_v2) :=
  bigSep_eq_bigSepL_of_eq [main_v1, main_v2] (by decide) (by decide) Φ

/-- ENTRY for the shared layout: the buffers behind region 1's arrays, whole at V, are the proof data's arrays at
    point 0. The input array's full points-to is dealt to the two input windows as its two halves. -/
theorem arrays_of_arrBufs1 (c : Dev nD) (dat : Pipeline.Dat τ (Elt F) Unit ℕ (UR sig nD τ) ℕ cfg1 c)
    (V : (b : Ref sig .tc) → Buf (Elt F) ((c : Thread nD τ).loc b))
    (hA : ∀ w, dat.A w = V (Pipeline.arrRef spec1 w)) (hq0 : dat.q 0 = qL) (hq1 : dat.q 1 = qR) :
    (Pipeline.arrBufs (Ix := Unit) (Name := ℕ) (U := UR sig nD τ) (Lvl := ℕ) spec1 c V : sProp 𝕄) ⊢ dat.arrays (dat.arrAt · 0) := by
  unfold Pipeline.arrBufs Pipeline.Dat.arrays
  rw [bigSep_arr1, Gen.bigSep_W1]
  dsimp only
  have h0 : dat.arrAt 0 0 = V main_v1 := hA 0
  have h1 : dat.arrAt 1 0 = V main_v1 := hA 1
  have h2 : dat.arrAt 2 0 = V main_v2 := hA 2
  have hs0 : dat.share 0 = qL := by rw [← hq0]; rfl
  have hs1 : dat.share 1 = qR := by rw [← hq1]; rfl
  have hs2 : dat.share 2 = fullShare := rfl
  have hset0 : (View.whole main_v1).set = Finset.univ := (Gen.arr_whole1 0).set_eq_univ
  have hset1 : (View.whole main_v2).set = Finset.univ := (Gen.arr_whole1 2).set_eq_univ
  rw [h0, h1, h2, hs0, hs1, hs2, hset0, hset1]
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- Region 1's arrays at any contents, window by window: the shared input array at its two halves, the output array whole. -/
theorem arrays_eq1 (c : Dev nD) (dat : Pipeline.Dat τ (Elt F) Unit ℕ (UR sig nD τ) ℕ cfg1 c)
    (G : (w : Fin cfg1.W) → Buf (Elt F) ((cfg1.win w).arr.view.loc (c : Thread nD τ)))
    (hq0 : dat.q 0 = qL) (hq1 : dat.q 1 = qR) :
    (dat.arrays G : sProp 𝕄) = iprop((((c : Thread nD τ).loc main_v1) ↦{qL} G 0) ∗ (((c : Thread nD τ).loc main_v1) ↦{qR} G 1)
      ∗ (((c : Thread nD τ).loc main_v2) ↦{fullShare} G 2)) := by
  unfold Pipeline.Dat.arrays
  rw [Gen.bigSep_W1]
  dsimp only
  have hs0 : dat.share 0 = qL := by rw [← hq0]; rfl
  have hs1 : dat.share 1 = qR := by rw [← hq1]; rfl
  have hs2 : dat.share 2 = fullShare := rfl
  have hset0 : (View.whole main_v1).set = Finset.univ := (Gen.arr_whole1 0).set_eq_univ
  have hset1 : (View.whole main_v2).set = Finset.univ := (Gen.arr_whole1 2).set_eq_univ
  rw [hs0, hs1, hs2, hset0, hset1]

/-- EXIT for the shared layout: the arrays after the last point and the unscoped rest are the core's unscoped buffers
    at V updated at the output array. An input window's array is never written, so the two halves of the shared
    input array come back at the entry contents and join into its full points-to. -/
theorem unscopedBufs_of_arrays1 (c : Dev nD) (dat : Pipeline.Dat τ (Elt F) Unit ℕ (UR sig nD τ) ℕ cfg1 c)
    (V V' : (b : Ref sig .tc) → Buf (Elt F) ((c : Thread nD τ).loc b))
    (hA : ∀ w, dat.A w = V (Pipeline.arrRef spec1 w)) (hq0 : dat.q 0 = qL) (hq1 : dat.q 1 = qR)
    (hout : V' main_v2 = dat.arrAt 2 cfg1.N) (hrest : ∀ b, b ≠ main_v2 → V' b = V b) :
    iprop(dat.arrays (dat.arrAt · cfg1.N) ∗ Pipeline.unscopedRest (Ix := Unit) (Name := ℕ) (U := UR sig nD τ) (Lvl := ℕ) spec1 c V) ⊢ (unscopedBufs c V' : sProp 𝕄) := by
  have hu : (unscopedBufs c V' : sProp 𝕄) = iprop(Pipeline.arrBufs spec1 c V' ∗ Pipeline.unscopedRest spec1 c V') :=
    Pipeline.unscopedBufs_split₀ cfgs (1 : Fin 3) Gen.winFacts₀1.arr_unscoped c V'
  have hr : (Pipeline.unscopedRest spec1 c V' : sProp 𝕄) = Pipeline.unscopedRest spec1 c V := by
    unfold Pipeline.unscopedRest
    exact bigSep_congr fun b hb => by
      rw [hrest b fun e => (Finset.mem_sdiff.mp hb).2 (e ▸ Finset.mem_image.mpr ⟨2, Finset.mem_univ _, rfl⟩)]
  have h0 : dat.arrAt 0 cfg1.N = V' main_v1 := ((dat.arrAt_in 0 rfl cfg1.N).trans (hA 0)).trans (hrest main_v1 (by decide)).symm
  have h1 : dat.arrAt 1 cfg1.N = V' main_v1 := ((dat.arrAt_in 1 rfl cfg1.N).trans (hA 1)).trans (hrest main_v1 (by decide)).symm
  rw [hu, hr, arrays_eq1 c dat _ hq0 hq1]
  unfold Pipeline.arrBufs
  rw [bigSep_arr1]
  beta_reduce
  rw [h0, h1, ← hout]
  iintro ⟨⟨Ha, Hb, Hc⟩, Hrest⟩
  isplitr [Hrest]
  · isplitl [Ha Hb]
    · iapply (pointsTo_share (PosShare.mem_left_op_right fullShare)).2
      isplitl [Ha] <;> iassumption
    · iexact Hc
  · iexact Hrest

/-- With no prefetched table the region holds none. -/
theorem prefHeld_none1 (c : Dev nD) (q : Fin (pcfgs (F := F) 1).pre.K → PosShare TreeShare) :
    (Pipeline.prefHeld (Ix := Unit) (Name := ℕ) (U := UR sig nD τ) (Lvl := ℕ) (pcfgs (F := F) 1).pre c q (Gen.adm (F := F) 1).1 : sProp 𝕄) = BI.emp := by
  unfold Pipeline.prefHeld
  rw [Finset.univ_eq_empty, BI.bigSep_empty]

set_option backward.isDefEq.respectTransparency.types false in
/-- REGION 1's record from any proof data of the right shape (Vin: every unscoped buffer at the region's entry;
    Vout: at its exit, which differs from Vin at the output array only). -/
def reg1_of (pdats : (p : Fin 3) → (c : Dev nD) → Pipeline.Dat τ (Elt F) Unit ℕ (UR sig nD τ) ℕ (cfgs p) c)
    (Vin Vout : Dev nD → Valuation τ sig (Elt F))
    (hA : ∀ c w, (pdats 1 c).A w = Vin c (Proc.devRef .tc (Pipeline.arrRef spec1 w)))
    (hq0 : ∀ c, (pdats 1 c).q 0 = qL) (hq1 : ∀ c, (pdats 1 c).q 1 = qR)
    (howed : ∀ c t, (pdats 1 c).owed t = 0)
    (hrec : ∀ c, (pdats 1 c).recorded 0 = Set.univ)
    (hbody : ∀ c, Pipeline.BodyObligationLoose (pdats 1 c) (defs₀ (F := F)) 𝒱₀ () Set.univ)
    (hin : ∀ c, Pipeline.ΦA spec1 c ⊢ (pdats 1 c).Φ 0)
    (hout : ∀ c, (pdats 1 c).Φ (Fin.last cfg1.N) ⊢ Pipeline.ΦA spec1 c)
    (hVout : ∀ c, Vout c = Function.update (Vin c) (Proc.devRef .tc main_v2) ((pdats 1 c).arrAt 2 cfg1.N)) :
    Pipeline.RegionSeg (pcfgs (F := F)) Gen.adm pdats () (defs₀ (F := F)) 𝒱₀ L lv 1 where
  win := Gen.winFacts₀1
  block_pos := Gen.block_pos1
  stage_whole := Gen.stage_whole1
  K := PEmpty
  osem k := k.elim
  ho := Pipeline.OwnSemFacts.none _
  hbody := hbody
  hwaits := Pipeline.hwaits_of_owed_zero _ _ _ _ L lv 1 howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    have hsplit : (StableHlo.held (c : Thread nD τ) (Pipeline.ucRefs τ sig) (Vin c) : sProp 𝕄)
        ⊢ iprop((pdats 1 c).arrays ((pdats 1 c).arrAt · 0)
            ∗ Pipeline.unscopedRest (Ix := Unit) (Name := ℕ) (U := UR sig nD τ) (Lvl := ℕ) spec1 c (fun b => Vin c b)) := by
      rw [← Pipeline.unscopedBufs_held (Ix := Unit) (Name := ℕ) (U := UR sig nD τ) (Lvl := ℕ) c (Vin c),
        Pipeline.unscopedBufs_split₀ cfgs (1 : Fin 3) Gen.winFacts₀1.arr_unscoped c (fun b => Vin c b)]
      exact sep_mono (arrays_of_arrBufs1 c (pdats 1 c) (fun b => Vin c b) (hA c) (hq0 c) (hq1 c)) .rfl
    rw [prefHeld_none1]
    iintro ⟨⟨Hh, Hp, HO⟩, -, -⟩
    ihave H := hsplit $$ Hh
    icases H with ⟨Ha, Hrest⟩
    ihave HO' := (owesAt_of_zero c (pdats 1 c) 0 (howed c 0) (hrec c)) $$ HO
    imodintro
    isplitl [Ha]; · iexact Ha
    isplitr; · iempintro
    isplitl [HO']; · iexact HO'
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]
    unfold Pipeline.ΦA
    iintro ⟨Hr, Hp⟩
    isplitl [Hp]; · iexact Hp
    isplitr; · iempintro
    iexact Hr
  hexit c := by
    have hjoin : iprop((pdats 1 c).arrays ((pdats 1 c).arrAt · cfg1.N)
          ∗ Pipeline.unscopedRest (Ix := Unit) (Name := ℕ) (U := UR sig nD τ) (Lvl := ℕ) spec1 c (fun b => Vin c b))
        ⊢ (StableHlo.held (c : Thread nD τ) (Pipeline.ucRefs τ sig) (Vout c) : sProp 𝕄) := by
      rw [← Pipeline.unscopedBufs_held (Ix := Unit) (Name := ℕ) (U := UR sig nD τ) (Lvl := ℕ) c (Vout c)]
      exact unscopedBufs_of_arrays1 c (pdats 1 c) (fun b => Vin c b) (fun b => Vout c b) (hA c) (hq0 c) (hq1 c)
        (by rw [hVout c]; exact Function.update_self _ _ _)
        (fun b hb => by rw [hVout c]; exact Function.update_of_ne (StableHlo.devRef_ne_of_ne hb) _ _)
    iintro ⟨Ha, HO, HY, Hrest⟩
    ihave HO' := (zero_of_owesAt c (pdats 1 c) (Fin.last cfg1.N) (howed c _)) $$ HO
    imodintro
    isplitl [Ha Hrest]
    · iapply hjoin
      isplitl [Ha] <;> iassumption
    isplitl [HY]; · iexact HY
    iexact HO'

section
variable (pdats : (p : Fin 3) → (c : Dev nD) → Pipeline.Dat τ (Elt F) Unit ℕ (UR sig nD τ) ℕ (cfgs p) c)
    (Vin Vout : Dev nD → Valuation τ sig (Elt F))
    (hA : ∀ c w, (pdats 1 c).A w = Vin c (Proc.devRef .tc (Pipeline.arrRef spec1 w)))
    (hq0 : ∀ c, (pdats 1 c).q 0 = qL) (hq1 : ∀ c, (pdats 1 c).q 1 = qR)
    (howed : ∀ c t, (pdats 1 c).owed t = 0)
    (hrec : ∀ c, (pdats 1 c).recorded 0 = Set.univ)
    (hbody : ∀ c, Pipeline.BodyObligationLoose (pdats 1 c) (defs₀ (F := F)) 𝒱₀ () Set.univ)
    (hin : ∀ c, Pipeline.ΦA spec1 c ⊢ (pdats 1 c).Φ 0)
    (hout : ∀ c, (pdats 1 c).Φ (Fin.last cfg1.N) ⊢ Pipeline.ΦA spec1 c)
    (hVout : ∀ c, Vout c = Function.update (Vin c) (Proc.devRef .tc main_v2) ((pdats 1 c).arrAt 2 cfg1.N))

/-- The record is entered from every unscoped buffer at Vin beside the rest, -/
theorem reg1_of_pre (c : Dev nD) : (reg1_of pdats Vin Vout hA hq0 hq1 howed hrec hbody hin hout hVout).pre c
    = iprop(StableHlo.held (c : Thread nD τ) (Pipeline.ucRefs τ sig) (Vin c) ∗ Rst c) := rfl
/-- and left at every unscoped buffer at Vout beside the rest. -/
theorem reg1_of_post (c : Dev nD) : (reg1_of pdats Vin Vout hA hq0 hq1 howed hrec hbody hin hout hVout).post c
    = iprop(StableHlo.held (c : Thread nD τ) (Pipeline.ucRefs τ sig) (Vout c) ∗ Rst c) := rfl
end

end Cert.Kernel.HandB

end
-- ==== Proof.HandB.Shared2.lean ====
/- The glue of region 2 that does not depend on the kernel body, for a layout in which the two input windows read
   ONE array: the array's full points-to is dealt to the two windows as its two halves at the region's entry and
   joined again at its exit (an input window's array is never written), the output window's array is held whole. -/
import proofs.«166501_j24086176596062_1_alg».proof.Proof.Gen.Kernel.Regions
import proofs.«166501_j24086176596062_1_alg».proof.Proof.HandB.Shared0
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.Kernel.HandB

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- The distinct buffers behind region 2's three windows: the shared input array and the output array. -/
theorem bigSep_arr2 {M : Type} [URA M] (Φ : Ref sig .tc → sProp M) :
    bigSep (Finset.univ.image (Pipeline.arrRef spec2)) Φ = iprop(Φ main_v2 ∗ Φ main_v3) :=
  bigSep_eq_bigSepL_of_eq [main_v2, main_v3] (by decide) (by decide) Φ

/-- ENTRY for the shared layout: the buffers behind region 2's arrays, whole at V, are the proof data's arrays at
    point 0. The input array's full points-to is dealt to the two input windows as its two halves. -/
theorem arrays_of_arrBufs2 (c : Dev nD) (dat : Pipeline.Dat τ (Elt F) Unit ℕ (UR sig nD τ) ℕ cfg2 c)
    (V : (b : Ref sig .tc) → Buf (Elt F) ((c : Thread nD τ).loc b))
    (hA : ∀ w, dat.A w = V (Pipeline.arrRef spec2 w)) (hq0 : dat.q 0 = qL) (hq1 : dat.q 1 = qR) :
    (Pipeline.arrBufs (Ix := Unit) (Name := ℕ) (U := UR sig nD τ) (Lvl := ℕ) spec2 c V : sProp 𝕄) ⊢ dat.arrays (dat.arrAt · 0) := by
  unfold Pipeline.arrBufs Pipeline.Dat.arrays
  rw [bigSep_arr2, Gen.bigSep_W2]
  dsimp only
  have h0 : dat.arrAt 0 0 = V main_v2 := hA 0
  have h1 : dat.arrAt 1 0 = V main_v2 := hA 1
  have h2 : dat.arrAt 2 0 = V main_v3 := hA 2
  have hs0 : dat.share 0 = qL := by rw [← hq0]; rfl
  have hs1 : dat.share 1 = qR := by rw [← hq1]; rfl
  have hs2 : dat.share 2 = fullShare := rfl
  have hset0 : (View.whole main_v2).set = Finset.univ := (Gen.arr_whole2 0).set_eq_univ
  have hset1 : (View.whole main_v3).set = Finset.univ := (Gen.arr_whole2 2).set_eq_univ
  rw [h0, h1, h2, hs0, hs1, hs2, hset0, hset1]
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- Region 2's arrays at any contents, window by window: the shared input array at its two halves, the output array whole. -/
theorem arrays_eq2 (c : Dev nD) (dat : Pipeline.Dat τ (Elt F) Unit ℕ (UR sig nD τ) ℕ cfg2 c)
    (G : (w : Fin cfg2.W) → Buf (Elt F) ((cfg2.win w).arr.view.loc (c : Thread nD τ)))
    (hq0 : dat.q 0 = qL) (hq1 : dat.q 1 = qR) :
    (dat.arrays G : sProp 𝕄) = iprop((((c : Thread nD τ).loc main_v2) ↦{qL} G 0) ∗ (((c : Thread nD τ).loc main_v2) ↦{qR} G 1)
      ∗ (((c : Thread nD τ).loc main_v3) ↦{fullShare} G 2)) := by
  unfold Pipeline.Dat.arrays
  rw [Gen.bigSep_W2]
  dsimp only
  have hs0 : dat.share 0 = qL := by rw [← hq0]; rfl
  have hs1 : dat.share 1 = qR := by rw [← hq1]; rfl
  have hs2 : dat.share 2 = fullShare := rfl
  have hset0 : (View.whole main_v2).set = Finset.univ := (Gen.arr_whole2 0).set_eq_univ
  have hset1 : (View.whole main_v3).set = Finset.univ := (Gen.arr_whole2 2).set_eq_univ
  rw [hs0, hs1, hs2, hset0, hset1]

/-- EXIT for the shared layout: the arrays after the last point and the unscoped rest are the core's unscoped buffers
    at V updated at the output array. An input window's array is never written, so the two halves of the shared
    input array come back at the entry contents and join into its full points-to. -/
theorem unscopedBufs_of_arrays2 (c : Dev nD) (dat : Pipeline.Dat τ (Elt F) Unit ℕ (UR sig nD τ) ℕ cfg2 c)
    (V V' : (b : Ref sig .tc) → Buf (Elt F) ((c : Thread nD τ).loc b))
    (hA : ∀ w, dat.A w = V (Pipeline.arrRef spec2 w)) (hq0 : dat.q 0 = qL) (hq1 : dat.q 1 = qR)
    (hout : V' main_v3 = dat.arrAt 2 cfg2.N) (hrest : ∀ b, b ≠ main_v3 → V' b = V b) :
    iprop(dat.arrays (dat.arrAt · cfg2.N) ∗ Pipeline.unscopedRest (Ix := Unit) (Name := ℕ) (U := UR sig nD τ) (Lvl := ℕ) spec2 c V) ⊢ (unscopedBufs c V' : sProp 𝕄) := by
  have hu : (unscopedBufs c V' : sProp 𝕄) = iprop(Pipeline.arrBufs spec2 c V' ∗ Pipeline.unscopedRest spec2 c V') :=
    Pipeline.unscopedBufs_split₀ cfgs (2 : Fin 3) Gen.winFacts₀2.arr_unscoped c V'
  have hr : (Pipeline.unscopedRest spec2 c V' : sProp 𝕄) = Pipeline.unscopedRest spec2 c V := by
    unfold Pipeline.unscopedRest
    exact bigSep_congr fun b hb => by
      rw [hrest b fun e => (Finset.mem_sdiff.mp hb).2 (e ▸ Finset.mem_image.mpr ⟨2, Finset.mem_univ _, rfl⟩)]
  have h0 : dat.arrAt 0 cfg2.N = V' main_v2 := ((dat.arrAt_in 0 rfl cfg2.N).trans (hA 0)).trans (hrest main_v2 (by decide)).symm
  have h1 : dat.arrAt 1 cfg2.N = V' main_v2 := ((dat.arrAt_in 1 rfl cfg2.N).trans (hA 1)).trans (hrest main_v2 (by decide)).symm
  rw [hu, hr, arrays_eq2 c dat _ hq0 hq1]
  unfold Pipeline.arrBufs
  rw [bigSep_arr2]
  beta_reduce
  rw [h0, h1, ← hout]
  iintro ⟨⟨Ha, Hb, Hc⟩, Hrest⟩
  isplitr [Hrest]
  · isplitl [Ha Hb]
    · iapply (pointsTo_share (PosShare.mem_left_op_right fullShare)).2
      isplitl [Ha] <;> iassumption
    · iexact Hc
  · iexact Hrest

/-- With no prefetched table the region holds none. -/
theorem prefHeld_none2 (c : Dev nD) (q : Fin (pcfgs (F := F) 2).pre.K → PosShare TreeShare) :
    (Pipeline.prefHeld (Ix := Unit) (Name := ℕ) (U := UR sig nD τ) (Lvl := ℕ) (pcfgs (F := F) 2).pre c q (Gen.adm (F := F) 2).1 : sProp 𝕄) = BI.emp := by
  unfold Pipeline.prefHeld
  rw [Finset.univ_eq_empty, BI.bigSep_empty]

set_option backward.isDefEq.respectTransparency.types false in
/-- REGION 2's record from any proof data of the right shape (Vin: every unscoped buffer at the region's entry;
    Vout: at its exit, which differs from Vin at the output array only). -/
def reg2_of (pdats : (p : Fin 3) → (c : Dev nD) → Pipeline.Dat τ (Elt F) Unit ℕ (UR sig nD τ) ℕ (cfgs p) c)
    (Vin Vout : Dev nD → Valuation τ sig (Elt F))
    (hA : ∀ c w, (pdats 2 c).A w = Vin c (Proc.devRef .tc (Pipeline.arrRef spec2 w)))
    (hq0 : ∀ c, (pdats 2 c).q 0 = qL) (hq1 : ∀ c, (pdats 2 c).q 1 = qR)
    (howed : ∀ c t, (pdats 2 c).owed t = 0)
    (hrec : ∀ c, (pdats 2 c).recorded 0 = Set.univ)
    (hbody : ∀ c, Pipeline.BodyObligationLoose (pdats 2 c) (defs₀ (F := F)) 𝒱₀ () Set.univ)
    (hin : ∀ c, Pipeline.ΦA spec2 c ⊢ (pdats 2 c).Φ 0)
    (hout : ∀ c, (pdats 2 c).Φ (Fin.last cfg2.N) ⊢ Pipeline.ΦA spec2 c)
    (hVout : ∀ c, Vout c = Function.update (Vin c) (Proc.devRef .tc main_v3) ((pdats 2 c).arrAt 2 cfg2.N)) :
    Pipeline.RegionSeg (pcfgs (F := F)) Gen.adm pdats () (defs₀ (F := F)) 𝒱₀ L lv 2 where
  win := Gen.winFacts₀2
  block_pos := Gen.block_pos2
  stage_whole := Gen.stage_whole2
  K := PEmpty
  osem k := k.elim
  ho := Pipeline.OwnSemFacts.none _
  hbody := hbody
  hwaits := Pipeline.hwaits_of_owed_zero _ _ _ _ L lv 2 howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    have hsplit : (StableHlo.held (c : Thread nD τ) (Pipeline.ucRefs τ sig) (Vin c) : sProp 𝕄)
        ⊢ iprop((pdats 2 c).arrays ((pdats 2 c).arrAt · 0)
            ∗ Pipeline.unscopedRest (Ix := Unit) (Name := ℕ) (U := UR sig nD τ) (Lvl := ℕ) spec2 c (fun b => Vin c b)) := by
      rw [← Pipeline.unscopedBufs_held (Ix := Unit) (Name := ℕ) (U := UR sig nD τ) (Lvl := ℕ) c (Vin c),
        Pipeline.unscopedBufs_split₀ cfgs (2 : Fin 3) Gen.winFacts₀2.arr_unscoped c (fun b => Vin c b)]
      exact sep_mono (arrays_of_arrBufs2 c (pdats 2 c) (fun b => Vin c b) (hA c) (hq0 c) (hq1 c)) .rfl
    rw [prefHeld_none2]
    iintro ⟨⟨Hh, Hp, HO⟩, -, -⟩
    ihave H := hsplit $$ Hh
    icases H with ⟨Ha, Hrest⟩
    ihave HO' := (owesAt_of_zero c (pdats 2 c) 0 (howed c 0) (hrec c)) $$ HO
    imodintro
    isplitl [Ha]; · iexact Ha
    isplitr; · iempintro
    isplitl [HO']; · iexact HO'
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]
    unfold Pipeline.ΦA
    iintro ⟨Hr, Hp⟩
    isplitl [Hp]; · iexact Hp
    isplitr; · iempintro
    iexact Hr
  hexit c := by
    have hjoin : iprop((pdats 2 c).arrays ((pdats 2 c).arrAt · cfg2.N)
          ∗ Pipeline.unscopedRest (Ix := Unit) (Name := ℕ) (U := UR sig nD τ) (Lvl := ℕ) spec2 c (fun b => Vin c b))
        ⊢ (StableHlo.held (c : Thread nD τ) (Pipeline.ucRefs τ sig) (Vout c) : sProp 𝕄) := by
      rw [← Pipeline.unscopedBufs_held (Ix := Unit) (Name := ℕ) (U := UR sig nD τ) (Lvl := ℕ) c (Vout c)]
      exact unscopedBufs_of_arrays2 c (pdats 2 c) (fun b => Vin c b) (fun b => Vout c b) (hA c) (hq0 c) (hq1 c)
        (by rw [hVout c]; exact Function.update_self _ _ _)
        (fun b hb => by rw [hVout c]; exact Function.update_of_ne (StableHlo.devRef_ne_of_ne hb) _ _)
    iintro ⟨Ha, HO, HY, Hrest⟩
    ihave HO' := (zero_of_owesAt c (pdats 2 c) (Fin.last cfg2.N) (howed c _)) $$ HO
    imodintro
    isplitl [Ha Hrest]
    · iapply hjoin
      isplitl [Ha] <;> iassumption
    isplitl [HY]; · iexact HY
    iexact HO'

section
variable (pdats : (p : Fin 3) → (c : Dev nD) → Pipeline.Dat τ (Elt F) Unit ℕ (UR sig nD τ) ℕ (cfgs p) c)
    (Vin Vout : Dev nD → Valuation τ sig (Elt F))
    (hA : ∀ c w, (pdats 2 c).A w = Vin c (Proc.devRef .tc (Pipeline.arrRef spec2 w)))
    (hq0 : ∀ c, (pdats 2 c).q 0 = qL) (hq1 : ∀ c, (pdats 2 c).q 1 = qR)
    (howed : ∀ c t, (pdats 2 c).owed t = 0)
    (hrec : ∀ c, (pdats 2 c).recorded 0 = Set.univ)
    (hbody : ∀ c, Pipeline.BodyObligationLoose (pdats 2 c) (defs₀ (F := F)) 𝒱₀ () Set.univ)
    (hin : ∀ c, Pipeline.ΦA spec2 c ⊢ (pdats 2 c).Φ 0)
    (hout : ∀ c, (pdats 2 c).Φ (Fin.last cfg2.N) ⊢ Pipeline.ΦA spec2 c)
    (hVout : ∀ c, Vout c = Function.update (Vin c) (Proc.devRef .tc main_v3) ((pdats 2 c).arrAt 2 cfg2.N))

/-- The record is entered from every unscoped buffer at Vin beside the rest, -/
theorem reg2_of_pre (c : Dev nD) : (reg2_of pdats Vin Vout hA hq0 hq1 howed hrec hbody hin hout hVout).pre c
    = iprop(StableHlo.held (c : Thread nD τ) (Pipeline.ucRefs τ sig) (Vin c) ∗ Rst c) := rfl
/-- and left at every unscoped buffer at Vout beside the rest. -/
theorem reg2_of_post (c : Dev nD) : (reg2_of pdats Vin Vout hA hq0 hq1 howed hrec hbody hin hout hVout).post c
    = iprop(StableHlo.held (c : Thread nD τ) (Pipeline.ucRefs τ sig) (Vout c) ∗ Rst c) := rfl
end

end Cert.Kernel.HandB

end
-- ==== Proof.HandB.RunCond.lean ====
/- The run of @main from one record per kernel region: every weakly fair execution from a memory with zero counters
   terminates, and every final memory holds the argument as launched AND the result buffer at the last valuation,
   read off the last thread state. Between two items a core holds every unscoped buffer at the item's valuation
   beside its generator register and an empty debt. -/
import proofs.«166501_j24086176596062_1_alg».proof.Proof.HandB.Shared0
import proofs.«166501_j24086176596062_1_alg».proof.Proof.Gen.Kernel.Regions
import Idealize.ShloMosaic.Lib.Pipeline.Frame
import Idealize.ShloMosaic.Lib.Pipeline.Regions
import Idealize.ShloMosaic.Lib.Pipeline.Kit

noncomputable section

namespace Cert.Kernel.HandB

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- The launch element: the pipeline library's own, at every pipeline's staging cells. -/
abbrev u₀ : UR sig nD τ := initOf (Pipeline.cells cfgs Gen.cellOf_inj) (Pipeline.launchToks cfgs Gen.cellOf_inj)

/-- What rides beside the buffers ends owing nothing. -/
theorem Rst_owes (c : Dev nD) :
    (Rst (F := F) c) ⊢ (iprop(∃ W, owes (c : Thread nD τ) (0 : CellTallies nD τ sig Unit) W) : sProp 𝕄) := by
  iintro ⟨-, H⟩
  iexact H

set_option backward.isDefEq.respectTransparency.types false in
/-- THE RUN, given the regions' records: the frame claim's twin whose post also reads the result buffer. -/
theorem run_cond (m : (ℓ : Loc nD τ sig) → Buf (Elt F) ℓ) (ρ : Dev nD → PrngReg) (outs : Gen.Outs (F := F))
    (pdats : (p : Fin 3) → (c : Dev nD) → Pipeline.Dat τ (Elt F) Unit ℕ (UR sig nD τ) ℕ (cfgs p) c)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V1 m c) ∗ Rst c) ⊢ R0.pre c)
    (hpost0 : ∀ c : Dev nD, R0.post c ⊢ iprop(StableHlo.held (c : Thread nD τ) (Pipeline.ucRefs τ sig) (Gen.V2 m outs c) ∗ Rst c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V2 m outs c) ∗ Rst c) ⊢ R1.pre c)
    (hpost1 : ∀ c : Dev nD, R1.post c ⊢ iprop(StableHlo.held (c : Thread nD τ) (Pipeline.ucRefs τ sig) (Gen.V3 m outs c) ∗ Rst c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V3 m outs c) ∗ Rst c) ⊢ R2.pre c)
    (hpost2 : ∀ c : Dev nD, R2.post c ⊢ iprop(StableHlo.held (c : Thread nD τ) (Pipeline.ucRefs τ sig) (Gen.V4 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v4) = Gen.V5 m outs c (Proc.devRef .tc main_v4)) := by
  have hu : (ownU u₀ : sProp 𝕄)
      ⊢ |={Set.univ}=> iprop(BI.own (emb₁ u₀) ∗ bigSep Finset.univ fun _ : Dev nD => (BI.emp : sProp 𝕄)) := by
    have hown : (ownU u₀ : sProp 𝕄) ⊢ BI.own (emb₁ u₀) := .rfl
    rw [BI.bigSep_emp_const]
    iintro Hu
    imodintro
    isplitl [Hu]
    · iapply hown
      iexact Hu
    · iempintro
  refine Pipeline.θ_run_regions_kit_dev (pcfgs (F := F)) Gen.adm pdats () Gen.cellOf_inj emb₁ defs₀ 𝒱₀ L lv m ρ main
    (Gen.segs m outs 𝒱₀ L lv (fun _ c => Rst c) () pdats R0 R1 R2)
    (fun c Q => by
      rewrite [Gen.main_chain c, Pipeline.Seg.run_eq_chain,
        show (Gen.segs m outs 𝒱₀ L lv (fun _ c => Rst c) () pdats R0 R1 R2 c).map Pipeline.Seg.prog = [
          StableHlo.seq Gen.hostOps0,
          Prog.lift (.customCall (Pipeline.entry 0) ()),
          Prog.lift (.customCall (Pipeline.entry 1) ()),
          Prog.lift (.customCall (Pipeline.entry 2) ()),
          StableHlo.seq Gen.hostOps3 ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄)) u₀ hu
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V5 m outs c))
    (hch := fun c => ⟨.rfl, hpre0 c, (hpost0 c).trans (hpre1 c), (hpost1 c).trans (hpre2 c), hpost2 c, sep_mono .rfl (Rst_owes c)⟩)
    (hinit := ?_)
    (QY := fun c s => s.mem ((c.tc : Thread nD τ).loc main_arg0) = m ((c.tc : Thread nD τ).loc main_arg0)
      ∧ s.mem ((c.tc : Thread nD τ).loc main_v4) = Gen.V5 m outs c (Proc.devRef .tc main_v4))
    (hfin := fun c s' => ?_) (hQ := fun _ h => h)
  · -- the launch, core by core: the unscoped buffers are held at the launch valuation; of the rest the generator
    -- register and the empty debt are kept
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]
    · iexists _; iexact Hp
    · iexists ∅; iexact HO
  · -- the end: both buffers read off the last valuation
    unfold StableHlo.held
    iintro ⟨Hh, HSI⟩
    ihave Hr := (pointsTo_read_all (Pipeline.ucRefs τ sig) (fun b => ((c : Thread nD τ).1, b)) (Gen.V5 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (Gen.V5_main_arg0 m outs c),
        h (Proc.devRef .tc main_v4) (Finset.mem_filter.mpr ⟨StableHlo.devRef_mem_tcRefs main_v4, by decide⟩)⟩
    · iexact HSI

end Cert.Kernel.HandB

end
-- ==== Proof.HandB.Assemble.lean ====
/-
  @main of the kernel program, assembled: one host reshape, three mean-shift regions, one host reshape.

  Between two items the core's unscoped buffers are at a valuation: after the first reshape at `V1`; after region 0
  at `W2`, which is `V1` with region 0's output array at what its write-backs leave; after region 1 at `W3`; after
  region 2 at `W4`; the last reshape reads region 2's output array. Each region's proof data are stated at the
  valuation it is entered from, and its record enters from that valuation and leaves at the next.
-/
import proofs.«166501_j24086176596062_1_alg».proof.Proof.HandB.R0.Obl
import proofs.«166501_j24086176596062_1_alg».proof.Proof.HandB.R1.Obl
import proofs.«166501_j24086176596062_1_alg».proof.Proof.HandB.R2.Obl
import proofs.«166501_j24086176596062_1_alg».proof.Proof.HandB.Shared0
import proofs.«166501_j24086176596062_1_alg».proof.Proof.HandB.Shared1
import proofs.«166501_j24086176596062_1_alg».proof.Proof.HandB.Shared2
import proofs.«166501_j24086176596062_1_alg».proof.Proof.HandB.RunCond

noncomputable section

namespace Cert.Kernel.HandB

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atRef (W : Dev nD → Valuation τ sig (Elt F)) : (c : Dev nD) → (b : Ref sig .tc) → Buf (Elt F) ((c : Thread nD τ).loc b) :=
  fun c b => W c (Proc.devRef .tc b)

/-- After region 0: its output array at what its write-backs leave, every other buffer as it was entered. -/
def W2 (c : Dev nD) : Valuation τ sig (Elt F) :=
  Function.update (Gen.V1 m c) (Proc.devRef .tc main_v1) ((R0.dat0 (atRef (Gen.V1 m)) c).arrAt 2 cfg0.N)
/-- After region 1. -/
def W3 (c : Dev nD) : Valuation τ sig (Elt F) :=
  Function.update (W2 m c) (Proc.devRef .tc main_v2) ((R1.dat0 (atRef (W2 m)) c).arrAt 2 cfg1.N)
/-- After region 2. -/
def W4 (c : Dev nD) : Valuation τ sig (Elt F) :=
  Function.update (W3 m c) (Proc.devRef .tc main_v3) ((R2.dat0 (atRef (W3 m)) c).arrAt 2 cfg2.N)

/-- What the regions leave, as the generated valuations read it: each is read only at its region's output array. -/
def outs : Gen.Outs (F := F) := fun J r c =>
  match J with
  | 2 => W2 m c (Proc.devRef .tc r)
  | 3 => W3 m c (Proc.devRef .tc r)
  | _ => W4 m c (Proc.devRef .tc r)

theorem V2_eq (c : Dev nD) : Gen.V2 m (outs m) c = W2 m c := by
  show Function.update (Gen.V1 m c) (Proc.devRef .tc main_v1) (W2 m c (Proc.devRef .tc main_v1)) = W2 m c
  unfold W2; rw [Function.update_self]
theorem V3_eq (c : Dev nD) : Gen.V3 m (outs m) c = W3 m c := by
  show Function.update (Gen.V2 m (outs m) c) (Proc.devRef .tc main_v2) (W3 m c (Proc.devRef .tc main_v2)) = W3 m c
  rw [V2_eq]; unfold W3; rw [Function.update_self]
theorem V4_eq (c : Dev nD) : Gen.V4 m (outs m) c = W4 m c := by
  show Function.update (Gen.V3 m (outs m) c) (Proc.devRef .tc main_v3) (W4 m c (Proc.devRef .tc main_v3)) = W4 m c
  rw [V3_eq]; unfold W4; rw [Function.update_self]

/-- Every region's proof data, each at the valuation its region is entered from. -/
def pdats : (p : Fin 3) → (c : Dev nD) → Dat τ (Elt F) Unit ℕ (UR sig nD τ) ℕ (cfgs p) c
  | ⟨0, _⟩ => fun c => R0.dat0 (atRef (Gen.V1 m)) c
  | ⟨1, _⟩ => fun c => R1.dat0 (atRef (W2 m)) c
  | ⟨2, _⟩ => fun c => R2.dat0 (atRef (W3 m)) c

/-- Region 0's record: entered from `V1`, left at `W2`. -/
def reg0 : RegionSeg (pcfgs (F := F)) Gen.adm (pdats m) () (defs₀ (F := F)) 𝒱₀ L lv 0 :=
  reg0_of (pdats m) (Gen.V1 m) (W2 m)
    (fun c w => R0.A_eq (atRef (Gen.V1 m)) c w) (fun c => R0.q_eq0 (atRef (Gen.V1 m)) c) (fun c => R0.q_eq1 (atRef (Gen.V1 m)) c)
    (fun _ _ => rfl) (fun _ => rfl) (fun c => (R0.body_obligation0 (atRef (Gen.V1 m)) c).loose)
    (fun c => R0.hin0 (atRef (Gen.V1 m)) c) (fun c => R0.hout0 (atRef (Gen.V1 m)) c) (fun _ => rfl)
/-- Region 1's record: entered from `W2`, left at `W3`. -/
def reg1 : RegionSeg (pcfgs (F := F)) Gen.adm (pdats m) () (defs₀ (F := F)) 𝒱₀ L lv 1 :=
  reg1_of (pdats m) (W2 m) (W3 m)
    (fun c w => R1.A_eq (atRef (W2 m)) c w) (fun c => R1.q_eq0 (atRef (W2 m)) c) (fun c => R1.q_eq1 (atRef (W2 m)) c)
    (fun _ _ => rfl) (fun _ => rfl) (fun c => (R1.body_obligation0 (atRef (W2 m)) c).loose)
    (fun c => R1.hin0 (atRef (W2 m)) c) (fun c => R1.hout0 (atRef (W2 m)) c) (fun _ => rfl)
/-- Region 2's record: entered from `W3`, left at `W4`. -/
def reg2 : RegionSeg (pcfgs (F := F)) Gen.adm (pdats m) () (defs₀ (F := F)) 𝒱₀ L lv 2 :=
  reg2_of (pdats m) (W3 m) (W4 m)
    (fun c w => R2.A_eq (atRef (W3 m)) c w) (fun c => R2.q_eq0 (atRef (W3 m)) c) (fun c => R2.q_eq1 (atRef (W3 m)) c)
    (fun _ _ => rfl) (fun _ => rfl) (fun c => (R2.body_obligation0 (atRef (W3 m)) c).loose)
    (fun c => R2.hin0 (atRef (W3 m)) c) (fun c => R2.hout0 (atRef (W3 m)) c) (fun _ => rfl)

/-- THE RUN, at any `F`: every weakly fair execution of @main terminates, nothing faulting, with the argument array
    as launched and the result array at the last reshape of what region 2 left. -/
theorem run_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v4) = Gen.V5 m (outs m) c (Proc.devRef .tc main_v4)) :=
  run_cond m ρ (outs m) (pdats m)
    (reg0 m) (fun c => by rw [show (reg0 m).pre c = _ from reg0_of_pre ..]) (fun c => by rw [show (reg0 m).post c = _ from reg0_of_post .., V2_eq])
    (reg1 m) (fun c => by rw [show (reg1 m).pre c = _ from reg1_of_pre .., V2_eq]) (fun c => by rw [show (reg1 m).post c = _ from reg1_of_post .., V3_eq])
    (reg2 m) (fun c => by rw [show (reg2 m).pre c = _ from reg2_of_pre .., V3_eq]) (fun c => by rw [show (reg2 m).post c = _ from reg2_of_post .., V4_eq])

/-- THE FRAME, at any `F`. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_all m ρ)

end Cert.Kernel.HandB

end
-- ==== Proof.RefSide.lean ====
import proofs.«166501_j24086176596062_1_alg».proof.Defs
import proofs.«166501_j24086176596062_1_alg».proof.Proof.Gen.ReferenceIdeal.Read
import proofs.«166501_j24086176596062_1_alg».proof.Proof.Spec
import proofs.«166501_j24086176596062_1_alg».proof.Proof.Gen.ReferenceIdeal
import proofs.«166501_j24086176596062_1_alg».proof.Proof.Gen.Pre_finite_inputs

/-!
  The reference's three mean-shift steps, read off its run index by index.

  Each step of the reference is fourteen array operations: the Gram matrix of the pixels over the 32 features, its
  scaling by the bandwidth, the exponential, the column sums from zero, their broadcast back, the quotient, the
  contraction of the features with the normalised affinities over the 4096 pixels, and the half-and-half blend with
  the step's input. Read at an index `(b, d, m)` these are, in order, the affinity, the column weight, the normalised
  affinity, the weighted mean, and `Cert.MeanShift.stepR` of batch entry `b`.
-/

noncomputable section

open scoped BigOperators

namespace Cert.ReferenceIdeal.RefSide

open Cert.ReferenceIdeal Cert.ReferenceIdeal.Gen Idealize.ShloMosaic Idealize.ShloMosaic.TcCoe Idealize.SL.Sem
  Idealize.ShloMosaic.StableHlo Cert.MeanShift

/-! ## Step 1: from stage 0 to stage 14 -/

/-- The exponentiated, scaled Gram entry of pixels `n` and `m` of batch entry `b` is their affinity. -/
theorem aff1 (x0 : (⟨S4x32x64x64, .f32⟩ : BufTy).Contents (Elt Ideal)) (b : Fin 4) (n m : Fin 4096) :
    Read.val_main_v4 (F := Ideal) x0 (ValueIdx.ix3 b n m) = aff (entry (Read.val_main_v0 (F := Ideal) x0) b) n m := by
  rw [Read.val_main_v4_apply, Read.val_main_v3_apply, Read.val_main_v2_apply, Read.val_main_cst_apply, Read.val_main_v1_apply]
  have el : ∀ k : Fin 32, Read.lidx_main_v1 (ValueIdx.ix3 b n m) k = ValueIdx.ix3 b k n :=
    fun k => funext fun a => Fin.ext (by match a with | ⟨0, _⟩ => rfl | ⟨1, _⟩ => rfl | ⟨2, _⟩ => rfl)
  have er : ∀ k : Fin 32, Read.ridx_main_v1 (ValueIdx.ix3 b n m) k = ValueIdx.ix3 b k m :=
    fun k => funext fun a => Fin.ext (by match a with | ⟨0, _⟩ => rfl | ⟨1, _⟩ => rfl | ⟨2, _⟩ => rfl)
  simp only [el, er, Ideal.hostUnary_exp_def, Ideal.mulf_def, Ideal.ofBits_def]
  rfl

/-- The reduce over the first pixel axis, from the zero word, is the column's weight. -/
theorem col1 (x0 : (⟨S4x32x64x64, .f32⟩ : BufTy).Contents (Elt Ideal)) (b : Fin 4) (m : Fin 4096) :
    Read.val_main_v5 (F := Ideal) x0 (ValueIdx.ix2 b m) = colsumR (entry (Read.val_main_v0 (F := Ideal) x0) b) m := by
  rw [Read.val_main_v5_apply, Read.val_main_cst_0_apply, Ideal.ofBits_def, Ideal.ofBits_zero_f32]
  unfold colsumR
  refine congrArg (0 + ·) (Finset.sum_congr rfl fun n _ => ?_)
  have e : Read.idx_main_v5 (ValueIdx.ix2 b m) n = ValueIdx.ix3 b n m :=
    funext fun a => Fin.ext (by match a with | ⟨0, _⟩ => rfl | ⟨1, _⟩ => rfl | ⟨2, _⟩ => rfl)
  rw [e, aff1]

/-- The affinity divided by its column's weight, the weight broadcast back along the first pixel axis. -/
theorem nrm1 (x0 : (⟨S4x32x64x64, .f32⟩ : BufTy).Contents (Elt Ideal)) (b : Fin 4) (n m : Fin 4096) :
    Read.val_main_v8 (F := Ideal) x0 (ValueIdx.ix3 b n m)
      = Ideal.div (aff (entry (Read.val_main_v0 (F := Ideal) x0) b) n m) (colsumR (entry (Read.val_main_v0 (F := Ideal) x0) b) m) := by
  have e : Read.idx_main_v6 (Read.idx_main_v7 (ValueIdx.ix3 b n m)) = ValueIdx.ix2 b m :=
    funext fun a => Fin.ext (by match a with | ⟨0, _⟩ => rfl | ⟨1, _⟩ => rfl)
  rw [Read.val_main_v8_apply, Read.val_main_v7_apply, Read.val_main_v6_apply, Ideal.hostDivf_def, e, aff1, col1]

/-- The contraction of the features with the normalised affinities over all pixels. -/
theorem ctr1 (x0 : (⟨S4x32x64x64, .f32⟩ : BufTy).Contents (Elt Ideal)) (b : Fin 4) (d : Fin 32) (m : Fin 4096) :
    Read.val_main_v9 (F := Ideal) x0 (ValueIdx.ix3 b d m)
      = ∑ n : Fin 4096, entry (Read.val_main_v0 (F := Ideal) x0) b d n * Ideal.div (aff (entry (Read.val_main_v0 (F := Ideal) x0) b) n m) (colsumR (entry (Read.val_main_v0 (F := Ideal) x0) b) m) := by
  rw [Read.val_main_v9_apply]
  refine Finset.sum_congr rfl fun n _ => ?_
  have el : Read.lidx_main_v9 (ValueIdx.ix3 b d m) n = ValueIdx.ix3 b d n :=
    funext fun a => Fin.ext (by match a with | ⟨0, _⟩ => rfl | ⟨1, _⟩ => rfl | ⟨2, _⟩ => rfl)
  have er : Read.ridx_main_v9 (ValueIdx.ix3 b d m) n = ValueIdx.ix3 b n m :=
    funext fun a => Fin.ext (by match a with | ⟨0, _⟩ => rfl | ⟨1, _⟩ => rfl | ⟨2, _⟩ => rfl)
  rw [el, er, nrm1]
  rfl

/-- Stage 14 is one mean-shift step applied to each batch entry of stage 0. -/
theorem step1 (x0 : (⟨S4x32x64x64, .f32⟩ : BufTy).Contents (Elt Ideal)) :
    Read.val_main_v14 (F := Ideal) x0 = onBatches stepR (Read.val_main_v0 (F := Ideal) x0) := by
  funext i
  obtain ⟨b, d, m, rfl⟩ : ∃ (b : Fin 4) (d : Fin 32) (m : Fin 4096), i = ValueIdx.ix3 b d m :=
    ⟨i 0, i 1, i 2, ValueIdx.eq_ix3 i⟩
  rw [onBatches_ix3, Read.val_main_v14_apply, Read.val_main_v11_apply, Read.val_main_v13_apply, Read.val_main_v10_apply, Read.val_main_v12_apply,
    Read.val_main_cst_1_apply, Read.val_main_cst_2_apply, ctr1]
  simp only [Ideal.addf_def, Ideal.mulf_def, Ideal.ofBits_def]
  rfl

/-! ## Step 2: from stage 14 to stage 28 -/

/-- The exponentiated, scaled Gram entry of pixels `n` and `m` of batch entry `b` is their affinity. -/
theorem aff2 (x0 : (⟨S4x32x64x64, .f32⟩ : BufTy).Contents (Elt Ideal)) (b : Fin 4) (n m : Fin 4096) :
    Read.val_main_v18 (F := Ideal) x0 (ValueIdx.ix3 b n m) = aff (entry (Read.val_main_v14 (F := Ideal) x0) b) n m := by
  rw [Read.val_main_v18_apply, Read.val_main_v17_apply, Read.val_main_v16_apply, Read.val_main_cst_3_apply, Read.val_main_v15_apply]
  have el : ∀ k : Fin 32, Read.lidx_main_v15 (ValueIdx.ix3 b n m) k = ValueIdx.ix3 b k n :=
    fun k => funext fun a => Fin.ext (by match a with | ⟨0, _⟩ => rfl | ⟨1, _⟩ => rfl | ⟨2, _⟩ => rfl)
  have er : ∀ k : Fin 32, Read.ridx_main_v15 (ValueIdx.ix3 b n m) k = ValueIdx.ix3 b k m :=
    fun k => funext fun a => Fin.ext (by match a with | ⟨0, _⟩ => rfl | ⟨1, _⟩ => rfl | ⟨2, _⟩ => rfl)
  simp only [el, er, Ideal.hostUnary_exp_def, Ideal.mulf_def, Ideal.ofBits_def]
  rfl

/-- The reduce over the first pixel axis, from the zero word, is the column's weight. -/
theorem col2 (x0 : (⟨S4x32x64x64, .f32⟩ : BufTy).Contents (Elt Ideal)) (b : Fin 4) (m : Fin 4096) :
    Read.val_main_v19 (F := Ideal) x0 (ValueIdx.ix2 b m) = colsumR (entry (Read.val_main_v14 (F := Ideal) x0) b) m := by
  rw [Read.val_main_v19_apply, Read.val_main_cst_4_apply, Ideal.ofBits_def, Ideal.ofBits_zero_f32]
  unfold colsumR
  refine congrArg (0 + ·) (Finset.sum_congr rfl fun n _ => ?_)
  have e : Read.idx_main_v19 (ValueIdx.ix2 b m) n = ValueIdx.ix3 b n m :=
    funext fun a => Fin.ext (by match a with | ⟨0, _⟩ => rfl | ⟨1, _⟩ => rfl | ⟨2, _⟩ => rfl)
  rw [e, aff2]

/-- The affinity divided by its column's weight, the weight broadcast back along the first pixel axis. -/
theorem nrm2 (x0 : (⟨S4x32x64x64, .f32⟩ : BufTy).Contents (Elt Ideal)) (b : Fin 4) (n m : Fin 4096) :
    Read.val_main_v22 (F := Ideal) x0 (ValueIdx.ix3 b n m)
      = Ideal.div (aff (entry (Read.val_main_v14 (F := Ideal) x0) b) n m) (colsumR (entry (Read.val_main_v14 (F := Ideal) x0) b) m) := by
  have e : Read.idx_main_v20 (Read.idx_main_v21 (ValueIdx.ix3 b n m)) = ValueIdx.ix2 b m :=
    funext fun a => Fin.ext (by match a with | ⟨0, _⟩ => rfl | ⟨1, _⟩ => rfl)
  rw [Read.val_main_v22_apply, Read.val_main_v21_apply, Read.val_main_v20_apply, Ideal.hostDivf_def, e, aff2, col2]

/-- The contraction of the features with the normalised affinities over all pixels. -/
theorem ctr2 (x0 : (⟨S4x32x64x64, .f32⟩ : BufTy).Contents (Elt Ideal)) (b : Fin 4) (d : Fin 32) (m : Fin 4096) :
    Read.val_main_v23 (F := Ideal) x0 (ValueIdx.ix3 b d m)
      = ∑ n : Fin 4096, entry (Read.val_main_v14 (F := Ideal) x0) b d n * Ideal.div (aff (entry (Read.val_main_v14 (F := Ideal) x0) b) n m) (colsumR (entry (Read.val_main_v14 (F := Ideal) x0) b) m) := by
  rw [Read.val_main_v23_apply]
  refine Finset.sum_congr rfl fun n _ => ?_
  have el : Read.lidx_main_v23 (ValueIdx.ix3 b d m) n = ValueIdx.ix3 b d n :=
    funext fun a => Fin.ext (by match a with | ⟨0, _⟩ => rfl | ⟨1, _⟩ => rfl | ⟨2, _⟩ => rfl)
  have er : Read.ridx_main_v23 (ValueIdx.ix3 b d m) n = ValueIdx.ix3 b n m :=
    funext fun a => Fin.ext (by match a with | ⟨0, _⟩ => rfl | ⟨1, _⟩ => rfl | ⟨2, _⟩ => rfl)
  rw [el, er, nrm2]
  rfl

/-- Stage 28 is one mean-shift step applied to each batch entry of stage 14. -/
theorem step2 (x0 : (⟨S4x32x64x64, .f32⟩ : BufTy).Contents (Elt Ideal)) :
    Read.val_main_v28 (F := Ideal) x0 = onBatches stepR (Read.val_main_v14 (F := Ideal) x0) := by
  funext i
  obtain ⟨b, d, m, rfl⟩ : ∃ (b : Fin 4) (d : Fin 32) (m : Fin 4096), i = ValueIdx.ix3 b d m :=
    ⟨i 0, i 1, i 2, ValueIdx.eq_ix3 i⟩
  rw [onBatches_ix3, Read.val_main_v28_apply, Read.val_main_v25_apply, Read.val_main_v27_apply, Read.val_main_v24_apply, Read.val_main_v26_apply,
    Read.val_main_cst_5_apply, Read.val_main_cst_6_apply, ctr2]
  simp only [Ideal.addf_def, Ideal.mulf_def, Ideal.ofBits_def]
  rfl

/-! ## Step 3: from stage 28 to stage 42 -/

/-- The exponentiated, scaled Gram entry of pixels `n` and `m` of batch entry `b` is their affinity. -/
theorem aff3 (x0 : (⟨S4x32x64x64, .f32⟩ : BufTy).Contents (Elt Ideal)) (b : Fin 4) (n m : Fin 4096) :
    Read.val_main_v32 (F := Ideal) x0 (ValueIdx.ix3 b n m) = aff (entry (Read.val_main_v28 (F := Ideal) x0) b) n m := by
  rw [Read.val_main_v32_apply, Read.val_main_v31_apply, Read.val_main_v30_apply, Read.val_main_cst_7_apply, Read.val_main_v29_apply]
  have el : ∀ k : Fin 32, Read.lidx_main_v29 (ValueIdx.ix3 b n m) k = ValueIdx.ix3 b k n :=
    fun k => funext fun a => Fin.ext (by match a with | ⟨0, _⟩ => rfl | ⟨1, _⟩ => rfl | ⟨2, _⟩ => rfl)
  have er : ∀ k : Fin 32, Read.ridx_main_v29 (ValueIdx.ix3 b n m) k = ValueIdx.ix3 b k m :=
    fun k => funext fun a => Fin.ext (by match a with | ⟨0, _⟩ => rfl | ⟨1, _⟩ => rfl | ⟨2, _⟩ => rfl)
  simp only [el, er, Ideal.hostUnary_exp_def, Ideal.mulf_def, Ideal.ofBits_def]
  rfl

/-- The reduce over the first pixel axis, from the zero word, is the column's weight. -/
theorem col3 (x0 : (⟨S4x32x64x64, .f32⟩ : BufTy).Contents (Elt Ideal)) (b : Fin 4) (m : Fin 4096) :
    Read.val_main_v33 (F := Ideal) x0 (ValueIdx.ix2 b m) = colsumR (entry (Read.val_main_v28 (F := Ideal) x0) b) m := by
  rw [Read.val_main_v33_apply, Read.val_main_cst_8_apply, Ideal.ofBits_def, Ideal.ofBits_zero_f32]
  unfold colsumR
  refine congrArg (0 + ·) (Finset.sum_congr rfl fun n _ => ?_)
  have e : Read.idx_main_v33 (ValueIdx.ix2 b m) n = ValueIdx.ix3 b n m :=
    funext fun a => Fin.ext (by match a with | ⟨0, _⟩ => rfl | ⟨1, _⟩ => rfl | ⟨2, _⟩ => rfl)
  rw [e, aff3]

/-- The affinity divided by its column's weight, the weight broadcast back along the first pixel axis. -/
theorem nrm3 (x0 : (⟨S4x32x64x64, .f32⟩ : BufTy).Contents (Elt Ideal)) (b : Fin 4) (n m : Fin 4096) :
    Read.val_main_v36 (F := Ideal) x0 (ValueIdx.ix3 b n m)
      = Ideal.div (aff (entry (Read.val_main_v28 (F := Ideal) x0) b) n m) (colsumR (entry (Read.val_main_v28 (F := Ideal) x0) b) m) := by
  have e : Read.idx_main_v34 (Read.idx_main_v35 (ValueIdx.ix3 b n m)) = ValueIdx.ix2 b m :=
    funext fun a => Fin.ext (by match a with | ⟨0, _⟩ => rfl | ⟨1, _⟩ => rfl)
  rw [Read.val_main_v36_apply, Read.val_main_v35_apply, Read.val_main_v34_apply, Ideal.hostDivf_def, e, aff3, col3]

/-- The contraction of the features with the normalised affinities over all pixels. -/
theorem ctr3 (x0 : (⟨S4x32x64x64, .f32⟩ : BufTy).Contents (Elt Ideal)) (b : Fin 4) (d : Fin 32) (m : Fin 4096) :
    Read.val_main_v37 (F := Ideal) x0 (ValueIdx.ix3 b d m)
      = ∑ n : Fin 4096, entry (Read.val_main_v28 (F := Ideal) x0) b d n * Ideal.div (aff (entry (Read.val_main_v28 (F := Ideal) x0) b) n m) (colsumR (entry (Read.val_main_v28 (F := Ideal) x0) b) m) := by
  rw [Read.val_main_v37_apply]
  refine Finset.sum_congr rfl fun n _ => ?_
  have el : Read.lidx_main_v37 (ValueIdx.ix3 b d m) n = ValueIdx.ix3 b d n :=
    funext fun a => Fin.ext (by match a with | ⟨0, _⟩ => rfl | ⟨1, _⟩ => rfl | ⟨2, _⟩ => rfl)
  have er : Read.ridx_main_v37 (ValueIdx.ix3 b d m) n = ValueIdx.ix3 b n m :=
    funext fun a => Fin.ext (by match a with | ⟨0, _⟩ => rfl | ⟨1, _⟩ => rfl | ⟨2, _⟩ => rfl)
  rw [el, er, nrm3]
  rfl

/-- Stage 42 is one mean-shift step applied to each batch entry of stage 28. -/
theorem step3 (x0 : (⟨S4x32x64x64, .f32⟩ : BufTy).Contents (Elt Ideal)) :
    Read.val_main_v42 (F := Ideal) x0 = onBatches stepR (Read.val_main_v28 (F := Ideal) x0) := by
  funext i
  obtain ⟨b, d, m, rfl⟩ : ∃ (b : Fin 4) (d : Fin 32) (m : Fin 4096), i = ValueIdx.ix3 b d m :=
    ⟨i 0, i 1, i 2, ValueIdx.eq_ix3 i⟩
  rw [onBatches_ix3, Read.val_main_v42_apply, Read.val_main_v39_apply, Read.val_main_v41_apply, Read.val_main_v38_apply, Read.val_main_v40_apply,
    Read.val_main_cst_9_apply, Read.val_main_cst_10_apply, ctr3]
  simp only [Ideal.addf_def, Ideal.mulf_def, Ideal.ofBits_def]
  rfl

/-! ## The whole run -/

/-- What the reference leaves in its result: the argument read as four batch entries of 32 features over 4096
    pixels, three mean-shift steps on each entry, and the result read back as `[4, 32, 64, 64]`. -/
def Gref (x0 : (⟨S4x32x64x64, .f32⟩ : BufTy).Contents (Elt Ideal)) : (⟨S4x32x64x64, .f32⟩ : BufTy).Contents (Elt Ideal) :=
  shapeCast _ (onBatches stepR (onBatches stepR (onBatches stepR
    (shapeCast _ x0 shapeCasts_S4x32x64x64_S4x32x4096)))) shapeCasts_S4x32x4096_S4x32x64x64

/-- The last stage is the three steps between the two reshapes. -/
theorem val_eq_Gref (x0 : (⟨S4x32x64x64, .f32⟩ : BufTy).Contents (Elt Ideal)) : Read.val_main_v43 (F := Ideal) x0 = Gref x0 := by
  unfold Gref Read.val_main_v43
  rw [step3, step2, step1]
  rfl

/-- Every weakly fair execution of the reference terminates with its result at `Gref` of the argument and the
    argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩
      (fun r => ∀ c : Dev Cert.ReferenceIdeal.nD,
        r.2.mem ((c.tc : Thread Cert.ReferenceIdeal.nD Cert.ReferenceIdeal.τ).loc Cert.ReferenceIdeal.main_v43)
            = Gref (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  (θ_run Cert.ReferenceIdeal.defs _ _).mono
    (fun _ h c => ⟨(h c).1.trans ((Read.val_main_v43_eq m' c).trans (val_eq_Gref _)), (h c).2⟩)
    (Cert.ReferenceIdeal.Value.run (F := Ideal) m' ρ')

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefSide

end
-- ==== Proof.Final.lean ====
/-
  The claims about the kernel program.

  Both kernel programs run and leave the argument array unchanged (the assembled run, read at the word-level
  instance and at the ideal one). At the ideal instance the kernel's result array is the argument reshaped, three
  tile-walking mean-shift steps on each batch entry, reshaped back; under the precondition every entry of the
  argument is a real number, so each tile-walking step is the reference's normalise-then-contract step, realness
  carries from step to step, and the result is the reference's.
-/
import proofs.«166501_j24086176596062_1_alg».proof.Defs
import proofs.«166501_j24086176596062_1_alg».proof.Proof.Hand.KernelValue
import proofs.«166501_j24086176596062_1_alg».proof.Proof.Hand.R0.ValueOut
import proofs.«166501_j24086176596062_1_alg».proof.Proof.Hand.R1.ValueOut
import proofs.«166501_j24086176596062_1_alg».proof.Proof.Hand.R2.ValueOut
import proofs.«166501_j24086176596062_1_alg».proof.Proof.Hand.RealIn
import proofs.«166501_j24086176596062_1_alg».proof.Proof.HandB.Assemble
import proofs.«166501_j24086176596062_1_alg».proof.Proof.RefSide
import proofs.«166501_j24086176596062_1_alg».proof.Proof.BatchLaw

noncomputable section

namespace Cert.Proof.Parts

open Idealize.ShloMosaic Idealize.ShloMosaic.TcCoe Idealize.SL.Sem

theorem frame_k : Cert.frame_Kernel := fun m ρ _ => Cert.Kernel.HandB.frame (F := Bits) m ρ

theorem frame_ki : Cert.frame_KernelIdeal := fun m ρ _ => Cert.KernelIdeal.Hand.frame (F := Ideal) m ρ

/-- Under the precondition the kernel's result array is the reference's function of the argument array. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Gen.V5 m (Cert.KernelIdeal.Hand.outs m) c (Proc.devRef .tc Cert.KernelIdeal.main_v4)
      = Cert.ReferenceIdeal.RefSide.Gref (m ((c.tc : Thread Cert.KernelIdeal.nD Cert.KernelIdeal.τ).loc Cert.KernelIdeal.main_arg0)) := by
  rw [Cert.KernelIdeal.Hand.V5_value m c (Cert.KernelIdeal.Hand.R0.arrAt_out _ c) (Cert.KernelIdeal.Hand.R1.arrAt_out _ c)
      (Cert.KernelIdeal.Hand.R2.arrAt_out _ c),
    Cert.MeanShift.three_steps _ (Cert.KernelIdeal.Hand.allReal_in m hpre c)]
  rfl

theorem algebraic : Cert.algebraic_KernelIdeal_ReferenceIdeal := by
  intro m ρ m' ρ' hpre hagree
  refine ⟨fun c => Cert.ReferenceIdeal.RefSide.Gref (m ((c.tc : Thread Cert.KernelIdeal.nD Cert.KernelIdeal.τ).loc Cert.KernelIdeal.main_arg0)), ?_, ?_⟩
  · exact (θ_run Cert.KernelIdeal.defs _ _).mono (fun _ h c => ⟨((h c).2).trans (kernel_value m hpre c), (h c).1⟩)
      (Cert.KernelIdeal.Hand.run_all (F := Ideal) m ρ)
  · refine (θ_run Cert.ReferenceIdeal.defs _ _).mono (fun _ h c => ⟨?_, (h c).2⟩) (Cert.ReferenceIdeal.RefSide.ref_run m' ρ')
    rw [(h c).1, hagree c]

end Cert.Proof.Parts

end
-- ==== Proof.lean ====
/-
  The proof of `Cert.Claim`: a mean-shift kernel — three steps, each walking the 4096 pixels of a batch entry in eight
  tiles, accumulating column weights and weighted features and dividing once — against the reference that builds
  the whole affinity matrix, normalises its columns and contracts once.

  * The two kernel programs' frames and the kernel's result as a value come from one run of @main assembled
    from the three regions' records (`Proof/Hand`, `Proof/HandB`): per region, the body's triple in each of its three
    control cases, the accumulators tracked between grid points, and the input array shared by two windows dealt
    to them as two half shares.
  * The reference's frame and its result as a value come from its run read index by index (`Proof/RefSide`).
  * The two values agree because, the inputs being finite, every affinity is a positive real and a quotient by a
    nonzero real may be taken outside a finite sum (`Proof/Law`, `Proof/BatchLaw`, `Proof/Final`).
  * The idealization rewrote nothing, so `preserves` is trivial.
-/
import proofs.«166501_j24086176596062_1_alg».proof.Defs
import proofs.«166501_j24086176596062_1_alg».proof.Proof.Final
import proofs.«166501_j24086176596062_1_alg».proof.Proof.Gen.Kernel
import proofs.«166501_j24086176596062_1_alg».proof.Proof.Gen.KernelIdeal
import proofs.«166501_j24086176596062_1_alg».proof.Proof.Gen.ReferenceIdeal
import proofs.«166501_j24086176596062_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Cert.ReferenceIdeal.RefSide.frame_ri, trivial, Parts.algebraic⟩

end Cert.Proof

end
